-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S4096x128 : Shape := ⟨2, ![4096, 128]⟩
abbrev S2x458752 : Shape := ⟨2, ![2, 458752]⟩
abbrev S65536x64 : Shape := ⟨2, ![65536, 64]⟩
abbrev S393216x64 : Shape := ⟨2, ![393216, 64]⟩
abbrev S458752x9 : Shape := ⟨2, ![458752, 9]⟩
abbrev S32768 : Shape := ⟨1, ![32768]⟩
abbrev S32768x9 : Shape := ⟨2, ![32768, 9]⟩
abbrev S2x131072 : Shape := ⟨2, ![2, 131072]⟩
abbrev S131072x128 : Shape := ⟨2, ![131072, 128]⟩
abbrev S131072x9 : Shape := ⟨2, ![131072, 9]⟩
abbrev S64x64 : Shape := ⟨2, ![64, 64]⟩
abbrev S64 : Shape := ⟨1, ![64]⟩
abbrev S64x576 : Shape := ⟨2, ![64, 576]⟩
abbrev S576 : Shape := ⟨1, ![576]⟩
abbrev S576x64 : Shape := ⟨2, ![576, 64]⟩
abbrev S576x128 : Shape := ⟨2, ![576, 128]⟩
abbrev S128x128 : Shape := ⟨2, ![128, 128]⟩
abbrev S128 : Shape := ⟨1, ![128]⟩
abbrev S128x1152 : Shape := ⟨2, ![128, 1152]⟩
abbrev S1152 : Shape := ⟨1, ![1152]⟩
abbrev S1152x128 : Shape := ⟨2, ![1152, 128]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S65536x64 : S_.BroadcastsInDim S65536x64 (![] : Fin 0 → Fin S65536x64.rank)
  reducesTo_S65536x64_S_d0_1 : S65536x64.ReducesTo [0, 1] S_
  bcast_S_S393216x64 : S_.BroadcastsInDim S393216x64 (![] : Fin 0 → Fin S393216x64.rank)
  reducesTo_S393216x64_S_d0_1 : S393216x64.ReducesTo [0, 1] S_
  bcast_S_S458752x9 : S_.BroadcastsInDim S458752x9 (![] : Fin 0 → Fin S458752x9.rank)
  reducesTo_S458752x9_S_d0_1 : S458752x9.ReducesTo [0, 1] S_
  bcast_S_S32768x9 : S_.BroadcastsInDim S32768x9 (![] : Fin 0 → Fin S32768x9.rank)
  reducesTo_S32768x9_S_d0_1 : S32768x9.ReducesTo [0, 1] S_
  bcast_S_S131072x128 : S_.BroadcastsInDim S131072x128 (![] : Fin 0 → Fin S131072x128.rank)
  reducesTo_S131072x128_S_d0_1 : S131072x128.ReducesTo [0, 1] S_
  bcast_S_S131072x9 : S_.BroadcastsInDim S131072x9 (![] : Fin 0 → Fin S131072x9.rank)
  reducesTo_S131072x9_S_d0_1 : S131072x9.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x576 : S_.BroadcastsInDim S64x576 (![] : Fin 0 → Fin S64x576.rank)
  reducesTo_S64x576_S_d0_1 : S64x576.ReducesTo [0, 1] S_
  bcast_S_S576 : S_.BroadcastsInDim S576 (![] : Fin 0 → Fin S576.rank)
  reducesTo_S576_S_d0 : S576.ReducesTo [0] S_
  bcast_S_S576x64 : S_.BroadcastsInDim S576x64 (![] : Fin 0 → Fin S576x64.rank)
  reducesTo_S576x64_S_d0_1 : S576x64.ReducesTo [0, 1] S_
  bcast_S_S576x128 : S_.BroadcastsInDim S576x128 (![] : Fin 0 → Fin S576x128.rank)
  reducesTo_S576x128_S_d0_1 : S576x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1152 : S_.BroadcastsInDim S128x1152 (![] : Fin 0 → Fin S128x1152.rank)
  reducesTo_S128x1152_S_d0_1 : S128x1152.ReducesTo [0, 1] S_
  bcast_S_S1152 : S_.BroadcastsInDim S1152 (![] : Fin 0 → Fin S1152.rank)
  reducesTo_S1152_S_d0 : S1152.ReducesTo [0] S_
  bcast_S_S1152x128 : S_.BroadcastsInDim S1152x128 (![] : Fin 0 → Fin S1152x128.rank)
  reducesTo_S1152x128_S_d0_1 : S1152x128.ReducesTo [0, 1] S_

variable [Facts]

def fn_part8 {F : FTy → Type} [FloatOps F] (main_v133 : IVec S_ 1) (main_v136 : IVec S1152x128 1) : IVec S_ 1 :=
  let main_c_53 : IVec S_ 1 := constantI S_ 1 1#1
  let main_v137 : IVec S_ 1 := (fun x v => Host.reduce IntOp.andi x v reducesTo_S1152x128_S_d0_1 h_S_) main_v136 main_c_53
  let main_v138 : IVec S_ 1 := andi main_v133 main_v137
  main_v138

def fn_part7 {F : FTy → Type} [FloatOps F] (main_arg28 : FVec F S128x1152 .f32) (main_arg29 : FVec F S1152 .f32) (main_arg30 : FVec F S1152x128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x1152 .f32 := Host.absf main_arg28
  let main_cst_48 : FVec F S_ .f32 := constant S_ .f32 0x7F800000#32
  let main_v125 : FVec F S128x1152 .f32 := broadcastInDim S128x1152 ![] bcast_S_S128x1152 main_cst_48
  let main_v126 : IVec S128x1152 1 := cmpf .olt main_v124 main_v125
  let main_c_49 : IVec S_ 1 := constantI S_ 1 1#1
  let main_v127 : IVec S_ 1 := (fun x v => Host.reduce IntOp.andi x v reducesTo_S128x1152_S_d0_1 h_S_) main_v126 main_c_49
  let main_v128 : IVec S_ 1 := andi main_v123 main_v127
  let main_v129 : FVec F S1152 .f32 := Host.absf main_arg29
  let main_cst_50 : FVec F S_ .f32 := constant S_ .f32 0x7F800000#32
  let main_v130 : FVec F S1152 .f32 := broadcastInDim S1152 ![] bcast_S_S1152 main_cst_50
  let main_v131 : IVec S1152 1 := cmpf .olt main_v129 main_v130
  let main_c_51 : IVec S_ 1 := constantI S_ 1 1#1
  let main_v132 : IVec S_ 1 := (fun x v => Host.reduce IntOp.andi x v reducesTo_S1152_S_d0 h_S_) main_v131 main_c_51
  let main_v133 : IVec S_ 1 := andi main_v128 main_v132
  let main_v134 : FVec F S1152x128 .f32 := Host.absf main_arg30
  let main_cst_52 : FVec F S_ .f32 := constant S_ .f32 0x7F800000#32
  let main_v135 : FVec F S1152x128 .f32 := broadcastInDim S1152x128 ![] bcast_S_S1152x128 main_cst_52
  let main_v136 : IVec S1152x128 1 := cmpf .olt main_v134 main_v135
  fn_part8 (F := F) main_v133 main_v136

def fn_part6 {F : FTy → Type} [FloatOps F] (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) (main_v98 : IVec S_ 1) (main_v101 : IVec S64x576 1) (main_c_39 : IVec S_ 1) : IVec S_ 1 :=
  let main_v102 : IVec S_ 1 := (fun x v => Host.reduce IntOp.andi x v reducesTo_S64x576_S_d0_1 h_S_) main_v101 main_c_39
  let main_v103 : IVec S_ 1 := andi main_v98 main_v102
  let main_v104 : FVec F S576 .f32 := Host.absf main_arg24
  let main_cst_40 : FVec F S_ .f32 := constant S_ .f32 0x7F800000#32
  let main_v105 : FVec F S576 .f32 := broadcastInDim S576 ![] bcast_S_S576 main_cst_40
  let main_v106 : IVec S576 1 := cmpf .olt main_v104 main_v105
  let main_c_41 : IVec S_ 1 := constantI S_ 1 1#1
  let main_v107 : IVec S_ 1 := (fun x v => Host.reduce IntOp.andi x v reducesTo_S576_S_d0 h_S_) main_v106 main_c_41
  let main_v108 : IVec S_ 1 := andi main_v103 main_v107
  let main_v109 : FVec F S576x128 .f32 := Host.absf main_arg25
  let main_cst_42 : FVec F S_ .f32 := constant S_ .f32 0x7F800000#32
  let main_v110 : FVec F S576x128 .f32 := broadcastInDim S576x128 ![] bcast_S_S576x128 main_cst_42
  let main_v111 : IVec S576x128 1 := cmpf .olt main_v109 main_v110
  let main_c_43 : IVec S_ 1 := constantI S_ 1 1#1
  let main_v112 : IVec S_ 1 := (fun x v => Host.reduce IntOp.andi x v reducesTo_S576x128_S_d0_1 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg28 main_arg29 main_arg30 main_v118 main_v119

def fn_part5 {F : FTy → Type} [FloatOps F] (main_arg21 : FVec F S64x64 .f32) (main_arg22 : FVec F S64 .f32) (main_arg23 : FVec F S64x576 .f32) (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) (main_v83 : IVec S_ 1) (main_v84 : FVec F S576x64 .f32) (main_cst_32 : FVec F S_ .f32) : IVec S_ 1 :=
  let main_v85 : FVec F S576x64 .f32 := broadcastInDim S576x64 ![] bcast_S_S576x64 main_cst_32
  let main_v86 : IVec S576x64 1 := cmpf .olt main_v84 main_v85
  let main_c_33 : IVec S_ 1 := constantI S_ 1 1#1
  let main_v87 : IVec S_ 1 := (fun x v => Host.reduce IntOp.andi x v reducesTo_S576x64_S_d0_1 h_S_) main_v86 main_c_33
  let main_v88 : IVec S_ 1 := andi main_v83 main_v87
  let main_v89 : FVec F S64x64 .f32 := Host.absf main_arg21
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x576 .f32 := Host.absf main_arg23
  let main_cst_38 : FVec F S_ .f32 := constant S_ .f32 0x7F800000#32
  let main_v100 : FVec F S64x576 .f32 := broadcastInDim S64x576 ![] bcast_S_S64x576 main_cst_38
  let main_v101 : IVec S64x576 1 := cmpf .olt main_v99 main_v100
  let main_c_39 : IVec S_ 1 := constantI S_ 1 1#1
  fn_part6 (F := F) main_arg24 main_arg25 main_arg26 main_arg27 main_arg28 main_arg29 main_arg30 main_v98 main_v101 main_c_39

def fn_part4 {F : FTy → Type} [FloatOps F] (main_arg17 : FVec F S64 .f32) (main_arg18 : FVec F S64x576 .f32) (main_arg19 : FVec F S576 .f32) (main_arg20 : FVec F S576x64 .f32) (main_arg21 : FVec F S64x64 .f32) (main_arg22 : FVec F S64 .f32) (main_arg23 : FVec F S64x576 .f32) (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x576 .f32 := Host.absf main_arg18
  let main_cst_28 : FVec F S_ .f32 := constant S_ .f32 0x7F800000#32
  let main_v75 : FVec F S64x576 .f32 := broadcastInDim S64x576 ![] bcast_S_S64x576 main_cst_28
  let main_v76 : IVec S64x576 1 := cmpf .olt main_v74 main_v75
  let main_c_29 : IVec S_ 1 := constantI S_ 1 1#1
  let main_v77 : IVec S_ 1 := (fun x v => Host.reduce IntOp.andi x v reducesTo_S64x576_S_d0_1 h_S_) main_v76 main_c_29
  let main_v78 : IVec S_ 1 := andi main_v73 main_v77
  let main_v79 : FVec F S576 .f32 := Host.absf main_arg19
  let main_cst_30 : FVec F S_ .f32 := constant S_ .f32 0x7F800000#32
  let main_v80 : FVec F S576 .f32 := broadcastInDim S576 ![] bcast_S_S576 main_cst_30
  let main_v81 : IVec S576 1 := cmpf .olt main_v79 main_v80
  let main_c_31 : IVec S_ 1 := constantI S_ 1 1#1
  let main_v82 : IVec S_ 1 := (fun x v => Host.reduce IntOp.andi x v reducesTo_S576_S_d0 h_S_) main_v81 main_c_31
  let main_v83 : IVec S_ 1 := andi main_v78 main_v82
  let main_v84 : FVec F S576x64 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_arg30 main_v83 main_v84 main_cst_32

def fn_part3 {F : FTy → Type} [FloatOps F] (main_arg14 : FVec F S64x576 .f32) (main_arg15 : FVec F S576 .f32) (main_arg16 : FVec F S64x64 .f32) (main_arg17 : FVec F S64 .f32) (main_arg18 : FVec F S64x576 .f32) (main_arg19 : FVec F S576 .f32) (main_arg20 : FVec F S576x64 .f32) (main_arg21 : FVec F S64x64 .f32) (main_arg22 : FVec F S64 .f32) (main_arg23 : FVec F S64x576 .f32) (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x576 .f32 := Host.absf main_arg14
  let main_cst_20 : FVec F S_ .f32 := constant S_ .f32 0x7F800000#32
  let main_v55 : FVec F S64x576 .f32 := broadcastInDim S64x576 ![] bcast_S_S64x576 main_cst_20
  let main_v56 : IVec S64x576 1 := cmpf .olt main_v54 main_v55
  let main_c_21 : IVec S_ 1 := constantI S_ 1 1#1
  let main_v57 : IVec S_ 1 := (fun x v => Host.reduce IntOp.andi x v reducesTo_S64x576_S_d0_1 h_S_) main_v56 main_c_21
  let main_v58 : IVec S_ 1 := andi main_v53 main_v57
  let main_v59 : FVec F S576 .f32 := Host.absf main_arg15
  let main_cst_22 : FVec F S_ .f32 := constant S_ .f32 0x7F800000#32
  let main_v60 : FVec F S576 .f32 := broadcastInDim S576 ![] bcast_S_S576 main_cst_22
  let main_v61 : IVec S576 1 := cmpf .olt main_v59 main_v60
  let main_c_23 : IVec S_ 1 := constantI S_ 1 1#1
  let main_v62 : IVec S_ 1 := (fun x v => Host.reduce IntOp.andi x v reducesTo_S576_S_d0 h_S_) main_v61 main_c_23
  let main_v63 : IVec S_ 1 := andi main_v58 main_v62
  let main_v64 : FVec F S64x64 .f32 := Host.absf main_arg16
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg17 main_arg18 main_arg19 main_arg20 main_arg21 main_arg22 main_arg23 main_arg24 main_arg25 main_arg26 main_arg27 main_arg28 main_arg29 main_arg30 main_v63 main_v67

def fn_part2 {F : FTy → Type} [FloatOps F] (main_arg10 : FVec F S131072x128 .f32) (main_arg11 : FVec F S131072x9 .f32) (main_arg12 : FVec F S64x64 .f32) (main_arg13 : FVec F S64 .f32) (main_arg14 : FVec F S64x576 .f32) (main_arg15 : FVec F S576 .f32) (main_arg16 : FVec F S64x64 .f32) (main_arg17 : FVec F S64 .f32) (main_arg18 : FVec F S64x576 .f32) (main_arg19 : FVec F S576 .f32) (main_arg20 : FVec F S576x64 .f32) (main_arg21 : FVec F S64x64 .f32) (main_arg22 : FVec F S64 .f32) (main_arg23 : FVec F S64x576 .f32) (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) (main_v33 : IVec S_ 1) : IVec S_ 1 :=
  let main_v34 : FVec F S131072x128 .f32 := Host.absf main_arg10
  let main_cst_12 : FVec F S_ .f32 := constant S_ .f32 0x7F800000#32
  let main_v35 : FVec F S131072x128 .f32 := broadcastInDim S131072x128 ![] bcast_S_S131072x128 main_cst_12
  let main_v36 : IVec S131072x128 1 := cmpf .olt main_v34 main_v35
  let main_c_13 : IVec S_ 1 := constantI S_ 1 1#1
  let main_v37 : IVec S_ 1 := (fun x v => Host.reduce IntOp.andi x v reducesTo_S131072x128_S_d0_1 h_S_) main_v36 main_c_13
  let main_v38 : IVec S_ 1 := andi main_v33 main_v37
  let main_v39 : FVec F S131072x9 .f32 := Host.absf main_arg11
  let main_cst_14 : FVec F S_ .f32 := constant S_ .f32 0x7F800000#32
  let main_v40 : FVec F S131072x9 .f32 := broadcastInDim S131072x9 ![] bcast_S_S131072x9 main_cst_14
  let main_v41 : IVec S131072x9 1 := cmpf .olt main_v39 main_v40
  let main_c_15 : IVec S_ 1 := constantI S_ 1 1#1
  let main_v42 : IVec S_ 1 := (fun x v => Host.reduce IntOp.andi x v reducesTo_S131072x9_S_d0_1 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg5 : FVec F S458752x9 .f32) (main_arg7 : FVec F S32768x64 .f32) (main_arg8 : FVec F S32768x9 .f32) (main_arg10 : FVec F S131072x128 .f32) (main_arg11 : FVec F S131072x9 .f32) (main_arg12 : FVec F S64x64 .f32) (main_arg13 : FVec F S64 .f32) (main_arg14 : FVec F S64x576 .f32) (main_arg15 : FVec F S576 .f32) (main_arg16 : FVec F S64x64 .f32) (main_arg17 : FVec F S64 .f32) (main_arg18 : FVec F S64x576 .f32) (main_arg19 : FVec F S576 .f32) (main_arg20 : FVec F S576x64 .f32) (main_arg21 : FVec F S64x64 .f32) (main_arg22 : FVec F S64 .f32) (main_arg23 : FVec F S64x576 .f32) (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) (main_v13 : IVec S_ 1) (main_v16 : IVec S393216x64 1) : IVec S_ 1 :=
  let main_c_5 : IVec S_ 1 := constantI S_ 1 1#1
  let main_v17 : IVec S_ 1 := (fun x v => Host.reduce IntOp.andi x v reducesTo_S393216x64_S_d0_1 h_S_) main_v16 main_c_5
  let main_v18 : IVec S_ 1 := andi main_v13 main_v17
  let main_v19 : FVec F S458752x9 .f32 := Host.absf main_arg5
  let main_cst_6 : FVec F S_ .f32 := constant S_ .f32 0x7F800000#32
  let main_v20 : FVec F S458752x9 .f32 := broadcastInDim S458752x9 ![] bcast_S_S458752x9 main_cst_6
  let main_v21 : IVec S458752x9 1 := cmpf .olt main_v19 main_v20
  let main_c_7 : IVec S_ 1 := constantI S_ 1 1#1
  let main_v22 : IVec S_ 1 := (fun x v => Host.reduce IntOp.andi x v reducesTo_S458752x9_S_d0_1 h_S_) main_v21 main_c_7
  let main_v23 : IVec S_ 1 := andi main_v18 main_v22
  let main_v24 : FVec F S32768x64 .f32 := Host.absf main_arg7
  let main_cst_8 : FVec F S_ .f32 := constant S_ .f32 0x7F800000#32
  let main_v25 : FVec F S32768x64 .f32 := broadcastInDim S32768x64 ![] bcast_S_S32768x64 main_cst_8
  let main_v26 : IVec S32768x64 1 := cmpf .olt main_v24 main_v25
  let main_c_9 : IVec S_ 1 := constantI S_ 1 1#1
  let main_v27 : IVec S_ 1 := (fun x v => Host.reduce IntOp.andi x v reducesTo_S32768x64_S_d0_1 h_S_) main_v26 main_c_9
  let main_v28 : IVec S_ 1 := andi main_v23 main_v27
  let main_v29 : FVec F S32768x9 .f32 := Host.absf main_arg8
  let main_cst_10 : FVec F S_ .f32 := constant S_ .f32 0x7F800000#32
  let main_v30 : FVec F S32768x9 .f32 := broadcastInDim S32768x9 ![] bcast_S_S32768x9 main_cst_10
  let main_v31 : IVec S32768x9 1 := cmpf .olt main_v29 main_v30
  let main_c_11 : IVec S_ 1 := constantI S_ 1 1#1
  let main_v32 : IVec S_ 1 := (fun x v => Host.reduce IntOp.andi x v reducesTo_S32768x9_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S32768x64 .f32) (main_arg1 : FVec F S4096x128 .f32) (main_arg2 : IVec S2x458752 32) (main_arg3 : FVec F S65536x64 .f32) (main_arg4 : FVec F S393216x64 .f32) (main_arg5 : FVec F S458752x9 .f32) (main_arg6 : IVec S32768 32) (main_arg7 : FVec F S32768x64 .f32) (main_arg8 : FVec F S32768x9 .f32) (main_arg9 : IVec S2x131072 32) (main_arg10 : FVec F S131072x128 .f32) (main_arg11 : FVec F S131072x9 .f32) (main_arg12 : FVec F S64x64 .f32) (main_arg13 : FVec F S64 .f32) (main_arg14 : FVec F S64x576 .f32) (main_arg15 : FVec F S576 .f32) (main_arg16 : FVec F S64x64 .f32) (main_arg17 : FVec F S64 .f32) (main_arg18 : FVec F S64x576 .f32) (main_arg19 : FVec F S576 .f32) (main_arg20 : FVec F S576x64 .f32) (main_arg21 : FVec F S64x64 .f32) (main_arg22 : FVec F S64 .f32) (main_arg23 : FVec F S64x576 .f32) (main_arg24 : FVec F S576 .f32) (main_arg25 : FVec F S576x128 .f32) (main_arg26 : FVec F S128x128 .f32) (main_arg27 : FVec F S128 .f32) (main_arg28 : FVec F S128x1152 .f32) (main_arg29 : FVec F S1152 .f32) (main_arg30 : FVec F S1152x128 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S65536x64 .f32 := Host.absf main_arg3
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S393216x64 .f32 := Host.absf main_arg4
  let main_cst_4 : FVec F S_ .f32 := constant S_ .f32 0x7F800000#32
  let main_v15 : FVec F S393216x64 .f32 := broadcastInDim S393216x64 ![] bcast_S_S393216x64 main_cst_4
  let main_v16 : IVec S393216x64 1 := cmpf .olt main_v14 main_v15
  fn_part1 (F := F) main_arg5 main_arg7 main_arg8 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S32768x64 : Shape := ⟨2, ![32768, 64]⟩
abbrev S4096x128 : Shape := ⟨2, ![4096, 128]⟩
abbrev S2x458752 : Shape := ⟨2, ![2, 458752]⟩
abbrev S65536x64 : Shape := ⟨2, ![65536, 64]⟩
abbrev S393216x64 : Shape := ⟨2, ![393216, 64]⟩
abbrev S458752x9 : Shape := ⟨2, ![458752, 9]⟩
abbrev S32768 : Shape := ⟨1, ![32768]⟩
abbrev S32768x9 : Shape := ⟨2, ![32768, 9]⟩
abbrev S2x131072 : Shape := ⟨2, ![2, 131072]⟩
abbrev S131072x128 : Shape := ⟨2, ![131072, 128]⟩
abbrev S131072x9 : Shape := ⟨2, ![131072, 9]⟩
abbrev S64x64 : Shape := ⟨2, ![64, 64]⟩
abbrev S64 : Shape := ⟨1, ![64]⟩
abbrev S64x576 : Shape := ⟨2, ![64, 576]⟩
abbrev S576 : Shape := ⟨1, ![576]⟩
abbrev S576x64 : Shape := ⟨2, ![576, 64]⟩
abbrev S576x128 : Shape := ⟨2, ![576, 128]⟩
abbrev S128x128 : Shape := ⟨2, ![128, 128]⟩
abbrev S128 : Shape := ⟨1, ![128]⟩
abbrev S128x1152 : Shape := ⟨2, ![128, 1152]⟩
abbrev S1152 : Shape := ⟨1, ![1152]⟩
abbrev S1152x128 : Shape := ⟨2, ![1152, 128]⟩
abbrev S_ : Shape := ⟨0, ![]⟩
abbrev S576x1 : Shape := ⟨2, ![576, 1]⟩
abbrev S1x576 : Shape := ⟨2, ![1, 576]⟩
abbrev S1152x1 : Shape := ⟨2, ![1152, 1]⟩
abbrev S1x1152 : Shape := ⟨2, ![1, 1152]⟩
abbrev S1x64 : Shape := ⟨2, ![1, 64]⟩
abbrev S1x128 : Shape := ⟨2, ![1, 128]⟩
abbrev S1x458752 : Shape := ⟨2, ![1, 458752]⟩
abbrev S458752 : Shape := ⟨1, ![458752]⟩
abbrev S458752x1 : Shape := ⟨2, ![458752, 1]⟩
abbrev S458752x64 : Shape := ⟨2, ![458752, 64]⟩
abbrev S65536x9 : Shape := ⟨2, ![65536, 9]⟩
abbrev S393216x9 : Shape := ⟨2, ![393216, 9]⟩
abbrev S65536 : Shape := ⟨1, ![65536]⟩
abbrev S393216 : Shape := ⟨1, ![393216]⟩
abbrev S65536x1 : Shape := ⟨2, ![65536, 1]⟩
abbrev S393216x1 : Shape := ⟨2, ![393216, 1]⟩
abbrev S32768x1 : Shape := ⟨2, ![32768, 1]⟩
abbrev S32768x128 : Shape := ⟨2, ![32768, 128]⟩
abbrev S4096 : Shape := ⟨1, ![4096]⟩
abbrev S4096x1 : Shape := ⟨2, ![4096, 1]⟩
abbrev S1x131072 : Shape := ⟨2, ![1, 131072]⟩
abbrev S131072 : Shape := ⟨1, ![131072]⟩
abbrev S131072x1 : Shape := ⟨2, ![131072, 1]⟩
abbrev S2048x64 : Shape := ⟨2, ![2048, 64]⟩
abbrev S2048x9 : Shape := ⟨2, ![2048, 9]⟩
abbrev S64x128 : Shape := ⟨2, ![64, 128]⟩
abbrev S2048x128 : Shape := ⟨2, ![2048, 128]⟩
abbrev S2048x1 : Shape := ⟨2, ![2048, 1]⟩
abbrev S128x64 : Shape := ⟨2, ![128, 64]⟩
abbrev S128x256 : Shape := ⟨2, ![128, 256]⟩
abbrev S2048x256 : Shape := ⟨2, ![2048, 256]⟩
abbrev S1x256 : Shape := ⟨2, ![1, 256]⟩
abbrev S256x128 : Shape := ⟨2, ![256, 128]⟩

abbrev nBuf : Space → Nat
  | .hbm => 217
  | .vmem => 52
  | .smem => 0
  | _ => 0

abbrev hbmTy0_0 (i : Nat) : BufTy := match i % 128 with
  | 0 => ⟨S32768x64, .f32⟩
  | 1 => ⟨S4096x128, .f32⟩
  | 2 => ⟨S2x458752, .i32⟩
  | 3 => ⟨S65536x64, .f32⟩
  | 4 => ⟨S393216x64, .f32⟩
  | 5 => ⟨S458752x9, .f32⟩
  | 6 => ⟨S32768, .i32⟩
  | 7 => ⟨S32768x64, .f32⟩
  | 8 => ⟨S32768x9, .f32⟩
  | 9 => ⟨S2x131072, .i32⟩
  | 10 => ⟨S131072x128, .f32⟩
  | 11 => ⟨S131072x9, .f32⟩
  | 12 => ⟨S64x64, .f32⟩
  | 13 => ⟨S64, .f32⟩
  | 14 => ⟨S64x576, .f32⟩
  | 15 => ⟨S576, .f32⟩
  | 16 => ⟨S64x64, .f32⟩
  | 17 => ⟨S64, .f32⟩
  | 18 => ⟨S64x576, .f32⟩
  | 19 => ⟨S576, .f32⟩
  | 20 => ⟨S576x64, .f32⟩
  | 21 => ⟨S64x64, .f32⟩
  | 22 => ⟨S64, .f32⟩
  | 23 => ⟨S64x576, .f32⟩
  | 24 => ⟨S576, .f32⟩
  | 25 => ⟨S576x128, .f32⟩
  | 26 => ⟨S128x128, .f32⟩
  | 27 => ⟨S128, .f32⟩
  | 28 => ⟨S128x1152, .f32⟩
  | 29 => ⟨S1152, .f32⟩
  | 30 => ⟨S1152x128, .f32⟩
  | 31 => ⟨S576, .i32⟩
  | 32 => ⟨S576, .i1⟩
  | 33 => ⟨S576, .i1⟩
  | 34 => ⟨S576, .i1⟩
  | 35 => ⟨S576, .i1⟩
  | 36 => ⟨S576, .i1⟩
  | 37 => ⟨S576, .i1⟩
  | 38 => ⟨S1152, .i32⟩
  | 39 => ⟨S1152, .i1⟩
  | 40 => ⟨S1152, .i1⟩
  | 41 => ⟨S576, .i1⟩
  | 42 => ⟨S576, .i1⟩
  | 43 => ⟨S1152, .i1⟩
  | 44 => ⟨S_, .i32⟩
  | 45 => ⟨S576, .i32⟩
  | 46 => ⟨S576, .i32⟩
  | 47 => ⟨S576, .i32⟩
  | 48 => ⟨S576x1, .i32⟩
  | 49 => ⟨S64x576, .f32⟩
  | 50 => ⟨S_, .i32⟩
  | 51 => ⟨S576, .i32⟩
  | 52 => ⟨S576, .i32⟩
  | 53 => ⟨S576, .i32⟩
  | 54 => ⟨S576x1, .i32⟩
  | 55 => ⟨S576, .f32⟩
  | 56 => ⟨S1x576, .f32⟩
  | 57 => ⟨S_, .i32⟩
  | 58 => ⟨S576, .i32⟩
  | 59 => ⟨S576, .i32⟩
  | 60 => ⟨S576, .i32⟩
  | 61 => ⟨S576x1, .i32⟩
  | 62 => ⟨S64x576, .f32⟩
  | 63 => ⟨S_, .i32⟩
  | 64 => ⟨S576, .i32⟩
  | 65 => ⟨S576, .i32⟩
  | 66 => ⟨S576, .i32⟩
  | 67 => ⟨S576x1, .i32⟩
  | 68 => ⟨S576, .f32⟩
  | 69 => ⟨S1x576, .f32⟩
  | 70 => ⟨S_, .i32⟩
  | 71 => ⟨S576, .i32⟩
  | 72 => ⟨S576, .i32⟩
  | 73 => ⟨S576, .i32⟩
  | 74 => ⟨S576x1, .i32⟩
  | 75 => ⟨S64x576, .f32⟩
  | 76 => ⟨S_, .i32⟩
  | 77 => ⟨S576, .i32⟩
  | 78 => ⟨S576, .i32⟩
  | 79 => ⟨S576, .i32⟩
  | 80 => ⟨S576x1, .i32⟩
  | 81 => ⟨S576, .f32⟩
  | 82 => ⟨S1x576, .f32⟩
  | 83 => ⟨S_, .i32⟩
  | 84 => ⟨S1152, .i32⟩
  | 85 => ⟨S1152, .i32⟩
  | 86 => ⟨S1152, .i32⟩
  | 87 => ⟨S1152x1, .i32⟩
  | 88 => ⟨S128x1152, .f32⟩
  | 89 => ⟨S_, .i32⟩
  | 90 => ⟨S1152, .i32⟩
  | 91 => ⟨S1152, .i32⟩
  | 92 => ⟨S1152, .i32⟩
  | 93 => ⟨S1152x1, .i32⟩
  | 94 => ⟨S1152, .f32⟩
  | 95 => ⟨S1x1152, .f32⟩
  | 96 => ⟨S_, .i32⟩
  | 97 => ⟨S576, .i32⟩
  | 98 => ⟨S576, .i32⟩
  | 99 => ⟨S576, .i32⟩
  | 100 => ⟨S576x1, .i32⟩
  | 101 => ⟨S576x64, .f32⟩
  | 102 => ⟨S_, .i32⟩
  | 103 => ⟨S576, .i32⟩
  | 104 => ⟨S576, .i32⟩
  | 105 => ⟨S576, .i32⟩
  | 106 => ⟨S576x1, .i32⟩
  | 107 => ⟨S576x128, .f32⟩
  | 108 => ⟨S_, .i32⟩
  | 109 => ⟨S1152, .i32⟩
  | 110 => ⟨S1152, .i32⟩
  | 111 => ⟨S1152, .i32⟩
  | 112 => ⟨S1152x1, .i32⟩
  | 113 => ⟨S1152x128, .f32⟩
  | 114 => ⟨S1x64, .f32⟩
  | 115 => ⟨S1x64, .f32⟩
  | 116 => ⟨S1x64, .f32⟩
  | 117 => ⟨S1x128, .f32⟩
  | 118 => ⟨S1x458752, .i32⟩
  | 119 => ⟨S458752, .i32⟩
  | 120 => ⟨S1x458752, .i32⟩
  | 121 => ⟨S458752, .i32⟩
  | 122 => ⟨S_, .i32⟩
  | 123 => ⟨S458752, .i32⟩
  | 124 => ⟨S458752, .i1⟩
  | 125 => ⟨S_, .i32⟩
  | 126 => ⟨S458752, .i32⟩
  | 127 => ⟨S458752, .i32⟩
  | _ => ⟨S32768x64, .f32⟩

abbrev hbmTy0_1 (i : Nat) : BufTy := match i % 128 with
  | 0 => ⟨S458752, .i32⟩
  | 1 => ⟨S458752x1, .i32⟩
  | 2 => ⟨S458752x64, .f32⟩
  | 3 => ⟨S65536x64, .f32⟩
  | 4 => ⟨S393216x64, .f32⟩
  | 5 => ⟨S65536x9, .f32⟩
  | 6 => ⟨S393216x9, .f32⟩
  | 7 => ⟨S65536, .i32⟩
  | 8 => ⟨S393216, .i32⟩
  | 9 => ⟨S65536x64, .f32⟩
  | 10 => ⟨S393216x64, .f32⟩
  | 11 => ⟨S_, .f32⟩
  | 12 => ⟨S32768x64, .f32⟩
  | 13 => ⟨S65536x1, .i32⟩
  | 14 => ⟨S32768x64, .f32⟩
  | 15 => ⟨S_, .f32⟩
  | 16 => ⟨S65536, .f32⟩
  | 17 => ⟨S_, .f32⟩
  | 18 => ⟨S32768, .f32⟩
  | 19 => ⟨S65536x1, .i32⟩
  | 20 => ⟨S32768, .f32⟩
  | 21 => ⟨S_, .f32⟩
  | 22 => ⟨S32768x64, .f32⟩
  | 23 => ⟨S393216x1, .i32⟩
  | 24 => ⟨S32768x64, .f32⟩
  | 25 => ⟨S_, .f32⟩
  | 26 => ⟨S393216, .f32⟩
  | 27 => ⟨S_, .f32⟩
  | 28 => ⟨S32768, .f32⟩
  | 29 => ⟨S393216x1, .i32⟩
  | 30 => ⟨S32768, .f32⟩
  | 31 => ⟨S32768x64, .f32⟩
  | 32 => ⟨S32768, .f32⟩
  | 33 => ⟨S_, .f32⟩
  | 34 => ⟨S32768, .f32⟩
  | 35 => ⟨S32768, .f32⟩
  | 36 => ⟨S32768x1, .f32⟩
  | 37 => ⟨S32768x64, .f32⟩
  | 38 => ⟨S32768x64, .f32⟩
  | 39 => ⟨S32768x64, .f32⟩
  | 40 => ⟨S32768x128, .f32⟩
  | 41 => ⟨S_, .f32⟩
  | 42 => ⟨S4096x128, .f32⟩
  | 43 => ⟨S32768x1, .i32⟩
  | 44 => ⟨S4096x128, .f32⟩
  | 45 => ⟨S_, .f32⟩
  | 46 => ⟨S32768, .f32⟩
  | 47 => ⟨S_, .f32⟩
  | 48 => ⟨S4096, .f32⟩
  | 49 => ⟨S32768x1, .i32⟩
  | 50 => ⟨S4096, .f32⟩
  | 51 => ⟨S_, .f32⟩
  | 52 => ⟨S4096, .f32⟩
  | 53 => ⟨S4096, .f32⟩
  | 54 => ⟨S4096x1, .f32⟩
  | 55 => ⟨S4096x128, .f32⟩
  | 56 => ⟨S4096x128, .f32⟩
  | 57 => ⟨S4096x128, .f32⟩
  | 58 => ⟨S1x131072, .i32⟩
  | 59 => ⟨S131072, .i32⟩
  | 60 => ⟨S1x131072, .i32⟩
  | 61 => ⟨S131072, .i32⟩
  | 62 => ⟨S_, .i32⟩
  | 63 => ⟨S131072, .i32⟩
  | 64 => ⟨S131072, .i1⟩
  | 65 => ⟨S_, .i32⟩
  | 66 => ⟨S131072, .i32⟩
  | 67 => ⟨S131072, .i32⟩
  | 68 => ⟨S131072, .i32⟩
  | 69 => ⟨S131072x1, .i32⟩
  | 70 => ⟨S131072x128, .f32⟩
  | 71 => ⟨S131072x128, .f32⟩
  | 72 => ⟨S_, .f32⟩
  | 73 => ⟨S4096x128, .f32⟩
  | 74 => ⟨S131072x1, .i32⟩
  | 75 => ⟨S4096x128, .f32⟩
  | 76 => ⟨S_, .f32⟩
  | 77 => ⟨S131072, .f32⟩
  | 78 => ⟨S_, .f32⟩
  | 79 => ⟨S4096, .f32⟩
  | 80 => ⟨S131072x1, .i32⟩
  | 81 => ⟨S4096, .f32⟩
  | 82 => ⟨S_, .f32⟩
  | 83 => ⟨S4096, .f32⟩
  | 84 => ⟨S4096, .f32⟩
  | 85 => ⟨S4096x1, .f32⟩
  | 86 => ⟨S4096x128, .f32⟩
  | 87 => ⟨S4096x128, .f32⟩
  | 88 => ⟨S4096x128, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S2048x9, .f32⟩
  | .local _ .vmem, ⟨3, _⟩ => ⟨S2048x9, .f32⟩
  | .local _ .vmem, ⟨4, _⟩ => ⟨S2048x64, .f32⟩
  | .local _ .vmem, ⟨5, _⟩ => ⟨S2048x64, .f32⟩
  | .local _ .vmem, ⟨6, _⟩ => ⟨S64x64, .f32⟩
  | .local _ .vmem, ⟨7, _⟩ => ⟨S1x64, .f32⟩
  | .local _ .vmem, ⟨8, _⟩ => ⟨S64x576, .f32⟩
  | .local _ .vmem, ⟨9, _⟩ => ⟨S1x576, .f32⟩
  | .local _ .vmem, ⟨10, _⟩ => ⟨S576x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x9, .f32⟩
  | .local _ .vmem, ⟨16, _⟩ => ⟨S2048x9, .f32⟩
  | .local _ .vmem, ⟨17, _⟩ => ⟨S2048x64, .f32⟩
  | .local _ .vmem, ⟨18, _⟩ => ⟨S2048x64, .f32⟩
  | .local _ .vmem, ⟨19, _⟩ => ⟨S64x64, .f32⟩
  | .local _ .vmem, ⟨20, _⟩ => ⟨S1x64, .f32⟩
  | .local _ .vmem, ⟨21, _⟩ => ⟨S64x576, .f32⟩
  | .local _ .vmem, ⟨22, _⟩ => ⟨S1x576, .f32⟩
  | .local _ .vmem, ⟨23, _⟩ => ⟨S576x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | .local _ .vmem, ⟨28, _⟩ => ⟨S2048x9, .f32⟩
  | .local _ .vmem, ⟨29, _⟩ => ⟨S2048x9, .f32⟩
  | .local _ .vmem, ⟨30, _⟩ => ⟨S2048x64, .f32⟩
  | .local _ .vmem, ⟨31, _⟩ => ⟨S2048x64, .f32⟩
  | .local _ .vmem, ⟨32, _⟩ => ⟨S64x64, .f32⟩
  | .local _ .vmem, ⟨33, _⟩ => ⟨S1x64, .f32⟩
  | .local _ .vmem, ⟨34, _⟩ => ⟨S64x576, .f32⟩
  | .local _ .vmem, ⟨35, _⟩ => ⟨S1x576, .f32⟩
  | .local _ .vmem, ⟨36, _⟩ => ⟨S576x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x9, .f32⟩
  | .local _ .vmem, ⟨42, _⟩ => ⟨S2048x9, .f32⟩
  | .local _ .vmem, ⟨43, _⟩ => ⟨S2048x128, .f32⟩
  | .local _ .vmem, ⟨44, _⟩ => ⟨S2048x128, .f32⟩
  | .local _ .vmem, ⟨45, _⟩ => ⟨S128x128, .f32⟩
  | .local _ .vmem, ⟨46, _⟩ => ⟨S1x128, .f32⟩
  | .local _ .vmem, ⟨47, _⟩ => ⟨S128x1152, .f32⟩
  | .local _ .vmem, ⟨48, _⟩ => ⟨S1x1152, .f32⟩
  | .local _ .vmem, ⟨49, _⟩ => ⟨S1152x128, .f32⟩
  | .local _ .vmem, ⟨50, _⟩ => ⟨S2048x128, .f32⟩
  | .local _ .vmem, ⟨51, _⟩ => ⟨S2048x128, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_call0_c : Ref sig .tc := ⟨.hbm, 31, rfl⟩
abbrev main_call0_c_0 : Ref sig .tc := ⟨.hbm, 32, rfl⟩
abbrev main_call0_c_1 : Ref sig .tc := ⟨.hbm, 33, rfl⟩
abbrev main_call0_c_2 : Ref sig .tc := ⟨.hbm, 34, rfl⟩
abbrev main_call0_c_3 : Ref sig .tc := ⟨.hbm, 35, rfl⟩
abbrev main_call0_c_4 : Ref sig .tc := ⟨.hbm, 36, rfl⟩
abbrev main_call0_c_5 : Ref sig .tc := ⟨.hbm, 37, rfl⟩
abbrev main_call0_c_6 : Ref sig .tc := ⟨.hbm, 38, rfl⟩
abbrev main_call0_c_7 : Ref sig .tc := ⟨.hbm, 39, rfl⟩
abbrev main_call0_c_8 : Ref sig .tc := ⟨.hbm, 40, rfl⟩
abbrev main_call0_c_9 : Ref sig .tc := ⟨.hbm, 41, rfl⟩
abbrev main_call0_c_10 : Ref sig .tc := ⟨.hbm, 42, rfl⟩
abbrev main_call0_c_11 : Ref sig .tc := ⟨.hbm, 43, rfl⟩
abbrev main_call0_c_12 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_13 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_c_14 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_v15 : Ref sig .tc := ⟨.hbm, 62, rfl⟩
abbrev main_call0_c_15 : Ref sig .tc := ⟨.hbm, 63, rfl⟩
abbrev main_call0_v16 : Ref sig .tc := ⟨.hbm, 64, rfl⟩
abbrev main_call0_v17 : Ref sig .tc := ⟨.hbm, 65, rfl⟩
abbrev main_call0_v18 : Ref sig .tc := ⟨.hbm, 66, rfl⟩
abbrev main_call0_v19 : Ref sig .tc := ⟨.hbm, 67, rfl⟩
abbrev main_call0_v20 : Ref sig .tc := ⟨.hbm, 68, rfl⟩
abbrev main_call0_v21 : Ref sig .tc := ⟨.hbm, 69, rfl⟩
abbrev main_call0_c_16 : Ref sig .tc := ⟨.hbm, 70, rfl⟩
abbrev main_call0_v22 : Ref sig .tc := ⟨.hbm, 71, rfl⟩
abbrev main_call0_v23 : Ref sig .tc := ⟨.hbm, 72, rfl⟩
abbrev main_call0_v24 : Ref sig .tc := ⟨.hbm, 73, rfl⟩
abbrev main_call0_v25 : Ref sig .tc := ⟨.hbm, 74, rfl⟩
abbrev main_call0_v26 : Ref sig .tc := ⟨.hbm, 75, rfl⟩
abbrev main_call0_c_17 : Ref sig .tc := ⟨.hbm, 76, rfl⟩
abbrev main_call0_v27 : Ref sig .tc := ⟨.hbm, 77, rfl⟩
abbrev main_call0_v28 : Ref sig .tc := ⟨.hbm, 78, rfl⟩
abbrev main_call0_v29 : Ref sig .tc := ⟨.hbm, 79, rfl⟩
abbrev main_call0_v30 : Ref sig .tc := ⟨.hbm, 80, rfl⟩
abbrev main_call0_v31 : Ref sig .tc := ⟨.hbm, 81, rfl⟩
abbrev main_call0_v32 : Ref sig .tc := ⟨.hbm, 82, rfl⟩
abbrev main_call0_c_18 : Ref sig .tc := ⟨.hbm, 83, rfl⟩
abbrev main_call0_v33 : Ref sig .tc := ⟨.hbm, 84, rfl⟩
abbrev main_call0_v34 : Ref sig .tc := ⟨.hbm, 85, rfl⟩
abbrev main_call0_v35 : Ref sig .tc := ⟨.hbm, 86, rfl⟩
abbrev main_call0_v36 : Ref sig .tc := ⟨.hbm, 87, rfl⟩
abbrev main_call0_v37 : Ref sig .tc := ⟨.hbm, 88, rfl⟩
abbrev main_call0_c_19 : Ref sig .tc := ⟨.hbm, 89, rfl⟩
abbrev main_call0_v38 : Ref sig .tc := ⟨.hbm, 90, rfl⟩
abbrev main_call0_v39 : Ref sig .tc := ⟨.hbm, 91, rfl⟩
abbrev main_call0_v40 : Ref sig .tc := ⟨.hbm, 92, rfl⟩
abbrev main_call0_v41 : Ref sig .tc := ⟨.hbm, 93, rfl⟩
abbrev main_call0_v42 : Ref sig .tc := ⟨.hbm, 94, rfl⟩
abbrev main_call0_v43 : Ref sig .tc := ⟨.hbm, 95, rfl⟩
abbrev main_call0_c_20 : Ref sig .tc := ⟨.hbm, 96, rfl⟩
abbrev main_call0_v44 : Ref sig .tc := ⟨.hbm, 97, rfl⟩
abbrev main_call0_v45 : Ref sig .tc := ⟨.hbm, 98, rfl⟩
abbrev main_call0_v46 : Ref sig .tc := ⟨.hbm, 99, rfl⟩
abbrev main_call0_v47 : Ref sig .tc := ⟨.hbm, 100, rfl⟩
abbrev main_call0_v48 : Ref sig .tc := ⟨.hbm, 101, rfl⟩
abbrev main_call0_c_21 : Ref sig .tc := ⟨.hbm, 102, rfl⟩
abbrev main_call0_v49 : Ref sig .tc := ⟨.hbm, 103, rfl⟩
abbrev main_call0_v50 : Ref sig .tc := ⟨.hbm, 104, rfl⟩
abbrev main_call0_v51 : Ref sig .tc := ⟨.hbm, 105, rfl⟩
abbrev main_call0_v52 : Ref sig .tc := ⟨.hbm, 106, rfl⟩
abbrev main_call0_v53 : Ref sig .tc := ⟨.hbm, 107, rfl⟩
abbrev main_call0_c_22 : Ref sig .tc := ⟨.hbm, 108, rfl⟩
abbrev main_call0_v54 : Ref sig .tc := ⟨.hbm, 109, rfl⟩
abbrev main_call0_v55 : Ref sig .tc := ⟨.hbm, 110, rfl⟩
abbrev main_call0_v56 : Ref sig .tc := ⟨.hbm, 111, rfl⟩
abbrev main_call0_v57 : Ref sig .tc := ⟨.hbm, 112, rfl⟩
abbrev main_call0_v58 : Ref sig .tc := ⟨.hbm, 113, rfl⟩
abbrev main_call0_v59 : Ref sig .tc := ⟨.hbm, 114, rfl⟩
abbrev main_call0_v60 : Ref sig .tc := ⟨.hbm, 115, rfl⟩
abbrev main_call0_v61 : Ref sig .tc := ⟨.hbm, 116, rfl⟩
abbrev main_call0_v62 : Ref sig .tc := ⟨.hbm, 117, rfl⟩
abbrev main_call0_v63 : Ref sig .tc := ⟨.hbm, 118, rfl⟩
abbrev main_call0_v64 : Ref sig .tc := ⟨.hbm, 119, rfl⟩
abbrev main_call0_v65 : Ref sig .tc := ⟨.hbm, 120, rfl⟩
abbrev main_call0_v66 : Ref sig .tc := ⟨.hbm, 121, rfl⟩
abbrev main_call0_c_23 : Ref sig .tc := ⟨.hbm, 122, rfl⟩
abbrev main_call0_v67 : Ref sig .tc := ⟨.hbm, 123, rfl⟩
abbrev main_call0_v68 : Ref sig .tc := ⟨.hbm, 124, rfl⟩
abbrev main_call0_c_24 : Ref sig .tc := ⟨.hbm, 125, rfl⟩
abbrev main_call0_v69 : Ref sig .tc := ⟨.hbm, 126, rfl⟩
abbrev main_call0_v70 : Ref sig .tc := ⟨.hbm, 127, rfl⟩
abbrev main_call0_v71 : Ref sig .tc := ⟨.hbm, 128, rfl⟩
abbrev main_call0_v72 : Ref sig .tc := ⟨.hbm, 129, rfl⟩
abbrev main_call0_v73 : Ref sig .tc := ⟨.hbm, 130, rfl⟩
abbrev main_call0_v74 : Ref sig .tc := ⟨.hbm, 131, rfl⟩
abbrev main_call0_v75 : Ref sig .tc := ⟨.hbm, 132, rfl⟩
abbrev main_call0_v76 : Ref sig .tc := ⟨.hbm, 133, rfl⟩
abbrev main_call0_v77 : Ref sig .tc := ⟨.hbm, 134, rfl⟩
abbrev main_call0_v78 : Ref sig .tc := ⟨.hbm, 135, rfl⟩
abbrev main_call0_v79 : Ref sig .tc := ⟨.hbm, 136, rfl⟩
abbrev main_call0_v80 : Ref sig .tc := ⟨.hbm, 137, rfl⟩
abbrev main_call0_v81 : Ref sig .tc := ⟨.hbm, 138, rfl⟩
abbrev main_call0_cst : Ref sig .tc := ⟨.hbm, 139, rfl⟩
abbrev main_call0_v82 : Ref sig .tc := ⟨.hbm, 140, rfl⟩
abbrev main_call0_v83 : Ref sig .tc := ⟨.hbm, 141, rfl⟩
abbrev main_call0_v84 : Ref sig .tc := ⟨.hbm, 142, rfl⟩
abbrev main_call0_cst_25 : Ref sig .tc := ⟨.hbm, 143, rfl⟩
abbrev main_call0_v85 : Ref sig .tc := ⟨.hbm, 144, rfl⟩
abbrev main_call0_cst_26 : Ref sig .tc := ⟨.hbm, 145, rfl⟩
abbrev main_call0_v86 : Ref sig .tc := ⟨.hbm, 146, rfl⟩
abbrev main_call0_v87 : Ref sig .tc := ⟨.hbm, 147, rfl⟩
abbrev main_call0_v88 : Ref sig .tc := ⟨.hbm, 148, rfl⟩
abbrev main_call0_cst_27 : Ref sig .tc := ⟨.hbm, 149, rfl⟩
abbrev main_call0_v89 : Ref sig .tc := ⟨.hbm, 150, rfl⟩
abbrev main_call0_v90 : Ref sig .tc := ⟨.hbm, 151, rfl⟩
abbrev main_call0_v91 : Ref sig .tc := ⟨.hbm, 152, rfl⟩
abbrev main_call0_cst_28 : Ref sig .tc := ⟨.hbm, 153, rfl⟩
abbrev main_call0_v92 : Ref sig .tc := ⟨.hbm, 154, rfl⟩
abbrev main_call0_cst_29 : Ref sig .tc := ⟨.hbm, 155, rfl⟩
abbrev main_call0_v93 : Ref sig .tc := ⟨.hbm, 156, rfl⟩
abbrev main_call0_v94 : Ref sig .tc := ⟨.hbm, 157, rfl⟩
abbrev main_call0_v95 : Ref sig .tc := ⟨.hbm, 158, rfl⟩
abbrev main_call0_v96 : Ref sig .tc := ⟨.hbm, 159, rfl⟩
abbrev main_call0_v97 : Ref sig .tc := ⟨.hbm, 160, rfl⟩
abbrev main_call0_cst_30 : Ref sig .tc := ⟨.hbm, 161, rfl⟩
abbrev main_call0_v98 : Ref sig .tc := ⟨.hbm, 162, rfl⟩
abbrev main_call0_v99 : Ref sig .tc := ⟨.hbm, 163, rfl⟩
abbrev main_call0_v100 : Ref sig .tc := ⟨.hbm, 164, rfl⟩
abbrev main_call0_v101 : Ref sig .tc := ⟨.hbm, 165, rfl⟩
abbrev main_call0_v102 : Ref sig .tc := ⟨.hbm, 166, rfl⟩
abbrev main_v0_0 : Ref sig .tc := ⟨.hbm, 167, rfl⟩
abbrev main_call0_v104 : Ref sig .tc := ⟨.hbm, 168, rfl⟩
abbrev main_call0_cst_31 : Ref sig .tc := ⟨.hbm, 169, rfl⟩
abbrev main_call0_v105 : Ref sig .tc := ⟨.hbm, 170, rfl⟩
abbrev main_call0_v106 : Ref sig .tc := ⟨.hbm, 171, rfl⟩
abbrev main_call0_v107 : Ref sig .tc := ⟨.hbm, 172, rfl⟩
abbrev main_call0_cst_32 : Ref sig .tc := ⟨.hbm, 173, rfl⟩
abbrev main_call0_v108 : Ref sig .tc := ⟨.hbm, 174, rfl⟩
abbrev main_call0_cst_33 : Ref sig .tc := ⟨.hbm, 175, rfl⟩
abbrev main_call0_v109 : Ref sig .tc := ⟨.hbm, 176, rfl⟩
abbrev main_call0_v110 : Ref sig .tc := ⟨.hbm, 177, rfl⟩
abbrev main_call0_v111 : Ref sig .tc := ⟨.hbm, 178, rfl⟩
abbrev main_call0_cst_34 : Ref sig .tc := ⟨.hbm, 179, rfl⟩
abbrev main_call0_v112 : Ref sig .tc := ⟨.hbm, 180, rfl⟩
abbrev main_call0_v113 : Ref sig .tc := ⟨.hbm, 181, rfl⟩
abbrev main_call0_v114 : Ref sig .tc := ⟨.hbm, 182, rfl⟩
abbrev main_call0_v115 : Ref sig .tc := ⟨.hbm, 183, rfl⟩
abbrev main_call0_v116 : Ref sig .tc := ⟨.hbm, 184, rfl⟩
abbrev main_call0_v117 : Ref sig .tc := ⟨.hbm, 185, rfl⟩
abbrev main_call0_v118 : Ref sig .tc := ⟨.hbm, 186, rfl⟩
abbrev main_call0_v119 : Ref sig .tc := ⟨.hbm, 187, rfl⟩
abbrev main_call0_v120 : Ref sig .tc := ⟨.hbm, 188, rfl⟩
abbrev main_call0_v121 : Ref sig .tc := ⟨.hbm, 189, rfl⟩
abbrev main_call0_c_35 : Ref sig .tc := ⟨.hbm, 190, rfl⟩
abbrev main_call0_v122 : Ref sig .tc := ⟨.hbm, 191, rfl⟩
abbrev main_call0_v123 : Ref sig .tc := ⟨.hbm, 192, rfl⟩
abbrev main_call0_c_36 : Ref sig .tc := ⟨.hbm, 193, rfl⟩
abbrev main_call0_v124 : Ref sig .tc := ⟨.hbm, 194, rfl⟩
abbrev main_call0_v125 : Ref sig .tc := ⟨.hbm, 195, rfl⟩
abbrev main_call0_v126 : Ref sig .tc := ⟨.hbm, 196, rfl⟩
abbrev main_call0_v127 : Ref sig .tc := ⟨.hbm, 197, rfl⟩
abbrev main_call0_v128 : Ref sig .tc := ⟨.hbm, 198, rfl⟩
abbrev main_call0_v129 : Ref sig .tc := ⟨.hbm, 199, rfl⟩
abbrev main_call0_cst_37 : Ref sig .tc := ⟨.hbm, 200, rfl⟩
abbrev main_call0_v130 : Ref sig .tc := ⟨.hbm, 201, rfl⟩
abbrev main_call0_v131 : Ref sig .tc := ⟨.hbm, 202, rfl⟩
abbrev main_call0_v132 : Ref sig .tc := ⟨.hbm, 203, rfl⟩
abbrev main_call0_cst_38 : Ref sig .tc := ⟨.hbm, 204, rfl⟩
abbrev main_call0_v133 : Ref sig .tc := ⟨.hbm, 205, rfl⟩
abbrev main_call0_cst_39 : Ref sig .tc := ⟨.hbm, 206, rfl⟩
abbrev main_call0_v134 : Ref sig .tc := ⟨.hbm, 207, rfl⟩
abbrev main_call0_v135 : Ref sig .tc := ⟨.hbm, 208, rfl⟩
abbrev main_call0_v136 : Ref sig .tc := ⟨.hbm, 209, rfl⟩
abbrev main_call0_cst_40 : Ref sig .tc := ⟨.hbm, 210, rfl⟩
abbrev main_call0_v137 : Ref sig .tc := ⟨.hbm, 211, rfl⟩
abbrev main_call0_v138 : Ref sig .tc := ⟨.hbm, 212, rfl⟩
abbrev main_call0_v139 : Ref sig .tc := ⟨.hbm, 213, rfl⟩
abbrev main_call0_v140 : Ref sig .tc := ⟨.hbm, 214, rfl⟩
abbrev main_call0_v141 : Ref sig .tc := ⟨.hbm, 215, rfl⟩
abbrev main_v0_1 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S576x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![192], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x576 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S576x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x576 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x576 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S576x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x9 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1152 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1152 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1152x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2048x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bcast_S_S576 : S_.BroadcastsInDim S576 (![] : Fin 0 → Fin S576.rank)
  bcast_S576_S576x1_0 : S576.BroadcastsInDim S576x1 (![0] : Fin 1 → Fin S576x1.rank)
  shapeCasts_S576_S1x576 : S576.ShapeCasts S1x576
  bcast_S_S1152 : S_.BroadcastsInDim S1152 (![] : Fin 0 → Fin S1152.rank)
  bcast_S1152_S1152x1_0 : S1152.BroadcastsInDim S1152x1 (![0] : Fin 1 → Fin S1152x1.rank)
  shapeCasts_S1152_S1x1152 : S1152.ShapeCasts S1x1152
  shapeCasts_S64_S1x64 : S64.ShapeCasts S1x64
  shapeCasts_S128_S1x128 : S128.ShapeCasts S1x128
  slices_S2x458752_S1x458752_0_0 : S2x458752.Slices ![0, 0] S1x458752
  shapeCasts_S1x458752_S458752 : S1x458752.ShapeCasts S458752
  slices_S2x458752_S1x458752_1_0 : S2x458752.Slices ![1, 0] S1x458752
  bcast_S_S458752 : S_.BroadcastsInDim S458752 (![] : Fin 0 → Fin S458752.rank)
  bcast_S458752_S458752x1_0 : S458752.BroadcastsInDim S458752x1 (![0] : Fin 1 → Fin S458752x1.rank)
  slices_S458752x64_S65536x64_0_0 : S458752x64.Slices ![0, 0] S65536x64
  slices_S458752x64_S393216x64_65536_0 : S458752x64.Slices ![65536, 0] S393216x64
  slices_S458752x9_S65536x9_0_0 : S458752x9.Slices ![0, 0] S65536x9
  slices_S458752x9_S393216x9_65536_0 : S458752x9.Slices ![65536, 0] S393216x9
  slices_S458752_S65536_0 : S458752.Slices ![0] S65536
  slices_S458752_S393216_65536 : S458752.Slices ![65536] S393216
  bcast_S_S32768x64 : S_.BroadcastsInDim S32768x64 (![] : Fin 0 → Fin S32768x64.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S32768 : S_.BroadcastsInDim S32768 (![] : Fin 0 → Fin S32768.rank)
  bcast_S393216_S393216x1_0 : S393216.BroadcastsInDim S393216x1 (![0] : Fin 1 → Fin S393216x1.rank)
  bcast_S_S393216 : S_.BroadcastsInDim S393216 (![] : Fin 0 → Fin S393216.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  inb_S2048x64_S2048x64_0_0 : ∀ a, (![0, 0] : Fin 2 → Nat) a + S2048x64.size a ≤ S2048x64.size a
  h_S2048x64 : 0 < S2048x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x576_S64x576_0_0 : ∀ a, (![0, 0] : Fin 2 → Nat) a + S64x576.size a ≤ S64x576.size a
  h_S64x576 : 0 < S64x576.numel
  shapeCasts_S64x576_S64x576 : S64x576.ShapeCasts S64x576
  inb_S1x576_S1x576_0_0 : ∀ a, (![0, 0] : Fin 2 → Nat) a + S1x576.size a ≤ S1x576.size a
  h_S1x576 : 0 < S1x576.numel
  shapeCasts_S1x576_S1x576 : S1x576.ShapeCasts S1x576
  inb_S576x64_S576x64_0_0 : ∀ a, (![0, 0] : Fin 2 → Nat) a + S576x64.size a ≤ S576x64.size a
  h_S576x64 : 0 < S576x64.numel
  shapeCasts_S576x64_S576x64 : S576x64.ShapeCasts S576x64
  shapeCasts_S2048x64_S2048x64 : S2048x64.ShapeCasts S2048x64
  inb_S2048x9_S2048x9_0_0 : ∀ a, (![0, 0] : Fin 2 → Nat) a + S2048x9.size a ≤ S2048x9.size a
  h_S2048x9 : 0 < S2048x9.numel
  shapeCasts_S2048x9_S2048x9 : S2048x9.ShapeCasts S2048x9
  slices_S64x576_o0_0_S64x128 : S64x576.Slices ![0, 0] S64x128
  slices_S1x576_o0_0_S1x128 : S1x576.Slices ![0, 0] S1x128
  broadcasts_S1x128_S2048x128 : S1x128.Broadcasts S2048x128
  slices_S2048x9_o0_0_S2048x1 : S2048x9.Slices ![0, 0] S2048x1
  slices_S2048x9_o0_1_S2048x1 : S2048x9.Slices ![0, 1] S2048x1
  slices_S2048x128_o0_0_S2048x64 : S2048x128.Slices ![0, 0] S2048x64
  broadcasts_S2048x1_S2048x64 : S2048x1.Broadcasts S2048x64
  slices_S2048x128_o0_64_S2048x64 : S2048x128.Slices ![0, 64] S2048x64
  concatenates_S2048x64_S2048x64_S2048x128_d1 : Shape.Concatenates [S2048x64, S2048x64] S2048x128 1
  slices_S576x64_o0_0_S128x64 : S576x64.Slices ![0, 0] S128x64
  slices_S64x576_o0_128_S64x128 : S64x576.Slices ![0, 128] S64x128
  slices_S1x576_o0_128_S1x128 : S1x576.Slices ![0, 128] S1x128
  slices_S2048x9_o0_2_S2048x1 : S2048x9.Slices ![0, 2] S2048x1
  slices_S2048x9_o0_3_S2048x1 : S2048x9.Slices ![0, 3] S2048x1
  slices_S576x64_o128_0_S128x64 : S576x64.Slices ![128, 0] S128x64
  slices_S64x576_o0_256_S64x128 : S64x576.Slices ![0, 256] S64x128
  slices_S1x576_o0_256_S1x128 : S1x576.Slices ![0, 256] S1x128
  slices_S2048x9_o0_4_S2048x1 : S2048x9.Slices ![0, 4] S2048x1
  slices_S2048x9_o0_5_S2048x1 : S2048x9.Slices ![0, 5] S2048x1
  slices_S576x64_o256_0_S128x64 : S576x64.Slices ![256, 0] S128x64
  slices_S64x576_o0_384_S64x128 : S64x576.Slices ![0, 384] S64x128
  slices_S1x576_o0_384_S1x128 : S1x576.Slices ![0, 384] S1x128
  slices_S2048x9_o0_6_S2048x1 : S2048x9.Slices ![0, 6] S2048x1
  slices_S2048x9_o0_7_S2048x1 : S2048x9.Slices ![0, 7] S2048x1
  slices_S576x64_o384_0_S128x64 : S576x64.Slices ![384, 0] S128x64
  slices_S64x576_o0_512_S64x64 : S64x576.Slices ![0, 512] S64x64
  slices_S1x576_o0_512_S1x64 : S1x576.Slices ![0, 512] S1x64
  slices_S2048x9_o0_8_S2048x1 : S2048x9.Slices ![0, 8] S2048x1
  slices_S576x64_o512_0_S64x64 : S576x64.Slices ![512, 0] S64x64
  inb_S576x128_S576x128_0_0 : ∀ a, (![0, 0] : Fin 2 → Nat) a + S576x128.size a ≤ S576x128.size a
  h_S576x128 : 0 < S576x128.numel
  shapeCasts_S576x128_S576x128 : S576x128.ShapeCasts S576x128
  slices_S576x128_o0_0_S128x128 : S576x128.Slices ![0, 0] S128x128
  slices_S576x128_o128_0_S128x128 : S576x128.Slices ![128, 0] S128x128
  slices_S576x128_o256_0_S128x128 : S576x128.Slices ![256, 0] S128x128
  slices_S576x128_o384_0_S128x128 : S576x128.Slices ![384, 0] S128x128
  slices_S576x128_o512_0_S64x128 : S576x128.Slices ![512, 0] S64x128
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x1152_S128x1152_0_0 : ∀ a, (![0, 0] : Fin 2 → Nat) a + S128x1152.size a ≤ S128x1152.size a
  h_S128x1152 : 0 < S128x1152.numel
  shapeCasts_S128x1152_S128x1152 : S128x1152.ShapeCasts S128x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  shapeCasts_S2048x128_S2048x128 : S2048x128.ShapeCasts S2048x128
  slices_S128x1152_o0_0_S128x256 : S128x1152.Slices ![0, 0] S128x256
  slices_S1x1152_o0_0_S1x256 : S1x1152.Slices ![0, 0] S1x256
  broadcasts_S1x256_S2048x256 : S1x256.Broadcasts S2048x256
  slices_S2048x256_o0_0_S2048x128 : S2048x256.Slices ![0, 0] S2048x128
  broadcasts_S2048x1_S2048x128 : S2048x1.Broadcasts S2048x128
  slices_S2048x256_o0_128_S2048x128 : S2048x256.Slices ![0, 128] S2048x128
  concatenates_S2048x128_S2048x128_S2048x256_d1 : Shape.Concatenates [S2048x128, S2048x128] S2048x256 1
  slices_S1152x128_o0_0_S256x128 : S1152x128.Slices ![0, 0] S256x128
  slices_S128x1152_o0_256_S128x256 : S128x1152.Slices ![0, 256] S128x256
  slices_S1x1152_o0_256_S1x256 : S1x1152.Slices ![0, 256] S1x256
  slices_S1152x128_o256_0_S256x128 : S1152x128.Slices ![256, 0] S256x128
  slices_S128x1152_o0_512_S128x256 : S128x1152.Slices ![0, 512] S128x256
  slices_S1x1152_o0_512_S1x256 : S1x1152.Slices ![0, 512] S1x256
  slices_S1152x128_o512_0_S256x128 : S1152x128.Slices ![512, 0] S256x128
  slices_S128x1152_o0_768_S128x256 : S128x1152.Slices ![0, 768] S128x256
  slices_S1x1152_o0_768_S1x256 : S1x1152.Slices ![0, 768] S1x256
  slices_S1152x128_o768_0_S256x128 : S1152x128.Slices ![768, 0] S256x128
  slices_S128x1152_o0_1024_S128x128 : S128x1152.Slices ![0, 1024] S128x128
  slices_S1x1152_o0_1024_S1x128 : S1x1152.Slices ![0, 1024] S1x128
  slices_S1152x128_o1024_0_S128x128 : S1152x128.Slices ![1024, 0] S128x128
  gather_S64x576_S576x1_S64x576_0_1_n_n_1_1_641_wf : GatherDims.WF S64x576 S576x1 S64x576 [0] [1] [] [1] [] 1 ![64, 1]
  gather_S576_S576x1_S576_n_0_n_n_0_1_1_wf : GatherDims.WF S576 S576x1 S576 [] [0] [] [0] [] 1 ![1]
  gather_S128x1152_S1152x1_S128x1152_0_1_n_n_1_1_1281_wf : GatherDims.WF S128x1152 S1152x1 S128x1152 [0] [1] [] [1] [] 1 ![128, 1]
  gather_S1152_S1152x1_S1152_n_0_n_n_0_1_1_wf : GatherDims.WF S1152 S1152x1 S1152 [] [0] [] [0] [] 1 ![1]
  gather_S576x64_S576x1_S576x64_1_0_n_n_0_1_164_wf : GatherDims.WF S576x64 S576x1 S576x64 [1] [0] [] [0] [] 1 ![1, 64]
  gather_S576x128_S576x1_S576x128_1_0_n_n_0_1_1128_wf : GatherDims.WF S576x128 S576x1 S576x128 [1] [0] [] [0] [] 1 ![1, 128]
  gather_S1152x128_S1152x1_S1152x128_1_0_n_n_0_1_1128_wf : GatherDims.WF S1152x128 S1152x1 S1152x128 [1] [0] [] [0] [] 1 ![1, 128]
  gather_S32768x64_S458752x1_S458752x64_1_0_n_n_0_1_164_wf : GatherDims.WF S32768x64 S458752x1 S458752x64 [1] [0] [] [0] [] 1 ![1, 64]
  scatter_S32768x64_S65536x1_S65536x64_1_0_0_1_wf : ScatterDims.WF S32768x64 S65536x1 S65536x64 [1] [0] [0] 1
  scatter_S32768_S65536x1_S65536_n_0_0_1_wf : ScatterDims.WF S32768 S65536x1 S65536 [] [0] [0] 1
  scatter_S32768x64_S393216x1_S393216x64_1_0_0_1_wf : ScatterDims.WF S32768x64 S393216x1 S393216x64 [1] [0] [0] 1
  scatter_S32768_S393216x1_S393216_n_0_0_1_wf : ScatterDims.WF S32768 S393216x1 S393216 [] [0] [0] 1
  scatter_S4096x128_S32768x1_S32768x128_1_0_0_1_wf : ScatterDims.WF S4096x128 S32768x1 S32768x128 [1] [0] [0] 1
  scatter_S4096_S32768x1_S32768_n_0_0_1_wf : ScatterDims.WF S4096 S32768x1 S32768 [] [0] [0] 1
  gather_S4096x128_S131072x1_S131072x128_1_0_n_n_0_1_1128_wf : GatherDims.WF S4096x128 S131072x1 S131072x128 [1] [0] [] [0] [] 1 ![1, 128]
  scatter_S4096x128_S131072x1_S131072x128_1_0_0_1_wf : ScatterDims.WF S4096x128 S131072x1 S131072x128 [1] [0] [0] 1
  scatter_S4096_S131072x1_S131072_n_0_0_1_wf : ScatterDims.WF S4096 S131072x1 S131072 [] [0] [0] 1
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []
  dot_S2048x128_S128x64_S2048x64_1_0_0_1_n_n_wf : DotDims.WF S2048x128 S128x64 S2048x64 [1] [0] [0] [1] [] []
  dot_S2048x128_S128x128_S2048x128_1_0_0_1_n_n_wf : DotDims.WF S2048x128 S128x128 S2048x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S65536x9.size a
  hwx0_1 : ∀ i : grid0.Coords, EltTy.bits .f32 = 32 ∨ (Rect.block (s := S65536x9) S2048x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S65536x64.size a
  hwx0_2 : ∀ i : grid0.Coords, EltTy.bits .f32 = 32 ∨ (Rect.block (s := S65536x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x576.size a ≤ S64x576.size a
  hwx0_5 : ∀ i : grid0.Coords, EltTy.bits .f32 = 32 ∨ (Rect.block (s := S64x576) S64x576.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x576.size a ≤ S1x576.size a
  hwx0_6 : ∀ i : grid0.Coords, EltTy.bits .f32 = 32 ∨ (Rect.block (s := S1x576) S1x576.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S576x64.size a ≤ S576x64.size a
  hwx0_7 : ∀ i : grid0.Coords, EltTy.bits .f32 = 32 ∨ (Rect.block (s := S576x64) S576x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x64.size a ≤ S65536x64.size a
  hwx0_8 : ∀ i : grid0.Coords, EltTy.bits .f32 = 32 ∨ (Rect.block (s := S65536x64) S2048x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S393216x64.size a
  hwx1_0 : ∀ i : grid1.Coords, EltTy.bits .f32 = 32 ∨ (Rect.block (s := S393216x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x9.size a ≤ S393216x9.size a
  hwx1_1 : ∀ i : grid1.Coords, EltTy.bits .f32 = 32 ∨ (Rect.block (s := S393216x9) S2048x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S393216x64.size a
  hwx1_2 : ∀ i : grid1.Coords, EltTy.bits .f32 = 32 ∨ (Rect.block (s := S393216x64) S2048x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x576.size a ≤ S64x576.size a
  hwx1_5 : ∀ i : grid1.Coords, EltTy.bits .f32 = 32 ∨ (Rect.block (s := S64x576) S64x576.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x576.size a ≤ S1x576.size a
  hwx1_6 : ∀ i : grid1.Coords, EltTy.bits .f32 = 32 ∨ (Rect.block (s := S1x576) S1x576.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S576x64.size a ≤ S576x64.size a
  hwx1_7 : ∀ i : grid1.Coords, EltTy.bits .f32 = 32 ∨ (Rect.block (s := S576x64) S576x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x64.size a ≤ S393216x64.size a
  hwx1_8 : ∀ i : grid1.Coords, EltTy.bits .f32 = 32 ∨ (Rect.block (s := S393216x64) S2048x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S32768x64.size a
  hwx2_0 : ∀ i : grid2.Coords, EltTy.bits .f32 = 32 ∨ (Rect.block (s := S32768x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x9.size a ≤ S32768x9.size a
  hwx2_1 : ∀ i : grid2.Coords, EltTy.bits .f32 = 32 ∨ (Rect.block (s := S32768x9) S2048x9.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S32768x64.size a
  hwx2_2 : ∀ i : grid2.Coords, EltTy.bits .f32 = 32 ∨ (Rect.block (s := S32768x64) S2048x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x576.size a ≤ S64x576.size a
  hwx2_5 : ∀ i : grid2.Coords, EltTy.bits .f32 = 32 ∨ (Rect.block (s := S64x576) S64x576.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x576.size a ≤ S1x576.size a
  hwx2_6 : ∀ i : grid2.Coords, EltTy.bits .f32 = 32 ∨ (Rect.block (s := S1x576) S1x576.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S576x128.size a ≤ S576x128.size a
  hwx2_7 : ∀ i : grid2.Coords, EltTy.bits .f32 = 32 ∨ (Rect.block (s := S576x128) S576x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x128.size a ≤ S32768x128.size a
  hwx2_8 : ∀ i : grid2.Coords, EltTy.bits .f32 = 32 ∨ (Rect.block (s := S32768x128) S2048x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S131072x128.size a
  hwx3_0 : ∀ i : grid3.Coords, EltTy.bits .f32 = 32 ∨ (Rect.block (s := S131072x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x9.size a ≤ S131072x9.size a
  hwx3_1 : ∀ i : grid3.Coords, EltTy.bits .f32 = 32 ∨ (Rect.block (s := S131072x9) S2048x9.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S131072x128.size a
  hwx3_2 : ∀ i : grid3.Coords, EltTy.bits .f32 = 32 ∨ (Rect.block (s := S131072x128) S2048x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1152.size a ≤ S128x1152.size a
  hwx3_5 : ∀ i : grid3.Coords, EltTy.bits .f32 = 32 ∨ (Rect.block (s := S128x1152) S128x1152.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1152.size a ≤ S1x1152.size a
  hwx3_6 : ∀ i : grid3.Coords, EltTy.bits .f32 = 32 ∨ (Rect.block (s := S1x1152) S1x1152.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1152x128.size a ≤ S1152x128.size a
  hwx3_7 : ∀ i : grid3.Coords, EltTy.bits .f32 = 32 ∨ (Rect.block (s := S1152x128) S1152x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x128.size a ≤ S131072x128.size a
  hwx3_8 : ∀ i : grid3.Coords, EltTy.bits .f32 = 32 ∨ (Rect.block (s := S131072x128) S2048x128.size (cc3_transform_8 i) (hinb3_8 i)).WholeWords (EltTy.packing .f32)

variable [Facts₀]

def gather_S64x576_S576x1_S64x576_0_1_n_n_1_1_641 : GatherDims S64x576 S576x1 S64x576 where
  offsetDims := [0]
  collapsedSliceDims := [1]
  operandBatchingDims := []
  startIndicesBatchingDims := []
  startIndexMap := [1]
  indexVectorDim := 1
  sliceSizes := ![64, 1]
  wf := gather_S64x576_S576x1_S64x576_0_1_n_n_1_1_641_wf
def gather_S576_S576x1_S576_n_0_n_n_0_1_1 : GatherDims S576 S576x1 S576 where
  offsetDims := []
  collapsedSliceDims := [0]
  operandBatchingDims := []
  startIndicesBatchingDims := []
  startIndexMap := [0]
  indexVectorDim := 1
  sliceSizes := ![1]
  wf := gather_S576_S576x1_S576_n_0_n_n_0_1_1_wf
def gather_S128x1152_S1152x1_S128x1152_0_1_n_n_1_1_1281 : GatherDims S128x1152 S1152x1 S128x1152 where
  offsetDims := [0]
  collapsedSliceDims := [1]
  operandBatchingDims := []
  startIndicesBatchingDims := []
  startIndexMap := [1]
  indexVectorDim := 1
  sliceSizes := ![128, 1]
  wf := gather_S128x1152_S1152x1_S128x1152_0_1_n_n_1_1_1281_wf
def gather_S1152_S1152x1_S1152_n_0_n_n_0_1_1 : GatherDims S1152 S1152x1 S1152 where
  offsetDims := []
  collapsedSliceDims := [0]
  operandBatchingDims := []
  startIndicesBatchingDims := []
  startIndexMap := [0]
  indexVectorDim := 1
  sliceSizes := ![1]
  wf := gather_S1152_S1152x1_S1152_n_0_n_n_0_1_1_wf
def gather_S576x64_S576x1_S576x64_1_0_n_n_0_1_164 : GatherDims S576x64 S576x1 S576x64 where
  offsetDims := [1]
  collapsedSliceDims := [0]
  operandBatchingDims := []
  startIndicesBatchingDims := []
  startIndexMap := [0]
  indexVectorDim := 1
  sliceSizes := ![1, 64]
  wf := gather_S576x64_S576x1_S576x64_1_0_n_n_0_1_164_wf
def gather_S576x128_S576x1_S576x128_1_0_n_n_0_1_1128 : GatherDims S576x128 S576x1 S576x128 where
  offsetDims := [1]
  collapsedSliceDims := [0]
  operandBatchingDims := []
  startIndicesBatchingDims := []
  startIndexMap := [0]
  indexVectorDim := 1
  sliceSizes := ![1, 128]
  wf := gather_S576x128_S576x1_S576x128_1_0_n_n_0_1_1128_wf
def gather_S1152x128_S1152x1_S1152x128_1_0_n_n_0_1_1128 : GatherDims S1152x128 S1152x1 S1152x128 where
  offsetDims := [1]
  collapsedSliceDims := [0]
  operandBatchingDims := []
  startIndicesBatchingDims := []
  startIndexMap := [0]
  indexVectorDim := 1
  sliceSizes := ![1, 128]
  wf := gather_S1152x128_S1152x1_S1152x128_1_0_n_n_0_1_1128_wf
def gather_S32768x64_S458752x1_S458752x64_1_0_n_n_0_1_164 : GatherDims S32768x64 S458752x1 S458752x64 where
  offsetDims := [1]
  collapsedSliceDims := [0]
  operandBatchingDims := []
  startIndicesBatchingDims := []
  startIndexMap := [0]
  indexVectorDim := 1
  sliceSizes := ![1, 64]
  wf := gather_S32768x64_S458752x1_S458752x64_1_0_n_n_0_1_164_wf
def scatter_S32768x64_S65536x1_S65536x64_1_0_0_1 : ScatterDims S32768x64 S65536x1 S65536x64 where
  updateWindowDims := [1]
  insertedWindowDims := [0]
  scatterDimsToOperandDims := [0]
  indexVectorDim := 1
  wf := scatter_S32768x64_S65536x1_S65536x64_1_0_0_1_wf
def scatter_S32768_S65536x1_S65536_n_0_0_1 : ScatterDims S32768 S65536x1 S65536 where
  updateWindowDims := []
  insertedWindowDims := [0]
  scatterDimsToOperandDims := [0]
  indexVectorDim := 1
  wf := scatter_S32768_S65536x1_S65536_n_0_0_1_wf
def scatter_S32768x64_S393216x1_S393216x64_1_0_0_1 : ScatterDims S32768x64 S393216x1 S393216x64 where
  updateWindowDims := [1]
  insertedWindowDims := [0]
  scatterDimsToOperandDims := [0]
  indexVectorDim := 1
  wf := scatter_S32768x64_S393216x1_S393216x64_1_0_0_1_wf
def scatter_S32768_S393216x1_S393216_n_0_0_1 : ScatterDims S32768 S393216x1 S393216 where
  updateWindowDims := []
  insertedWindowDims := [0]
  scatterDimsToOperandDims := [0]
  indexVectorDim := 1
  wf := scatter_S32768_S393216x1_S393216_n_0_0_1_wf
def scatter_S4096x128_S32768x1_S32768x128_1_0_0_1 : ScatterDims S4096x128 S32768x1 S32768x128 where
  updateWindowDims := [1]
  insertedWindowDims := [0]
  scatterDimsToOperandDims := [0]
  indexVectorDim := 1
  wf := scatter_S4096x128_S32768x1_S32768x128_1_0_0_1_wf
def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def gather_S4096x128_S131072x1_S131072x128_1_0_n_n_0_1_1128 : GatherDims S4096x128 S131072x1 S131072x128 where
  offsetDims := [1]
  collapsedSliceDims := [0]
  operandBatchingDims := []
  startIndicesBatchingDims := []
  startIndexMap := [0]
  indexVectorDim := 1
  sliceSizes := ![1, 128]
  wf := gather_S4096x128_S131072x1_S131072x128_1_0_n_n_0_1_1128_wf
def scatter_S4096x128_S131072x1_S131072x128_1_0_0_1 : ScatterDims S4096x128 S131072x1 S131072x128 where
  updateWindowDims := [1]
  insertedWindowDims := [0]
  scatterDimsToOperandDims := [0]
  indexVectorDim := 1
  wf := scatter_S4096x128_S131072x1_S131072x128_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_call0_v74) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v76) S2048x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v59) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S64x576.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v10) S1x576.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v48) S576x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v80) S2048x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_call0_v75) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v77) S2048x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v60) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v15) S64x576.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v21) S1x576.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v48) S576x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v81) S2048x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v0_0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S2048x9.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg21) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v26) S64x576.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v32) S1x576.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v53) S576x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v104) S2048x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_call0_v128) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S2048x9.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg26) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v37) S128x1152.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v43) S1x1152.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v58) S1152x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v129) S2048x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S32768x64 : Shape := ⟨2, ![32768, 64]⟩
abbrev S4096x128 : Shape := ⟨2, ![4096, 128]⟩
abbrev S2x458752 : Shape := ⟨2, ![2, 458752]⟩
abbrev S65536x64 : Shape := ⟨2, ![65536, 64]⟩
abbrev S393216x64 : Shape := ⟨2, ![393216, 64]⟩
abbrev S458752x9 : Shape := ⟨2, ![458752, 9]⟩
abbrev S32768 : Shape := ⟨1, ![32768]⟩
abbrev S32768x9 : Shape := ⟨2, ![32768, 9]⟩
abbrev S2x131072 : Shape := ⟨2, ![2, 131072]⟩
abbrev S131072x128 : Shape := ⟨2, ![131072, 128]⟩
abbrev S131072x9 : Shape := ⟨2, ![131072, 9]⟩
abbrev S64x64 : Shape := ⟨2, ![64, 64]⟩
abbrev S64 : Shape := ⟨1, ![64]⟩
abbrev S64x576 : Shape := ⟨2, ![64, 576]⟩
abbrev S576 : Shape := ⟨1, ![576]⟩
abbrev S576x64 : Shape := ⟨2, ![576, 64]⟩
abbrev S576x128 : Shape := ⟨2, ![576, 128]⟩
abbrev S128x128 : Shape := ⟨2, ![128, 128]⟩
abbrev S128 : Shape := ⟨1, ![128]⟩
abbrev S128x1152 : Shape := ⟨2, ![128, 1152]⟩
abbrev S1152 : Shape := ⟨1, ![1152]⟩
abbrev S1152x128 : Shape := ⟨2, ![1152, 128]⟩
abbrev S1x458752 : Shape := ⟨2, ![1, 458752]⟩
abbrev S458752 : Shape := ⟨1, ![458752]⟩
abbrev S1x64 : Shape := ⟨2, ![1, 64]⟩
abbrev S_ : Shape := ⟨0, ![]⟩
abbrev S65536x576 : Shape := ⟨2, ![65536, 576]⟩
abbrev S1x576 : Shape := ⟨2, ![1, 576]⟩
abbrev S393216x576 : Shape := ⟨2, ![393216, 576]⟩
abbrev S458752x576 : Shape := ⟨2, ![458752, 576]⟩
abbrev S458752x1 : Shape := ⟨2, ![458752, 1]⟩
abbrev S458752x64 : Shape := ⟨2, ![458752, 64]⟩
abbrev S458752x64x1 : Shape := ⟨3, ![458752, 64, 1]⟩
abbrev S458752x1x9 : Shape := ⟨3, ![458752, 1, 9]⟩
abbrev S458752x64x9 : Shape := ⟨3, ![458752, 64, 9]⟩
abbrev S32768x1 : Shape := ⟨2, ![32768, 1]⟩
abbrev S32768x576 : Shape := ⟨2, ![32768, 576]⟩
abbrev S32768x64x1 : Shape := ⟨3, ![32768, 64, 1]⟩
abbrev S32768x1x9 : Shape := ⟨3, ![32768, 1, 9]⟩
abbrev S32768x64x9 : Shape := ⟨3, ![32768, 64, 9]⟩
abbrev S32768x128 : Shape := ⟨2, ![32768, 128]⟩
abbrev S4096 : Shape := ⟨1, ![4096]⟩
abbrev S4096x1 : Shape := ⟨2, ![4096, 1]⟩
abbrev S1x131072 : Shape := ⟨2, ![1, 131072]⟩
abbrev S131072 : Shape := ⟨1, ![131072]⟩
abbrev S1x128 : Shape := ⟨2, ![1, 128]⟩
abbrev S131072x1152 : Shape := ⟨2, ![131072, 1152]⟩
abbrev S1x1152 : Shape := ⟨2, ![1, 1152]⟩
abbrev S131072x1 : Shape := ⟨2, ![131072, 1]⟩
abbrev S131072x128x1 : Shape := ⟨3, ![131072, 128, 1]⟩
abbrev S131072x1x9 : Shape := ⟨3, ![131072, 1, 9]⟩
abbrev S131072x128x9 : Shape := ⟨3, ![131072, 128, 9]⟩

abbrev nBuf : Space → Nat
  | .hbm => 177
  | .vmem => 0
  | .smem => 0
  | _ => 0

abbrev hbmTy0_0 (i : Nat) : BufTy := match i % 128 with
  | 0 => ⟨S32768x64, .f32⟩
  | 1 => ⟨S4096x128, .f32⟩
  | 2 => ⟨S2x458752, .i32⟩
  | 3 => ⟨S65536x64, .f32⟩
  | 4 => ⟨S393216x64, .f32⟩
  | 5 => ⟨S458752x9, .f32⟩
  | 6 => ⟨S32768, .i32⟩
  | 7 => ⟨S32768x64, .f32⟩
  | 8 => ⟨S32768x9, .f32⟩
  | 9 => ⟨S2x131072, .i32⟩
  | 10 => ⟨S131072x128, .f32⟩
  | 11 => ⟨S131072x9, .f32⟩
  | 12 => ⟨S64x64, .f32⟩
  | 13 => ⟨S64, .f32⟩
  | 14 => ⟨S64x576, .f32⟩
  | 15 => ⟨S576, .f32⟩
  | 16 => ⟨S64x64, .f32⟩
  | 17 => ⟨S64, .f32⟩
  | 18 => ⟨S64x576, .f32⟩
  | 19 => ⟨S576, .f32⟩
  | 20 => ⟨S576x64, .f32⟩
  | 21 => ⟨S64x64, .f32⟩
  | 22 => ⟨S64, .f32⟩
  | 23 => ⟨S64x576, .f32⟩
  | 24 => ⟨S576, .f32⟩
  | 25 => ⟨S576x128, .f32⟩
  | 26 => ⟨S128x128, .f32⟩
  | 27 => ⟨S128, .f32⟩
  | 28 => ⟨S128x1152, .f32⟩
  | 29 => ⟨S1152, .f32⟩
  | 30 => ⟨S1152x128, .f32⟩
  | 31 => ⟨S1x458752, .i32⟩
  | 32 => ⟨S458752, .i32⟩
  | 33 => ⟨S1x458752, .i32⟩
  | 34 => ⟨S458752, .i32⟩
  | 35 => ⟨S65536x64, .f32⟩
  | 36 => ⟨S1x64, .f32⟩
  | 37 => ⟨S65536x64, .f32⟩
  | 38 => ⟨S65536x64, .f32⟩
  | 39 => ⟨S_, .f32⟩
  | 40 => ⟨S65536x64, .f32⟩
  | 41 => ⟨S65536x64, .f32⟩
  | 42 => ⟨S65536x576, .f32⟩
  | 43 => ⟨S1x576, .f32⟩
  | 44 => ⟨S65536x576, .f32⟩
  | 45 => ⟨S65536x576, .f32⟩
  | 46 => ⟨S393216x64, .f32⟩
  | 47 => ⟨S1x64, .f32⟩
  | 48 => ⟨S393216x64, .f32⟩
  | 49 => ⟨S393216x64, .f32⟩
  | 50 => ⟨S_, .f32⟩
  | 51 => ⟨S393216x64, .f32⟩
  | 52 => ⟨S393216x64, .f32⟩
  | 53 => ⟨S393216x576, .f32⟩
  | 54 => ⟨S1x576, .f32⟩
  | 55 => ⟨S393216x576, .f32⟩
  | 56 => ⟨S393216x576, .f32⟩
  | 57 => ⟨S458752x576, .f32⟩
  | 58 => ⟨S_, .i32⟩
  | 59 => ⟨S458752, .i32⟩
  | 60 => ⟨S458752, .i1⟩
  | 61 => ⟨S_, .i32⟩
  | 62 => ⟨S458752, .i32⟩
  | 63 => ⟨S458752, .i32⟩
  | 64 => ⟨S458752, .i32⟩
  | 65 => ⟨S458752x1, .i32⟩
  | 66 => ⟨S458752x64, .f32⟩
  | 67 => ⟨S458752x64x1, .f32⟩
  | 68 => ⟨S458752x1x9, .f32⟩
  | 69 => ⟨S458752x64x9, .f32⟩
  | 70 => ⟨S458752x64x9, .f32⟩
  | 71 => ⟨S458752x64x9, .f32⟩
  | 72 => ⟨S458752x576, .f32⟩
  | 73 => ⟨S458752x576, .f32⟩
  | 74 => ⟨S458752x64, .f32⟩
  | 75 => ⟨S_, .f32⟩
  | 76 => ⟨S32768x64, .f32⟩
  | 77 => ⟨S458752x1, .i32⟩
  | 78 => ⟨S32768x64, .f32⟩
  | 79 => ⟨S_, .f32⟩
  | 80 => ⟨S458752, .f32⟩
  | 81 => ⟨S_, .f32⟩
  | 82 => ⟨S32768, .f32⟩
  | 83 => ⟨S458752x1, .i32⟩
  | 84 => ⟨S32768, .f32⟩
  | 85 => ⟨S_, .f32⟩
  | 86 => ⟨S32768, .f32⟩
  | 87 => ⟨S32768, .f32⟩
  | 88 => ⟨S32768x1, .f32⟩
  | 89 => ⟨S32768x64, .f32⟩
  | 90 => ⟨S32768x64, .f32⟩
  | 91 => ⟨S32768x64, .f32⟩
  | 92 => ⟨S32768x64, .f32⟩
  | 93 => ⟨S1x64, .f32⟩
  | 94 => ⟨S32768x64, .f32⟩
  | 95 => ⟨S32768x64, .f32⟩
  | 96 => ⟨S_, .f32⟩
  | 97 => ⟨S32768x64, .f32⟩
  | 98 => ⟨S32768x64, .f32⟩
  | 99 => ⟨S32768x576, .f32⟩
  | 100 => ⟨S1x576, .f32⟩
  | 101 => ⟨S32768x576, .f32⟩
  | 102 => ⟨S32768x576, .f32⟩
  | 103 => ⟨S32768x64x1, .f32⟩
  | 104 => ⟨S32768x1x9, .f32⟩
  | 105 => ⟨S32768x64x9, .f32⟩
  | 106 => ⟨S32768x64x9, .f32⟩
  | 107 => ⟨S32768x64x9, .f32⟩
  | 108 => ⟨S32768x576, .f32⟩
  | 109 => ⟨S32768x576, .f32⟩
  | 110 => ⟨S32768x128, .f32⟩
  | 111 => ⟨S_, .f32⟩
  | 112 => ⟨S4096x128, .f32⟩
  | 113 => ⟨S32768x1, .i32⟩
  | 114 => ⟨S4096x128, .f32⟩
  | 115 => ⟨S_, .f32⟩
  | 116 => ⟨S32768, .f32⟩
  | 117 => ⟨S_, .f32⟩
  | 118 => ⟨S4096, .f32⟩
  | 119 => ⟨S32768x1, .i32⟩
  | 120 => ⟨S4096, .f32⟩
  | 121 => ⟨S_, .f32⟩
  | 122 => ⟨S4096, .f32⟩
  | 123 => ⟨S4096, .f32⟩
  | 124 => ⟨S4096x1, .f32⟩
  | 125 => ⟨S4096x128, .f32⟩
  | 126 => ⟨S4096x128, .f32⟩
  | 127 => ⟨S4096x128, .f32⟩
  | _ => ⟨S32768x64, .f32⟩

abbrev hbmTy0_1 (i : Nat) : BufTy := match i % 128 with
  | 0 => ⟨S1x131072, .i32⟩
  | 1 => ⟨S131072, .i32⟩
  | 2 => ⟨S1x131072, .i32⟩
  | 3 => ⟨S131072, .i32⟩
  | 4 => ⟨S131072x128, .f32⟩
  | 5 => ⟨S1x128, .f32⟩
  | 6 => ⟨S131072x128, .f32⟩
  | 7 => ⟨S131072x128, .f32⟩
  | 8 => ⟨S_, .f32⟩
  | 9 => ⟨S131072x128, .f32⟩
  | 10 => ⟨S131072x128, .f32⟩
  | 11 => ⟨S131072x1152, .f32⟩
  | 12 => ⟨S1x1152, .f32⟩
  | 13 => ⟨S131072x1152, .f32⟩
  | 14 => ⟨S131072x1152, .f32⟩
  | 15 => ⟨S_, .i32⟩
  | 16 => ⟨S131072, .i32⟩
  | 17 => ⟨S131072, .i1⟩
  | 18 => ⟨S_, .i32⟩
  | 19 => ⟨S131072, .i32⟩
  | 20 => ⟨S131072, .i32⟩
  | 21 => ⟨S131072, .i32⟩
  | 22 => ⟨S131072x1, .i32⟩
  | 23 => ⟨S131072x128, .f32⟩
  | 24 => ⟨S131072x128x1, .f32⟩
  | 25 => ⟨S131072x1x9, .f32⟩
  | 26 => ⟨S131072x128x9, .f32⟩
  | 27 => ⟨S131072x128x9, .f32⟩
  | 28 => ⟨S131072x128x9, .f32⟩
  | 29 => ⟨S131072x1152, .f32⟩
  | 30 => ⟨S131072x1152, .f32⟩
  | 31 => ⟨S131072x128, .f32⟩
  | 32 => ⟨S_, .f32⟩
  | 33 => ⟨S4096x128, .f32⟩
  | 34 => ⟨S131072x1, .i32⟩
  | 35 => ⟨S4096x128, .f32⟩
  | 36 => ⟨S_, .f32⟩
  | 37 => ⟨S131072, .f32⟩
  | 38 => ⟨S_, .f32⟩
  | 39 => ⟨S4096, .f32⟩
  | 40 => ⟨S131072x1, .i32⟩
  | 41 => ⟨S4096, .f32⟩
  | 42 => ⟨S_, .f32⟩
  | 43 => ⟨S4096, .f32⟩
  | 44 => ⟨S4096, .f32⟩
  | 45 => ⟨S4096x1, .f32⟩
  | 46 => ⟨S4096x128, .f32⟩
  | 47 => ⟨S4096x128, .f32⟩
  | 48 => ⟨S4096x128, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call0_cst : Ref sig .tc := ⟨.hbm, 39, rfl⟩
abbrev main_call0_v0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call1_cst : Ref sig .tc := ⟨.hbm, 50, rfl⟩
abbrev main_call1_v0 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c : Ref sig .tc := ⟨.hbm, 58, rfl⟩
abbrev main_v23 : Ref sig .tc := ⟨.hbm, 59, rfl⟩
abbrev main_v24 : Ref sig .tc := ⟨.hbm, 60, rfl⟩
abbrev main_c_0 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_1 : Ref sig .tc := ⟨.hbm, 79, rfl⟩
abbrev main_v41 : Ref sig .tc := ⟨.hbm, 80, rfl⟩
abbrev main_cst_2 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_3 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call2_cst : Ref sig .tc := ⟨.hbm, 96, rfl⟩
abbrev main_call2_v0 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_4 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_5 : Ref sig .tc := ⟨.hbm, 115, rfl⟩
abbrev main_v71 : Ref sig .tc := ⟨.hbm, 116, rfl⟩
abbrev main_cst_6 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_7 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_call3_cst : Ref sig .tc := ⟨.hbm, 136, rfl⟩
abbrev main_call3_v0 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c_8 : Ref sig .tc := ⟨.hbm, 143, rfl⟩
abbrev main_v94 : Ref sig .tc := ⟨.hbm, 144, rfl⟩
abbrev main_v95 : Ref sig .tc := ⟨.hbm, 145, rfl⟩
abbrev main_c_9 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_10 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_11 : Ref sig .tc := ⟨.hbm, 164, rfl⟩
abbrev main_v112 : Ref sig .tc := ⟨.hbm, 165, rfl⟩
abbrev main_cst_12 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_13 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩

abbrev nD : Nat := 1
abbrev τ : Topo := Topo.v7x

variable {F : FTy → Type} [FloatOps F]

class Facts₀ : Prop where
  slices_S2x458752_S1x458752_0_0 : S2x458752.Slices ![0, 0] S1x458752
  shapeCasts_S1x458752_S458752 : S1x458752.ShapeCasts S458752
  slices_S2x458752_S1x458752_1_0 : S2x458752.Slices ![1, 0] S1x458752
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S576_S1x576_1 : S576.BroadcastsInDim S1x576 (![1] : Fin 1 → Fin S1x576.rank)
  bcast_S1x576_S65536x576_0_1 : S1x576.BroadcastsInDim S65536x576 (![0, 1] : Fin 2 → Fin S65536x576.rank)
  bcast_S1x64_S393216x64_0_1 : S1x64.BroadcastsInDim S393216x64 (![0, 1] : Fin 2 → Fin S393216x64.rank)
  bcast_S_S393216x64 : S_.BroadcastsInDim S393216x64 (![] : Fin 0 → Fin S393216x64.rank)
  bcast_S1x576_S393216x576_0_1 : S1x576.BroadcastsInDim S393216x576 (![0, 1] : Fin 2 → Fin S393216x576.rank)
  concatenates_S65536x576_S393216x576_S458752x576_d0 : Shape.Concatenates [S65536x576, S393216x576] S458752x576 0
  bcast_S_S458752 : S_.BroadcastsInDim S458752 (![] : Fin 0 → Fin S458752.rank)
  bcast_S458752_S458752x1_0 : S458752.BroadcastsInDim S458752x1 (![0] : Fin 1 → Fin S458752x1.rank)
  bcast_S458752x64_S458752x64x1_0_1 : S458752x64.BroadcastsInDim S458752x64x1 (![0, 1] : Fin 2 → Fin S458752x64x1.rank)
  bcast_S458752x9_S458752x1x9_0_2 : S458752x9.BroadcastsInDim S458752x1x9 (![0, 2] : Fin 2 → Fin S458752x1x9.rank)
  bcast_S458752x64x1_S458752x64x9_0_1_2 : S458752x64x1.BroadcastsInDim S458752x64x9 (![0, 1, 2] : Fin 3 → Fin S458752x64x9.rank)
  bcast_S458752x1x9_S458752x64x9_0_1_2 : S458752x1x9.BroadcastsInDim S458752x64x9 (![0, 1, 2] : Fin 3 → Fin S458752x64x9.rank)
  shapeCasts_S458752x64x9_S458752x576 : S458752x64x9.ShapeCasts S458752x576
  bcast_S_S32768x64 : S_.BroadcastsInDim S32768x64 (![] : Fin 0 → Fin S32768x64.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  bcast_S1x576_S32768x576_0_1 : S1x576.BroadcastsInDim S32768x576 (![0, 1] : Fin 2 → Fin S32768x576.rank)
  bcast_S32768x64_S32768x64x1_0_1 : S32768x64.BroadcastsInDim S32768x64x1 (![0, 1] : Fin 2 → Fin S32768x64x1.rank)
  bcast_S32768x9_S32768x1x9_0_2 : S32768x9.BroadcastsInDim S32768x1x9 (![0, 2] : Fin 2 → Fin S32768x1x9.rank)
  bcast_S32768x64x1_S32768x64x9_0_1_2 : S32768x64x1.BroadcastsInDim S32768x64x9 (![0, 1, 2] : Fin 3 → Fin S32768x64x9.rank)
  bcast_S32768x1x9_S32768x64x9_0_1_2 : S32768x1x9.BroadcastsInDim S32768x64x9 (![0, 1, 2] : Fin 3 → Fin S32768x64x9.rank)
  shapeCasts_S32768x64x9_S32768x576 : S32768x64x9.ShapeCasts S32768x576
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S1152_S1x1152_1 : S1152.BroadcastsInDim S1x1152 (![1] : Fin 1 → Fin S1x1152.rank)
  bcast_S1x1152_S131072x1152_0_1 : S1x1152.BroadcastsInDim S131072x1152 (![0, 1] : Fin 2 → Fin S131072x1152.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x128_S131072x128x1_0_1 : S131072x128.BroadcastsInDim S131072x128x1 (![0, 1] : Fin 2 → Fin S131072x128x1.rank)
  bcast_S131072x9_S131072x1x9_0_2 : S131072x9.BroadcastsInDim S131072x1x9 (![0, 2] : Fin 2 → Fin S131072x1x9.rank)
  bcast_S131072x128x1_S131072x128x9_0_1_2 : S131072x128x1.BroadcastsInDim S131072x128x9 (![0, 1, 2] : Fin 3 → Fin S131072x128x9.rank)
  bcast_S131072x1x9_S131072x128x9_0_1_2 : S131072x1x9.BroadcastsInDim S131072x128x9 (![0, 1, 2] : Fin 3 → Fin S131072x128x9.rank)
  shapeCasts_S131072x128x9_S131072x1152 : S131072x128x9.ShapeCasts S131072x1152
  dot_S65536x64_S64x64_S65536x64_1_0_0_1_n_n_wf : DotDims.WF S65536x64 S64x64 S65536x64 [1] [0] [0] [1] [] []
  dot_S65536x64_S64x576_S65536x576_1_0_0_1_n_n_wf : DotDims.WF S65536x64 S64x576 S65536x576 [1] [0] [0] [1] [] []
  dot_S393216x64_S64x64_S393216x64_1_0_0_1_n_n_wf : DotDims.WF S393216x64 S64x64 S393216x64 [1] [0] [0] [1] [] []
  dot_S393216x64_S64x576_S393216x576_1_0_0_1_n_n_wf : DotDims.WF S393216x64 S64x576 S393216x576 [1] [0] [0] [1] [] []
  gather_S32768x64_S458752x1_S458752x64_1_0_n_n_0_1_164_wf : GatherDims.WF S32768x64 S458752x1 S458752x64 [1] [0] [] [0] [] 1 ![1, 64]
  dot_S458752x576_S576x64_S458752x64_1_0_0_1_n_n_wf : DotDims.WF S458752x576 S576x64 S458752x64 [1] [0] [0] [1] [] []
  scatter_S32768x64_S458752x1_S458752x64_1_0_0_1_wf : ScatterDims.WF S32768x64 S458752x1 S458752x64 [1] [0] [0] 1
  scatter_S32768_S458752x1_S458752_n_0_0_1_wf : ScatterDims.WF S32768 S458752x1 S458752 [] [0] [0] 1
  dot_S32768x64_S64x64_S32768x64_1_0_0_1_n_n_wf : DotDims.WF S32768x64 S64x64 S32768x64 [1] [0] [0] [1] [] []
  dot_S32768x64_S64x576_S32768x576_1_0_0_1_n_n_wf : DotDims.WF S32768x64 S64x576 S32768x576 [1] [0] [0] [1] [] []
  dot_S32768x576_S576x128_S32768x128_1_0_0_1_n_n_wf : DotDims.WF S32768x576 S576x128 S32768x128 [1] [0] [0] [1] [] []
  scatter_S4096x128_S32768x1_S32768x128_1_0_0_1_wf : ScatterDims.WF S4096x128 S32768x1 S32768x128 [1] [0] [0] 1
  scatter_S4096_S32768x1_S32768_n_0_0_1_wf : ScatterDims.WF S4096 S32768x1 S32768 [] [0] [0] 1
  dot_S131072x128_S128x128_S131072x128_1_0_0_1_n_n_wf : DotDims.WF S131072x128 S128x128 S131072x128 [1] [0] [0] [1] [] []
  dot_S131072x128_S128x1152_S131072x1152_1_0_0_1_n_n_wf : DotDims.WF S131072x128 S128x1152 S131072x1152 [1] [0] [0] [1] [] []
  gather_S4096x128_S131072x1_S131072x128_1_0_n_n_0_1_1128_wf : GatherDims.WF S4096x128 S131072x1 S131072x128 [1] [0] [] [0] [] 1 ![1, 128]
  dot_S131072x1152_S1152x128_S131072x128_1_0_0_1_n_n_wf : DotDims.WF S131072x1152 S1152x128 S131072x128 [1] [0] [0] [1] [] []
  scatter_S4096x128_S131072x1_S131072x128_1_0_0_1_wf : ScatterDims.WF S4096x128 S131072x1 S131072x128 [1] [0] [0] 1
  scatter_S4096_S131072x1_S131072_n_0_0_1_wf : ScatterDims.WF S4096 S131072x1 S131072 [] [0] [0] 1

variable [Facts₀]

def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x576_S65536x576_1_0_0_1_n_n : DotDims S65536x64 S64x576 S65536x576 where
  lhsContracting := [1]
  rhsContracting := [0]
  lhsNonContracting := [0]
  rhsNonContracting := [1]
  lhsBatch := []
  rhsBatch := []
  wf := dot_S65536x64_S64x576_S65536x576_1_0_0_1_n_n_wf
def dot_S393216x64_S64x64_S393216x64_1_0_0_1_n_n : DotDims S393216x64 S64x64 S393216x64 where
  lhsContracting := [1]
  rhsContracting := [0]
  lhsNonContracting := [0]
  rhsNonContracting := [1]
  lhsBatch := []
  rhsBatch := []
  wf := dot_S393216x64_S64x64_S393216x64_1_0_0_1_n_n_wf
def dot_S393216x64_S64x576_S393216x576_1_0_0_1_n_n : DotDims S393216x64 S64x576 S393216x576 where
  lhsContracting := [1]
  rhsContracting := [0]
  lhsNonContracting := [0]
  rhsNonContracting := [1]
  lhsBatch := []
  rhsBatch := []
  wf := dot_S393216x64_S64x576_S393216x576_1_0_0_1_n_n_wf
def gather_S32768x64_S458752x1_S458752x64_1_0_n_n_0_1_164 : GatherDims S32768x64 S458752x1 S458752x64 where
  offsetDims := [1]
  collapsedSliceDims := [0]
  operandBatchingDims := []
  startIndicesBatchingDims := []
  startIndexMap := [0]
  indexVectorDim := 1
  sliceSizes := ![1, 64]
  wf := gather_S32768x64_S458752x1_S458752x64_1_0_n_n_0_1_164_wf
def dot_S458752x576_S576x64_S458752x64_1_0_0_1_n_n : DotDims S458752x576 S576x64 S458752x64 where
  lhsContracting := [1]
  rhsContracting := [0]
  lhsNonContracting := [0]
  rhsNonContracting := [1]
  lhsBatch := []
  rhsBatch := []
  wf := dot_S458752x576_S576x64_S458752x64_1_0_0_1_n_n_wf
def scatter_S32768x64_S458752x1_S458752x64_1_0_0_1 : ScatterDims S32768x64 S458752x1 S458752x64 where
  updateWindowDims := [1]
  insertedWindowDims := [0]
  scatterDimsToOperandDims := [0]
  indexVectorDim := 1
  wf := scatter_S32768x64_S458752x1_S458752x64_1_0_0_1_wf
def scatter_S32768_S458752x1_S458752_n_0_0_1 : ScatterDims S32768 S458752x1 S458752 where
  updateWindowDims := []
  insertedWindowDims := [0]
  scatterDimsToOperandDims := [0]
  indexVectorDim := 1
  wf := scatter_S32768_S458752x1_S458752_n_0_0_1_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S32768x64_S64x576_S32768x576_1_0_0_1_n_n : DotDims S32768x64 S64x576 S32768x576 where
  lhsContracting := [1]
  rhsContracting := [0]
  lhsNonContracting := [0]
  rhsNonContracting := [1]
  lhsBatch := []
  rhsBatch := []
  wf := dot_S32768x64_S64x576_S32768x576_1_0_0_1_n_n_wf
def dot_S32768x576_S576x128_S32768x128_1_0_0_1_n_n : DotDims S32768x576 S576x128 S32768x128 where
  lhsContracting := [1]
  rhsContracting := [0]
  lhsNonContracting := [0]
  rhsNonContracting := [1]
  lhsBatch := []
  rhsBatch := []
  wf := dot_S32768x576_S576x128_S32768x128_1_0_0_1_n_n_wf
def scatter_S4096x128_S32768x1_S32768x128_1_0_0_1 : ScatterDims S4096x128 S32768x1 S32768x128 where
  updateWindowDims := [1]
  insertedWindowDims := [0]
  scatterDimsToOperandDims := [0]
  indexVectorDim := 1
  wf := scatter_S4096x128_S32768x1_S32768x128_1_0_0_1_wf
def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x1152_S131072x1152_1_0_0_1_n_n : DotDims S131072x128 S128x1152 S131072x1152 where
  lhsContracting := [1]
  rhsContracting := [0]
  lhsNonContracting := [0]
  rhsNonContracting := [1]
  lhsBatch := []
  rhsBatch := []
  wf := dot_S131072x128_S128x1152_S131072x1152_1_0_0_1_n_n_wf
def gather_S4096x128_S131072x1_S131072x128_1_0_n_n_0_1_1128 : GatherDims S4096x128 S131072x1 S131072x128 where
  offsetDims := [1]
  collapsedSliceDims := [0]
  operandBatchingDims := []
  startIndicesBatchingDims := []
  startIndexMap := [0]
  indexVectorDim := 1
  sliceSizes := ![1, 128]
  wf := gather_S4096x128_S131072x1_S131072x128_1_0_n_n_0_1_1128_wf
def dot_S131072x1152_S1152x128_S131072x128_1_0_0_1_n_n : DotDims S131072x1152 S1152x128 S131072x128 where
  lhsContracting := [1]
  rhsContracting := [0]
  lhsNonContracting := [0]
  rhsNonContracting := [1]
  lhsBatch := []
  rhsBatch := []
  wf := dot_S131072x1152_S1152x128_S131072x128_1_0_0_1_n_n_wf
def scatter_S4096x128_S131072x1_S131072x128_1_0_0_1 : ScatterDims S4096x128 S131072x1 S131072x128 where
  updateWindowDims := [1]
  insertedWindowDims := [0]
  scatterDimsToOperandDims := [0]
  indexVectorDim := 1
  wf := scatter_S4096x128_S131072x1_S131072x128_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf

class Facts : Prop extends Facts₀ where

variable [Facts]
-- ==== Proof.Frames.lean ====
/-
  The three programs run: each terminates without a fault from any launch memory and leaves its argument arrays as it
  found them.  For the two tiled programs that is their run through the regions' frames; for the reference it is its
  run as a sequence of host operations, whose end state lists the two results first and then the thirty-one arguments,
  each unchanged.  The idealization rewrote no operation of the tiled program, so what it preserves is nothing to
  state.
-/
import proofs.«130085_j37134287242037_2_alg».proof.Defs
import proofs.«130085_j37134287242037_2_alg».proof.Proof.Gen.Kernel
import proofs.«130085_j37134287242037_2_alg».proof.Proof.Gen.Kernel.Frame
import proofs.«130085_j37134287242037_2_alg».proof.Proof.Gen.KernelIdeal
import proofs.«130085_j37134287242037_2_alg».proof.Proof.Gen.KernelIdeal.Frame
import proofs.«130085_j37134287242037_2_alg».proof.Proof.Gen.ReferenceIdeal
import proofs.«130085_j37134287242037_2_alg».proof.Proof.Gen.ReferenceIdeal.Run
import proofs.«130085_j37134287242037_2_alg».proof.Proof.Gen.Pre_finite_inputs

noncomputable section

open Idealize.ShloMosaic Idealize.ShloMosaic.TcCoe Idealize.SL.Sem

namespace Cert.Proof.Frames

/-- The tiled program at the bit-exact values runs and leaves its arguments unchanged. -/
theorem frame_k : Cert.frame_Kernel := fun m ρ _ => Cert.Kernel.Gen.frame m ρ

/-- The tiled program at the ideal values runs and leaves its arguments unchanged. -/
theorem frame_ki : Cert.frame_KernelIdeal := fun m ρ _ => Cert.KernelIdeal.Gen.frame m ρ

/-- The reference at the ideal values runs and leaves its arguments unchanged: its run's end state, less the two
    results it lists first. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

end Cert.Proof.Frames

end
-- ==== Proof.KernelRun.lean ====
/-
  The idealized tiled program's run with every buffer named.  Its `@main` is a chain of eight segments — a stretch of
  host operations, the bond-edge and the radius-edge tensor-product regions, a stretch (scatter-mean onto atoms and the
  residual), the atom-to-residue region, a stretch (scatter-mean onto residues, the residual, the gather along residue
  edges), the residue-edge region, and a last stretch (scatter-mean and residual) — and the contents of the TensorCore's
  buffers at each boundary are the fold `W0 … W8` of those segments over the launch memory.  Every weakly fair execution
  terminates, without a fault, with each unscoped buffer at its contents in `W8`; in particular the two results.
-/
import proofs.«130085_j37134287242037_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program terminates, nothing faulting, and every unscoped buffer of every
    TensorCore ends at its contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- The two results and any argument, read off `run_all`: a buffer that is not scoped is among the unscoped ones. -/
theorem run_results : θ_run defs (onTc (τ := τ) (main (F := F))) ⟨m, fun _ => 0, ρ⟩ (fun r => ∀ c : Dev nD,
      r.2.mem ((c.tc : Thread nD τ).loc main_v0_0) = W8 m ρ c (Proc.devRef .tc main_v0_0)
      ∧ r.2.mem ((c.tc : Thread nD τ).loc main_v0_1) = W8 m ρ c (Proc.devRef .tc main_v0_1)) :=
  (θ_run defs _ _).mono (fun r h c =>
    ⟨h c _ (mem_uc main_v0_0 (by decide)), h c _ (mem_uc main_v0_1 (by decide))⟩) (run_all m ρ)

end Cert.KernelIdeal.Whole

end
-- ==== Proof.PermGather.lean ====
/-
  The one-time change of column order, from feature-major to harmonic-major, read at an entry.

  The second layer of each edge perceptron has `9 * A` columns, one for every (harmonic `j`, feature `i`); so has its
  bias, and the output projection has as many rows.  They are given feature-major (position `i * 9 + j`) and are used
  harmonic-major (position `j * A + i`).  The change is a gather through a constant table `T` of `9 * A` integers with
  `T (j * A + i) = i * 9 + j`: the gathered array at position `p` is the operand at position `T p`, each start index being
  read as a signed integer and clamped into `[0, 9 * A − 1]` — here every entry of the table is already in that range, so
  the clamp is the identity.  The start indices are built from the table as "table + 9 * A where an always-false mask
  holds, else table", which is the table.  Hence, for `A = 64` (table of 576) and `A = 128` (table of 1152): the gathered
  columns, entries or rows at `j * A + i` are the operand's at `i * 9 + j`.
-/
import proofs.«130085_j37134287242037_2_alg».proof.KernelIdeal
import Idealize.ShloMosaic.Lib.ValueIdx
import Idealize.ShloMosaic.Lib.ValueLayout
import Idealize.ShloMosaic.Lib.Pipeline.Value

noncomputable section

namespace Cert.KernelIdeal.PermGather

open Idealize.ShloMosaic Idealize.ShloMosaic.ValueIdx

variable {α : Type}

/-! ## A gather of columns, of entries, of rows, read at an index -/

/-- The dimension numbers of `x[:, idx]` for an operand `[m, n]`, start indices `[n, 1]` and result `[m, n]`. -/
abbrev colsDims (m n : Nat) (wf : GatherDims.WF ⟨2, ![m, n]⟩ ⟨2, ![n, 1]⟩ ⟨2, ![m, n]⟩ [0] [1] [] [1] [] 1 ![m, 1]) :
    GatherDims ⟨2, ![m, n]⟩ ⟨2, ![n, 1]⟩ ⟨2, ![m, n]⟩ where
  offsetDims := [0]
  collapsedSliceDims := [1]
  operandBatchingDims := []
  startIndicesBatchingDims := []
  startIndexMap := [1]
  indexVectorDim := 1
  sliceSizes := ![m, 1]
  wf := wf

/-- Column `c` of the gathered array is the operand's column `idx[c, 0]`, read signed and clamped into `[0, n − 1]`. -/
theorem gather_cols_apply {m n w : Nat} (hn : 0 < n)
    (wf : GatherDims.WF ⟨2, ![m, n]⟩ ⟨2, ![n, 1]⟩ ⟨2, ![m, n]⟩ [0] [1] [] [1] [] 1 ![m, 1])
    (x : (⟨2, ![m, n]⟩ : Shape).Idx → α) (idx : IVec ⟨2, ![n, 1]⟩ w) (g : Fin m) (c : Fin n) :
    Host.gather (colsDims m n wf) x idx (ix2 g c)
      = x (ix2 g ⟨min (idx (ix2 c (0 : Fin 1))).toInt.toNat (n - 1), by omega⟩) := by
  unfold Host.gather
  congr 1
  funext a
  refine Fin.ext ?_
  match a with
  | ⟨0, _⟩ =>
    show (colsDims m n wf).start (ix2 g c) idx 0 + (colsDims m n wf).batchCoord (ix2 g c) 0
      + (colsDims m n wf).offCoord (ix2 g c) 0 = g.val
    rw [GatherDims.batchCoord_eq_zero _ _ _ List.not_mem_nil]
    unfold GatherDims.start
    rw [dif_neg (show ¬(0 : Fin 2) ∈ (colsDims m n wf).startIndexMap from (by decide : ¬(0 : Fin 2) ∈ ([1] : List (Fin 2))))]
    unfold GatherDims.offCoord
    rw [dif_pos ((GatherDims.mem_sKept _ _).mpr ⟨(by decide : ¬(0 : Fin 2) ∈ ([1] : List (Fin 2))), List.not_mem_nil⟩)]
    simp only [Nat.zero_add, Nat.add_zero]
    rfl
  | ⟨1, _⟩ =>
    show (colsDims m n wf).start (ix2 g c) idx 1 + (colsDims m n wf).batchCoord (ix2 g c) 1
      + (colsDims m n wf).offCoord (ix2 g c) 1 = min (idx (ix2 c (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims m n wf).startIndexMap from List.mem_singleton.mpr rfl)]
    have hsi : (colsDims m n wf).siIdx (ix2 g c) ⟨List.idxOf (1 : Fin 2) (colsDims m n wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl

/-- The dimension numbers of `x[idx]` for an operand `[n]`, start indices `[n, 1]` and result `[n]`. -/
abbrev vecDims (n : Nat) (wf : GatherDims.WF ⟨1, ![n]⟩ ⟨2, ![n, 1]⟩ ⟨1, ![n]⟩ [] [0] [] [0] [] 1 ![1]) :
    GatherDims ⟨1, ![n]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- Entry `c` of the gathered vector is the operand's entry `idx[c, 0]`, read signed and clamped into `[0, n − 1]`. -/
theorem gather_vec_apply {n w : Nat} (hn : 0 < n)
    (wf : GatherDims.WF ⟨1, ![n]⟩ ⟨2, ![n, 1]⟩ ⟨1, ![n]⟩ [] [0] [] [0] [] 1 ![1])
    (x : (⟨1, ![n]⟩ : Shape).Idx → α) (idx : IVec ⟨2, ![n, 1]⟩ w) (c : Fin n) :
    Host.gather (vecDims n wf) x idx (ix1 c)
      = x (ix1 ⟨min (idx (ix2 c (0 : Fin 1))).toInt.toNat (n - 1), by omega⟩) := by
  unfold Host.gather
  congr 1
  funext a
  obtain rfl : a = 0 := Subsingleton.elim _ _
  refine Fin.ext ?_
  show (vecDims n wf).start (ix1 c) idx 0 + (vecDims n wf).batchCoord (ix1 c) 0 + (vecDims n wf).offCoord (ix1 c) 0
    = min (idx (ix2 c (0 : Fin 1))).toInt.toNat (n - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims n wf).startIndexMap from List.mem_singleton.mpr rfl)]
  have hsi : (vecDims n wf).siIdx (ix1 c) ⟨List.idxOf (0 : Fin 1) (vecDims n wf).startIndexMap,
      List.idxOf_lt_length_iff.2 (List.mem_singleton.mpr rfl)⟩ = ix2 c (0 : Fin 1) := by
    funext b; refine Fin.ext ?_
    match b with
    | ⟨0, _⟩ => rfl
    | ⟨1, _⟩ => rfl
  rw [hsi]
  rfl

/-- The dimension numbers of `x[idx, :]` for an operand `[n, k]`, start indices `[n, 1]` and result `[n, k]`. -/
abbrev rowsDims (n k : Nat) (wf : GatherDims.WF ⟨2, ![n, k]⟩ ⟨2, ![n, 1]⟩ ⟨2, ![n, k]⟩ [1] [0] [] [0] [] 1 ![1, k]) :
    GatherDims ⟨2, ![n, k]⟩ ⟨2, ![n, 1]⟩ ⟨2, ![n, k]⟩ where
  offsetDims := [1]
  collapsedSliceDims := [0]
  operandBatchingDims := []
  startIndicesBatchingDims := []
  startIndexMap := [0]
  indexVectorDim := 1
  sliceSizes := ![1, k]
  wf := wf

/-- Row `c` of the gathered array is the operand's row `idx[c, 0]`, read signed and clamped into `[0, n − 1]`. -/
theorem gather_rows_apply {n k w : Nat} (hn : 0 < n)
    (wf : GatherDims.WF ⟨2, ![n, k]⟩ ⟨2, ![n, 1]⟩ ⟨2, ![n, k]⟩ [1] [0] [] [0] [] 1 ![1, k])
    (x : (⟨2, ![n, k]⟩ : Shape).Idx → α) (idx : IVec ⟨2, ![n, 1]⟩ w) (c : Fin n) (o : Fin k) :
    Host.gather (rowsDims n k wf) x idx (ix2 c o)
      = x (ix2 ⟨min (idx (ix2 c (0 : Fin 1))).toInt.toNat (n - 1), by omega⟩ o) := by
  unfold Host.gather
  congr 1
  funext a
  refine Fin.ext ?_
  match a with
  | ⟨0, _⟩ =>
    show (rowsDims n k wf).start (ix2 c o) idx 0 + (rowsDims n k wf).batchCoord (ix2 c o) 0
      + (rowsDims n k wf).offCoord (ix2 c o) 0 = min (idx (ix2 c (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n k wf).startIndexMap from List.mem_singleton.mpr rfl)]
    have hsi : (rowsDims n k wf).siIdx (ix2 c o) ⟨List.idxOf (0 : Fin 2) (rowsDims n k wf).startIndexMap,
        List.idxOf_lt_length_iff.2 (List.mem_singleton.mpr rfl)⟩ = ix2 c (0 : Fin 1) := by
      funext b; refine Fin.ext ?_
      match b with
      | ⟨0, _⟩ => rfl
      | ⟨1, _⟩ => rfl
    rw [hsi]
    rfl
  | ⟨1, _⟩ =>
    show (rowsDims n k wf).start (ix2 c o) idx 1 + (rowsDims n k wf).batchCoord (ix2 c o) 1
      + (rowsDims n k wf).offCoord (ix2 c o) 1 = o.val
    rw [GatherDims.batchCoord_eq_zero _ _ _ List.not_mem_nil]
    unfold GatherDims.start
    rw [dif_neg (show ¬(1 : Fin 2) ∈ (rowsDims n k wf).startIndexMap from (by decide : ¬(1 : Fin 2) ∈ ([0] : List (Fin 2))))]
    unfold GatherDims.offCoord
    rw [dif_pos ((GatherDims.mem_sKept _ _).mpr ⟨(by decide : ¬(1 : Fin 2) ∈ ([0] : List (Fin 2))), List.not_mem_nil⟩)]
    simp only [Nat.zero_add, Nat.add_zero]
    rfl

/-! ## The two constant index tables -/

/-- The 576-entry table sends position `j * 64 + i` (harmonic `j`, feature `i`) to `i * 9 + j`. -/
theorem lit0_closed : ∀ p : Fin 576, (lit0 p).toInt.toNat = (p.val % 64) * 9 + p.val / 64 := by decide +kernel

/-- The 1152-entry table sends position `j * 128 + i` (harmonic `j`, feature `i`) to `i * 9 + j`. -/
theorem lit1_closed : ∀ p : Fin 1152, (lit1 p).toInt.toNat = (p.val % 128) * 9 + p.val / 128 := by decide +kernel

variable [Cert.KernelIdeal.Facts₀]

open Cert.KernelIdeal.Facts₀

/-- The start indices of the 576-wide gathers, as the host program builds them from the table: the table plus 576 where
    an always-false mask holds, the table elsewhere, as one column. -/
abbrev permIdx576 : IVec S576x1 32 :=
  broadcastInDim S576x1 ![0] bcast_S576_S576x1_0
    (select (constantI S576 1 0#1)
      (addi (fun i => lit0 (S576.rowMajor i)) (broadcastInDim S576 ![] bcast_S_S576 (constantI S_ 32 576#32)))
      (fun i => lit0 (S576.rowMajor i)))

/-- The start indices of the 1152-wide gathers, built the same way from the second table. -/
abbrev permIdx1152 : IVec S1152x1 32 :=
  broadcastInDim S1152x1 ![0] bcast_S1152_S1152x1_0
    (select (constantI S1152 1 0#1)
      (addi (fun i => lit1 (S1152.rowMajor i)) (broadcastInDim S1152 ![] bcast_S_S1152 (constantI S_ 32 1152#32)))
      (fun i => lit1 (S1152.rowMajor i)))

/-- The mask is false everywhere, so the start index at row `p` is the table's entry `p`. -/
theorem permIdx576_apply (p : Fin 576) : permIdx576 (ix2 p (0 : Fin 1)) = lit0 p := by
  refine (broadcastInDim_apply ![0] bcast_S576_S576x1_0 _ (ix2 p (0 : Fin 1)) (ix1 p) (fun a => by
    obtain rfl : a = 0 := Subsingleton.elim _ _
    exact (if_neg (by decide : ¬(576 : ℕ) = 1)).symm)).trans ?_
  rw [select_apply, constantI_apply, select_zero]
  show lit0 (S576.rowMajor (ix1 p)) = lit0 p
  exact congrArg lit0 (Fin.ext (Shape.rowMajor_val_one _))

theorem permIdx1152_apply (p : Fin 1152) : permIdx1152 (ix2 p (0 : Fin 1)) = lit1 p := by
  refine (broadcastInDim_apply ![0] bcast_S1152_S1152x1_0 _ (ix2 p (0 : Fin 1)) (ix1 p) (fun a => by
    obtain rfl : a = 0 := Subsingleton.elim _ _
    exact (if_neg (by decide : ¬(1152 : ℕ) = 1)).symm)).trans ?_
  rw [select_apply, constantI_apply, select_zero]
  show lit1 (S1152.rowMajor (ix1 p)) = lit1 p
  exact congrArg lit1 (Fin.ext (Shape.rowMajor_val_one _))

/-- The start index of position `j * 64 + i`, read signed and clamped into the table's range, is `i * 9 + j`. -/
theorem start576 (j : Fin 9) (i : Fin 64) (h : j.val * 64 + i.val < 576) :
    min (permIdx576 (ix2 (⟨j.val * 64 + i.val, h⟩ : Fin 576) (0 : Fin 1))).toInt.toNat (576 - 1) = i.val * 9 + j.val := by
  have hi := i.isLt
  have hj := j.isLt
  rw [permIdx576_apply, lit0_closed]
  have e : (j.val * 64 + i.val) % 64 * 9 + (j.val * 64 + i.val) / 64 = i.val * 9 + j.val := by omega
  show min ((j.val * 64 + i.val) % 64 * 9 + (j.val * 64 + i.val) / 64) (576 - 1) = i.val * 9 + j.val
  rw [e]
  exact Nat.min_eq_left (by omega)

theorem start1152 (j : Fin 9) (i : Fin 128) (h : j.val * 128 + i.val < 1152) :
    min (permIdx1152 (ix2 (⟨j.val * 128 + i.val, h⟩ : Fin 1152) (0 : Fin 1))).toInt.toNat (1152 - 1) = i.val * 9 + j.val := by
  have hi := i.isLt
  have hj := j.isLt
  rw [permIdx1152_apply, lit1_closed]
  have e : (j.val * 128 + i.val) % 128 * 9 + (j.val * 128 + i.val) / 128 = i.val * 9 + j.val := by omega
  show min ((j.val * 128 + i.val) % 128 * 9 + (j.val * 128 + i.val) / 128) (1152 - 1) = i.val * 9 + j.val
  rw [e]
  exact Nat.min_eq_left (by omega)

/-! ## The seven gathers: harmonic-major position `j * A + i` reads feature-major position `i * 9 + j` -/

theorem cols576 (x : S64x576.Idx → α) (g : Fin 64) (j : Fin 9) (i : Fin 64) :
    Host.gather gather_S64x576_S576x1_S64x576_0_1_n_n_1_1_641 x permIdx576
        (ix2 g (⟨j.val * 64 + i.val, by have := i.isLt; have := j.isLt; omega⟩ : Fin 576))
      = x (ix2 g (⟨i.val * 9 + j.val, by have := i.isLt; have := j.isLt; omega⟩ : Fin 576)) := by
  refine (gather_cols_apply (m := 64) (n := 576) (by omega) gather_S64x576_S576x1_S64x576_0_1_n_n_1_1_641_wf x permIdx576 g _).trans ?_
  exact congrArg (fun c => x (ix2 g c)) (Fin.ext (start576 j i _))

theorem vec576 (x : S576.Idx → α) (j : Fin 9) (i : Fin 64) :
    Host.gather gather_S576_S576x1_S576_n_0_n_n_0_1_1 x permIdx576
        (ix1 (⟨j.val * 64 + i.val, by have := i.isLt; have := j.isLt; omega⟩ : Fin 576))
      = x (ix1 (⟨i.val * 9 + j.val, by have := i.isLt; have := j.isLt; omega⟩ : Fin 576)) := by
  refine (gather_vec_apply (n := 576) (by omega) gather_S576_S576x1_S576_n_0_n_n_0_1_1_wf x permIdx576 _).trans ?_
  exact congrArg (fun c => x (ix1 c)) (Fin.ext (start576 j i _))

theorem rows576x64 (x : S576x64.Idx → α) (j : Fin 9) (i : Fin 64) (o : Fin 64) :
    Host.gather gather_S576x64_S576x1_S576x64_1_0_n_n_0_1_164 x permIdx576
        (ix2 (⟨j.val * 64 + i.val, by have := i.isLt; have := j.isLt; omega⟩ : Fin 576) o)
      = x (ix2 (⟨i.val * 9 + j.val, by have := i.isLt; have := j.isLt; omega⟩ : Fin 576) o) := by
  refine (gather_rows_apply (n := 576) (k := 64) (by omega) gather_S576x64_S576x1_S576x64_1_0_n_n_0_1_164_wf x permIdx576 _ o).trans ?_
  exact congrArg (fun c => x (ix2 c o)) (Fin.ext (start576 j i _))

theorem rows576x128 (x : S576x128.Idx → α) (j : Fin 9) (i : Fin 64) (o : Fin 128) :
    Host.gather gather_S576x128_S576x1_S576x128_1_0_n_n_0_1_1128 x permIdx576
        (ix2 (⟨j.val * 64 + i.val, by have := i.isLt; have := j.isLt; omega⟩ : Fin 576) o)
      = x (ix2 (⟨i.val * 9 + j.val, by have := i.isLt; have := j.isLt; omega⟩ : Fin 576) o) := by
  refine (gather_rows_apply (n := 576) (k := 128) (by omega) gather_S576x128_S576x1_S576x128_1_0_n_n_0_1_1128_wf x permIdx576 _ o).trans ?_
  exact congrArg (fun c => x (ix2 c o)) (Fin.ext (start576 j i _))

theorem cols1152 (x : S128x1152.Idx → α) (g : Fin 128) (j : Fin 9) (i : Fin 128) :
    Host.gather gather_S128x1152_S1152x1_S128x1152_0_1_n_n_1_1_1281 x permIdx1152
        (ix2 g (⟨j.val * 128 + i.val, by have := i.isLt; have := j.isLt; omega⟩ : Fin 1152))
      = x (ix2 g (⟨i.val * 9 + j.val, by have := i.isLt; have := j.isLt; omega⟩ : Fin 1152)) := by
  refine (gather_cols_apply (m := 128) (n := 1152) (by omega) gather_S128x1152_S1152x1_S128x1152_0_1_n_n_1_1_1281_wf x permIdx1152 g _).trans ?_
  exact congrArg (fun c => x (ix2 g c)) (Fin.ext (start1152 j i _))

theorem vec1152 (x : S1152.Idx → α) (j : Fin 9) (i : Fin 128) :
    Host.gather gather_S1152_S1152x1_S1152_n_0_n_n_0_1_1 x permIdx1152
        (ix1 (⟨j.val * 128 + i.val, by have := i.isLt; have := j.isLt; omega⟩ : Fin 1152))
      = x (ix1 (⟨i.val * 9 + j.val, by have := i.isLt; have := j.isLt; omega⟩ : Fin 1152)) := by
  refine (gather_vec_apply (n := 1152) (by omega) gather_S1152_S1152x1_S1152_n_0_n_n_0_1_1_wf x permIdx1152 _).trans ?_
  exact congrArg (fun c => x (ix1 c)) (Fin.ext (start1152 j i _))

theorem rows1152x128 (x : S1152x128.Idx → α) (j : Fin 9) (i : Fin 128) (o : Fin 128) :
    Host.gather gather_S1152x128_S1152x1_S1152x128_1_0_n_n_0_1_1128 x permIdx1152
        (ix2 (⟨j.val * 128 + i.val, by have := i.isLt; have := j.isLt; omega⟩ : Fin 1152) o)
      = x (ix2 (⟨i.val * 9 + j.val, by have := i.isLt; have := j.isLt; omega⟩ : Fin 1152) o) := by
  refine (gather_rows_apply (n := 1152) (k := 128) (by omega) gather_S1152x128_S1152x1_S1152x128_1_0_n_n_0_1_1128_wf x permIdx1152 _ o).trans ?_
  exact congrArg (fun c => x (ix2 c o)) (Fin.ext (start1152 j i _))

end Cert.KernelIdeal.PermGather

end
-- ==== Proof.HostA.lean ====
/-
  What the tiled program's first stretch of host operations leaves in the buffers its regions read.  The stretch
  reshapes the four first-layer biases into one-row arrays; permutes the columns of the second layers, of their biases
  and the rows of the projections from feature-major to harmonic-major order by gathers along constant index arrays;
  gathers the source atoms' features along the atom graph's edges and cuts the gathered rows, the harmonics and the
  destination indices into the bond edges' first `65536` rows and the radius edges' remaining `393216`.  It writes no
  argument.  Each buffer is stated as a term of the launch memory's argument arrays; where the reference computes the
  same array, in the reference's own name for it.
-/
import proofs.«130085_j37134287242037_2_alg».proof.Proof.Gen.KernelIdeal.Frame
import proofs.«130085_j37134287242037_2_alg».proof.Proof.Gen.ReferenceIdeal.Read
import proofs.«130085_j37134287242037_2_alg».proof.Proof.PermGather
import Idealize.ShloMosaic.Lib.StableHlo.Run
import Idealize.ShloMosaic.Lib.ValueIdx

set_option maxRecDepth 16384

noncomputable section

namespace Cert.KernelIdeal.HostA

open Cert.KernelIdeal Cert.KernelIdeal.Gen Idealize.ShloMosaic
open Idealize.SL.Sem Idealize.ShloMosaic.TcCoe Idealize.ShloMosaic.StableHlo

variable (m : (ℓ : Loc nD τ sig) → Buf (Elt Ideal) ℓ) (ρ : Dev nD → PrngReg)

/-! ### The first-layer biases, reshaped to one row -/

set_option maxHeartbeats 2000000 in
theorem v59_eq (c : Dev nD) :
    W1 m ρ c (Proc.devRef .tc main_call0_v59)
      = shapeCast S1x64 (m ((c : Thread nD τ).loc main_arg13)) shapeCasts_S64_S1x64 := by
  show StableHlo.after hostOps0 (W0 m ρ c) (Proc.devRef .tc main_call0_v59) = _
  after_results_simp
  rfl

set_option maxHeartbeats 2000000 in
theorem v60_eq (c : Dev nD) :
    W1 m ρ c (Proc.devRef .tc main_call0_v60)
      = shapeCast S1x64 (m ((c : Thread nD τ).loc main_arg17)) shapeCasts_S64_S1x64 := by
  show StableHlo.after hostOps0 (W0 m ρ c) (Proc.devRef .tc main_call0_v60) = _
  after_results_simp
  rfl

set_option maxHeartbeats 2000000 in
theorem v61_eq (c : Dev nD) :
    W1 m ρ c (Proc.devRef .tc main_call0_v61)
      = shapeCast S1x64 (m ((c : Thread nD τ).loc main_arg22)) shapeCasts_S64_S1x64 := by
  show StableHlo.after hostOps0 (W0 m ρ c) (Proc.devRef .tc main_call0_v61) = _
  after_results_simp
  rfl

set_option maxHeartbeats 2000000 in
theorem v62_eq (c : Dev nD) :
    W1 m ρ c (Proc.devRef .tc main_call0_v62)
      = shapeCast S1x128 (m ((c : Thread nD τ).loc main_arg27)) shapeCasts_S128_S1x128 := by
  show StableHlo.after hostOps0 (W0 m ρ c) (Proc.devRef .tc main_call0_v62) = _
  after_results_simp
  rfl

/-! ### The stretch writes no argument -/

set_option maxHeartbeats 2000000 in
theorem arg0_eq (c : Dev nD) :
    W1 m ρ c (Proc.devRef .tc main_arg0) = m ((c : Thread nD τ).loc main_arg0) := by
  show StableHlo.after hostOps0 (W0 m ρ c) (Proc.devRef .tc main_arg0) = _
  after_results_simp <;> rfl

set_option maxHeartbeats 2000000 in
theorem arg1_eq (c : Dev nD) :
    W1 m ρ c (Proc.devRef .tc main_arg1) = m ((c : Thread nD τ).loc main_arg1) := by
  show StableHlo.after hostOps0 (W0 m ρ c) (Proc.devRef .tc main_arg1) = _
  after_results_simp <;> rfl

set_option maxHeartbeats 2000000 in
theorem arg3_eq (c : Dev nD) :
    W1 m ρ c (Proc.devRef .tc main_arg3) = m ((c : Thread nD τ).loc main_arg3) := by
  show StableHlo.after hostOps0 (W0 m ρ c) (Proc.devRef .tc main_arg3) = _
  after_results_simp <;> rfl

set_option maxHeartbeats 2000000 in
theorem arg4_eq (c : Dev nD) :
    W1 m ρ c (Proc.devRef .tc main_arg4) = m ((c : Thread nD τ).loc main_arg4) := by
  show StableHlo.after hostOps0 (W0 m ρ c) (Proc.devRef .tc main_arg4) = _
  after_results_simp <;> rfl

set_option maxHeartbeats 2000000 in
theorem arg6_eq (c : Dev nD) :
    W1 m ρ c (Proc.devRef .tc main_arg6) = m ((c : Thread nD τ).loc main_arg6) := by
  show StableHlo.after hostOps0 (W0 m ρ c) (Proc.devRef .tc main_arg6) = _
  after_results_simp <;> rfl

set_option maxHeartbeats 2000000 in
theorem arg7_eq (c : Dev nD) :
    W1 m ρ c (Proc.devRef .tc main_arg7) = m ((c : Thread nD τ).loc main_arg7) := by
  show StableHlo.after hostOps0 (W0 m ρ c) (Proc.devRef .tc main_arg7) = _
  after_results_simp <;> rfl

set_option maxHeartbeats 2000000 in
theorem arg8_eq (c : Dev nD) :
    W1 m ρ c (Proc.devRef .tc main_arg8) = m ((c : Thread nD τ).loc main_arg8) := by
  show StableHlo.after hostOps0 (W0 m ρ c) (Proc.devRef .tc main_arg8) = _
  after_results_simp <;> rfl

set_option maxHeartbeats 2000000 in
theorem arg9_eq (c : Dev nD) :
    W1 m ρ c (Proc.devRef .tc main_arg9) = m ((c : Thread nD τ).loc main_arg9) := by
  show StableHlo.after hostOps0 (W0 m ρ c) (Proc.devRef .tc main_arg9) = _
  after_results_simp <;> rfl

set_option maxHeartbeats 2000000 in
theorem arg10_eq (c : Dev nD) :
    W1 m ρ c (Proc.devRef .tc main_arg10) = m ((c : Thread nD τ).loc main_arg10) := by
  show StableHlo.after hostOps0 (W0 m ρ c) (Proc.devRef .tc main_arg10) = _
  after_results_simp <;> rfl

set_option maxHeartbeats 2000000 in
theorem arg11_eq (c : Dev nD) :
    W1 m ρ c (Proc.devRef .tc main_arg11) = m ((c : Thread nD τ).loc main_arg11) := by
  show StableHlo.after hostOps0 (W0 m ρ c) (Proc.devRef .tc main_arg11) = _
  after_results_simp <;> rfl

set_option maxHeartbeats 2000000 in
theorem arg12_eq (c : Dev nD) :
    W1 m ρ c (Proc.devRef .tc main_arg12) = m ((c : Thread nD τ).loc main_arg12) := by
  show StableHlo.after hostOps0 (W0 m ρ c) (Proc.devRef .tc main_arg12) = _
  after_results_simp <;> rfl

set_option maxHeartbeats 2000000 in
theorem arg16_eq (c : Dev nD) :
    W1 m ρ c (Proc.devRef .tc main_arg16) = m ((c : Thread nD τ).loc main_arg16) := by
  show StableHlo.after hostOps0 (W0 m ρ c) (Proc.devRef .tc main_arg16) = _
  after_results_simp <;> rfl

set_option maxHeartbeats 2000000 in
theorem arg21_eq (c : Dev nD) :
    W1 m ρ c (Proc.devRef .tc main_arg21) = m ((c : Thread nD τ).loc main_arg21) := by
  show StableHlo.after hostOps0 (W0 m ρ c) (Proc.devRef .tc main_arg21) = _
  after_results_simp <;> rfl

set_option maxHeartbeats 2000000 in
theorem arg26_eq (c : Dev nD) :
    W1 m ρ c (Proc.devRef .tc main_arg26) = m ((c : Thread nD τ).loc main_arg26) := by
  show StableHlo.after hostOps0 (W0 m ρ c) (Proc.devRef .tc main_arg26) = _
  after_results_simp <;> rfl

/-! ### The harmonics and the destination indices, cut into bond and radius edges -/

set_option maxHeartbeats 2000000 in
/-- The bond edges' harmonics: the first `65536` rows of the atom graph's. -/
theorem v76_eq (c : Dev nD) :
    W1 m ρ c (Proc.devRef .tc main_call0_v76)
      = extractStridedSlice S65536x9 ![0, 0] (m ((c : Thread nD τ).loc main_arg5)) slices_S458752x9_S65536x9_0_0 := by
  show StableHlo.after hostOps0 (W0 m ρ c) (Proc.devRef .tc main_call0_v76) = _
  after_results_simp <;> rfl

set_option maxHeartbeats 2000000 in
/-- The radius edges' harmonics: rows `65536 …` of the atom graph's. -/
theorem v77_eq (c : Dev nD) :
    W1 m ρ c (Proc.devRef .tc main_call0_v77)
      = extractStridedSlice S393216x9 ![65536, 0] (m ((c : Thread nD τ).loc main_arg5)) slices_S458752x9_S393216x9_65536_0 := by
  show StableHlo.after hostOps0 (W0 m ρ c) (Proc.devRef .tc main_call0_v77) = _
  after_results_simp <;> rfl

set_option maxHeartbeats 2000000 in
/-- The atom graph's destination indices are the reference's: the second row of the edge index array. -/
theorem v66_eq (c : Dev nD) :
    W1 m ρ c (Proc.devRef .tc main_call0_v66)
      = Cert.ReferenceIdeal.Read.val_main_v3 (F := Ideal) (m ((c : Thread nD τ).loc main_arg2)) := by
  show StableHlo.after hostOps0 (W0 m ρ c) (Proc.devRef .tc main_call0_v66) = _
  after_results_simp <;> rfl

set_option maxHeartbeats 2000000 in
/-- The bond edges' destinations: the first `65536` of them. -/
theorem v78_eq (c : Dev nD) :
    W1 m ρ c (Proc.devRef .tc main_call0_v78)
      = extractStridedSlice S65536 ![0] (Cert.ReferenceIdeal.Read.val_main_v3 (F := Ideal) (m ((c : Thread nD τ).loc main_arg2))) slices_S458752_S65536_0 := by
  show StableHlo.after hostOps0 (W0 m ρ c) (Proc.devRef .tc main_call0_v78) = _
  after_results_simp <;> rfl

set_option maxHeartbeats 2000000 in
/-- The radius edges' destinations: positions `65536 …`. -/
theorem v79_eq (c : Dev nD) :
    W1 m ρ c (Proc.devRef .tc main_call0_v79)
      = extractStridedSlice S393216 ![65536] (Cert.ReferenceIdeal.Read.val_main_v3 (F := Ideal) (m ((c : Thread nD τ).loc main_arg2))) slices_S458752_S393216_65536 := by
  show StableHlo.after hostOps0 (W0 m ρ c) (Proc.devRef .tc main_call0_v79) = _
  after_results_simp <;> rfl

/-! ### The gathered source features, cut into bond and radius edges -/

set_option maxHeartbeats 2000000 in
/-- The source atoms' features gathered along the atom graph's edges are the reference's gather. -/
theorem v73_eq (c : Dev nD) :
    W1 m ρ c (Proc.devRef .tc main_call0_v73)
      = Cert.ReferenceIdeal.Read.val_main_v29 (F := Ideal) (m ((c : Thread nD τ).loc main_arg0)) (m ((c : Thread nD τ).loc main_arg2)) := by
  show StableHlo.after hostOps0 (W0 m ρ c) (Proc.devRef .tc main_call0_v73) = _
  after_results_simp <;> rfl

set_option maxHeartbeats 2000000 in
/-- The bond edges' source features: the first `65536` rows of the gather. -/
theorem v74_eq (c : Dev nD) :
    W1 m ρ c (Proc.devRef .tc main_call0_v74)
      = extractStridedSlice S65536x64 ![0, 0] (Cert.ReferenceIdeal.Read.val_main_v29 (F := Ideal) (m ((c : Thread nD τ).loc main_arg0)) (m ((c : Thread nD τ).loc main_arg2))) slices_S458752x64_S65536x64_0_0 := by
  show StableHlo.after hostOps0 (W0 m ρ c) (Proc.devRef .tc main_call0_v74) = _
  after_results_simp <;> rfl

set_option maxHeartbeats 2000000 in
/-- The radius edges' source features: rows `65536 …` of the gather. -/
theorem v75_eq (c : Dev nD) :
    W1 m ρ c (Proc.devRef .tc main_call0_v75)
      = extractStridedSlice S393216x64 ![65536, 0] (Cert.ReferenceIdeal.Read.val_main_v29 (F := Ideal) (m ((c : Thread nD τ).loc main_arg0)) (m ((c : Thread nD τ).loc main_arg2))) slices_S458752x64_S393216x64_65536_0 := by
  show StableHlo.after hostOps0 (W0 m ρ c) (Proc.devRef .tc main_call0_v75) = _
  after_results_simp <;> rfl

/-! ### The second layers, their biases and the projections, permuted to harmonic-major order -/

set_option maxHeartbeats 2000000 in
/-- The bond perceptron's second layer, its columns permuted. -/
theorem v4_eq (c : Dev nD) :
    W1 m ρ c (Proc.devRef .tc main_call0_v4)
      = Host.gather gather_S64x576_S576x1_S64x576_0_1_n_n_1_1_641 (m ((c : Thread nD τ).loc main_arg14))
        Cert.KernelIdeal.PermGather.permIdx576 := by
  show StableHlo.after hostOps0 (W0 m ρ c) (Proc.devRef .tc main_call0_v4) = _
  after_results_simp <;> rfl

set_option maxHeartbeats 2000000 in
/-- The bond perceptron's second bias, permuted and reshaped to one row. -/
theorem v10_eq (c : Dev nD) :
    W1 m ρ c (Proc.devRef .tc main_call0_v10)
      = shapeCast S1x576
        (Host.gather gather_S576_S576x1_S576_n_0_n_n_0_1_1 (m ((c : Thread nD τ).loc main_arg15))
        Cert.KernelIdeal.PermGather.permIdx576)
        shapeCasts_S576_S1x576 := by
  show StableHlo.after hostOps0 (W0 m ρ c) (Proc.devRef .tc main_call0_v10) = _
  after_results_simp <;> rfl

set_option maxHeartbeats 2000000 in
/-- The radius perceptron's second layer, its columns permuted. -/
theorem v15_eq (c : Dev nD) :
    W1 m ρ c (Proc.devRef .tc main_call0_v15)
      = Host.gather gather_S64x576_S576x1_S64x576_0_1_n_n_1_1_641 (m ((c : Thread nD τ).loc main_arg18))
        Cert.KernelIdeal.PermGather.permIdx576 := by
  show StableHlo.after hostOps0 (W0 m ρ c) (Proc.devRef .tc main_call0_v15) = _
  after_results_simp <;> rfl

set_option maxHeartbeats 2000000 in
/-- The radius perceptron's second bias, permuted and reshaped to one row. -/
theorem v21_eq (c : Dev nD) :
    W1 m ρ c (Proc.devRef .tc main_call0_v21)
      = shapeCast S1x576
        (Host.gather gather_S576_S576x1_S576_n_0_n_n_0_1_1 (m ((c : Thread nD τ).loc main_arg19))
        Cert.KernelIdeal.PermGather.permIdx576)
        shapeCasts_S576_S1x576 := by
  show StableHlo.after hostOps0 (W0 m ρ c) (Proc.devRef .tc main_call0_v21) = _
  after_results_simp <;> rfl

set_option maxHeartbeats 2000000 in
/-- The aggregation perceptron's second layer, its columns permuted. -/
theorem v26_eq (c : Dev nD) :
    W1 m ρ c (Proc.devRef .tc main_call0_v26)
      = Host.gather gather_S64x576_S576x1_S64x576_0_1_n_n_1_1_641 (m ((c : Thread nD τ).loc main_arg23))
        Cert.KernelIdeal.PermGather.permIdx576 := by
  show StableHlo.after hostOps0 (W0 m ρ c) (Proc.devRef .tc main_call0_v26) = _
  after_results_simp <;> rfl

set_option maxHeartbeats 2000000 in
/-- The aggregation perceptron's second bias, permuted and reshaped to one row. -/
theorem v32_eq (c : Dev nD) :
    W1 m ρ c (Proc.devRef .tc main_call0_v32)
      = shapeCast S1x576
        (Host.gather gather_S576_S576x1_S576_n_0_n_n_0_1_1 (m ((c : Thread nD τ).loc main_arg24))
        Cert.KernelIdeal.PermGather.permIdx576)
        shapeCasts_S576_S1x576 := by
  show StableHlo.after hostOps0 (W0 m ρ c) (Proc.devRef .tc main_call0_v32) = _
  after_results_simp <;> rfl

set_option maxHeartbeats 2000000 in
/-- The residue perceptron's second layer, its columns permuted. -/
theorem v37_eq (c : Dev nD) :
    W1 m ρ c (Proc.devRef .tc main_call0_v37)
      = Host.gather gather_S128x1152_S1152x1_S128x1152_0_1_n_n_1_1_1281 (m ((c : Thread nD τ).loc main_arg28))
        Cert.KernelIdeal.PermGather.permIdx1152 := by
  show StableHlo.after hostOps0 (W0 m ρ c) (Proc.devRef .tc main_call0_v37) = _
  after_results_simp <;> rfl

set_option maxHeartbeats 2000000 in
/-- The residue perceptron's second bias, permuted and reshaped to one row. -/
theorem v43_eq (c : Dev nD) :
    W1 m ρ c (Proc.devRef .tc main_call0_v43)
      = shapeCast S1x1152
        (Host.gather gather_S1152_S1152x1_S1152_n_0_n_n_0_1_1 (m ((c : Thread nD τ).loc main_arg29))
        Cert.KernelIdeal.PermGather.permIdx1152)
        shapeCasts_S1152_S1x1152 := by
  show StableHlo.after hostOps0 (W0 m ρ c) (Proc.devRef .tc main_call0_v43) = _
  after_results_simp <;> rfl

set_option maxHeartbeats 2000000 in
/-- The atom graph's projection, its rows permuted. -/
theorem v48_eq (c : Dev nD) :
    W1 m ρ c (Proc.devRef .tc main_call0_v48)
      = Host.gather gather_S576x64_S576x1_S576x64_1_0_n_n_0_1_164 (m ((c : Thread nD τ).loc main_arg20))
        Cert.KernelIdeal.PermGather.permIdx576 := by
  show StableHlo.after hostOps0 (W0 m ρ c) (Proc.devRef .tc main_call0_v48) = _
  after_results_simp <;> rfl

set_option maxHeartbeats 2000000 in
/-- The aggregation's projection, its rows permuted. -/
theorem v53_eq (c : Dev nD) :
    W1 m ρ c (Proc.devRef .tc main_call0_v53)
      = Host.gather gather_S576x128_S576x1_S576x128_1_0_n_n_0_1_1128 (m ((c : Thread nD τ).loc main_arg25))
        Cert.KernelIdeal.PermGather.permIdx576 := by
  show StableHlo.after hostOps0 (W0 m ρ c) (Proc.devRef .tc main_call0_v53) = _
  after_results_simp <;> rfl

set_option maxHeartbeats 2000000 in
/-- The residue graph's projection, its rows permuted. -/
theorem v58_eq (c : Dev nD) :
    W1 m ρ c (Proc.devRef .tc main_call0_v58)
      = Host.gather gather_S1152x128_S1152x1_S1152x128_1_0_n_n_0_1_1128 (m ((c : Thread nD τ).loc main_arg30))
        Cert.KernelIdeal.PermGather.permIdx1152 := by
  show StableHlo.after hostOps0 (W0 m ρ c) (Proc.devRef .tc main_call0_v58) = _
  after_results_simp <;> rfl

end Cert.KernelIdeal.HostA

end
-- ==== Proof.MatmulAt.lean ====
/-
  Matrix products of the tiled program's bodies read at an entry.  At the ideal values a product into a zero accumulator
  has, at row `r` and column `c`, the sum over the contracted positions `k` of `A r k * B k c`: no rounding and no order
  of accumulation is left in it.  One statement per pair of shapes the bodies multiply.
-/
import proofs.«130085_j37134287242037_2_alg».proof.KernelIdeal
import Idealize.ShloMosaic.Lib.ValueIdx
import Idealize.ShloMosaic.PureOps.Ideal.Laws

noncomputable section

open scoped BigOperators

namespace Cert.KernelIdeal.MatmulAt

open Cert.KernelIdeal Idealize.ShloMosaic Idealize.ShloMosaic.ValueIdx

variable [Facts₀]

/-! ### `[2048, 64] × [64, 64]` -/

theorem lhs0_2048x64x64 (j : S2048x64.Idx) (q : dot_S2048x64_S64x64_S2048x64_1_0_0_1_n_n.contr.Idx) : (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch from List.not_mem_nil),
    dif_pos (show (0 : Fin S2048x64.rank) ∈ dot_S2048x64_S64x64_S2048x64_1_0_0_1_n_n.lhsNonContracting from List.mem_singleton.mpr rfl)]
  rfl
theorem lhs1_2048x64x64 (j : S2048x64.Idx) (q : dot_S2048x64_S64x64_S2048x64_1_0_0_1_n_n.contr.Idx) : (dot_S2048x64_S64x64_S2048x64_1_0_0_1_n_n.lhsIdx j q 1).val = (q ⟨0, Nat.one_pos⟩).val :=
  dot_S2048x64_S64x64_S2048x64_1_0_0_1_n_n.lhsIdx_val_of_single rfl j q
theorem rhs0_2048x64x64 (j : S2048x64.Idx) (q : dot_S2048x64_S64x64_S2048x64_1_0_0_1_n_n.contr.Idx) : (dot_S2048x64_S64x64_S2048x64_1_0_0_1_n_n.rhsIdx j q 0).val = (q ⟨0, Nat.one_pos⟩).val :=
  dot_S2048x64_S64x64_S2048x64_1_0_0_1_n_n.rhsIdx_val_of_single rfl j q
theorem rhs1_2048x64x64 (j : S2048x64.Idx) (q : dot_S2048x64_S64x64_S2048x64_1_0_0_1_n_n.contr.Idx) : (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch from List.not_mem_nil),
    dif_pos (show (1 : Fin S64x64.rank) ∈ dot_S2048x64_S64x64_S2048x64_1_0_0_1_n_n.rhsNonContracting from List.mem_singleton.mpr rfl)]
  rfl

/-- A `[2048, 64] × [64, 64]` product into a zero accumulator, at row `r` and column `c`: the sum over the 64
    contracted positions of the left row times the right column. -/
theorem at_2048x64x64 {φ₁ φ₂ : FTy} (A : FVec Ideal S2048x64 φ₁) (B : FVec Ideal S64x64 φ₂) (r : Fin 2048) (c : Fin 64) :
    matmul dot_S2048x64_S64x64_S2048x64_1_0_0_1_n_n none A B (constant S2048x64 .f32 0x00000000#32) (ix2 r c)
      = ∑ k : Fin 64, A (ix2 r k) * B (ix2 k c) := by
  simp only [matmul]
  rw [Ideal.matmul_constant_zero_apply, ← Equiv.sum_comp (ValueIdx.contrEquiv1 dot_S2048x64_S64x64_S2048x64_1_0_0_1_n_n 64 rfl rfl).symm]
  refine Finset.sum_congr rfl fun k _ => ?_
  have hk := ValueIdx.contrEquiv1_symm_val dot_S2048x64_S64x64_S2048x64_1_0_0_1_n_n 64 rfl rfl k
  have el : dot_S2048x64_S64x64_S2048x64_1_0_0_1_n_n.lhsIdx (ix2 r c) ((ValueIdx.contrEquiv1 dot_S2048x64_S64x64_S2048x64_1_0_0_1_n_n 64 rfl rfl).symm k) = ix2 r k :=
    funext fun a => Fin.ext (by
      match a with
      | ⟨0, _⟩ => exact lhs0_2048x64x64 _ _
      | ⟨1, _⟩ => exact (lhs1_2048x64x64 _ _).trans hk)
  have er : dot_S2048x64_S64x64_S2048x64_1_0_0_1_n_n.rhsIdx (ix2 r c) ((ValueIdx.contrEquiv1 dot_S2048x64_S64x64_S2048x64_1_0_0_1_n_n 64 rfl rfl).symm k) = ix2 k c :=
    funext fun a => Fin.ext (by
      match a with
      | ⟨0, _⟩ => exact (rhs0_2048x64x64 _ _).trans hk
      | ⟨1, _⟩ => exact rhs1_2048x64x64 _ _)
  rw [el, er]

/-! ### `[2048, 64] × [64, 128]` -/

theorem lhs0_2048x64x128 (j : S2048x128.Idx) (q : dot_S2048x64_S64x128_S2048x128_1_0_0_1_n_n.contr.Idx) : (dot_S2048x64_S64x128_S2048x128_1_0_0_1_n_n.lhsIdx j q 0).val = (j 0).val := by
  unfold DotDims.lhsIdx
  rw [dif_neg (show ¬(0 : Fin S2048x64.rank) ∈ dot_S2048x64_S64x128_S2048x128_1_0_0_1_n_n.lhsBatch from List.not_mem_nil),
    dif_pos (show (0 : Fin S2048x64.rank) ∈ dot_S2048x64_S64x128_S2048x128_1_0_0_1_n_n.lhsNonContracting from List.mem_singleton.mpr rfl)]
  rfl
theorem lhs1_2048x64x128 (j : S2048x128.Idx) (q : dot_S2048x64_S64x128_S2048x128_1_0_0_1_n_n.contr.Idx) : (dot_S2048x64_S64x128_S2048x128_1_0_0_1_n_n.lhsIdx j q 1).val = (q ⟨0, Nat.one_pos⟩).val :=
  dot_S2048x64_S64x128_S2048x128_1_0_0_1_n_n.lhsIdx_val_of_single rfl j q
theorem rhs0_2048x64x128 (j : S2048x128.Idx) (q : dot_S2048x64_S64x128_S2048x128_1_0_0_1_n_n.contr.Idx) : (dot_S2048x64_S64x128_S2048x128_1_0_0_1_n_n.rhsIdx j q 0).val = (q ⟨0, Nat.one_pos⟩).val :=
  dot_S2048x64_S64x128_S2048x128_1_0_0_1_n_n.rhsIdx_val_of_single rfl j q
theorem rhs1_2048x64x128 (j : S2048x128.Idx) (q : dot_S2048x64_S64x128_S2048x128_1_0_0_1_n_n.contr.Idx) : (dot_S2048x64_S64x128_S2048x128_1_0_0_1_n_n.rhsIdx j q 1).val = (j 1).val := by
  unfold DotDims.rhsIdx
  rw [dif_neg (show ¬(1 : Fin S64x128.rank) ∈ dot_S2048x64_S64x128_S2048x128_1_0_0_1_n_n.rhsBatch from List.not_mem_nil),
    dif_pos (show (1 : Fin S64x128.rank) ∈ dot_S2048x64_S64x128_S2048x128_1_0_0_1_n_n.rhsNonContracting from List.mem_singleton.mpr rfl)]
  rfl

/-- A `[2048, 64] × [64, 128]` product into a zero accumulator, at row `r` and column `c`: the sum over the 64
    contracted positions of the left row times the right column. -/
theorem at_2048x64x128 {φ₁ φ₂ : FTy} (A : FVec Ideal S2048x64 φ₁) (B : FVec Ideal S64x128 φ₂) (r : Fin 2048) (c : Fin 128) :
    matmul dot_S2048x64_S64x128_S2048x128_1_0_0_1_n_n none A B (constant S2048x128 .f32 0x00000000#32) (ix2 r c)
      = ∑ k : Fin 64, A (ix2 r k) * B (ix2 k c) := by
  simp only [matmul]
  rw [Ideal.matmul_constant_zero_apply, ← Equiv.sum_comp (ValueIdx.contrEquiv1 dot_S2048x64_S64x128_S2048x128_1_0_0_1_n_n 64 rfl rfl).symm]
  refine Finset.sum_congr rfl fun k _ => ?_
  have hk := ValueIdx.contrEquiv1_symm_val dot_S2048x64_S64x128_S2048x128_1_0_0_1_n_n 64 rfl rfl k
  have el : dot_S2048x64_S64x128_S2048x128_1_0_0_1_n_n.lhsIdx (ix2 r c) ((ValueIdx.contrEquiv1 dot_S2048x64_S64x128_S2048x128_1_0_0_1_n_n 64 rfl rfl).symm k) = ix2 r k :=
    funext fun a => Fin.ext (by
      match a with
      | ⟨0, _⟩ => exact lhs0_2048x64x128 _ _
      | ⟨1, _⟩ => exact (lhs1_2048x64x128 _ _).trans hk)
  have er : dot_S2048x64_S64x128_S2048x128_1_0_0_1_n_n.rhsIdx (ix2 r c) ((ValueIdx.contrEquiv1 dot_S2048x64_S64x128_S2048x128_1_0_0_1_n_n 64 rfl rfl).symm k) = ix2 k c :=
    funext fun a => Fin.ext (by
      match a with
      | ⟨0, _⟩ => exact (rhs0_2048x64x128 _ _).trans hk
      | ⟨1, _⟩ => exact rhs1_2048x64x128 _ _)
  rw [el, er]

/-! ### `[2048, 128] × [128, 64]` -/

theorem lhs0_2048x128x64 (j : S2048x64.Idx) (q : dot_S2048x128_S128x64_S2048x64_1_0_0_1_n_n.contr.Idx) : (dot_S2048x128_S128x64_S2048x64_1_0_0_1_n_n.lhsIdx j q 0).val = (j 0).val := by
  unfold DotDims.lhsIdx
  rw [dif_neg (show ¬(0 : Fin S2048x128.rank) ∈ dot_S2048x128_S128x64_S2048x64_1_0_0_1_n_n.lhsBatch from List.not_mem_nil),
    dif_pos (show (0 : Fin S2048x128.rank) ∈ dot_S2048x128_S128x64_S2048x64_1_0_0_1_n_n.lhsNonContracting from List.mem_singleton.mpr rfl)]
  rfl
theorem lhs1_2048x128x64 (j : S2048x64.Idx) (q : dot_S2048x128_S128x64_S2048x64_1_0_0_1_n_n.contr.Idx) : (dot_S2048x128_S128x64_S2048x64_1_0_0_1_n_n.lhsIdx j q 1).val = (q ⟨0, Nat.one_pos⟩).val :=
  dot_S2048x128_S128x64_S2048x64_1_0_0_1_n_n.lhsIdx_val_of_single rfl j q
theorem rhs0_2048x128x64 (j : S2048x64.Idx) (q : dot_S2048x128_S128x64_S2048x64_1_0_0_1_n_n.contr.Idx) : (dot_S2048x128_S128x64_S2048x64_1_0_0_1_n_n.rhsIdx j q 0).val = (q ⟨0, Nat.one_pos⟩).val :=
  dot_S2048x128_S128x64_S2048x64_1_0_0_1_n_n.rhsIdx_val_of_single rfl j q
theorem rhs1_2048x128x64 (j : S2048x64.Idx) (q : dot_S2048x128_S128x64_S2048x64_1_0_0_1_n_n.contr.Idx) : (dot_S2048x128_S128x64_S2048x64_1_0_0_1_n_n.rhsIdx j q 1).val = (j 1).val := by
  unfold DotDims.rhsIdx
  rw [dif_neg (show ¬(1 : Fin S128x64.rank) ∈ dot_S2048x128_S128x64_S2048x64_1_0_0_1_n_n.rhsBatch from List.not_mem_nil),
    dif_pos (show (1 : Fin S128x64.rank) ∈ dot_S2048x128_S128x64_S2048x64_1_0_0_1_n_n.rhsNonContracting from List.mem_singleton.mpr rfl)]
  rfl

/-- A `[2048, 128] × [128, 64]` product into a zero accumulator, at row `r` and column `c`: the sum over the 128
    contracted positions of the left row times the right column. -/
theorem at_2048x128x64 {φ₁ φ₂ : FTy} (A : FVec Ideal S2048x128 φ₁) (B : FVec Ideal S128x64 φ₂) (r : Fin 2048) (c : Fin 64) :
    matmul dot_S2048x128_S128x64_S2048x64_1_0_0_1_n_n none A B (constant S2048x64 .f32 0x00000000#32) (ix2 r c)
      = ∑ k : Fin 128, A (ix2 r k) * B (ix2 k c) := by
  simp only [matmul]
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r c) ((ValueIdx.contrEquiv1 dot_S2048x128_S128x64_S2048x64_1_0_0_1_n_n 128 rfl rfl).symm k) = ix2 r k :=
    funext fun a => Fin.ext (by
      match a with
      | ⟨0, _⟩ => exact lhs0_2048x128x64 _ _
      | ⟨1, _⟩ => exact (lhs1_2048x128x64 _ _).trans hk)
  have er : dot_S2048x128_S128x64_S2048x64_1_0_0_1_n_n.rhsIdx (ix2 r c) ((ValueIdx.contrEquiv1 dot_S2048x128_S128x64_S2048x64_1_0_0_1_n_n 128 rfl rfl).symm k) = ix2 k c :=
    funext fun a => Fin.ext (by
      match a with
      | ⟨0, _⟩ => exact (rhs0_2048x128x64 _ _).trans hk
      | ⟨1, _⟩ => exact rhs1_2048x128x64 _ _)
  rw [el, er]

/-! ### `[2048, 128] × [128, 128]` -/

theorem lhs0_2048x128x128 (j : S2048x128.Idx) (q : dot_S2048x128_S128x128_S2048x128_1_0_0_1_n_n.contr.Idx) : (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch from List.not_mem_nil),
    dif_pos (show (0 : Fin S2048x128.rank) ∈ dot_S2048x128_S128x128_S2048x128_1_0_0_1_n_n.lhsNonContracting from List.mem_singleton.mpr rfl)]
  rfl
theorem lhs1_2048x128x128 (j : S2048x128.Idx) (q : dot_S2048x128_S128x128_S2048x128_1_0_0_1_n_n.contr.Idx) : (dot_S2048x128_S128x128_S2048x128_1_0_0_1_n_n.lhsIdx j q 1).val = (q ⟨0, Nat.one_pos⟩).val :=
  dot_S2048x128_S128x128_S2048x128_1_0_0_1_n_n.lhsIdx_val_of_single rfl j q
theorem rhs0_2048x128x128 (j : S2048x128.Idx) (q : dot_S2048x128_S128x128_S2048x128_1_0_0_1_n_n.contr.Idx) : (dot_S2048x128_S128x128_S2048x128_1_0_0_1_n_n.rhsIdx j q 0).val = (q ⟨0, Nat.one_pos⟩).val :=
  dot_S2048x128_S128x128_S2048x128_1_0_0_1_n_n.rhsIdx_val_of_single rfl j q
theorem rhs1_2048x128x128 (j : S2048x128.Idx) (q : dot_S2048x128_S128x128_S2048x128_1_0_0_1_n_n.contr.Idx) : (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch from List.not_mem_nil),
    dif_pos (show (1 : Fin S128x128.rank) ∈ dot_S2048x128_S128x128_S2048x128_1_0_0_1_n_n.rhsNonContracting from List.mem_singleton.mpr rfl)]
  rfl

/-- A `[2048, 128] × [128, 128]` product into a zero accumulator, at row `r` and column `c`: the sum over the 128
    contracted positions of the left row times the right column. -/
theorem at_2048x128x128 {φ₁ φ₂ : FTy} (A : FVec Ideal S2048x128 φ₁) (B : FVec Ideal S128x128 φ₂) (r : Fin 2048) (c : Fin 128) :
    matmul dot_S2048x128_S128x128_S2048x128_1_0_0_1_n_n none A B (constant S2048x128 .f32 0x00000000#32) (ix2 r c)
      = ∑ k : Fin 128, A (ix2 r k) * B (ix2 k c) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r c) ((ValueIdx.contrEquiv1 dot_S2048x128_S128x128_S2048x128_1_0_0_1_n_n 128 rfl rfl).symm k) = ix2 r k :=
    funext fun a => Fin.ext (by
      match a with
      | ⟨0, _⟩ => exact lhs0_2048x128x128 _ _
      | ⟨1, _⟩ => exact (lhs1_2048x128x128 _ _).trans hk)
  have er : dot_S2048x128_S128x128_S2048x128_1_0_0_1_n_n.rhsIdx (ix2 r c) ((ValueIdx.contrEquiv1 dot_S2048x128_S128x128_S2048x128_1_0_0_1_n_n 128 rfl rfl).symm k) = ix2 k c :=
    funext fun a => Fin.ext (by
      match a with
      | ⟨0, _⟩ => exact (rhs0_2048x128x128 _ _).trans hk
      | ⟨1, _⟩ => exact rhs1_2048x128x128 _ _)
  rw [el, er]

/-! ### `[2048, 128] × [128, 256]` -/

theorem lhs0_2048x128x256 (j : S2048x256.Idx) (q : dot_S2048x128_S128x256_S2048x256_1_0_0_1_n_n.contr.Idx) : (dot_S2048x128_S128x256_S2048x256_1_0_0_1_n_n.lhsIdx j q 0).val = (j 0).val := by
  unfold DotDims.lhsIdx
  rw [dif_neg (show ¬(0 : Fin S2048x128.rank) ∈ dot_S2048x128_S128x256_S2048x256_1_0_0_1_n_n.lhsBatch from List.not_mem_nil),
    dif_pos (show (0 : Fin S2048x128.rank) ∈ dot_S2048x128_S128x256_S2048x256_1_0_0_1_n_n.lhsNonContracting from List.mem_singleton.mpr rfl)]
  rfl
theorem lhs1_2048x128x256 (j : S2048x256.Idx) (q : dot_S2048x128_S128x256_S2048x256_1_0_0_1_n_n.contr.Idx) : (dot_S2048x128_S128x256_S2048x256_1_0_0_1_n_n.lhsIdx j q 1).val = (q ⟨0, Nat.one_pos⟩).val :=
  dot_S2048x128_S128x256_S2048x256_1_0_0_1_n_n.lhsIdx_val_of_single rfl j q
theorem rhs0_2048x128x256 (j : S2048x256.Idx) (q : dot_S2048x128_S128x256_S2048x256_1_0_0_1_n_n.contr.Idx) : (dot_S2048x128_S128x256_S2048x256_1_0_0_1_n_n.rhsIdx j q 0).val = (q ⟨0, Nat.one_pos⟩).val :=
  dot_S2048x128_S128x256_S2048x256_1_0_0_1_n_n.rhsIdx_val_of_single rfl j q
theorem rhs1_2048x128x256 (j : S2048x256.Idx) (q : dot_S2048x128_S128x256_S2048x256_1_0_0_1_n_n.contr.Idx) : (dot_S2048x128_S128x256_S2048x256_1_0_0_1_n_n.rhsIdx j q 1).val = (j 1).val := by
  unfold DotDims.rhsIdx
  rw [dif_neg (show ¬(1 : Fin S128x256.rank) ∈ dot_S2048x128_S128x256_S2048x256_1_0_0_1_n_n.rhsBatch from List.not_mem_nil),
    dif_pos (show (1 : Fin S128x256.rank) ∈ dot_S2048x128_S128x256_S2048x256_1_0_0_1_n_n.rhsNonContracting from List.mem_singleton.mpr rfl)]
  rfl

/-- A `[2048, 128] × [128, 256]` product into a zero accumulator, at row `r` and column `c`: the sum over the 128
    contracted positions of the left row times the right column. -/
theorem at_2048x128x256 {φ₁ φ₂ : FTy} (A : FVec Ideal S2048x128 φ₁) (B : FVec Ideal S128x256 φ₂) (r : Fin 2048) (c : Fin 256) :
    matmul dot_S2048x128_S128x256_S2048x256_1_0_0_1_n_n none A B (constant S2048x256 .f32 0x00000000#32) (ix2 r c)
      = ∑ k : Fin 128, A (ix2 r k) * B (ix2 k c) := by
  simp only [matmul]
  rw [Ideal.matmul_constant_zero_apply, ← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 r c) ((ValueIdx.contrEquiv1 dot_S2048x128_S128x256_S2048x256_1_0_0_1_n_n 128 rfl rfl).symm k) = ix2 r k :=
    funext fun a => Fin.ext (by
      match a with
      | ⟨0, _⟩ => exact lhs0_2048x128x256 _ _
      | ⟨1, _⟩ => exact (lhs1_2048x128x256 _ _).trans hk)
  have er : dot_S2048x128_S128x256_S2048x256_1_0_0_1_n_n.rhsIdx (ix2 r c) ((ValueIdx.contrEquiv1 dot_S2048x128_S128x256_S2048x256_1_0_0_1_n_n 128 rfl rfl).symm k) = ix2 k c :=
    funext fun a => Fin.ext (by
      match a with
      | ⟨0, _⟩ => exact (rhs0_2048x128x256 _ _).trans hk
      | ⟨1, _⟩ => exact rhs1_2048x128x256 _ _)
  rw [el, er]

/-! ### `[2048, 256] × [256, 128]` -/

theorem lhs0_2048x256x128 (j : S2048x128.Idx) (q : dot_S2048x256_S256x128_S2048x128_1_0_0_1_n_n.contr.Idx) : (dot_S2048x256_S256x128_S2048x128_1_0_0_1_n_n.lhsIdx j q 0).val = (j 0).val := by
  unfold DotDims.lhsIdx
  rw [dif_neg (show ¬(0 : Fin S2048x256.rank) ∈ dot_S2048x256_S256x128_S2048x128_1_0_0_1_n_n.lhsBatch from List.not_mem_nil),
    dif_pos (show (0 : Fin S2048x256.rank) ∈ dot_S2048x256_S256x128_S2048x128_1_0_0_1_n_n.lhsNonContracting from List.mem_singleton.mpr rfl)]
  rfl
theorem lhs1_2048x256x128 (j : S2048x128.Idx) (q : dot_S2048x256_S256x128_S2048x128_1_0_0_1_n_n.contr.Idx) : (dot_S2048x256_S256x128_S2048x128_1_0_0_1_n_n.lhsIdx j q 1).val = (q ⟨0, Nat.one_pos⟩).val :=
  dot_S2048x256_S256x128_S2048x128_1_0_0_1_n_n.lhsIdx_val_of_single rfl j q
theorem rhs0_2048x256x128 (j : S2048x128.Idx) (q : dot_S2048x256_S256x128_S2048x128_1_0_0_1_n_n.contr.Idx) : (dot_S2048x256_S256x128_S2048x128_1_0_0_1_n_n.rhsIdx j q 0).val = (q ⟨0, Nat.one_pos⟩).val :=
  dot_S2048x256_S256x128_S2048x128_1_0_0_1_n_n.rhsIdx_val_of_single rfl j q
theorem rhs1_2048x256x128 (j : S2048x128.Idx) (q : dot_S2048x256_S256x128_S2048x128_1_0_0_1_n_n.contr.Idx) : (dot_S2048x256_S256x128_S2048x128_1_0_0_1_n_n.rhsIdx j q 1).val = (j 1).val := by
  unfold DotDims.rhsIdx
  rw [dif_neg (show ¬(1 : Fin S256x128.rank) ∈ dot_S2048x256_S256x128_S2048x128_1_0_0_1_n_n.rhsBatch from List.not_mem_nil),
    dif_pos (show (1 : Fin S256x128.rank) ∈ dot_S2048x256_S256x128_S2048x128_1_0_0_1_n_n.rhsNonContracting from List.mem_singleton.mpr rfl)]
  rfl

/-- A `[2048, 256] × [256, 128]` product into a zero accumulator, at row `r` and column `c`: the sum over the 256
    contracted positions of the left row times the right column. -/
theorem at_2048x256x128 {φ₁ φ₂ : FTy} (A : FVec Ideal S2048x256 φ₁) (B : FVec Ideal S256x128 φ₂) (r : Fin 2048) (c : Fin 128) :
    matmul dot_S2048x256_S256x128_S2048x128_1_0_0_1_n_n none A B (constant S2048x128 .f32 0x00000000#32) (ix2 r c)
      = ∑ k : Fin 256, A (ix2 r k) * B (ix2 k c) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 r c) ((ValueIdx.contrEquiv1 dot_S2048x256_S256x128_S2048x128_1_0_0_1_n_n 256 rfl rfl).symm k) = ix2 r k :=
    funext fun a => Fin.ext (by
      match a with
      | ⟨0, _⟩ => exact lhs0_2048x256x128 _ _
      | ⟨1, _⟩ => exact (lhs1_2048x256x128 _ _).trans hk)
  have er : dot_S2048x256_S256x128_S2048x128_1_0_0_1_n_n.rhsIdx (ix2 r c) ((ValueIdx.contrEquiv1 dot_S2048x256_S256x128_S2048x128_1_0_0_1_n_n 256 rfl rfl).symm k) = ix2 k c :=
    funext fun a => Fin.ext (by
      match a with
      | ⟨0, _⟩ => exact (rhs0_2048x256x128 _ _).trans hk
      | ⟨1, _⟩ => exact rhs1_2048x256x128 _ _)
  rw [el, er]

end Cert.KernelIdeal.MatmulAt

end
-- ==== Proof.Layout2.lean ====
/-
  Layout operations of the tiled program's bodies read at an entry of a two-dimensional array: a unit-stride slice reads
  the operand shifted by the slice's offsets; one row broadcast over many rows reads that row; one column broadcast over
  many columns reads that column; two arrays joined side by side read the left one on the first columns and the right one,
  shifted, on the rest.
-/
import Idealize.ShloMosaic.Lib.Pipeline.Value
import Idealize.ShloMosaic.Lib.ValueIdx
import Idealize.ShloMosaic.Lib.ValueLayout

noncomputable section

namespace Cert.Layout2

open Idealize.ShloMosaic Idealize.ShloMosaic.ValueIdx

variable {α : Type}

/-- A slice at offsets `(o0, o1)` read at `(r, q)` is the operand at `(o0 + r, o1 + q)`. -/
theorem slice_apply {m n m' n' : ℕ} (o0 o1 : ℕ) (x : (⟨2, ![m, n]⟩ : Shape).Idx → α)
    (h : (⟨2, ![m, n]⟩ : Shape).Slices ![o0, o1] ⟨2, ![m', n']⟩) (r : Fin m') (q : Fin n')
    (hr : o0 + r.val < m) (hq : o1 + q.val < n) :
    extractStridedSlice ⟨2, ![m', n']⟩ ![o0, o1] x h (ix2 r q) = x (ix2 ⟨o0 + r.val, hr⟩ ⟨o1 + q.val, hq⟩) :=
  extractStridedSlice_apply ![o0, o1] x h (ix2 r q) (ix2 ⟨o0 + r.val, hr⟩ ⟨o1 + q.val, hq⟩) fun a =>
    match a with
    | ⟨0, _⟩ => rfl
    | ⟨1, _⟩ => rfl

/-- A slice of columns `o1 …` (all rows) read at `(r, q)` is the operand at `(r, o1 + q)`. -/
theorem slice_cols_apply {m n n' : ℕ} (o1 : ℕ) (x : (⟨2, ![m, n]⟩ : Shape).Idx → α)
    (h : (⟨2, ![m, n]⟩ : Shape).Slices ![0, o1] ⟨2, ![m, n']⟩) (r : Fin m) (q : Fin n') (hq : o1 + q.val < n) :
    extractStridedSlice ⟨2, ![m, n']⟩ ![0, o1] x h (ix2 r q) = x (ix2 r ⟨o1 + q.val, hq⟩) :=
  extractStridedSlice_apply ![0, o1] x h (ix2 r q) (ix2 r ⟨o1 + q.val, hq⟩) fun a =>
    match a with
    | ⟨0, _⟩ => (Nat.zero_add _).symm
    | ⟨1, _⟩ => rfl

/-- A slice of rows `o0 …` (all columns) read at `(r, q)` is the operand at `(o0 + r, q)`. -/
theorem slice_rows_apply {m n m' : ℕ} (o0 : ℕ) (x : (⟨2, ![m, n]⟩ : Shape).Idx → α)
    (h : (⟨2, ![m, n]⟩ : Shape).Slices ![o0, 0] ⟨2, ![m', n]⟩) (r : Fin m') (q : Fin n) (hr : o0 + r.val < m) :
    extractStridedSlice ⟨2, ![m', n]⟩ ![o0, 0] x h (ix2 r q) = x (ix2 ⟨o0 + r.val, hr⟩ q) :=
  extractStridedSlice_apply ![o0, 0] x h (ix2 r q) (ix2 ⟨o0 + r.val, hr⟩ q) fun a =>
    match a with
    | ⟨0, _⟩ => rfl
    | ⟨1, _⟩ => (Nat.zero_add _).symm

/-- One column `j` sliced out as an `[m, 1]` array, read at row `r`: the operand at `(r, j)`. -/
theorem slice_col_apply {m n : ℕ} (j : ℕ) (x : (⟨2, ![m, n]⟩ : Shape).Idx → α)
    (h : (⟨2, ![m, n]⟩ : Shape).Slices ![0, j] ⟨2, ![m, 1]⟩) (r : Fin m) (hj : j < n) :
    extractStridedSlice ⟨2, ![m, 1]⟩ ![0, j] x h (ix2 r (0 : Fin 1)) = x (ix2 r ⟨j, hj⟩) :=
  extractStridedSlice_apply ![0, j] x h (ix2 r (0 : Fin 1)) (ix2 r ⟨j, hj⟩) fun a =>
    match a with
    | ⟨0, _⟩ => (Nat.zero_add _).symm
    | ⟨1, _⟩ => (Nat.add_zero _).symm

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the columns, read at a column of the left one. -/
theorem concat_cols_left {m n1 n2 n : ℕ} (x₁ : (⟨2, ![m, n1]⟩ : Shape).Idx → α) (x₂ : (⟨2, ![m, n2]⟩ : Shape).Idx → α)
    (h : Shape.Concatenates [⟨2, ![m, n1]⟩, ⟨2, ![m, n2]⟩] ⟨2, ![m, n]⟩ 1) (r : Fin m) (q : Fin n) (hq : q.val < n1) :
    concatenate ⟨2, ![m, n]⟩ 1 [⟨⟨2, ![m, n1]⟩, x₁⟩, ⟨⟨2, ![m, n2]⟩, x₂⟩] h (ix2 r q) = x₁ (ix2 r ⟨q.val, hq⟩) :=
  concatenate_pair_apply_left 1 x₁ x₂ h (ix2 r q) rfl (ix2 r ⟨q.val, hq⟩) fun b =>
    match b with
    | ⟨0, _⟩ => rfl
    | ⟨1, _⟩ => rfl

/-- Two arrays joined along the columns, read at a column of the right one. -/
theorem concat_cols_right {m n1 n2 n : ℕ} (x₁ : (⟨2, ![m, n1]⟩ : Shape).Idx → α) (x₂ : (⟨2, ![m, n2]⟩ : Shape).Idx → α)
    (h : Shape.Concatenates [⟨2, ![m, n1]⟩, ⟨2, ![m, n2]⟩] ⟨2, ![m, n]⟩ 1) (r : Fin m) (q : Fin n) (q' : Fin n2)
    (hq : q'.val + n1 = q.val) :
    concatenate ⟨2, ![m, n]⟩ 1 [⟨⟨2, ![m, n1]⟩, x₁⟩, ⟨⟨2, ![m, n2]⟩, x₂⟩] h (ix2 r q) = x₂ (ix2 r q') :=
  concatenate_pair_apply_right 1 x₁ x₂ h (ix2 r q) rfl rfl (ix2 r q')
    (fun b hb => match b, hb with
      | ⟨0, _⟩, _ => rfl
      | ⟨1, _⟩, hb => absurd rfl hb)
    hq

end Cert.Layout2

end
-- ==== Proof.SumLaws.lean ====
/-
  Finite-sum laws on the extended reals that the tensor-product identities rest on.  None needs finiteness: they use
  only that addition on the extended reals is commutative and associative.

  A per-edge weight vector of length `A * 9` is indexed in two ways.  The reference reads it in (feature, harmonic)
  order, position `i * 9 + j`; the tiled program permutes its columns once into (harmonic, feature) order, position
  `j * A + i`, so that each harmonic's `A` weights are contiguous.  The laws below turn a sum over all `A * 9`
  positions into a double sum over harmonics `j` and features `i`, in either order.
-/
import Mathlib.Data.EReal.Basic
import Mathlib.Algebra.BigOperators.Fin
import Mathlib.Logic.Equiv.Fin.Basic

noncomputable section

open scoped BigOperators

namespace Cert.SumLaws

/-- A sum over the `A * 9` positions of a row, read in (feature, harmonic) order: position `i * 9 + j` is feature `i`,
    harmonic `j`.  The double sum runs over harmonics first. -/
theorem sum_feature_major {A N : ℕ} (hN : N = A * 9) (g : Fin N → EReal) :
    ∑ k : Fin N, g k
      = ∑ j : Fin 9, ∑ i : Fin A, g ⟨i.val * 9 + j.val, by have := i.isLt; have := j.isLt; omega⟩ := by
  subst hN
  rw [← (Equiv.sum_comp (finProdFinEquiv (m := A) (n := 9)) g), Fintype.sum_prod_type, Finset.sum_comm]
  refine Finset.sum_congr rfl fun j _ => Finset.sum_congr rfl fun i _ => ?_
  refine congrArg g (Fin.ext ?_)
  show j.val + 9 * i.val = i.val * 9 + j.val
  omega

/-- The same row read in (harmonic, feature) order: position `j * A + i` is harmonic `j`, feature `i`. -/
theorem sum_harmonic_major {A N : ℕ} (hN : N = 9 * A) (g : Fin N → EReal) :
    ∑ k : Fin N, g k
      = ∑ j : Fin 9, ∑ i : Fin A, g ⟨j.val * A + i.val, by
          have hi := i.isLt; have hj := j.isLt
          have : j.val * A + i.val < (j.val + 1) * A := by rw [Nat.add_mul, Nat.one_mul]; omega
          exact lt_of_lt_of_le this (by rw [hN]; exact Nat.mul_le_mul_right A hj)⟩ := by
  subst hN
  rw [← (Equiv.sum_comp (finProdFinEquiv (m := 9) (n := A)) g), Fintype.sum_prod_type]
  refine Finset.sum_congr rfl fun j _ => Finset.sum_congr rfl fun i _ => ?_
  refine congrArg g (Fin.ext ?_)
  show i.val + A * j.val = j.val * A + i.val
  rw [Nat.mul_comm A j.val, Nat.add_comm]

/-- Nine harmonics taken two at a time with the ninth alone, accumulated from zero, are the sum over all nine. -/
theorem sum_nine_paired (t : Fin 9 → EReal) :
    ((((0 + (t 0 + t 1)) + (t 2 + t 3)) + (t 4 + t 5)) + (t 6 + t 7)) + t 8 = ∑ j : Fin 9, t j := by
  rw [Fin.sum_univ_castSucc, Fin.sum_univ_eight]
  show _ = t 0 + t 1 + t 2 + t 3 + t 4 + t 5 + t 6 + t 7 + t 8
  rw [zero_add]
  ac_rfl

end Cert.SumLaws

end
-- ==== Proof.Spec.lean ====
/-
  The tensor-product message of one edge, as a function of that edge's rows and of the layer's weights.

  An edge carries the `A` features `xs` of its source node, its `9` harmonics `sh`, and `H` edge features `feat`.  A
  two-layer perceptron turns the edge features into `9 * A` per-edge weights, one for every (harmonic `j`, feature `i`):
      `hidden g = max (∑ k, feat k * W1 k g + b1 g) 0`,   `edgeWeight j i = ∑ g, hidden g * W2 g j i + b2 j i`,
  and the message at one output channel, whose projection column is `U j i`, is
      `msgRow = ∑ j, ∑ i, ((xs i * edgeWeight j i) * sh j) * U j i`.
  The second layer, its bias and the projection are indexed here by the pair (harmonic, feature): a program that stores
  the `9 * A` columns feature-major reads column `i * 9 + j`, one that stores them harmonic-major reads `j * A + i`, and
  both instantiate the same function.
-/
import Mathlib.Data.EReal.Basic
import Mathlib.Algebra.BigOperators.Fin

noncomputable section

open scoped BigOperators

namespace Cert.Spec

/-- One unit of the hidden layer: the rectified affine image of the edge features. -/
def hidden {H : ℕ} (feat : Fin H → EReal) (W1 : Fin H → Fin H → EReal) (b1 : Fin H → EReal) (g : Fin H) : EReal :=
  max (∑ k : Fin H, feat k * W1 k g + b1 g) 0

/-- The per-edge weight for harmonic `j` and feature `i`. -/
def edgeWeight {A H : ℕ} (feat : Fin H → EReal) (W1 : Fin H → Fin H → EReal) (b1 : Fin H → EReal)
    (W2 : Fin H → Fin 9 → Fin A → EReal) (b2 : Fin 9 → Fin A → EReal) (j : Fin 9) (i : Fin A) : EReal :=
  ∑ g : Fin H, hidden feat W1 b1 g * W2 g j i + b2 j i

/-- The message of one edge at one output channel (`U` is that channel's column of the projection). -/
def msgRow {A H : ℕ} (xs : Fin A → EReal) (sh : Fin 9 → EReal) (feat : Fin H → EReal) (W1 : Fin H → Fin H → EReal)
    (b1 : Fin H → EReal) (W2 : Fin H → Fin 9 → Fin A → EReal) (b2 : Fin 9 → Fin A → EReal) (U : Fin 9 → Fin A → EReal) :
    EReal :=
  ∑ j : Fin 9, ∑ i : Fin A, ((xs i * edgeWeight feat W1 b1 W2 b2 j i) * sh j) * U j i

/-- The message depends on its eight arguments only through their values. -/
theorem msgRow_congr {A H : ℕ} {xs xs' : Fin A → EReal} {sh sh' : Fin 9 → EReal} {feat feat' : Fin H → EReal}
    {W1 W1' : Fin H → Fin H → EReal} {b1 b1' : Fin H → EReal} {W2 W2' : Fin H → Fin 9 → Fin A → EReal}
    {b2 b2' : Fin 9 → Fin A → EReal} {U U' : Fin 9 → Fin A → EReal}
    (h0 : ∀ i, xs i = xs' i) (h1 : ∀ j, sh j = sh' j) (h2 : ∀ k, feat k = feat' k) (h3 : ∀ k g, W1 k g = W1' k g)
    (h4 : ∀ g, b1 g = b1' g) (h5 : ∀ g j i, W2 g j i = W2' g j i) (h6 : ∀ j i, b2 j i = b2' j i)
    (h7 : ∀ j i, U j i = U' j i) :
    msgRow xs sh feat W1 b1 W2 b2 U = msgRow xs' sh' feat' W1' b1' W2' b2' U' := by
  obtain rfl : xs = xs' := funext h0
  obtain rfl : sh = sh' := funext h1
  obtain rfl : feat = feat' := funext h2
  obtain rfl : W1 = W1' := funext fun k => funext (h3 k)
  obtain rfl : b1 = b1' := funext h4
  obtain rfl : W2 = W2' := funext fun g => funext fun j => funext (h5 g j)
  obtain rfl : b2 = b2' := funext fun j => funext (h6 j)
  obtain rfl : U = U' := funext fun j => funext (h7 j)
  rfl

end Cert.Spec

end
-- ==== Proof.LibSplitSum.lean ====
/-
  General extended-real facts used by the tensor-product identities.  None needs finiteness: they use only that addition on the
  extended reals is commutative and associative, that a sum over 128 indices is the sum over the first 64 plus the sum
  over the last 64, and that dividing by a number that is at least one is multiplying by its reciprocal.
-/
import Idealize.ShloMosaic.PureOps.Ideal
import Idealize.ShloMosaic.PureOps.Ideal.Laws
import Idealize.ShloMosaic.Lib.IdealHost

noncomputable section

open scoped BigOperators

namespace Cert.LibSplitSum

open Idealize.ShloMosaic

/-- For a divisor `M ≥ 1` (so `M ≠ 0`), multiplying by `1 / M` is dividing by `M`, at every extended real. -/
theorem mul_recip_eq_div (s M : EReal) (hM : (1 : EReal) ≤ M) : s * Ideal.div 1 M = Ideal.div s M := by
  have h01 : (0 : EReal) < 1 := by exact_mod_cast (zero_lt_one : (0 : ℝ) < 1)
  have h0 : M ≠ 0 := (lt_of_lt_of_le h01 hM).ne'
  unfold Ideal.div
  rw [if_neg h0, if_neg h0, one_mul]

/-- A sum over 128 indices splits into the sums over the first and the last 64. -/
theorem sum_fin128 (f : Fin 128 → EReal) :
    ∑ k : Fin 128, f k = ∑ k : Fin 64, f ⟨k.val, by omega⟩ + ∑ k : Fin 64, f ⟨64 + k.val, by omega⟩ :=
  Fin.sum_univ_add (a := 64) (b := 64) f

/-- The clamp to an interval does not depend on which bound is applied first. -/
theorem clamp_comm (x lo hi : EReal) (h : lo ≤ hi) : min hi (max lo x) = max lo (min hi x) := by
  rcases le_total x lo with hx | hx
  · rw [max_eq_left hx, min_eq_right h, min_eq_right (hx.trans h), max_eq_left hx]
  · rw [max_eq_right hx]
    rcases le_total x hi with hy | hy
    · rw [min_eq_right hy, max_eq_right hx]
    · rw [min_eq_left hy, max_eq_right h]

end Cert.LibSplitSum

end
-- ==== Proof.BondBody.lean ====
/-
  The bond-edge tensor-product body at the ideal values, one entry at a time.

  A tile holds 2048 edges.  For an edge `r`: `feat r` are its 64 edge features, `xs r` the 64 features of its source
  atom, `sh r` its 9 harmonics.  The body computes a hidden layer `hid r g = max (∑ k, feat r k * W1 k g + b1 g) 0`, then
  per-edge weights `w r c = ∑ g, hid r g * W2 g c + b2 c` over 576 columns `c` laid out harmonic by harmonic (column
  `j * 64 + i` is harmonic `j`, feature `i`), and the message
      `msg r o = ∑ j, ∑ i, ((xs r i * w r (j * 64 + i)) * sh r j) * U (j * 64 + i) o`.
  It does so two harmonics at a time — one 128-column chunk of `w`, the two 64-column terms joined side by side, one
  product with the matching 128 rows of `U` — accumulating from zero, with the ninth harmonic alone.  Changes of float
  format are the identity here.
-/
import proofs.«130085_j37134287242037_2_alg».proof.Proof.Gen.KernelIdeal.Frame
import proofs.«130085_j37134287242037_2_alg».proof.Proof.MatmulAt
import proofs.«130085_j37134287242037_2_alg».proof.Proof.Layout2
import proofs.«130085_j37134287242037_2_alg».proof.Proof.SumLaws
import proofs.«130085_j37134287242037_2_alg».proof.Proof.Spec
import proofs.«130085_j37134287242037_2_alg».proof.Proof.LibSplitSum
import Idealize.ShloMosaic.Lib.ValueLayout

noncomputable section

open scoped BigOperators

namespace Cert.KernelIdeal.BondBody

open Cert.KernelIdeal Cert.KernelIdeal.Gen Idealize.ShloMosaic Idealize.ShloMosaic.ValueIdx Cert.Layout2 Cert.KernelIdeal.MatmulAt

/-- The zero offsets of a whole two-dimensional block. -/
theorem hz2 : (![0, 0] : Fin 2 → ℕ) = fun _ => 0 :=
  funext fun a => match a with | ⟨0, _⟩ => rfl | ⟨1, _⟩ => rfl

/-! ## The hidden layer -/

/-- The hidden layer at edge `r`, unit `g`: the rectified affine image of the edge's features. -/
theorem hidden_apply (v0 : Vec Ideal S2048x64 .f32) (v2 : Vec Ideal S64x64 .f32) (v5 : Vec Ideal S1x64 .f32)
    (r : Fin 2048) (g : Fin 64) :
    k0_pay2 (F := Ideal) v0 v2 v5 (ix2 r g)
      = max (∑ k : Fin 64, v0 (ix2 r k) * v2 (ix2 k g) + v5 (ix2 (0 : Fin 1) g)) 0 := by
  unfold k0_pay2
  simp only [truncf_apply, maximumf_apply, addf_apply, broadcast_apply]
  rw [at_2048x64x64, shapeCast_self, broadcastTo_1b_ab_apply]
  simp only [truncf_apply, Ideal.ofBits_def, Ideal.ofBits_zero_f32]

/-! ## One pair of harmonics -/

/-- A 128-column chunk of the per-edge weights: the hidden layer times 128 columns of the second layer, plus their bias. -/
def chunk128 (h : FVec Ideal S2048x64 .bf16) (Wc : FVec Ideal S64x128 .bf16) (bc : FVec Ideal S1x128 .f32) :
    FVec Ideal S2048x128 .f32 :=
  addf (matmul dot_S2048x64_S64x128_S2048x128_1_0_0_1_n_n none h Wc (constant S2048x128 .f32 0x00000000#32))
    (broadcastTo S2048x128 bc broadcasts_S1x128_S2048x128)

theorem chunk128_apply (h : FVec Ideal S2048x64 .bf16) (Wc : FVec Ideal S64x128 .bf16) (bc : FVec Ideal S1x128 .f32)
    (r : Fin 2048) (q : Fin 128) :
    chunk128 h Wc bc (ix2 r q) = ∑ g : Fin 64, h (ix2 r g) * Wc (ix2 g q) + bc (ix2 (0 : Fin 1) q) := by
  unfold chunk128
  rw [addf_apply, at_2048x64x128, broadcastTo_1b_ab_apply]

/-- The two 64-column terms of a pair of harmonics, joined side by side: source features times the chunk's left half
    times the first harmonic, and times its right half times the second. -/
def pairTerm (xs : FVec Ideal S2048x64 .f32) (w : FVec Ideal S2048x128 .f32) (s0 s1 : FVec Ideal S2048x1 .f32) :
    FVec Ideal S2048x128 .bf16 :=
  truncf .bf16 (concatenate S2048x128 1
    [⟨S2048x64, mulf (mulf xs (extractStridedSlice S2048x64 ![0, 0] w slices_S2048x128_o0_0_S2048x64))
        (broadcastTo S2048x64 s0 broadcasts_S2048x1_S2048x64)⟩,
     ⟨S2048x64, mulf (mulf xs (extractStridedSlice S2048x64 ![0, 64] w slices_S2048x128_o0_64_S2048x64))
        (broadcastTo S2048x64 s1 broadcasts_S2048x1_S2048x64)⟩]
    concatenates_S2048x64_S2048x64_S2048x128_d1) bitsLt_bf16_f32

theorem pairTerm_left (xs : FVec Ideal S2048x64 .f32) (w : FVec Ideal S2048x128 .f32) (s0 s1 : FVec Ideal S2048x1 .f32)
    (r : Fin 2048) (i : Fin 64) :
    pairTerm xs w s0 s1 (ix2 r ⟨i.val, by have := i.isLt; omega⟩)
      = (xs (ix2 r i) * w (ix2 r ⟨i.val, by have := i.isLt; omega⟩)) * s0 (ix2 r (0 : Fin 1)) := by
  unfold pairTerm
  rw [truncf_apply, concat_cols_left (m := 2048) (n1 := 64) (n2 := 64) (n := 128) _ _ _ r ⟨i.val, by have := i.isLt; omega⟩ i.isLt,
    mulf_apply, mulf_apply,
    slice_cols_apply 0 w _ r ⟨i.val, i.isLt⟩ (by have := i.isLt; show 0 + i.val < 128; omega), broadcastTo_a1_ab_apply]
  simp only [Nat.zero_add, Fin.eta]

theorem pairTerm_right (xs : FVec Ideal S2048x64 .f32) (w : FVec Ideal S2048x128 .f32) (s0 s1 : FVec Ideal S2048x1 .f32)
    (r : Fin 2048) (i : Fin 64) :
    pairTerm xs w s0 s1 (ix2 r ⟨64 + i.val, by have := i.isLt; omega⟩)
      = (xs (ix2 r i) * w (ix2 r ⟨64 + i.val, by have := i.isLt; omega⟩)) * s1 (ix2 r (0 : Fin 1)) := by
  unfold pairTerm
  rw [truncf_apply, concat_cols_right (m := 2048) (n1 := 64) (n2 := 64) (n := 128) _ _ _ r ⟨64 + i.val, by have := i.isLt; omega⟩ i
      (Nat.add_comm _ _), mulf_apply, mulf_apply, slice_cols_apply 64 w _ r i (by have := i.isLt; show 64 + i.val < 128; omega), broadcastTo_a1_ab_apply]

/-- A pair's product with 128 rows of the output projection, split into its two halves of 64. -/
def pairOut (t : FVec Ideal S2048x128 .bf16) (Uc : FVec Ideal S128x64 .bf16) : FVec Ideal S2048x64 .f32 :=
  matmul dot_S2048x128_S128x64_S2048x64_1_0_0_1_n_n none t Uc (constant S2048x64 .f32 0x00000000#32)

theorem pairOut_apply (t : FVec Ideal S2048x128 .bf16) (Uc : FVec Ideal S128x64 .bf16) (r : Fin 2048) (o : Fin 64) :
    pairOut t Uc (ix2 r o)
      = ∑ i : Fin 64, t (ix2 r ⟨i.val, by have := i.isLt; omega⟩) * Uc (ix2 ⟨i.val, by have := i.isLt; omega⟩ o)
        + ∑ i : Fin 64, t (ix2 r ⟨64 + i.val, by have := i.isLt; omega⟩) * Uc (ix2 ⟨64 + i.val, by have := i.isLt; omega⟩ o) := by
  unfold pairOut
  rw [at_2048x128x64]
  exact Cert.LibSplitSum.sum_fin128 _

/-! ## The per-edge weights and one summand of the message -/

/-- The per-edge weight of edge `r` at column `c` of the (harmonic-major) second layer. -/
def wcol (h : FVec Ideal S2048x64 .bf16) (W2 : FVec Ideal S64x576 .bf16) (b2 : FVec Ideal S1x576 .f32)
    (r : Fin 2048) (c : Fin 576) : EReal :=
  ∑ g : Fin 64, h (ix2 r g) * W2 (ix2 g c) + b2 (ix2 (0 : Fin 1) c)

/-- The summand of the message of edge `r`, output `o`, for harmonic `j` and feature `i`, at column `c`. -/
def summand (h : FVec Ideal S2048x64 .bf16) (W2 : FVec Ideal S64x576 .bf16) (b2 : FVec Ideal S1x576 .f32)
    (U : FVec Ideal S576x64 .bf16) (xs : FVec Ideal S2048x64 .f32) (sh : FVec Ideal S2048x9 .f32)
    (r : Fin 2048) (o : Fin 64) (j : Fin 9) (c : Fin 576) (i : Fin 64) : EReal :=
  ((xs (ix2 r i) * wcol h W2 b2 r c) * sh (ix2 r j)) * U (ix2 c o)

theorem chunk_slice_apply (h : FVec Ideal S2048x64 .bf16) (W2 : FVec Ideal S64x576 .bf16) (b2 : FVec Ideal S1x576 .f32)
    (c0 : ℕ) (hW : S64x576.Slices ![0, c0] S64x128) (hb : S1x576.Slices ![0, c0] S1x128) (r : Fin 2048) (q : Fin 128)
    (hq : c0 + q.val < 576) :
    chunk128 h (extractStridedSlice S64x128 ![0, c0] W2 hW) (extractStridedSlice S1x128 ![0, c0] b2 hb) (ix2 r q)
      = wcol h W2 b2 r ⟨c0 + q.val, hq⟩ := by
  unfold wcol
  rw [chunk128_apply, slice_cols_apply c0 b2 hb (0 : Fin 1) q hq]
  refine congrArg (· + _) (Finset.sum_congr rfl fun g _ => ?_)
  rw [slice_cols_apply c0 W2 hW g q hq]

/-- A whole pair of harmonics `j0`, `j1 = j0 + 1`, whose columns start at `c0 = j0 * 64`. -/
def pairGroup (h : FVec Ideal S2048x64 .bf16) (W2 : FVec Ideal S64x576 .bf16) (b2 : FVec Ideal S1x576 .f32)
    (U : FVec Ideal S576x64 .bf16) (xs : FVec Ideal S2048x64 .f32) (sh : FVec Ideal S2048x9 .f32) (c0 j0 j1 : ℕ)
    (hW : S64x576.Slices ![0, c0] S64x128) (hb : S1x576.Slices ![0, c0] S1x128) (hU : S576x64.Slices ![c0, 0] S128x64)
    (hs0 : S2048x9.Slices ![0, j0] S2048x1) (hs1 : S2048x9.Slices ![0, j1] S2048x1) : FVec Ideal S2048x64 .f32 :=
  pairOut
    (pairTerm xs (chunk128 h (extractStridedSlice S64x128 ![0, c0] W2 hW) (extractStridedSlice S1x128 ![0, c0] b2 hb))
      (extractStridedSlice S2048x1 ![0, j0] sh hs0) (extractStridedSlice S2048x1 ![0, j1] sh hs1))
    (extractStridedSlice S128x64 ![c0, 0] U hU)

theorem pairGroup_apply (h : FVec Ideal S2048x64 .bf16) (W2 : FVec Ideal S64x576 .bf16) (b2 : FVec Ideal S1x576 .f32)
    (U : FVec Ideal S576x64 .bf16) (xs : FVec Ideal S2048x64 .f32) (sh : FVec Ideal S2048x9 .f32) (c0 j0 j1 : ℕ)
    (hW : S64x576.Slices ![0, c0] S64x128) (hb : S1x576.Slices ![0, c0] S1x128) (hU : S576x64.Slices ![c0, 0] S128x64)
    (hs0 : S2048x9.Slices ![0, j0] S2048x1) (hs1 : S2048x9.Slices ![0, j1] S2048x1)
    (hc : c0 = j0 * 64) (hj : j1 = j0 + 1) (hj1 : j1 < 9) (r : Fin 2048) (o : Fin 64) :
    pairGroup h W2 b2 U xs sh c0 j0 j1 hW hb hU hs0 hs1 (ix2 r o)
      = ∑ i : Fin 64, summand h W2 b2 U xs sh r o ⟨j0, by omega⟩ ⟨j0 * 64 + i.val, by have := i.isLt; omega⟩ i
        + ∑ i : Fin 64, summand h W2 b2 U xs sh r o ⟨j1, hj1⟩ ⟨j1 * 64 + i.val, by have := i.isLt; omega⟩ i := by
  subst hc hj
  unfold pairGroup
  rw [pairOut_apply]
  refine congrArg₂ (· + ·) (Finset.sum_congr rfl fun i _ => ?_) (Finset.sum_congr rfl fun i _ => ?_)
  · have hi := i.isLt
    rw [pairTerm_left, chunk_slice_apply h W2 b2 _ hW hb r ⟨i.val, by omega⟩ (by show j0 * 64 + i.val < 576; omega),
      slice_col_apply j0 sh hs0 r (by omega), slice_rows_apply _ U hU ⟨i.val, by omega⟩ o (by show j0 * 64 + i.val < 576; omega)]
    rfl
  · have hi := i.isLt
    rw [pairTerm_right, chunk_slice_apply h W2 b2 _ hW hb r ⟨64 + i.val, by omega⟩ (by show j0 * 64 + (64 + i.val) < 576; omega),
      slice_col_apply (j0 + 1) sh hs1 r hj1,
      slice_rows_apply _ U hU ⟨64 + i.val, by omega⟩ o (by show j0 * 64 + (64 + i.val) < 576; omega)]
    unfold summand
    have e : (⟨j0 * 64 + (64 + i.val), by omega⟩ : Fin 576) = ⟨(j0 + 1) * 64 + i.val, by omega⟩ :=
      Fin.ext (by show j0 * 64 + (64 + i.val) = (j0 + 1) * 64 + i.val; omega)
    simp only [e]

/-! ## The ninth harmonic, alone -/

/-- The last harmonic has no partner: a 64-column chunk, one term, one product with the last 64 rows of the projection. -/
def lastGroup (h : FVec Ideal S2048x64 .bf16) (W2 : FVec Ideal S64x576 .bf16) (b2 : FVec Ideal S1x576 .f32)
    (U : FVec Ideal S576x64 .bf16) (xs : FVec Ideal S2048x64 .f32) (sh : FVec Ideal S2048x9 .f32) : FVec Ideal S2048x64 .f32 :=
  matmul dot_S2048x64_S64x64_S2048x64_1_0_0_1_n_n none
    (truncf .bf16
      (mulf
        (mulf xs
          (addf
            (matmul dot_S2048x64_S64x64_S2048x64_1_0_0_1_n_n none h
              (extractStridedSlice S64x64 ![0, 512] W2 slices_S64x576_o0_512_S64x64) (constant S2048x64 .f32 0x00000000#32))
            (broadcastTo S2048x64 (extractStridedSlice S1x64 ![0, 512] b2 slices_S1x576_o0_512_S1x64) broadcasts_S1x64_S2048x64)))
        (broadcastTo S2048x64 (extractStridedSlice S2048x1 ![0, 8] sh slices_S2048x9_o0_8_S2048x1) broadcasts_S2048x1_S2048x64))
      bitsLt_bf16_f32)
    (extractStridedSlice S64x64 ![512, 0] U slices_S576x64_o512_0_S64x64) (constant S2048x64 .f32 0x00000000#32)

theorem lastGroup_apply (h : FVec Ideal S2048x64 .bf16) (W2 : FVec Ideal S64x576 .bf16) (b2 : FVec Ideal S1x576 .f32)
    (U : FVec Ideal S576x64 .bf16) (xs : FVec Ideal S2048x64 .f32) (sh : FVec Ideal S2048x9 .f32) (r : Fin 2048) (o : Fin 64) :
    lastGroup h W2 b2 U xs sh (ix2 r o)
      = ∑ i : Fin 64, summand h W2 b2 U xs sh r o ⟨8, by omega⟩ ⟨8 * 64 + i.val, by have := i.isLt; omega⟩ i := by
  unfold lastGroup
  rw [at_2048x64x64]
  refine Finset.sum_congr rfl fun i _ => ?_
  have hi := i.isLt
  have e1 : ∑ g : Fin 64, h (ix2 r g) * extractStridedSlice S64x64 ![0, 512] W2 slices_S64x576_o0_512_S64x64 (ix2 g i)
      = ∑ g : Fin 64, h (ix2 r g) * W2 (ix2 g ⟨512 + i.val, by omega⟩) :=
    Finset.sum_congr rfl fun g _ => by rw [slice_cols_apply 512 W2 _ g i (by omega)]
  rw [truncf_apply, mulf_apply, mulf_apply, addf_apply, at_2048x64x64, e1, broadcastTo_1b_ab_apply, broadcastTo_a1_ab_apply,
    slice_cols_apply 512 b2 _ (0 : Fin 1) i (by omega), slice_col_apply 8 sh _ r (by omega),
    slice_rows_apply 512 U _ i o (by omega)]
  rfl

/-! ## The whole body -/

/-- The body: five groups — four pairs of harmonics and the ninth alone — accumulated from zero. -/
def body (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x64 .f32) : FVec Ideal S2048x64 .f32 :=
  addf (addf (addf (addf (addf (k0_pay8 (F := Ideal))
      (pairGroup (k0_pay2 x2 x3 x4) (k0_pay3 x5) (k0_pay4 x6) (k0_pay5 x7) (k0_pay6 x0) (k0_pay7 x1) 0 0 1
        slices_S64x576_o0_0_S64x128 slices_S1x576_o0_0_S1x128 slices_S576x64_o0_0_S128x64
        slices_S2048x9_o0_0_S2048x1 slices_S2048x9_o0_1_S2048x1))
      (pairGroup (k0_pay2 x2 x3 x4) (k0_pay3 x5) (k0_pay4 x6) (k0_pay5 x7) (k0_pay6 x0) (k0_pay7 x1) 128 2 3
        slices_S64x576_o0_128_S64x128 slices_S1x576_o0_128_S1x128 slices_S576x64_o128_0_S128x64
        slices_S2048x9_o0_2_S2048x1 slices_S2048x9_o0_3_S2048x1))
      (pairGroup (k0_pay2 x2 x3 x4) (k0_pay3 x5) (k0_pay4 x6) (k0_pay5 x7) (k0_pay6 x0) (k0_pay7 x1) 256 4 5
        slices_S64x576_o0_256_S64x128 slices_S1x576_o0_256_S1x128 slices_S576x64_o256_0_S128x64
        slices_S2048x9_o0_4_S2048x1 slices_S2048x9_o0_5_S2048x1))
      (pairGroup (k0_pay2 x2 x3 x4) (k0_pay3 x5) (k0_pay4 x6) (k0_pay5 x7) (k0_pay6 x0) (k0_pay7 x1) 384 6 7
        slices_S64x576_o0_384_S64x128 slices_S1x576_o0_384_S1x128 slices_S576x64_o384_0_S128x64
        slices_S2048x9_o0_6_S2048x1 slices_S2048x9_o0_7_S2048x1))
    (lastGroup (k0_pay2 x2 x3 x4) (k0_pay3 x5) (k0_pay4 x6) (k0_pay5 x7) (k0_pay6 x0) (k0_pay7 x1))

/-- What the body leaves in the output block is `body` of the input blocks: the one store covers the block, the loads
    read whole blocks, and the stored value is the body's arithmetic, grouped. -/
theorem out_eq_body (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x64 .f32) :
    out0_8 x0 x1 x2 x3 x4 x5 x6 x7 = body x0 x1 x2 x3 x4 x5 x6 x7 := by
  unfold out0_8
  rw [View.canon_unit_zero hz2]
  simp only [View.ld_unit_zero (S := S2048x64) hz2, View.ld_unit_zero (S := S64x64) hz2, View.ld_unit_zero (S := S1x64) hz2,
    View.ld_unit_zero (S := S64x576) hz2, View.ld_unit_zero (S := S1x576) hz2, View.ld_unit_zero (S := S576x64) hz2,
    View.ld_unit_zero (S := S2048x9) hz2]
  rfl

theorem zeros_apply (i : S2048x64.Idx) : k0_pay8 (F := Ideal) i = 0 := by
  unfold k0_pay8
  simp only [broadcast_apply, Scalar.ofBits, Ideal.ofBits_def, Ideal.ofBits_zero_f32]

/-- The message of edge `r` at output `o` as the double sum over harmonics and features, in terms of the body's loaded
    values (each a change of format of an input block). -/
theorem body_apply (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x64 .f32) (r : Fin 2048) (o : Fin 64) :
    body x0 x1 x2 x3 x4 x5 x6 x7 (ix2 r o)
      = ∑ j : Fin 9, ∑ i : Fin 64,
          summand (k0_pay2 x2 x3 x4) (k0_pay3 x5) (k0_pay4 x6) (k0_pay5 x7) (k0_pay6 x0) (k0_pay7 x1) r o j
            ⟨j.val * 64 + i.val, by have := i.isLt; have := j.isLt; omega⟩ i := by
  unfold body
  rw [addf_apply, addf_apply, addf_apply, addf_apply, addf_apply, zeros_apply,
    pairGroup_apply _ _ _ _ _ _ 0 0 1 _ _ _ _ _ rfl rfl (by omega),
    pairGroup_apply _ _ _ _ _ _ 128 2 3 _ _ _ _ _ rfl rfl (by omega),
    pairGroup_apply _ _ _ _ _ _ 256 4 5 _ _ _ _ _ rfl rfl (by omega),
    pairGroup_apply _ _ _ _ _ _ 384 6 7 _ _ _ _ _ rfl rfl (by omega), lastGroup_apply]
  exact Cert.SumLaws.sum_nine_paired (fun j : Fin 9 => ∑ i : Fin 64,
    summand (k0_pay2 x2 x3 x4) (k0_pay3 x5) (k0_pay4 x6) (k0_pay5 x7) (k0_pay6 x0) (k0_pay7 x1) r o j
      ⟨j.val * 64 + i.val, by have := i.isLt; have := j.isLt; omega⟩ i)

/-! ## The message in row form -/

theorem pay3_apply (x5 : Vec Ideal S64x576 .f32) (i : S64x576.Idx) : k0_pay3 (F := Ideal) x5 i = x5 i := by
  unfold k0_pay3; rw [truncf_apply, shapeCast_self]
theorem pay4_apply (x6 : Vec Ideal S1x576 .f32) (i : S1x576.Idx) : k0_pay4 (F := Ideal) x6 i = x6 i := by
  unfold k0_pay4; rw [shapeCast_self]
theorem pay5_apply (x7 : Vec Ideal S576x64 .f32) (i : S576x64.Idx) : k0_pay5 (F := Ideal) x7 i = x7 i := by
  unfold k0_pay5; rw [truncf_apply, shapeCast_self]
theorem pay6_apply (x0 : Vec Ideal S2048x64 .f32) (i : S2048x64.Idx) : k0_pay6 (F := Ideal) x0 i = x0 i := by
  unfold k0_pay6; rw [shapeCast_self]
theorem pay7_apply (x1 : Vec Ideal S2048x9 .f32) (i : S2048x9.Idx) : k0_pay7 (F := Ideal) x1 i = x1 i := by
  unfold k0_pay7; rw [shapeCast_self]

/-- What the body leaves at row `r`, channel `o` of the output block is the message of that row's edge: source features,
    harmonics and edge features are row `r` of the first three blocks, and column `j * 64 + i` of the second layer, of its
    bias and of the projection is (harmonic `j`, feature `i`). -/
theorem out_row (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x64 .f32) (r : Fin 2048) (o : Fin 64) :
    out0_8 x0 x1 x2 x3 x4 x5 x6 x7 (ix2 r o)
      = Cert.Spec.msgRow (fun i : Fin 64 => x0 (ix2 r i)) (fun j : Fin 9 => x1 (ix2 r j)) (fun k : Fin 64 => x2 (ix2 r k))
          (fun k g : Fin 64 => x3 (ix2 k g)) (fun g : Fin 64 => x4 (ix2 (0 : Fin 1) g))
          (fun (g : Fin 64) (j : Fin 9) (i : Fin 64) => x5 (ix2 g ⟨j.val * 64 + i.val, by have := i.isLt; have := j.isLt; omega⟩))
          (fun (j : Fin 9) (i : Fin 64) => x6 (ix2 (0 : Fin 1) ⟨j.val * 64 + i.val, by have := i.isLt; have := j.isLt; omega⟩))
          (fun (j : Fin 9) (i : Fin 64) => x7 (ix2 ⟨j.val * 64 + i.val, by have := i.isLt; have := j.isLt; omega⟩ o)) := by
  rw [out_eq_body, body_apply]
  unfold Cert.Spec.msgRow Cert.Spec.edgeWeight Cert.Spec.hidden summand wcol
  refine Finset.sum_congr rfl fun j _ => Finset.sum_congr rfl fun i _ => ?_
  rw [pay6_apply, pay4_apply, pay7_apply, pay5_apply]
  refine congrArg (fun z => ((x0 (ix2 r i) * (z + _)) * _) * _) (Finset.sum_congr rfl fun g _ => ?_)
  rw [hidden_apply, pay3_apply]

end Cert.KernelIdeal.BondBody

end
-- ==== Proof.BondArr.lean ====
/-
  The bond-edge region's output array: one message per bond edge.
  The region walks the 65536 edges in 32 tiles of 2048: at tile `t` the first three windows hold rows
  `2048 t … 2048 t + 2047` of the source features, the harmonics and the edge features, the five weight windows hold
  their whole arrays, and the body leaves, in row `r` of the output block, the message of edge `2048 t + r`.  The tiles
  cover every row exactly, so after the region the output array holds, at (edge `e`, channel `o`), the message of edge
  `e`: `Cert.Spec.msgRow` of row `e` of the three edge arrays and of the weights as the region finds them.
-/
import proofs.«130085_j37134287242037_2_alg».proof.Proof.BondBody

set_option maxRecDepth 16384

noncomputable section

open scoped BigOperators

namespace Cert.KernelIdeal.BondArr

open Cert.KernelIdeal Cert.KernelIdeal.Gen Idealize.ShloMosaic Idealize.ShloMosaic.ValueIdx
open Idealize.SL.Sem Idealize.ShloMosaic.TcCoe
open Idealize.ShloMosaic.Pipeline (Dat Cfg Window)

variable (V : (c : Dev nD) → (b : Ref sig .tc) → Buf (Elt Ideal) ((c : Thread nD τ).loc b))

/-- The windows' index maps over the grid: the edge windows and the output move one block of rows per tile, the weight
    windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The windows' blocks, read off their arrays -/

theorem blk0 (c : Dev nD) (t : Fin cfg0.N) (r : Fin 2048) (i : Fin 64) (ht : t.val * 2048 + r.val < 65536) :
    iblk0 V c 0 t (ix2 r i) = (V c (Pipeline.arrRef spec0 0) : S65536x64.Idx → EReal) (ix2 ⟨t.val * 2048 + r.val, ht⟩ i) := by
  obtain ⟨e0a, e0b, -, -, -, -, -, -, -, -, -, -, -, -, -, -, -, -⟩ := idx_facts t
  unfold iblk0
  rw [View.read_apply]
  show (V c (Pipeline.arrRef spec0 0) : S65536x64.Idx → EReal) _ = _
  refine congrArg _ (funext fun a => Fin.ext ?_)
  match a with
  | ⟨0, _⟩ => show win0_0.index t (0 : Fin 2) * 2048 + 1 * r.val = t.val * 2048 + r.val; rw [e0a]; omega
  | ⟨1, _⟩ => show win0_0.index t (1 : Fin 2) * 64 + 1 * i.val = i.val; rw [e0b]; omega

theorem blk1 (c : Dev nD) (t : Fin cfg0.N) (r : Fin 2048) (i : Fin 9) (ht : t.val * 2048 + r.val < 65536) :
    iblk0 V c 1 t (ix2 r i) = (V c (Pipeline.arrRef spec0 1) : S65536x9.Idx → EReal) (ix2 ⟨t.val * 2048 + r.val, ht⟩ i) := by
  obtain ⟨-, -, e1a, e1b, -, -, -, -, -, -, -, -, -, -, -, -, -, -⟩ := idx_facts t
  unfold iblk0
  rw [View.read_apply]
  show (V c (Pipeline.arrRef spec0 1) : S65536x9.Idx → EReal) _ = _
  refine congrArg _ (funext fun a => Fin.ext ?_)
  match a with
  | ⟨0, _⟩ => show win0_1.index t (0 : Fin 2) * 2048 + 1 * r.val = t.val * 2048 + r.val; rw [e1a]; omega
  | ⟨1, _⟩ => show win0_1.index t (1 : Fin 2) * 9 + 1 * i.val = i.val; rw [e1b]; omega

theorem blk2 (c : Dev nD) (t : Fin cfg0.N) (r : Fin 2048) (i : Fin 64) (ht : t.val * 2048 + r.val < 65536) :
    iblk0 V c 2 t (ix2 r i) = (V c (Pipeline.arrRef spec0 2) : S65536x64.Idx → EReal) (ix2 ⟨t.val * 2048 + r.val, ht⟩ i) := by
  obtain ⟨-, -, -, -, e2a, e2b, -, -, -, -, -, -, -, -, -, -, -, -⟩ := idx_facts t
  unfold iblk0
  rw [View.read_apply]
  show (V c (Pipeline.arrRef spec0 2) : S65536x64.Idx → EReal) _ = _
  refine congrArg _ (funext fun a => Fin.ext ?_)
  match a with
  | ⟨0, _⟩ => show win0_2.index t (0 : Fin 2) * 2048 + 1 * r.val = t.val * 2048 + r.val; rw [e2a]; omega
  | ⟨1, _⟩ => show win0_2.index t (1 : Fin 2) * 64 + 1 * i.val = i.val; rw [e2b]; omega

theorem blk3 (c : Dev nD) (t : Fin cfg0.N) (p : Fin 64) (q : Fin 64) :
    iblk0 V c 3 t (ix2 p q) = (V c (Pipeline.arrRef spec0 3) : S64x64.Idx → EReal) (ix2 p q) := by
  obtain ⟨-, -, -, -, -, -, e3a, e3b, -, -, -, -, -, -, -, -, -, -⟩ := idx_facts t
  unfold iblk0
  rw [View.read_apply]
  show (V c (Pipeline.arrRef spec0 3) : S64x64.Idx → EReal) _ = _
  refine congrArg _ (funext fun a => Fin.ext ?_)
  match a with
  | ⟨0, _⟩ => show win0_3.index t (0 : Fin 2) * 64 + 1 * p.val = p.val; rw [e3a]; omega
  | ⟨1, _⟩ => show win0_3.index t (1 : Fin 2) * 64 + 1 * q.val = q.val; rw [e3b]; omega

theorem blk4 (c : Dev nD) (t : Fin cfg0.N) (p : Fin 1) (q : Fin 64) :
    iblk0 V c 4 t (ix2 p q) = (V c (Pipeline.arrRef spec0 4) : S1x64.Idx → EReal) (ix2 p q) := by
  obtain ⟨-, -, -, -, -, -, -, -, e4a, e4b, -, -, -, -, -, -, -, -⟩ := idx_facts t
  unfold iblk0
  rw [View.read_apply]
  show (V c (Pipeline.arrRef spec0 4) : S1x64.Idx → EReal) _ = _
  refine congrArg _ (funext fun a => Fin.ext ?_)
  match a with
  | ⟨0, _⟩ => show win0_4.index t (0 : Fin 2) * 1 + 1 * p.val = p.val; rw [e4a]; omega
  | ⟨1, _⟩ => show win0_4.index t (1 : Fin 2) * 64 + 1 * q.val = q.val; rw [e4b]; omega

theorem blk5 (c : Dev nD) (t : Fin cfg0.N) (p : Fin 64) (q : Fin 576) :
    iblk0 V c 5 t (ix2 p q) = (V c (Pipeline.arrRef spec0 5) : S64x576.Idx → EReal) (ix2 p q) := by
  obtain ⟨-, -, -, -, -, -, -, -, -, -, e5a, e5b, -, -, -, -, -, -⟩ := idx_facts t
  unfold iblk0
  rw [View.read_apply]
  show (V c (Pipeline.arrRef spec0 5) : S64x576.Idx → EReal) _ = _
  refine congrArg _ (funext fun a => Fin.ext ?_)
  match a with
  | ⟨0, _⟩ => show win0_5.index t (0 : Fin 2) * 64 + 1 * p.val = p.val; rw [e5a]; omega
  | ⟨1, _⟩ => show win0_5.index t (1 : Fin 2) * 576 + 1 * q.val = q.val; rw [e5b]; omega

theorem blk6 (c : Dev nD) (t : Fin cfg0.N) (p : Fin 1) (q : Fin 576) :
    iblk0 V c 6 t (ix2 p q) = (V c (Pipeline.arrRef spec0 6) : S1x576.Idx → EReal) (ix2 p q) := by
  obtain ⟨-, -, -, -, -, -, -, -, -, -, -, -, e6a, e6b, -, -, -, -⟩ := idx_facts t
  unfold iblk0
  rw [View.read_apply]
  show (V c (Pipeline.arrRef spec0 6) : S1x576.Idx → EReal) _ = _
  refine congrArg _ (funext fun a => Fin.ext ?_)
  match a with
  | ⟨0, _⟩ => show win0_6.index t (0 : Fin 2) * 1 + 1 * p.val = p.val; rw [e6a]; omega
  | ⟨1, _⟩ => show win0_6.index t (1 : Fin 2) * 576 + 1 * q.val = q.val; rw [e6b]; omega

theorem blk7 (c : Dev nD) (t : Fin cfg0.N) (p : Fin 576) (q : Fin 64) :
    iblk0 V c 7 t (ix2 p q) = (V c (Pipeline.arrRef spec0 7) : S576x64.Idx → EReal) (ix2 p q) := by
  obtain ⟨-, -, -, -, -, -, -, -, -, -, -, -, -, -, e7a, e7b, -, -⟩ := idx_facts t
  unfold iblk0
  rw [View.read_apply]
  show (V c (Pipeline.arrRef spec0 7) : S576x64.Idx → EReal) _ = _
  refine congrArg _ (funext fun a => Fin.ext ?_)
  match a with
  | ⟨0, _⟩ => show win0_7.index t (0 : Fin 2) * 576 + 1 * p.val = p.val; rw [e7a]; omega
  | ⟨1, _⟩ => show win0_7.index t (1 : Fin 2) * 64 + 1 * q.val = q.val; rw [e7b]; omega

/-! ## The output array -/

/-- The message of edge `e` at channel `o`, from the arrays as the region finds them. -/
def msgAt (c : Dev nD) (e : Fin 65536) (o : Fin 64) : EReal :=
  Cert.Spec.msgRow (fun i : Fin 64 => (V c (Pipeline.arrRef spec0 0) : S65536x64.Idx → EReal) (ix2 e i)) (fun j : Fin 9 => (V c (Pipeline.arrRef spec0 1) : S65536x9.Idx → EReal) (ix2 e j))
      (fun k : Fin 64 => (V c (Pipeline.arrRef spec0 2) : S65536x64.Idx → EReal) (ix2 e k)) (fun k g : Fin 64 => (V c (Pipeline.arrRef spec0 3) : S64x64.Idx → EReal) (ix2 k g))
      (fun g : Fin 64 => (V c (Pipeline.arrRef spec0 4) : S1x64.Idx → EReal) (ix2 (0 : Fin 1) g))
      (fun (g : Fin 64) (j : Fin 9) (i : Fin 64) => (V c (Pipeline.arrRef spec0 5) : S64x576.Idx → EReal) (ix2 g ⟨j.val * 64 + i.val, by have := i.isLt; have := j.isLt; omega⟩))
      (fun (j : Fin 9) (i : Fin 64) => (V c (Pipeline.arrRef spec0 6) : S1x576.Idx → EReal) (ix2 (0 : Fin 1) ⟨j.val * 64 + i.val, by have := i.isLt; have := j.isLt; omega⟩))
      (fun (j : Fin 9) (i : Fin 64) => (V c (Pipeline.arrRef spec0 7) : S576x64.Idx → EReal) (ix2 ⟨j.val * 64 + i.val, by have := i.isLt; have := j.isLt; omega⟩ o))

/-- The output array the region leaves: the message of every edge at every channel. -/
def result (c : Dev nD) : S65536x64.Idx → EReal :=
  fun idx => msgAt V c ⟨(idx 0).val, idx2_lt0 idx⟩ ⟨(idx 1).val, idx2_lt1 idx⟩

theorem tile_lt (t : Fin cfg0.N) (r : Fin 2048) : t.val * 2048 + r.val < 65536 := by
  have hN : cfg0.N = 32 := N_0
  have := t.isLt; have := r.isLt; omega

/-- What the body leaves at row `r`, channel `o` of tile `t`'s output block is the message of edge `2048 t + r`. -/
theorem body_at (c : Dev nD) (t : Fin cfg0.N) (r : Fin 2048) (o : Fin 64) :
    out0_8 (iblk0 V c 0 t) (iblk0 V c 1 t) (iblk0 V c 2 t) (iblk0 V c 3 t) (iblk0 V c 4 t) (iblk0 V c 5 t)
        (iblk0 V c 6 t) (iblk0 V c 7 t) (ix2 r o)
      = msgAt V c ⟨t.val * 2048 + r.val, tile_lt t r⟩ o := by
  rw [Cert.KernelIdeal.BondBody.out_row (iblk0 V c 0 t) (iblk0 V c 1 t) (iblk0 V c 2 t) (iblk0 V c 3 t) (iblk0 V c 4 t)
    (iblk0 V c 5 t) (iblk0 V c 6 t) (iblk0 V c 7 t) r o]
  unfold msgAt
  exact Cert.Spec.msgRow_congr (fun i => blk0 V c t r i _) (fun j => blk1 V c t r j _) (fun k => blk2 V c t r k _)
    (fun k g => blk3 V c t k g) (fun g => blk4 V c t 0 g) (fun g j i => blk5 V c t g _) (fun j i => blk6 V c t 0 _)
    (fun j i => blk7 V c t _ o)

/-- The same at any index `y` of the block, by its two coordinates. -/
theorem body_at' (c : Dev nD) (t : Fin cfg0.N) (y : S2048x64.Idx) :
    out0_8 (iblk0 V c 0 t) (iblk0 V c 1 t) (iblk0 V c 2 t) (iblk0 V c 3 t) (iblk0 V c 4 t) (iblk0 V c 5 t)
        (iblk0 V c 6 t) (iblk0 V c 7 t) y
      = msgAt V c ⟨t.val * 2048 + (y 0).val, tile_lt t ⟨(y 0).val, idx2_lt0 y⟩⟩ ⟨(y 1).val, idx2_lt1 y⟩ := by
  have hy : y = ix2 (⟨(y 0).val, idx2_lt0 y⟩ : Fin 2048) (⟨(y 1).val, idx2_lt1 y⟩ : Fin 64) := eq_ix2 y
  exact (congrArg (out0_8 (iblk0 V c 0 t) (iblk0 V c 1 t) (iblk0 V c 2 t) (iblk0 V c 3 t) (iblk0 V c 4 t)
    (iblk0 V c 5 t) (iblk0 V c 6 t) (iblk0 V c 7 t)) hy).trans (body_at V c t _ _)

/-- WHAT TILE `t` WRITES BACK is block `t` of `result`. -/
theorem flushed_eq (c : Dev nD) (t : Fin cfg0.N) :
    (dat0 V c).flushed 8 t = ((cfg0.win 8).blk t).view.read (Elt Ideal) (result V c) := by
  show (cfg0.win 8).cut (grid0.coords t) ((dat0 V c).after 8 t) = _
  rw [after0_8]
  funext y
  obtain ⟨-, -, -, -, -, -, -, -, -, -, -, -, -, -, -, -, e8a, e8b⟩ := idx_facts t
  refine (body_at' V c t y).trans ?_
  show _ = msgAt V c ⟨((((cfg0.win 8).blk t).view.emb y) 0).val, _⟩ ⟨((((cfg0.win 8).blk t).view.emb y) 1).val, _⟩
  have hrow : (⟨t.val * 2048 + (y 0).val, tile_lt t ⟨(y 0).val, idx2_lt0 y⟩⟩ : Fin 65536)
      = ⟨((((cfg0.win 8).blk t).view.emb y) 0).val, idx2_lt0 _⟩ :=
    Fin.ext (by show t.val * 2048 + (y 0).val = win0_8.index t (0 : Fin 2) * 2048 + 1 * (y 0).val; rw [e8a]; omega)
  have hcol : (⟨(y 1).val, idx2_lt1 y⟩ : Fin 64) = ⟨((((cfg0.win 8).blk t).view.emb y) 1).val, idx2_lt1 _⟩ :=
    Fin.ext (by show (y 1).val = win0_8.index t (1 : Fin 2) * 64 + 1 * (y 1).val; rw [e8b]; omega)
  rw [hrow, hcol]

/-- Every index of the output array lies in the block of the tile that holds its row. -/
theorem covered (i : S65536x64.Idx) :
    ∃ t : Fin cfg0.N, (cfg0.win 8).flush t = true ∧ i ∈ ((cfg0.win 8).blk t).view.set := by
  have h0 : (i 0).val < 65536 := idx2_lt0 i
  have h1 : (i 1).val < 64 := idx2_lt1 i
  have hN : cfg0.N = 32 := N_0
  obtain ⟨t, ht⟩ : ∃ t : Fin cfg0.N, t.val = (i 0).val / 2048 := ⟨⟨(i 0).val / 2048, by omega⟩, rfl⟩
  obtain ⟨-, -, -, -, -, -, -, -, -, -, -, -, -, -, -, -, e8a, e8b⟩ := idx_facts t
  refine ⟨t, flush0_8 t, ?_⟩
  show i ∈ ((View.whole main_call0_v80).slice (win0_8.rect t)).set
  rw [View.set_slice_whole, Rect.mem_set_unit]
  intro a
  match a with
  | ⟨0, _⟩ =>
    show win0_8.index t (0 : Fin 2) * 2048 ≤ (i 0).val ∧ (i 0).val < win0_8.index t (0 : Fin 2) * 2048 + 2048
    rw [e8a, ht]; omega
  | ⟨1, _⟩ =>
    show win0_8.index t (1 : Fin 2) * 64 ≤ (i 1).val ∧ (i 1).val < win0_8.index t (1 : Fin 2) * 64 + 64
    rw [e8b]; omega

/-- THE ARRAY after the region: the message of every edge. -/
theorem arr (c : Dev nD) : (dat0 V c).arrAt 8 cfg0.N = result V c :=
  (dat0 V c).arrAt_eq_of_cover 8 (result V c) (fun t _ => flushed_eq V c t) (covered)

end Cert.KernelIdeal.BondArr

end
-- ==== Proof.RadBody.lean ====
/-
  The radius-edge tensor-product body at the ideal values, one entry at a time.

  This body does, on blocks of the same shapes, exactly the arithmetic of the bond-edge body: a hidden layer of 64
  rectified units over the edge's 64 features, 576 per-edge weights laid out harmonic by harmonic, and the message
      `msg r o = ∑ j, ∑ i, ((xs r i * w r (j * 64 + i)) * sh r j) * U (j * 64 + i) o`
  accumulated two harmonics at a time from zero, the ninth alone.  The two bodies are the same function of their eight
  input blocks, so the row form of the one is the row form of the other.
-/
import proofs.«130085_j37134287242037_2_alg».proof.Proof.BondBody

noncomputable section

open scoped BigOperators

namespace Cert.KernelIdeal.RadBody

open Cert.KernelIdeal Cert.KernelIdeal.Gen Idealize.ShloMosaic Idealize.ShloMosaic.ValueIdx

/-- The radius-edge body and the bond-edge body are the same function of their input blocks. -/
theorem out1_eq : @out1_8 Ideal _ = @out0_8 Ideal _ := rfl

/-- What the body leaves at row `r`, channel `o` of the output block is the message of that row's edge: source features,
    harmonics and edge features are row `r` of the first three blocks, and column `j * 64 + i` of the second layer, of its
    bias and of the projection is (harmonic `j`, feature `i`). -/
theorem out_row (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x64 .f32) (r : Fin 2048) (o : Fin 64) :
    out1_8 x0 x1 x2 x3 x4 x5 x6 x7 (ix2 r o)
      = Cert.Spec.msgRow (fun i : Fin 64 => x0 (ix2 r i)) (fun j : Fin 9 => x1 (ix2 r j)) (fun k : Fin 64 => x2 (ix2 r k))
          (fun k g : Fin 64 => x3 (ix2 k g)) (fun g : Fin 64 => x4 (ix2 (0 : Fin 1) g))
          (fun (g : Fin 64) (j : Fin 9) (i : Fin 64) => x5 (ix2 g ⟨j.val * 64 + i.val, by have := i.isLt; have := j.isLt; omega⟩))
          (fun (j : Fin 9) (i : Fin 64) => x6 (ix2 (0 : Fin 1) ⟨j.val * 64 + i.val, by have := i.isLt; have := j.isLt; omega⟩))
          (fun (j : Fin 9) (i : Fin 64) => x7 (ix2 ⟨j.val * 64 + i.val, by have := i.isLt; have := j.isLt; omega⟩ o)) := by
  rw [show out1_8 x0 x1 x2 x3 x4 x5 x6 x7 = out0_8 x0 x1 x2 x3 x4 x5 x6 x7 from
    congrFun (congrFun (congrFun (congrFun (congrFun (congrFun (congrFun (congrFun out1_eq x0) x1) x2) x3) x4) x5) x6) x7]
  exact Cert.KernelIdeal.BondBody.out_row x0 x1 x2 x3 x4 x5 x6 x7 r o

end Cert.KernelIdeal.RadBody

end
-- ==== Proof.RadArr.lean ====
/-
  The radius-edge region's output array: one message per radius edge.
  The region walks the 393216 edges in 192 tiles of 2048: at tile `t` the first three windows hold rows
  `2048 t … 2048 t + 2047` of the source features, the harmonics and the edge features, the five weight windows hold
  their whole arrays, and the body leaves, in row `r` of the output block, the message of edge `2048 t + r`.  The tiles
  cover every row exactly, so after the region the output array holds, at (edge `e`, channel `o`), the message of edge
  `e`: `Cert.Spec.msgRow` of row `e` of the three edge arrays and of the weights as the region finds them.
-/
import proofs.«130085_j37134287242037_2_alg».proof.Proof.RadBody

set_option maxRecDepth 16384

noncomputable section

open scoped BigOperators

namespace Cert.KernelIdeal.RadArr

open Cert.KernelIdeal Cert.KernelIdeal.Gen Idealize.ShloMosaic Idealize.ShloMosaic.ValueIdx
open Idealize.SL.Sem Idealize.ShloMosaic.TcCoe
open Idealize.ShloMosaic.Pipeline (Dat Cfg Window)

variable (V : (c : Dev nD) → (b : Ref sig .tc) → Buf (Elt Ideal) ((c : Thread nD τ).loc b))

/-- The windows' index maps over the grid: the edge windows and the output move one block of rows per tile, the weight
    windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## The windows' blocks, read off their arrays -/

theorem blk0 (c : Dev nD) (t : Fin cfg1.N) (r : Fin 2048) (i : Fin 64) (ht : t.val * 2048 + r.val < 393216) :
    iblk1 V c 0 t (ix2 r i) = (V c (Pipeline.arrRef spec1 0) : S393216x64.Idx → EReal) (ix2 ⟨t.val * 2048 + r.val, ht⟩ i) := by
  obtain ⟨e0a, e0b, -, -, -, -, -, -, -, -, -, -, -, -, -, -, -, -⟩ := idx_facts t
  unfold iblk1
  rw [View.read_apply]
  show (V c (Pipeline.arrRef spec1 0) : S393216x64.Idx → EReal) _ = _
  refine congrArg _ (funext fun a => Fin.ext ?_)
  match a with
  | ⟨0, _⟩ => show win1_0.index t (0 : Fin 2) * 2048 + 1 * r.val = t.val * 2048 + r.val; rw [e0a]; omega
  | ⟨1, _⟩ => show win1_0.index t (1 : Fin 2) * 64 + 1 * i.val = i.val; rw [e0b]; omega

theorem blk1 (c : Dev nD) (t : Fin cfg1.N) (r : Fin 2048) (i : Fin 9) (ht : t.val * 2048 + r.val < 393216) :
    iblk1 V c 1 t (ix2 r i) = (V c (Pipeline.arrRef spec1 1) : S393216x9.Idx → EReal) (ix2 ⟨t.val * 2048 + r.val, ht⟩ i) := by
  obtain ⟨-, -, e1a, e1b, -, -, -, -, -, -, -, -, -, -, -, -, -, -⟩ := idx_facts t
  unfold iblk1
  rw [View.read_apply]
  show (V c (Pipeline.arrRef spec1 1) : S393216x9.Idx → EReal) _ = _
  refine congrArg _ (funext fun a => Fin.ext ?_)
  match a with
  | ⟨0, _⟩ => show win1_1.index t (0 : Fin 2) * 2048 + 1 * r.val = t.val * 2048 + r.val; rw [e1a]; omega
  | ⟨1, _⟩ => show win1_1.index t (1 : Fin 2) * 9 + 1 * i.val = i.val; rw [e1b]; omega

theorem blk2 (c : Dev nD) (t : Fin cfg1.N) (r : Fin 2048) (i : Fin 64) (ht : t.val * 2048 + r.val < 393216) :
    iblk1 V c 2 t (ix2 r i) = (V c (Pipeline.arrRef spec1 2) : S393216x64.Idx → EReal) (ix2 ⟨t.val * 2048 + r.val, ht⟩ i) := by
  obtain ⟨-, -, -, -, e2a, e2b, -, -, -, -, -, -, -, -, -, -, -, -⟩ := idx_facts t
  unfold iblk1
  rw [View.read_apply]
  show (V c (Pipeline.arrRef spec1 2) : S393216x64.Idx → EReal) _ = _
  refine congrArg _ (funext fun a => Fin.ext ?_)
  match a with
  | ⟨0, _⟩ => show win1_2.index t (0 : Fin 2) * 2048 + 1 * r.val = t.val * 2048 + r.val; rw [e2a]; omega
  | ⟨1, _⟩ => show win1_2.index t (1 : Fin 2) * 64 + 1 * i.val = i.val; rw [e2b]; omega

theorem blk3 (c : Dev nD) (t : Fin cfg1.N) (p : Fin 64) (q : Fin 64) :
    iblk1 V c 3 t (ix2 p q) = (V c (Pipeline.arrRef spec1 3) : S64x64.Idx → EReal) (ix2 p q) := by
  obtain ⟨-, -, -, -, -, -, e3a, e3b, -, -, -, -, -, -, -, -, -, -⟩ := idx_facts t
  unfold iblk1
  rw [View.read_apply]
  show (V c (Pipeline.arrRef spec1 3) : S64x64.Idx → EReal) _ = _
  refine congrArg _ (funext fun a => Fin.ext ?_)
  match a with
  | ⟨0, _⟩ => show win1_3.index t (0 : Fin 2) * 64 + 1 * p.val = p.val; rw [e3a]; omega
  | ⟨1, _⟩ => show win1_3.index t (1 : Fin 2) * 64 + 1 * q.val = q.val; rw [e3b]; omega

theorem blk4 (c : Dev nD) (t : Fin cfg1.N) (p : Fin 1) (q : Fin 64) :
    iblk1 V c 4 t (ix2 p q) = (V c (Pipeline.arrRef spec1 4) : S1x64.Idx → EReal) (ix2 p q) := by
  obtain ⟨-, -, -, -, -, -, -, -, e4a, e4b, -, -, -, -, -, -, -, -⟩ := idx_facts t
  unfold iblk1
  rw [View.read_apply]
  show (V c (Pipeline.arrRef spec1 4) : S1x64.Idx → EReal) _ = _
  refine congrArg _ (funext fun a => Fin.ext ?_)
  match a with
  | ⟨0, _⟩ => show win1_4.index t (0 : Fin 2) * 1 + 1 * p.val = p.val; rw [e4a]; omega
  | ⟨1, _⟩ => show win1_4.index t (1 : Fin 2) * 64 + 1 * q.val = q.val; rw [e4b]; omega

theorem blk5 (c : Dev nD) (t : Fin cfg1.N) (p : Fin 64) (q : Fin 576) :
    iblk1 V c 5 t (ix2 p q) = (V c (Pipeline.arrRef spec1 5) : S64x576.Idx → EReal) (ix2 p q) := by
  obtain ⟨-, -, -, -, -, -, -, -, -, -, e5a, e5b, -, -, -, -, -, -⟩ := idx_facts t
  unfold iblk1
  rw [View.read_apply]
  show (V c (Pipeline.arrRef spec1 5) : S64x576.Idx → EReal) _ = _
  refine congrArg _ (funext fun a => Fin.ext ?_)
  match a with
  | ⟨0, _⟩ => show win1_5.index t (0 : Fin 2) * 64 + 1 * p.val = p.val; rw [e5a]; omega
  | ⟨1, _⟩ => show win1_5.index t (1 : Fin 2) * 576 + 1 * q.val = q.val; rw [e5b]; omega

theorem blk6 (c : Dev nD) (t : Fin cfg1.N) (p : Fin 1) (q : Fin 576) :
    iblk1 V c 6 t (ix2 p q) = (V c (Pipeline.arrRef spec1 6) : S1x576.Idx → EReal) (ix2 p q) := by
  obtain ⟨-, -, -, -, -, -, -, -, -, -, -, -, e6a, e6b, -, -, -, -⟩ := idx_facts t
  unfold iblk1
  rw [View.read_apply]
  show (V c (Pipeline.arrRef spec1 6) : S1x576.Idx → EReal) _ = _
  refine congrArg _ (funext fun a => Fin.ext ?_)
  match a with
  | ⟨0, _⟩ => show win1_6.index t (0 : Fin 2) * 1 + 1 * p.val = p.val; rw [e6a]; omega
  | ⟨1, _⟩ => show win1_6.index t (1 : Fin 2) * 576 + 1 * q.val = q.val; rw [e6b]; omega

theorem blk7 (c : Dev nD) (t : Fin cfg1.N) (p : Fin 576) (q : Fin 64) :
    iblk1 V c 7 t (ix2 p q) = (V c (Pipeline.arrRef spec1 7) : S576x64.Idx → EReal) (ix2 p q) := by
  obtain ⟨-, -, -, -, -, -, -, -, -, -, -, -, -, -, e7a, e7b, -, -⟩ := idx_facts t
  unfold iblk1
  rw [View.read_apply]
  show (V c (Pipeline.arrRef spec1 7) : S576x64.Idx → EReal) _ = _
  refine congrArg _ (funext fun a => Fin.ext ?_)
  match a with
  | ⟨0, _⟩ => show win1_7.index t (0 : Fin 2) * 576 + 1 * p.val = p.val; rw [e7a]; omega
  | ⟨1, _⟩ => show win1_7.index t (1 : Fin 2) * 64 + 1 * q.val = q.val; rw [e7b]; omega

/-! ## The output array -/

/-- The message of edge `e` at channel `o`, from the arrays as the region finds them. -/
def msgAt (c : Dev nD) (e : Fin 393216) (o : Fin 64) : EReal :=
  Cert.Spec.msgRow (fun i : Fin 64 => (V c (Pipeline.arrRef spec1 0) : S393216x64.Idx → EReal) (ix2 e i)) (fun j : Fin 9 => (V c (Pipeline.arrRef spec1 1) : S393216x9.Idx → EReal) (ix2 e j))
      (fun k : Fin 64 => (V c (Pipeline.arrRef spec1 2) : S393216x64.Idx → EReal) (ix2 e k)) (fun k g : Fin 64 => (V c (Pipeline.arrRef spec1 3) : S64x64.Idx → EReal) (ix2 k g))
      (fun g : Fin 64 => (V c (Pipeline.arrRef spec1 4) : S1x64.Idx → EReal) (ix2 (0 : Fin 1) g))
      (fun (g : Fin 64) (j : Fin 9) (i : Fin 64) => (V c (Pipeline.arrRef spec1 5) : S64x576.Idx → EReal) (ix2 g ⟨j.val * 64 + i.val, by have := i.isLt; have := j.isLt; omega⟩))
      (fun (j : Fin 9) (i : Fin 64) => (V c (Pipeline.arrRef spec1 6) : S1x576.Idx → EReal) (ix2 (0 : Fin 1) ⟨j.val * 64 + i.val, by have := i.isLt; have := j.isLt; omega⟩))
      (fun (j : Fin 9) (i : Fin 64) => (V c (Pipeline.arrRef spec1 7) : S576x64.Idx → EReal) (ix2 ⟨j.val * 64 + i.val, by have := i.isLt; have := j.isLt; omega⟩ o))

/-- The output array the region leaves: the message of every edge at every channel. -/
def result (c : Dev nD) : S393216x64.Idx → EReal :=
  fun idx => msgAt V c ⟨(idx 0).val, idx2_lt0 idx⟩ ⟨(idx 1).val, idx2_lt1 idx⟩

theorem tile_lt (t : Fin cfg1.N) (r : Fin 2048) : t.val * 2048 + r.val < 393216 := by
  have hN : cfg1.N = 192 := N_1
  have := t.isLt; have := r.isLt; omega

/-- What the body leaves at row `r`, channel `o` of tile `t`'s output block is the message of edge `2048 t + r`. -/
theorem body_at (c : Dev nD) (t : Fin cfg1.N) (r : Fin 2048) (o : Fin 64) :
    out1_8 (iblk1 V c 0 t) (iblk1 V c 1 t) (iblk1 V c 2 t) (iblk1 V c 3 t) (iblk1 V c 4 t) (iblk1 V c 5 t)
        (iblk1 V c 6 t) (iblk1 V c 7 t) (ix2 r o)
      = msgAt V c ⟨t.val * 2048 + r.val, tile_lt t r⟩ o := by
  rw [Cert.KernelIdeal.RadBody.out_row (iblk1 V c 0 t) (iblk1 V c 1 t) (iblk1 V c 2 t) (iblk1 V c 3 t) (iblk1 V c 4 t)
    (iblk1 V c 5 t) (iblk1 V c 6 t) (iblk1 V c 7 t) r o]
  unfold msgAt
  exact Cert.Spec.msgRow_congr (fun i => blk0 V c t r i _) (fun j => blk1 V c t r j _) (fun k => blk2 V c t r k _)
    (fun k g => blk3 V c t k g) (fun g => blk4 V c t 0 g) (fun g j i => blk5 V c t g _) (fun j i => blk6 V c t 0 _)
    (fun j i => blk7 V c t _ o)

/-- The same at any index `y` of the block, by its two coordinates. -/
theorem body_at' (c : Dev nD) (t : Fin cfg1.N) (y : S2048x64.Idx) :
    out1_8 (iblk1 V c 0 t) (iblk1 V c 1 t) (iblk1 V c 2 t) (iblk1 V c 3 t) (iblk1 V c 4 t) (iblk1 V c 5 t)
        (iblk1 V c 6 t) (iblk1 V c 7 t) y
      = msgAt V c ⟨t.val * 2048 + (y 0).val, tile_lt t ⟨(y 0).val, idx2_lt0 y⟩⟩ ⟨(y 1).val, idx2_lt1 y⟩ := by
  have hy : y = ix2 (⟨(y 0).val, idx2_lt0 y⟩ : Fin 2048) (⟨(y 1).val, idx2_lt1 y⟩ : Fin 64) := eq_ix2 y
  exact (congrArg (out1_8 (iblk1 V c 0 t) (iblk1 V c 1 t) (iblk1 V c 2 t) (iblk1 V c 3 t) (iblk1 V c 4 t)
    (iblk1 V c 5 t) (iblk1 V c 6 t) (iblk1 V c 7 t)) hy).trans (body_at V c t _ _)

/-- WHAT TILE `t` WRITES BACK is block `t` of `result`. -/
theorem flushed_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8]
  funext y
  obtain ⟨-, -, -, -, -, -, -, -, -, -, -, -, -, -, -, -, e8a, e8b⟩ := idx_facts t
  refine (body_at' V c t y).trans ?_
  show _ = msgAt V c ⟨((((cfg1.win 8).blk t).view.emb y) 0).val, _⟩ ⟨((((cfg1.win 8).blk t).view.emb y) 1).val, _⟩
  have hrow : (⟨t.val * 2048 + (y 0).val, tile_lt t ⟨(y 0).val, idx2_lt0 y⟩⟩ : Fin 393216)
      = ⟨((((cfg1.win 8).blk t).view.emb y) 0).val, idx2_lt0 _⟩ :=
    Fin.ext (by show t.val * 2048 + (y 0).val = win1_8.index t (0 : Fin 2) * 2048 + 1 * (y 0).val; rw [e8a]; omega)
  have hcol : (⟨(y 1).val, idx2_lt1 y⟩ : Fin 64) = ⟨((((cfg1.win 8).blk t).view.emb y) 1).val, idx2_lt1 _⟩ :=
    Fin.ext (by show (y 1).val = win1_8.index t (1 : Fin 2) * 64 + 1 * (y 1).val; rw [e8b]; omega)
  rw [hrow, hcol]

/-- Every index of the output array lies in the block of the tile that holds its row. -/
theorem covered (i : S393216x64.Idx) :
    ∃ t : Fin cfg1.N, (cfg1.win 8).flush t = true ∧ i ∈ ((cfg1.win 8).blk t).view.set := by
  have h0 : (i 0).val < 393216 := idx2_lt0 i
  have h1 : (i 1).val < 64 := idx2_lt1 i
  have hN : cfg1.N = 192 := N_1
  obtain ⟨t, ht⟩ : ∃ t : Fin cfg1.N, t.val = (i 0).val / 2048 := ⟨⟨(i 0).val / 2048, by omega⟩, rfl⟩
  obtain ⟨-, -, -, -, -, -, -, -, -, -, -, -, -, -, -, -, e8a, e8b⟩ := idx_facts t
  refine ⟨t, flush1_8 t, ?_⟩
  show i ∈ ((View.whole main_call0_v81).slice (win1_8.rect t)).set
  rw [View.set_slice_whole, Rect.mem_set_unit]
  intro a
  match a with
  | ⟨0, _⟩ =>
    show win1_8.index t (0 : Fin 2) * 2048 ≤ (i 0).val ∧ (i 0).val < win1_8.index t (0 : Fin 2) * 2048 + 2048
    rw [e8a, ht]; omega
  | ⟨1, _⟩ =>
    show win1_8.index t (1 : Fin 2) * 64 ≤ (i 1).val ∧ (i 1).val < win1_8.index t (1 : Fin 2) * 64 + 64
    rw [e8b]; omega

/-- THE ARRAY after the region: the message of every edge. -/
theorem arr (c : Dev nD) : (dat1 V c).arrAt 8 cfg1.N = result V c :=
  (dat1 V c).arrAt_eq_of_cover 8 (result V c) (fun t _ => flushed_eq V c t) (covered)

end Cert.KernelIdeal.RadArr

end
-- ==== Proof.RefAtom.lean ====
/-
  The reference's atom-graph messages, read one edge at a time.  The atom graph has `65536` bond edges followed by
  `393216` radius edges.  Each group has its own two-layer perceptron turning the edge's `64` features into `64 * 9`
  per-edge weights; the reference joins the two weight arrays, bond rows first, so row `b` of the joined array is bond
  row `b` and row `65536 + q` is radius row `q`.  It then takes the outer product of the source atom's `64` features
  with the edge's `9` harmonics, flattens it feature-major (position `i * 9 + j` is feature `i`, harmonic `j`),
  multiplies it entrywise by the joined weights and projects the `576` products onto `64` output channels with one
  projection shared by both groups.  At one edge and one output channel that is the tensor-product message
  `Cert.Spec.msgRow` of the edge's rows, with the perceptron of the edge's own group: the sum over the `576` flat
  positions is the double sum over harmonics and features, and `(x * s) * w = (x * w) * s` on the extended reals.  The
  source atom's features are the rows the reference gathers along the edges' sources; they stay a named stage here.
-/
import proofs.«130085_j37134287242037_2_alg».proof.Proof.Gen.ReferenceIdeal.Read
import proofs.«130085_j37134287242037_2_alg».proof.Proof.Spec
import proofs.«130085_j37134287242037_2_alg».proof.Proof.SumLaws

noncomputable section

open scoped BigOperators

namespace Cert.ReferenceIdeal.RefAtom

open Cert.ReferenceIdeal Cert.ReferenceIdeal.Gen Cert.ReferenceIdeal.Read Idealize.ShloMosaic Idealize.ShloMosaic.ValueIdx

variable (x0 : (⟨S32768x64, .f32⟩ : BufTy).Contents (Elt Ideal)) (x2 : (⟨S2x458752, .i32⟩ : BufTy).Contents (Elt Ideal)) (x3 : (⟨S65536x64, .f32⟩ : BufTy).Contents (Elt Ideal))
  (x4 : (⟨S393216x64, .f32⟩ : BufTy).Contents (Elt Ideal)) (x5 : (⟨S458752x9, .f32⟩ : BufTy).Contents (Elt Ideal))
  (x12 : (⟨S64x64, .f32⟩ : BufTy).Contents (Elt Ideal)) (x13 : (⟨S64, .f32⟩ : BufTy).Contents (Elt Ideal)) (x14 : (⟨S64x576, .f32⟩ : BufTy).Contents (Elt Ideal)) (x15 : (⟨S576, .f32⟩ : BufTy).Contents (Elt Ideal))
  (x16 : (⟨S64x64, .f32⟩ : BufTy).Contents (Elt Ideal)) (x17 : (⟨S64, .f32⟩ : BufTy).Contents (Elt Ideal)) (x18 : (⟨S64x576, .f32⟩ : BufTy).Contents (Elt Ideal)) (x19 : (⟨S576, .f32⟩ : BufTy).Contents (Elt Ideal)) (x20 : (⟨S576x64, .f32⟩ : BufTy).Contents (Elt Ideal))

/-- The hidden layer of the edge perceptron at bond edge `e`, unit `g`. -/
theorem hidden_bond_at (e : Fin 65536) (g : Fin 64) :
    val_main_v8 (F := Ideal) x3 x12 x13 (ix2 e g)
      = Cert.Spec.hidden (fun k : Fin 64 => x3 (ix2 e k)) (fun k g : Fin 64 => x12 (ix2 k g)) (fun g : Fin 64 => x13 (ix1 g)) g := by
  rw [val_main_v8_apply, val_main_v7_apply, val_main_v4_apply, val_main_v6_apply, val_main_v5_apply,
    val_main_call0_v0_apply, val_main_call0_cst_apply]
  have hl : ∀ k : Fin 64, lidx_main_v4 (ix2 e g) k = ix2 e k := fun k => funext fun a =>
    match a with | ⟨0, _⟩ => rfl | ⟨1, _⟩ => rfl
  have hr : ∀ k : Fin 64, ridx_main_v4 (ix2 e g) k = ix2 k g := fun k => funext fun a =>
    match a with | ⟨0, _⟩ => rfl | ⟨1, _⟩ => rfl
  have hb : idx_main_v5 (idx_main_v6 (ix2 e g)) = ix1 g := funext fun a =>
    match a with | ⟨0, _⟩ => rfl
  simp only [hl, hr, hb]
  show max (_ + _) (Ideal.ofBits .f32 0x00000000#32) = _
  rw [Ideal.ofBits_zero_f32]
  rfl

/-- The per-edge weight at bond edge `e`, column `c` of the second layer. -/
theorem weight_bond_at (e : Fin 65536) (c : Fin 576) :
    val_main_v12 (F := Ideal) x3 x12 x13 x14 x15 (ix2 e c)
      = ∑ g : Fin 64, Cert.Spec.hidden (fun k : Fin 64 => x3 (ix2 e k)) (fun k g : Fin 64 => x12 (ix2 k g))
            (fun g : Fin 64 => x13 (ix1 g)) g * x14 (ix2 g c) + x15 (ix1 c) := by
  rw [val_main_v12_apply, val_main_v9_apply, val_main_v11_apply, val_main_v10_apply]
  have hl : ∀ k : Fin 64, lidx_main_v9 (ix2 e c) k = ix2 e k := fun k => funext fun a =>
    match a with | ⟨0, _⟩ => rfl | ⟨1, _⟩ => rfl
  have hr : ∀ k : Fin 64, ridx_main_v9 (ix2 e c) k = ix2 k c := fun k => funext fun a =>
    match a with | ⟨0, _⟩ => rfl | ⟨1, _⟩ => rfl
  have hb : idx_main_v10 (idx_main_v11 (ix2 e c)) = ix1 c := funext fun a =>
    match a with | ⟨0, _⟩ => rfl
  simp only [hl, hr, hb, hidden_bond_at]
  rfl

/-- The hidden layer of the edge perceptron at radius edge `e`, unit `g`. -/
theorem hidden_rad_at (e : Fin 393216) (g : Fin 64) :
    val_main_v17 (F := Ideal) x4 x16 x17 (ix2 e g)
      = Cert.Spec.hidden (fun k : Fin 64 => x4 (ix2 e k)) (fun k g : Fin 64 => x16 (ix2 k g)) (fun g : Fin 64 => x17 (ix1 g)) g := by
  rw [val_main_v17_apply, val_main_v16_apply, val_main_v13_apply, val_main_v15_apply, val_main_v14_apply,
    val_main_call1_v0_apply, val_main_call1_cst_apply]
  have hl : ∀ k : Fin 64, lidx_main_v13 (ix2 e g) k = ix2 e k := fun k => funext fun a =>
    match a with | ⟨0, _⟩ => rfl | ⟨1, _⟩ => rfl
  have hr : ∀ k : Fin 64, ridx_main_v13 (ix2 e g) k = ix2 k g := fun k => funext fun a =>
    match a with | ⟨0, _⟩ => rfl | ⟨1, _⟩ => rfl
  have hb : idx_main_v14 (idx_main_v15 (ix2 e g)) = ix1 g := funext fun a =>
    match a with | ⟨0, _⟩ => rfl
  simp only [hl, hr, hb]
  show max (_ + _) (Ideal.ofBits .f32 0x00000000#32) = _
  rw [Ideal.ofBits_zero_f32]
  rfl

/-- The per-edge weight at radius edge `e`, column `c` of the second layer. -/
theorem weight_rad_at (e : Fin 393216) (c : Fin 576) :
    val_main_v21 (F := Ideal) x4 x16 x17 x18 x19 (ix2 e c)
      = ∑ g : Fin 64, Cert.Spec.hidden (fun k : Fin 64 => x4 (ix2 e k)) (fun k g : Fin 64 => x16 (ix2 k g))
            (fun g : Fin 64 => x17 (ix1 g)) g * x18 (ix2 g c) + x19 (ix1 c) := by
  rw [val_main_v21_apply, val_main_v18_apply, val_main_v20_apply, val_main_v19_apply]
  have hl : ∀ k : Fin 64, lidx_main_v18 (ix2 e c) k = ix2 e k := fun k => funext fun a =>
    match a with | ⟨0, _⟩ => rfl | ⟨1, _⟩ => rfl
  have hr : ∀ k : Fin 64, ridx_main_v18 (ix2 e c) k = ix2 k c := fun k => funext fun a =>
    match a with | ⟨0, _⟩ => rfl | ⟨1, _⟩ => rfl
  have hb : idx_main_v19 (idx_main_v20 (ix2 e c)) = ix1 c := funext fun a =>
    match a with | ⟨0, _⟩ => rfl
  simp only [hl, hr, hb, hidden_rad_at]
  rfl

/-- The outer product of the source features with the harmonics, flattened feature-major: column `i * 9 + j`. -/
theorem outer_at (e : Fin 458752) (i : Fin 64) (j : Fin 9) (h : i.val * 9 + j.val < 576) :
    val_main_v35 (F := Ideal) x0 x2 x5 (ix2 e ⟨i.val * 9 + j.val, h⟩)
      = val_main_v29 (F := Ideal) x0 x2 (ix2 e i) * x5 (ix2 e j) := by
  rw [val_main_v35_apply, val_main_v34_apply, val_main_v32_apply, val_main_v30_apply, val_main_v33_apply, val_main_v31_apply]
  have h3 : idx_main_v35 (ix2 e ⟨i.val * 9 + j.val, h⟩) = ix3 e i j := funext fun a => Fin.ext (by
    have he := e.isLt; have hi := i.isLt; have hj := j.isLt
    match a with
    | ⟨0, _⟩ => show (e.val * 576 + (i.val * 9 + j.val)) / 576 = e.val; omega
    | ⟨1, _⟩ => show (e.val * 576 + (i.val * 9 + j.val)) / 9 % 64 = i.val; omega
    | ⟨2, _⟩ => show (e.val * 576 + (i.val * 9 + j.val)) % 9 = j.val; omega)
  rw [h3]
  have ha : idx_main_v30 (idx_main_v32 (ix3 e i j)) = ix2 e i := funext fun a =>
    match a with | ⟨0, _⟩ => rfl | ⟨1, _⟩ => rfl
  have hs : idx_main_v31 (idx_main_v33 (ix3 e i j)) = ix2 e j := funext fun a =>
    match a with | ⟨0, _⟩ => rfl | ⟨1, _⟩ => rfl
  rw [ha, hs]
  rfl

/-- The joined weights on a bond edge: the first `65536` rows are the bond perceptron's. -/
theorem joined_bond_at (b : Fin 65536) (c : Fin 576) (h : b.val < 458752) :
    val_main_v22 (F := Ideal) x3 x4 x12 x13 x14 x15 x16 x17 x18 x19 (ix2 ⟨b.val, h⟩ c)
      = val_main_v12 (F := Ideal) x3 x12 x13 x14 x15 (ix2 b c) := by
  unfold val_main_v22
  exact concatenate_pair_apply_left 0 _ _ concatenates_S65536x576_S393216x576_S458752x576_d0 (ix2 ⟨b.val, h⟩ c) rfl
    (ix2 b c) fun a => match a with
      | ⟨0, _⟩ => rfl
      | ⟨1, _⟩ => rfl

/-- The joined weights on a radius edge: row `65536 + q` is the radius perceptron's row `q`. -/
theorem joined_rad_at (q : Fin 393216) (c : Fin 576) (h : 65536 + q.val < 458752) :
    val_main_v22 (F := Ideal) x3 x4 x12 x13 x14 x15 x16 x17 x18 x19 (ix2 ⟨65536 + q.val, h⟩ c)
      = val_main_v21 (F := Ideal) x4 x16 x17 x18 x19 (ix2 q c) := by
  unfold val_main_v22
  exact concatenate_pair_apply_right 0 _ _ concatenates_S65536x576_S393216x576_S458752x576_d0 (ix2 ⟨65536 + q.val, h⟩ c)
    rfl rfl (ix2 q c)
    (fun a ha => match a, ha with
      | ⟨0, _⟩, ha => absurd rfl ha
      | ⟨1, _⟩, _ => rfl)
    (Nat.add_comm _ _)

/-- **The atom-graph message of a bond edge.**  Edge `b` of the first `65536` is a bond edge: its per-edge weights come
    from the bond perceptron applied to row `b` of the bond features.  At output channel `o` the reference's message is
    the tensor-product message of the edge's rows, the `64 * 9` columns read feature-major (column `i * 9 + j` is
    feature `i`, harmonic `j`). -/
theorem msg_row_bond (b : Fin 65536) (o : Fin 64) :
    val_main_v37 (F := Ideal) x0 x2 x3 x4 x5 x12 x13 x14 x15 x16 x17 x18 x19 x20 (ix2 ⟨b.val, by have := b.isLt; omega⟩ o)
      = Cert.Spec.msgRow
          (fun i : Fin 64 => val_main_v29 (F := Ideal) x0 x2 (ix2 ⟨b.val, by have := b.isLt; omega⟩ i))
          (fun j : Fin 9 => x5 (ix2 ⟨b.val, by have := b.isLt; omega⟩ j)) (fun k : Fin 64 => x3 (ix2 b k))
          (fun k g : Fin 64 => x12 (ix2 k g)) (fun g : Fin 64 => x13 (ix1 g))
          (fun (g : Fin 64) (j : Fin 9) (i : Fin 64) =>
            x14 (ix2 g ⟨i.val * 9 + j.val, by have := i.isLt; have := j.isLt; omega⟩))
          (fun (j : Fin 9) (i : Fin 64) => x15 (ix1 ⟨i.val * 9 + j.val, by have := i.isLt; have := j.isLt; omega⟩))
          (fun (j : Fin 9) (i : Fin 64) =>
            x20 (ix2 ⟨i.val * 9 + j.val, by have := i.isLt; have := j.isLt; omega⟩ o)) := by
  have he : b.val < 458752 := by have := b.isLt; omega
  rw [val_main_v37_apply, Cert.SumLaws.sum_feature_major (A := 64) (N := 576) rfl]
  unfold Cert.Spec.msgRow
  refine Finset.sum_congr rfl fun j _ => Finset.sum_congr rfl fun i _ => ?_
  have hij : i.val * 9 + j.val < 576 := by have := i.isLt; have := j.isLt; omega
  have hl : lidx_main_v37 (ix2 (⟨b.val, he⟩ : Fin 458752) o) ⟨i.val * 9 + j.val, hij⟩
      = ix2 (⟨b.val, he⟩ : Fin 458752) ⟨i.val * 9 + j.val, hij⟩ := funext fun a =>
    match a with | ⟨0, _⟩ => rfl | ⟨1, _⟩ => rfl
  have hr : ridx_main_v37 (ix2 (⟨b.val, he⟩ : Fin 458752) o) ⟨i.val * 9 + j.val, hij⟩
      = ix2 ⟨i.val * 9 + j.val, hij⟩ o := funext fun a =>
    match a with | ⟨0, _⟩ => rfl | ⟨1, _⟩ => rfl
  rw [hl, hr, val_main_v36_apply, outer_at, joined_bond_at, weight_bond_at]
  show ((_ * _) * _) * _ = _
  rw [mul_right_comm (val_main_v29 (F := Ideal) x0 x2 (ix2 (⟨b.val, he⟩ : Fin 458752) i))]
  rfl

/-- **The atom-graph message of a radius edge.**  Edge `65536 + q` is the radius edge `q`: its per-edge weights come
    from the radius perceptron applied to row `q` of the radius edge features.  At output channel `o` the reference's
    message is the tensor-product message of the edge's rows, the `64 * 9` columns read feature-major. -/
theorem msg_row_rad (q : Fin 393216) (o : Fin 64) :
    val_main_v37 (F := Ideal) x0 x2 x3 x4 x5 x12 x13 x14 x15 x16 x17 x18 x19 x20 (ix2 ⟨65536 + q.val, by have := q.isLt; omega⟩ o)
      = Cert.Spec.msgRow
          (fun i : Fin 64 => val_main_v29 (F := Ideal) x0 x2 (ix2 ⟨65536 + q.val, by have := q.isLt; omega⟩ i))
          (fun j : Fin 9 => x5 (ix2 ⟨65536 + q.val, by have := q.isLt; omega⟩ j)) (fun k : Fin 64 => x4 (ix2 q k))
          (fun k g : Fin 64 => x16 (ix2 k g)) (fun g : Fin 64 => x17 (ix1 g))
          (fun (g : Fin 64) (j : Fin 9) (i : Fin 64) =>
            x18 (ix2 g ⟨i.val * 9 + j.val, by have := i.isLt; have := j.isLt; omega⟩))
          (fun (j : Fin 9) (i : Fin 64) => x19 (ix1 ⟨i.val * 9 + j.val, by have := i.isLt; have := j.isLt; omega⟩))
          (fun (j : Fin 9) (i : Fin 64) =>
            x20 (ix2 ⟨i.val * 9 + j.val, by have := i.isLt; have := j.isLt; omega⟩ o)) := by
  have he : 65536 + q.val < 458752 := by have := q.isLt; omega
  rw [val_main_v37_apply, Cert.SumLaws.sum_feature_major (A := 64) (N := 576) rfl]
  unfold Cert.Spec.msgRow
  refine Finset.sum_congr rfl fun j _ => Finset.sum_congr rfl fun i _ => ?_
  have hij : i.val * 9 + j.val < 576 := by have := i.isLt; have := j.isLt; omega
  have hl : lidx_main_v37 (ix2 (⟨65536 + q.val, he⟩ : Fin 458752) o) ⟨i.val * 9 + j.val, hij⟩
      = ix2 (⟨65536 + q.val, he⟩ : Fin 458752) ⟨i.val * 9 + j.val, hij⟩ := funext fun a =>
    match a with | ⟨0, _⟩ => rfl | ⟨1, _⟩ => rfl
  have hr : ridx_main_v37 (ix2 (⟨65536 + q.val, he⟩ : Fin 458752) o) ⟨i.val * 9 + j.val, hij⟩
      = ix2 ⟨i.val * 9 + j.val, hij⟩ o := funext fun a =>
    match a with | ⟨0, _⟩ => rfl | ⟨1, _⟩ => rfl
  rw [hl, hr, val_main_v36_apply, outer_at, joined_rad_at, weight_rad_at]
  show ((_ * _) * _) * _ = _
  rw [mul_right_comm (val_main_v29 (F := Ideal) x0 x2 (ix2 (⟨65536 + q.val, he⟩ : Fin 458752) i))]
  rfl

end Cert.ReferenceIdeal.RefAtom

end
-- ==== Proof.Layout3.lean ====
/-
  One more layout fact: a slice taken at the origin of a two-dimensional array reads the operand at the same place.
-/
import Idealize.ShloMosaic.Lib.Pipeline.Value
import Idealize.ShloMosaic.Lib.ValueIdx

noncomputable section

namespace Cert.Layout3

open Idealize.ShloMosaic Idealize.ShloMosaic.ValueIdx

variable {α : Type}

/-- A slice at offsets `(0, 0)` read at `(r, q)` is the operand at `(r, q)`. -/
theorem slice_origin_apply {m n m' n' : ℕ} (x : (⟨2, ![m, n]⟩ : Shape).Idx → α)
    (h : (⟨2, ![m, n]⟩ : Shape).Slices ![0, 0] ⟨2, ![m', n']⟩) (r : Fin m') (q : Fin n') (hr : r.val < m) (hq : q.val < n) :
    extractStridedSlice ⟨2, ![m', n']⟩ ![0, 0] x h (ix2 r q) = x (ix2 ⟨r.val, hr⟩ ⟨q.val, hq⟩) :=
  extractStridedSlice_apply ![0, 0] x h (ix2 r q) (ix2 ⟨r.val, hr⟩ ⟨q.val, hq⟩) fun a =>
    match a with
    | ⟨0, _⟩ => (Nat.zero_add _).symm
    | ⟨1, _⟩ => (Nat.zero_add _).symm

end Cert.Layout3

end
-- ==== Proof.AtomStage.lean ====
/-
  The atom convolution of the tiled program against the reference's, message by message.

  The tiled program gathers the source atoms' features once, for all 458752 atom edges, and runs the bond edges (the
  first 65536) and the radius edges (the remaining 393216) through two regions with their own perceptrons; the reference
  runs all edges through one expression, choosing the perceptron by the edge's position.  Edge by edge the two compute the
  same message: the regions read the rows of the gathered features, of the harmonics and of the edge features at the
  edge's global position, and read the second layer, its bias and the projection through the column permutation, which
  turns the harmonic-major column `j * 64 + i` back into the reference's feature-major column `i * 9 + j`.
-/
import proofs.«130085_j37134287242037_2_alg».proof.Proof.HostA
import proofs.«130085_j37134287242037_2_alg».proof.Proof.BondArr
import proofs.«130085_j37134287242037_2_alg».proof.Proof.RadArr
import proofs.«130085_j37134287242037_2_alg».proof.Proof.RefAtom
import proofs.«130085_j37134287242037_2_alg».proof.Proof.PermGather
import proofs.«130085_j37134287242037_2_alg».proof.Proof.Layout3
import Idealize.ShloMosaic.Lib.ValueLayout

set_option maxRecDepth 16384

noncomputable section

open scoped BigOperators

namespace Cert.KernelIdeal.AtomStage

open Cert.KernelIdeal Cert.KernelIdeal.Gen Idealize.ShloMosaic Idealize.ShloMosaic.ValueIdx
open Idealize.SL.Sem Idealize.ShloMosaic.TcCoe

variable (m : (ℓ : Loc nD τ sig) → Buf (Elt Ideal) ℓ) (ρ : Dev nD → PrngReg)

/-- The reference's message of every atom edge, over the launch memory's argument arrays. -/
abbrev refMsg (c : Dev nD) : S458752x64.Idx → EReal :=
  Cert.ReferenceIdeal.Read.val_main_v37 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- The projection of the atom convolution is shared by the two regions: the radius region finds it as the bond region
    did. -/
theorem proj_kept (c : Dev nD) :
    W2 m ρ c (Proc.devRef .tc main_call0_v48) = W1 m ρ c (Proc.devRef .tc main_call0_v48) :=
  (W2_arr m ρ c 7).trans (((dat0 (V1 m ρ) c).arrAt_in 7 rfl _).trans (A_eq0 (V1 m ρ) c 7))

/-- Bond edge `b`: the bond region's message is the reference's message of edge `b`. -/
theorem bond_msg (c : Dev nD) (b : Fin 65536) (o : Fin 64) :
    Cert.KernelIdeal.BondArr.msgAt (V1 m ρ) c b o = refMsg m c (ix2 ⟨b.val, by have := b.isLt; omega⟩ o) := by
  unfold Cert.KernelIdeal.BondArr.msgAt refMsg
  rw [Cert.ReferenceIdeal.RefAtom.msg_row_bond]
  refine Cert.Spec.msgRow_congr ?_ ?_ ?_ ?_ ?_ ?_ ?_ ?_
  · intro i
    show W1 m ρ c (Proc.devRef .tc main_call0_v74) (ix2 b i) = _
    rw [Cert.KernelIdeal.HostA.v74_eq]
    exact Cert.Layout3.slice_origin_apply _ _ b i _ _
  · intro j
    show W1 m ρ c (Proc.devRef .tc main_call0_v76) (ix2 b j) = _
    rw [Cert.KernelIdeal.HostA.v76_eq]
    exact Cert.Layout3.slice_origin_apply _ _ b j _ _
  · intro k
    show W1 m ρ c (Proc.devRef .tc main_arg3) (ix2 b k) = _
    rw [Cert.KernelIdeal.HostA.arg3_eq]
  · intro k g
    show W1 m ρ c (Proc.devRef .tc main_arg12) (ix2 k g) = _
    rw [Cert.KernelIdeal.HostA.arg12_eq]
  · intro g
    show W1 m ρ c (Proc.devRef .tc main_call0_v59) (ix2 (0 : Fin 1) g) = _
    rw [Cert.KernelIdeal.HostA.v59_eq]
    exact shapeCast_a_1a_apply _ _ 0 g
  · intro g j i
    show W1 m ρ c (Proc.devRef .tc main_call0_v4) (ix2 g ⟨j.val * 64 + i.val, by have := i.isLt; have := j.isLt; omega⟩) = _
    rw [Cert.KernelIdeal.HostA.v4_eq]
    exact Cert.KernelIdeal.PermGather.cols576 _ g j i
  · intro j i
    show W1 m ρ c (Proc.devRef .tc main_call0_v10) (ix2 (0 : Fin 1) ⟨j.val * 64 + i.val, by have := i.isLt; have := j.isLt; omega⟩) = _
    rw [Cert.KernelIdeal.HostA.v10_eq]
    exact (shapeCast_a_1a_apply _ _ 0 _).trans (Cert.KernelIdeal.PermGather.vec576 _ j i)
  · intro j i
    show W1 m ρ c (Proc.devRef .tc main_call0_v48) (ix2 ⟨j.val * 64 + i.val, by have := i.isLt; have := j.isLt; omega⟩ o) = _
    rw [Cert.KernelIdeal.HostA.v48_eq]
    exact Cert.KernelIdeal.PermGather.rows576x64 _ j i o

/-- Radius edge `q`: the radius region's message is the reference's message of edge `65536 + q`. -/
theorem rad_msg (c : Dev nD) (q : Fin 393216) (o : Fin 64) :
    Cert.KernelIdeal.RadArr.msgAt (V2 m ρ) c q o = refMsg m c (ix2 ⟨65536 + q.val, by have := q.isLt; omega⟩ o) := by
  unfold Cert.KernelIdeal.RadArr.msgAt refMsg
  rw [Cert.ReferenceIdeal.RefAtom.msg_row_rad]
  refine Cert.Spec.msgRow_congr ?_ ?_ ?_ ?_ ?_ ?_ ?_ ?_
  · intro i
    show W2 m ρ c (Proc.devRef .tc main_call0_v75) (ix2 q i) = _
    rw [W2_of_ne m ρ c main_call0_v75 (by decide), Cert.KernelIdeal.HostA.v75_eq]
    exact Cert.Layout2.slice_rows_apply 65536 _ _ q i _
  · intro j
    show W2 m ρ c (Proc.devRef .tc main_call0_v77) (ix2 q j) = _
    rw [W2_of_ne m ρ c main_call0_v77 (by decide), Cert.KernelIdeal.HostA.v77_eq]
    exact Cert.Layout2.slice_rows_apply 65536 _ _ q j _
  · intro k
    show W2 m ρ c (Proc.devRef .tc main_arg4) (ix2 q k) = _
    rw [W2_of_ne m ρ c main_arg4 (by decide), Cert.KernelIdeal.HostA.arg4_eq]
  · intro k g
    show W2 m ρ c (Proc.devRef .tc main_arg16) (ix2 k g) = _
    rw [W2_of_ne m ρ c main_arg16 (by decide), Cert.KernelIdeal.HostA.arg16_eq]
  · intro g
    show W2 m ρ c (Proc.devRef .tc main_call0_v60) (ix2 (0 : Fin 1) g) = _
    rw [W2_of_ne m ρ c main_call0_v60 (by decide), Cert.KernelIdeal.HostA.v60_eq]
    exact shapeCast_a_1a_apply _ _ 0 g
  · intro g j i
    show W2 m ρ c (Proc.devRef .tc main_call0_v15) (ix2 g ⟨j.val * 64 + i.val, by have := i.isLt; have := j.isLt; omega⟩) = _
    rw [W2_of_ne m ρ c main_call0_v15 (by decide), Cert.KernelIdeal.HostA.v15_eq]
    exact Cert.KernelIdeal.PermGather.cols576 _ g j i
  · intro j i
    show W2 m ρ c (Proc.devRef .tc main_call0_v21) (ix2 (0 : Fin 1) ⟨j.val * 64 + i.val, by have := i.isLt; have := j.isLt; omega⟩) = _
    rw [W2_of_ne m ρ c main_call0_v21 (by decide), Cert.KernelIdeal.HostA.v21_eq]
    exact (shapeCast_a_1a_apply _ _ 0 _).trans (Cert.KernelIdeal.PermGather.vec576 _ j i)
  · intro j i
    show W2 m ρ c (Proc.devRef .tc main_call0_v48) (ix2 ⟨j.val * 64 + i.val, by have := i.isLt; have := j.isLt; omega⟩ o) = _
    rw [proj_kept, Cert.KernelIdeal.HostA.v48_eq]
    exact Cert.KernelIdeal.PermGather.rows576x64 _ j i o

end Cert.KernelIdeal.AtomStage

end
-- ==== Proof.ScatterSplit.lean ====
/-
  A scatter-add over a list of edges is the sum of the scatter-adds over its first edges and over its last edges.

  Every edge `e` carries a target row `t e` (a signed integer read off the index operand) and a row of updates.  The
  scatter-add of the updates onto an array `x` is, at the entry `(n, c)`,
      `x (n, c) + ∑ e, if t e = n then upd (e, c) else 0`:
  an update lands on row `t e` of the operand, in its own column, and is dropped when `t e` is not a row of the operand.
  A sum over `E = A + B` edges is the sum over the first `A` plus the sum over the last `B`, so when `x = xA + xB` at the
  entry, the scatter-add of all the edges onto `x` is the scatter-add of the first `A` edges onto `xA` plus the
  scatter-add of the last `B` edges onto `xB`.  Addition of extended reals is commutative and associative, so no
  finiteness is needed.  The same holds for the scatter-add of one number per edge onto a one-dimensional array.
-/
import Idealize.ShloMosaic.PureOps.Ideal
import Idealize.ShloMosaic.Lib.ValueIdx
import Idealize.ShloMosaic.Lib.Pipeline.Value
import proofs.«130085_j37134287242037_2_alg».proof.KernelIdeal
import proofs.«130085_j37134287242037_2_alg».proof.ReferenceIdeal

noncomputable section

open scoped BigOperators

namespace Cert.ScatterSplit

open Idealize.ShloMosaic Idealize.ShloMosaic.ValueIdx

/-! ## Where an update lands -/

/-- An update lands on the operand index `i` exactly when, on every axis, the window's start plus the window
    coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hb
      have h' := congrFun (Option.some.inj h) a
      have h'' := congrArg Fin.val h'
      have := hb a
      simp only at h''
      omega
    · exact absurd h (by simp)
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

/-- A sum over `E = A + B` indices is the sum over the first `A` plus the sum over the last `B`. -/
theorem sum_split {E A B : ℕ} (hE : E = A + B) (f : Fin E → EReal) :
    ∑ e : Fin E, f e = ∑ e : Fin A, f ⟨e.val, by omega⟩ + ∑ e : Fin B, f ⟨A + e.val, by omega⟩ := by
  subst hE
  exact Fin.sum_univ_add f

/-- A one-dimensional index set is its coordinate range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {n : ℕ} (f : (⟨1, ![n]⟩ : Shape).Idx → EReal) : ∑ i, f i = ∑ a : Fin n, f (ix1 a) := by
  rw [← Equiv.sum_comp (idxEquiv1 (n := n)).symm f]
  rfl

variable {N C E w : ℕ}

/-! ## Rows of updates scattered onto the rows of a two-dimensional array -/

/-- The dimension numbers of a scatter of `E` rows of `C` updates onto the rows of an `N × C` array: one index per
    row of updates, naming the operand's row; the update's column is the operand's column. -/
abbrev d2 (wf : ScatterDims.WF (⟨2, ![N, C]⟩ : Shape) (⟨2, ![E, 1]⟩ : Shape) (⟨2, ![E, C]⟩ : Shape) [1] [0] [0] 1) :
    ScatterDims (⟨2, ![N, C]⟩ : Shape) (⟨2, ![E, 1]⟩ : Shape) (⟨2, ![E, C]⟩ : Shape) :=
  ⟨[1], [0], [0], 1, wf⟩

/-- The update at `(e, o)` reads its start index at row `e` of the index operand. -/
theorem siIdx2 (wf) (e : Fin E) (o : Fin C) (c) :
    (d2 (N := N) wf).siIdx (ix2 e o) c = ix2 e 0 := by
  funext a
  match a with
  | ⟨0, _⟩ => rfl
  | ⟨1, _⟩ =>
    apply Fin.ext
    simp [ScatterDims.siIdx, ScatterDims.siCoord]

theorem start2_0 (wf) (e : Fin E) (o : Fin C) (idx : IVec (⟨2, ![E, 1]⟩ : Shape) w) :
    (d2 (N := N) wf).start (ix2 e o) idx 0 = (idx (ix2 e 0)).toInt := by
  unfold ScatterDims.start
  rw [dif_pos (by simp)]
  rw [siIdx2]

theorem start2_1 (wf) (e : Fin E) (o : Fin C) (idx : IVec (⟨2, ![E, 1]⟩ : Shape) w) :
    (d2 (N := N) wf).start (ix2 e o) idx 1 = 0 := by
  unfold ScatterDims.start
  rw [dif_neg (by simp)]

theorem window2_0 (wf) (e : Fin E) (o : Fin C) : (d2 (N := N) wf).window (ix2 e o) 0 = 0 := rfl

theorem window2_1 (wf) (e : Fin E) (o : Fin C) : (d2 (N := N) wf).window (ix2 e o) 1 = o.val := rfl

/-- The update at `(e, o)` lands on `(n, c)` exactly when row `e`'s index is `n` and `o = c`. -/
theorem resultIdx2_iff (wf) (e : Fin E) (o : Fin C) (idx : IVec (⟨2, ![E, 1]⟩ : Shape) w) (n : Fin N) (c : Fin C) :
    (d2 wf).resultIdx? (ix2 e o) idx = some (ix2 n c) ↔ (idx (ix2 e 0)).toInt = (n.val : ℤ) ∧ o = c := by
  refine (resultIdx?_eq_some_iff _ _ _ _).trans ?_
  refine (Fin.forall_fin_two (p := fun a => (d2 wf).start (ix2 e o) idx a + ((d2 wf).window (ix2 e o) a : ℤ) = ((ix2 n c a).val : ℤ))).trans ?_
  rw [start2_0, window2_0, start2_1, window2_1]
  show (idx (ix2 e 0)).toInt + ((0 : ℕ) : ℤ) = (n.val : ℤ) ∧ (0 : ℤ) + (o.val : ℤ) = (c.val : ℤ) ↔ _
  constructor
  · rintro ⟨h0, h1⟩
    exact ⟨by omega, Fin.ext (by omega)⟩
  · rintro ⟨h0, h1⟩
    subst h1
    exact ⟨by omega, by omega⟩

/-- The updates that land on `(n, c)` are those of column `c` in the rows whose index is `n`. -/
theorem scatterSum2 (wf) (idx : IVec (⟨2, ![E, 1]⟩ : Shape) w) (upd : (⟨2, ![E, C]⟩ : Shape).Idx → EReal)
    (n : Fin N) (c : Fin C) :
    ∑ j ∈ Finset.univ.filter (fun j => (d2 wf).resultIdx? j idx = some (ix2 n c)), upd j
      = ∑ e : Fin E, if (idx (ix2 e 0)).toInt = (n.val : ℤ) then upd (ix2 e c) else 0 := by
  rw [Finset.sum_filter, sum_idx2]
  refine Finset.sum_congr rfl fun e _ => ?_
  by_cases h : (idx (ix2 e 0)).toInt = (n.val : ℤ)
  · rw [if_pos h, Finset.sum_eq_single c]
    · exact if_pos ((resultIdx2_iff wf e c idx n c).2 ⟨h, rfl⟩)
    · intro o _ ho
      exact if_neg fun hh => ho ((resultIdx2_iff wf e o idx n c).1 hh).2
    · intro hn
      exact absurd (Finset.mem_univ _) hn
  · rw [if_neg h]
    exact Finset.sum_eq_zero fun o _ => if_neg fun hh => h ((resultIdx2_iff wf e o idx n c).1 hh).1

/-- The scatter-add at the entry `(n, c)`. -/
theorem hostScatterAdd2_apply (wf) (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd (d2 wf) x idx upd (ix2 n c)
      = x (ix2 n c) + ∑ e : Fin E, if (idx (ix2 e 0)).toInt = (n.val : ℤ) then upd (ix2 e c) else 0 := by
  unfold Ideal.hostScatterAdd
  rw [scatterSum2]

/-- The scatter-add of `E = A + B` rows onto `x = xA + xB` is the scatter-add of the first `A` rows onto `xA` plus the
    scatter-add of the last `B` rows onto `xB`. -/
theorem scatter2_split {A B : ℕ} (hE : E = A + B) (wf wfA wfB)
    (idx : IVec (⟨2, ![E, 1]⟩ : Shape) w) (idxA : IVec (⟨2, ![A, 1]⟩ : Shape) w) (idxB : IVec (⟨2, ![B, 1]⟩ : Shape) w)
    (hiA : ∀ e : Fin A, idx (ix2 ⟨e.val, by omega⟩ 0) = idxA (ix2 e 0))
    (hiB : ∀ e : Fin B, idx (ix2 ⟨A + e.val, by omega⟩ 0) = idxB (ix2 e 0))
    (upd : (⟨2, ![E, C]⟩ : Shape).Idx → EReal) (updA : (⟨2, ![A, C]⟩ : Shape).Idx → EReal)
    (updB : (⟨2, ![B, C]⟩ : Shape).Idx → EReal)
    (hA : ∀ (e : Fin A) (o : Fin C), upd (ix2 ⟨e.val, by omega⟩ o) = updA (ix2 e o))
    (hB : ∀ (e : Fin B) (o : Fin C), upd (ix2 ⟨A + e.val, by omega⟩ o) = updB (ix2 e o))
    (x xA xB : (⟨2, ![N, C]⟩ : Shape).Idx → EReal) (n : Fin N) (c : Fin C)
    (hx : x (ix2 n c) = xA (ix2 n c) + xB (ix2 n c)) :
    Ideal.hostScatterAdd (d2 wf) x idx upd (ix2 n c)
      = Ideal.hostScatterAdd (d2 wfA) xA idxA updA (ix2 n c) + Ideal.hostScatterAdd (d2 wfB) xB idxB updB (ix2 n c) := by
  rw [hostScatterAdd2_apply, hostScatterAdd2_apply, hostScatterAdd2_apply, sum_split hE, hx]
  simp only [hiA, hiB, hA, hB]
  exact add_add_add_comm _ _ _ _

/-! ## One number per edge scattered onto a one-dimensional array -/

/-- The dimension numbers of a scatter of `E` numbers onto an array of `N`: one index per number, naming the entry. -/
abbrev d1 (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) :=
  ⟨[], [0], [0], 1, wf⟩

theorem siIdx1 (wf) (e : Fin E) (c) : (d1 (N := N) wf).siIdx (ix1 e) c = ix2 e 0 := by
  funext a
  match a with
  | ⟨0, _⟩ => rfl
  | ⟨1, _⟩ =>
    apply Fin.ext
    simp [ScatterDims.siIdx, ScatterDims.siCoord]

theorem start1_0 (wf) (e : Fin E) (idx : IVec (⟨2, ![E, 1]⟩ : Shape) w) :
    (d1 (N := N) wf).start (ix1 e) idx 0 = (idx (ix2 e 0)).toInt := by
  unfold ScatterDims.start
  rw [dif_pos (by simp)]
  rw [siIdx1]

theorem window1_0 (wf) (e : Fin E) : (d1 (N := N) wf).window (ix1 e) 0 = 0 := rfl

/-- The update `e` lands on `n` exactly when its index is `n`. -/
theorem resultIdx1_iff (wf) (e : Fin E) (idx : IVec (⟨2, ![E, 1]⟩ : Shape) w) (n : Fin N) :
    (d1 wf).resultIdx? (ix1 e) idx = some (ix1 n) ↔ (idx (ix2 e 0)).toInt = (n.val : ℤ) := by
  refine (resultIdx?_eq_some_iff _ _ _ _).trans ?_
  refine (Fin.forall_fin_one (p := fun a => (d1 wf).start (ix1 e) idx a + ((d1 wf).window (ix1 e) a : ℤ) = ((ix1 n a).val : ℤ))).trans ?_
  rw [start1_0, window1_0]
  show (idx (ix2 e 0)).toInt + ((0 : ℕ) : ℤ) = (n.val : ℤ) ↔ _
  constructor
  · intro h0
    omega
  · intro h0
    omega

theorem scatterSum1 (wf) (idx : IVec (⟨2, ![E, 1]⟩ : Shape) w) (upd : (⟨1, ![E]⟩ : Shape).Idx → EReal) (n : Fin N) :
    ∑ j ∈ Finset.univ.filter (fun j => (d1 wf).resultIdx? j idx = some (ix1 n)), upd j
      = ∑ e : Fin E, if (idx (ix2 e 0)).toInt = (n.val : ℤ) then upd (ix1 e) else 0 := by
  rw [Finset.sum_filter, sum_idx1]
  refine Finset.sum_congr rfl fun e _ => ?_
  by_cases h : (idx (ix2 e 0)).toInt = (n.val : ℤ)
  · rw [if_pos h]
    exact if_pos ((resultIdx1_iff wf e idx n).2 h)
  · rw [if_neg h]
    exact if_neg fun hh => h ((resultIdx1_iff wf e idx n).1 hh)

/-- The scatter-add at the entry `n`. -/
theorem hostScatterAdd1_apply (wf) (x : (⟨1, ![N]⟩ : Shape).Idx → EReal) (idx : IVec (⟨2, ![E, 1]⟩ : Shape) w)
    (upd : (⟨1, ![E]⟩ : Shape).Idx → EReal) (n : Fin N) :
    Ideal.hostScatterAdd (d1 wf) x idx upd (ix1 n)
      = x (ix1 n) + ∑ e : Fin E, if (idx (ix2 e 0)).toInt = (n.val : ℤ) then upd (ix1 e) else 0 := by
  unfold Ideal.hostScatterAdd
  rw [scatterSum1]

theorem scatter1_split {A B : ℕ} (hE : E = A + B) (wf wfA wfB)
    (idx : IVec (⟨2, ![E, 1]⟩ : Shape) w) (idxA : IVec (⟨2, ![A, 1]⟩ : Shape) w) (idxB : IVec (⟨2, ![B, 1]⟩ : Shape) w)
    (hiA : ∀ e : Fin A, idx (ix2 ⟨e.val, by omega⟩ 0) = idxA (ix2 e 0))
    (hiB : ∀ e : Fin B, idx (ix2 ⟨A + e.val, by omega⟩ 0) = idxB (ix2 e 0))
    (upd : (⟨1, ![E]⟩ : Shape).Idx → EReal) (updA : (⟨1, ![A]⟩ : Shape).Idx → EReal)
    (updB : (⟨1, ![B]⟩ : Shape).Idx → EReal)
    (hA : ∀ e : Fin A, upd (ix1 ⟨e.val, by omega⟩) = updA (ix1 e))
    (hB : ∀ e : Fin B, upd (ix1 ⟨A + e.val, by omega⟩) = updB (ix1 e))
    (x xA xB : (⟨1, ![N]⟩ : Shape).Idx → EReal) (n : Fin N)
    (hx : x (ix1 n) = xA (ix1 n) + xB (ix1 n)) :
    Ideal.hostScatterAdd (d1 wf) x idx upd (ix1 n)
      = Ideal.hostScatterAdd (d1 wfA) xA idxA updA (ix1 n) + Ideal.hostScatterAdd (d1 wfB) xB idxB updB (ix1 n) := by
  rw [hostScatterAdd1_apply, hostScatterAdd1_apply, hostScatterAdd1_apply, sum_split hE, hx]
  simp only [hiA, hiB, hA, hB]
  exact add_add_add_comm _ _ _ _

/-! ## The index operand: a vector of target rows made a column, and its two halves -/

/-- A vector made a one-column array reads the vector. -/
theorem bcast_col_apply {α : Type} (h : (⟨1, ![E]⟩ : Shape).BroadcastsInDim (⟨2, ![E, 1]⟩ : Shape) ![0])
    (dst : (⟨1, ![E]⟩ : Shape).Idx → α) (e : Fin E) :
    broadcastInDim (⟨2, ![E, 1]⟩ : Shape) ![0] h dst (ix2 e 0) = dst (ix1 e) :=
  broadcastInDim_apply ![0] h dst (ix2 e 0) (ix1 e) fun a =>
    match a with
    | ⟨0, _⟩ => by
      show e.val = if E = 1 then 0 else e.val
      split
      · omega
      · rfl

/-- A slice of a vector at offset `off` reads the vector shifted by `off`. -/
theorem slice1_apply {α : Type} {M : ℕ} (off : ℕ) (x : (⟨1, ![E]⟩ : Shape).Idx → α)
    (h : (⟨1, ![E]⟩ : Shape).Slices ![off] (⟨1, ![M]⟩ : Shape)) (e : Fin M) (he : off + e.val < E) :
    extractStridedSlice (⟨1, ![M]⟩ : Shape) ![off] x h (ix1 e) = x (ix1 ⟨off + e.val, he⟩) :=
  extractStridedSlice_apply ![off] x h (ix1 e) (ix1 ⟨off + e.val, he⟩) fun a =>
    match a with
    | ⟨0, _⟩ => rfl

/-! ## The two programs' scatters -/

section Programs

variable [Cert.KernelIdeal.Facts₀] [Cert.ReferenceIdeal.Facts₀]

/-- The index operand over all the edges, at the first 65536 rows, is the index operand over the first slice. -/
theorem idx_first (dstAll : IVec (⟨1, ![458752]⟩ : Shape) 32)
    (hb : (⟨1, ![458752]⟩ : Shape).BroadcastsInDim (⟨2, ![458752, 1]⟩ : Shape) ![0])
    (hbB : (⟨1, ![65536]⟩ : Shape).BroadcastsInDim (⟨2, ![65536, 1]⟩ : Shape) ![0])
    (hs : (⟨1, ![458752]⟩ : Shape).Slices ![0] (⟨1, ![65536]⟩ : Shape)) (e : Fin 65536) :
    broadcastInDim (⟨2, ![458752, 1]⟩ : Shape) ![0] hb dstAll (ix2 ⟨e.val, by omega⟩ 0)
      = broadcastInDim (⟨2, ![65536, 1]⟩ : Shape) ![0] hbB
          (extractStridedSlice (⟨1, ![65536]⟩ : Shape) ![0] dstAll hs) (ix2 e 0) := by
  rw [bcast_col_apply, bcast_col_apply, slice1_apply 0 dstAll hs e (by omega)]
  exact congrArg dstAll (congrArg ix1 (Fin.ext (by simp)))

/-- The index operand over all the edges, at the last 393216 rows, is the index operand over the second slice. -/
theorem idx_last (dstAll : IVec (⟨1, ![458752]⟩ : Shape) 32)
    (hb : (⟨1, ![458752]⟩ : Shape).BroadcastsInDim (⟨2, ![458752, 1]⟩ : Shape) ![0])
    (hbR : (⟨1, ![393216]⟩ : Shape).BroadcastsInDim (⟨2, ![393216, 1]⟩ : Shape) ![0])
    (hs : (⟨1, ![458752]⟩ : Shape).Slices ![65536] (⟨1, ![393216]⟩ : Shape)) (e : Fin 393216) :
    broadcastInDim (⟨2, ![458752, 1]⟩ : Shape) ![0] hb dstAll (ix2 ⟨65536 + e.val, by omega⟩ 0)
      = broadcastInDim (⟨2, ![393216, 1]⟩ : Shape) ![0] hbR
          (extractStridedSlice (⟨1, ![393216]⟩ : Shape) ![65536] dstAll hs) (ix2 e 0) := by
  rw [bcast_col_apply, bcast_col_apply, slice1_apply 65536 dstAll hs e (by omega)]

/-- The scatter of all 458752 edge messages onto `x` is the scatter of the first 65536 (bond) messages onto `xB` plus
    the scatter of the last 393216 (radius) messages onto `xR`, at every entry where `x = xB + xR`. -/
theorem split2_of (dstAll : IVec (⟨1, ![458752]⟩ : Shape) 32)
    (upd : (⟨2, ![458752, 64]⟩ : Shape).Idx → EReal) (updB : (⟨2, ![65536, 64]⟩ : Shape).Idx → EReal)
    (updR : (⟨2, ![393216, 64]⟩ : Shape).Idx → EReal)
    (hB : ∀ (e : Fin 65536) (o : Fin 64), upd (ix2 ⟨e.val, by omega⟩ o) = updB (ix2 e o))
    (hR : ∀ (e : Fin 393216) (o : Fin 64), upd (ix2 ⟨65536 + e.val, by omega⟩ o) = updR (ix2 e o))
    (x xB xR : (⟨2, ![32768, 64]⟩ : Shape).Idx → EReal) (i : (⟨2, ![32768, 64]⟩ : Shape).Idx)
    (hx : x i = xB i + xR i) :
    Ideal.hostScatterAdd Cert.ReferenceIdeal.scatter_S32768x64_S458752x1_S458752x64_1_0_0_1 x
        (broadcastInDim Cert.ReferenceIdeal.S458752x1 ![0] Cert.ReferenceIdeal.Facts₀.bcast_S458752_S458752x1_0 dstAll) upd i
      = Ideal.hostScatterAdd Cert.KernelIdeal.scatter_S32768x64_S65536x1_S65536x64_1_0_0_1 xB
          (broadcastInDim Cert.KernelIdeal.S65536x1 ![0] Cert.KernelIdeal.Facts₀.bcast_S65536_S65536x1_0
            (extractStridedSlice Cert.KernelIdeal.S65536 ![0] dstAll Cert.KernelIdeal.Facts₀.slices_S458752_S65536_0)) updB i
        + Ideal.hostScatterAdd Cert.KernelIdeal.scatter_S32768x64_S393216x1_S393216x64_1_0_0_1 xR
          (broadcastInDim Cert.KernelIdeal.S393216x1 ![0] Cert.KernelIdeal.Facts₀.bcast_S393216_S393216x1_0
            (extractStridedSlice Cert.KernelIdeal.S393216 ![65536] dstAll Cert.KernelIdeal.Facts₀.slices_S458752_S393216_65536)) updR i := by
  rw [eq_ix2 i] at hx ⊢
  exact scatter2_split (A := 65536) (B := 393216) (by norm_num) _ _ _ _ _ _
    (idx_first dstAll _ _ _) (idx_last dstAll _ _ _) upd updB updR hB hR x xB xR _ _ hx

/-- The same with the zero array as the operand of all three scatters. -/
theorem split2 (dstAll : IVec (⟨1, ![458752]⟩ : Shape) 32)
    (upd : (⟨2, ![458752, 64]⟩ : Shape).Idx → EReal) (updB : (⟨2, ![65536, 64]⟩ : Shape).Idx → EReal)
    (updR : (⟨2, ![393216, 64]⟩ : Shape).Idx → EReal)
    (hB : ∀ (e : Fin 65536) (o : Fin 64), upd (ix2 ⟨e.val, by omega⟩ o) = updB (ix2 e o))
    (hR : ∀ (e : Fin 393216) (o : Fin 64), upd (ix2 ⟨65536 + e.val, by omega⟩ o) = updR (ix2 e o))
    (i : (⟨2, ![32768, 64]⟩ : Shape).Idx) :
    Ideal.hostScatterAdd Cert.ReferenceIdeal.scatter_S32768x64_S458752x1_S458752x64_1_0_0_1 (fun _ => 0)
        (broadcastInDim Cert.ReferenceIdeal.S458752x1 ![0] Cert.ReferenceIdeal.Facts₀.bcast_S458752_S458752x1_0 dstAll) upd i
      = Ideal.hostScatterAdd Cert.KernelIdeal.scatter_S32768x64_S65536x1_S65536x64_1_0_0_1 (fun _ => 0)
          (broadcastInDim Cert.KernelIdeal.S65536x1 ![0] Cert.KernelIdeal.Facts₀.bcast_S65536_S65536x1_0
            (extractStridedSlice Cert.KernelIdeal.S65536 ![0] dstAll Cert.KernelIdeal.Facts₀.slices_S458752_S65536_0)) updB i
        + Ideal.hostScatterAdd Cert.KernelIdeal.scatter_S32768x64_S393216x1_S393216x64_1_0_0_1 (fun _ => 0)
          (broadcastInDim Cert.KernelIdeal.S393216x1 ![0] Cert.KernelIdeal.Facts₀.bcast_S393216_S393216x1_0
            (extractStridedSlice Cert.KernelIdeal.S393216 ![65536] dstAll Cert.KernelIdeal.Facts₀.slices_S458752_S393216_65536)) updR i :=
  split2_of dstAll upd updB updR hB hR _ _ _ i (zero_add 0).symm

/-- The scatter of one number per edge over all 458752 edges onto `x` is the scatter over the first 65536 edges onto
    `xB` plus the scatter over the last 393216 edges onto `xR`, at every entry where `x = xB + xR`. -/
theorem split1_of (dstAll : IVec (⟨1, ![458752]⟩ : Shape) 32)
    (upd : (⟨1, ![458752]⟩ : Shape).Idx → EReal) (updB : (⟨1, ![65536]⟩ : Shape).Idx → EReal)
    (updR : (⟨1, ![393216]⟩ : Shape).Idx → EReal)
    (hB : ∀ e : Fin 65536, upd (ix1 ⟨e.val, by omega⟩) = updB (ix1 e))
    (hR : ∀ e : Fin 393216, upd (ix1 ⟨65536 + e.val, by omega⟩) = updR (ix1 e))
    (x xB xR : (⟨1, ![32768]⟩ : Shape).Idx → EReal) (i : (⟨1, ![32768]⟩ : Shape).Idx)
    (hx : x i = xB i + xR i) :
    Ideal.hostScatterAdd Cert.ReferenceIdeal.scatter_S32768_S458752x1_S458752_n_0_0_1 x
        (broadcastInDim Cert.ReferenceIdeal.S458752x1 ![0] Cert.ReferenceIdeal.Facts₀.bcast_S458752_S458752x1_0 dstAll) upd i
      = Ideal.hostScatterAdd Cert.KernelIdeal.scatter_S32768_S65536x1_S65536_n_0_0_1 xB
          (broadcastInDim Cert.KernelIdeal.S65536x1 ![0] Cert.KernelIdeal.Facts₀.bcast_S65536_S65536x1_0
            (extractStridedSlice Cert.KernelIdeal.S65536 ![0] dstAll Cert.KernelIdeal.Facts₀.slices_S458752_S65536_0)) updB i
        + Ideal.hostScatterAdd Cert.KernelIdeal.scatter_S32768_S393216x1_S393216_n_0_0_1 xR
          (broadcastInDim Cert.KernelIdeal.S393216x1 ![0] Cert.KernelIdeal.Facts₀.bcast_S393216_S393216x1_0
            (extractStridedSlice Cert.KernelIdeal.S393216 ![65536] dstAll Cert.KernelIdeal.Facts₀.slices_S458752_S393216_65536)) updR i := by
  rw [eq_ix1 i] at hx ⊢
  exact scatter1_split (A := 65536) (B := 393216) (by norm_num) _ _ _ _ _ _
    (idx_first dstAll _ _ _) (idx_last dstAll _ _ _) upd updB updR hB hR x xB xR _ hx

/-- The same with the zero array as the operand of all three scatters. -/
theorem split1 (dstAll : IVec (⟨1, ![458752]⟩ : Shape) 32)
    (upd : (⟨1, ![458752]⟩ : Shape).Idx → EReal) (updB : (⟨1, ![65536]⟩ : Shape).Idx → EReal)
    (updR : (⟨1, ![393216]⟩ : Shape).Idx → EReal)
    (hB : ∀ e : Fin 65536, upd (ix1 ⟨e.val, by omega⟩) = updB (ix1 e))
    (hR : ∀ e : Fin 393216, upd (ix1 ⟨65536 + e.val, by omega⟩) = updR (ix1 e))
    (i : (⟨1, ![32768]⟩ : Shape).Idx) :
    Ideal.hostScatterAdd Cert.ReferenceIdeal.scatter_S32768_S458752x1_S458752_n_0_0_1 (fun _ => 0)
        (broadcastInDim Cert.ReferenceIdeal.S458752x1 ![0] Cert.ReferenceIdeal.Facts₀.bcast_S458752_S458752x1_0 dstAll) upd i
      = Ideal.hostScatterAdd Cert.KernelIdeal.scatter_S32768_S65536x1_S65536_n_0_0_1 (fun _ => 0)
          (broadcastInDim Cert.KernelIdeal.S65536x1 ![0] Cert.KernelIdeal.Facts₀.bcast_S65536_S65536x1_0
            (extractStridedSlice Cert.KernelIdeal.S65536 ![0] dstAll Cert.KernelIdeal.Facts₀.slices_S458752_S65536_0)) updB i
        + Ideal.hostScatterAdd Cert.KernelIdeal.scatter_S32768_S393216x1_S393216_n_0_0_1 (fun _ => 0)
          (broadcastInDim Cert.KernelIdeal.S393216x1 ![0] Cert.KernelIdeal.Facts₀.bcast_S393216_S393216x1_0
            (extractStridedSlice Cert.KernelIdeal.S393216 ![65536] dstAll Cert.KernelIdeal.Facts₀.slices_S458752_S393216_65536)) updR i :=
  split1_of dstAll upd updB updR hB hR _ _ _ i (zero_add 0).symm

end Programs

end Cert.ScatterSplit

end
-- ==== Proof.AtomOut.lean ====
/-
  The first result: every atom's mean incoming message plus its own features.

  The reference adds up, for each atom, the messages of all atom edges that end there, and counts them; the tiled program
  adds up the bond edges' and the radius edges' messages separately, counts them separately, and adds the two sums and
  the two counts.  A sum over all edges is the sum over the first 65536 plus the sum over the rest, so the sums and the
  counts agree; the division by the count (at least one) and the residual are the same operations on both sides.
-/
import proofs.«130085_j37134287242037_2_alg».proof.Proof.AtomStage
import proofs.«130085_j37134287242037_2_alg».proof.Proof.ScatterSplit
import Idealize.ShloMosaic.Lib.StableHlo.Run

set_option maxRecDepth 16384

noncomputable section

namespace Cert.KernelIdeal.AtomOut

open Cert.KernelIdeal Cert.KernelIdeal.Gen Idealize.ShloMosaic Idealize.ShloMosaic.ValueIdx
open Idealize.SL.Sem Idealize.ShloMosaic.TcCoe Idealize.ShloMosaic.StableHlo

variable (m : (ℓ : Loc nD τ sig) → Buf (Elt Ideal) ℓ) (ρ : Dev nD → PrngReg)

/-- The summed messages per atom, bond part plus radius part. -/
def sums (dB : IVec S65536 32) (dR : IVec S393216 32) (uB : FVec Ideal S65536x64 .f32) (uR : FVec Ideal S393216x64 .f32) :
    FVec Ideal S32768x64 .f32 :=
  addf
    (Host.scatterAdd (F := Ideal) scatter_S32768x64_S65536x1_S65536x64_1_0_0_1
      (broadcastInDim S32768x64 ![] bcast_S_S32768x64 (constant (F := Ideal) S_ .f32 0x00000000#32))
      (broadcastInDim S65536x1 ![0] bcast_S65536_S65536x1_0 dB) uB)
    (Host.scatterAdd (F := Ideal) scatter_S32768x64_S393216x1_S393216x64_1_0_0_1
      (broadcastInDim S32768x64 ![] bcast_S_S32768x64 (constant (F := Ideal) S_ .f32 0x00000000#32))
      (broadcastInDim S393216x1 ![0] bcast_S393216_S393216x1_0 dR) uR)

/-- The number of edges per atom, bond part plus radius part. -/
def counts (dB : IVec S65536 32) (dR : IVec S393216 32) : FVec Ideal S32768 .f32 :=
  addf
    (Host.scatterAdd (F := Ideal) scatter_S32768_S65536x1_S65536_n_0_0_1
      (broadcastInDim S32768 ![] bcast_S_S32768 (constant (F := Ideal) S_ .f32 0x00000000#32))
      (broadcastInDim S65536x1 ![0] bcast_S65536_S65536x1_0 dB)
      (broadcastInDim S65536 ![] bcast_S_S65536 (constant (F := Ideal) S_ .f32 0x3F800000#32)))
    (Host.scatterAdd (F := Ideal) scatter_S32768_S393216x1_S393216_n_0_0_1
      (broadcastInDim S32768 ![] bcast_S_S32768 (constant (F := Ideal) S_ .f32 0x00000000#32))
      (broadcastInDim S393216x1 ![0] bcast_S393216_S393216x1_0 dR)
      (broadcastInDim S393216 ![] bcast_S_S393216 (constant (F := Ideal) S_ .f32 0x3F800000#32)))

/-- The mean (sum over count, the count raised to at least one) plus the residual. -/
def meanPlus (s : FVec Ideal S32768x64 .f32) (cnt : FVec Ideal S32768 .f32) (x : FVec Ideal S32768x64 .f32) :
    FVec Ideal S32768x64 .f32 :=
  addf
    (Host.divf (F := Ideal) s
      (broadcastInDim S32768x64 ![0, 1] bcast_S32768x1_S32768x64_0_1
        (broadcastInDim S32768x1 ![0] bcast_S32768_S32768x1_0
          (maximumf cnt (broadcastInDim S32768 ![] bcast_S_S32768 (constant (F := Ideal) S_ .f32 0x3F800000#32))))))
    x

/-! ## The buffers the second stretch reads -/

theorem bond_arr (c : Dev nD) :
    W3 m ρ c (Proc.devRef .tc main_call0_v80) = Cert.KernelIdeal.BondArr.result (V1 m ρ) c :=
  (W3_of_ne m ρ c main_call0_v80 (by decide)).trans ((W2_arr m ρ c 8).trans (Cert.KernelIdeal.BondArr.arr (V1 m ρ) c))

theorem rad_arr (c : Dev nD) :
    W3 m ρ c (Proc.devRef .tc main_call0_v81) = Cert.KernelIdeal.RadArr.result (V2 m ρ) c :=
  (W3_arr m ρ c 8).trans (Cert.KernelIdeal.RadArr.arr (V2 m ρ) c)

theorem dst_bond (c : Dev nD) :
    W3 m ρ c (Proc.devRef .tc main_call0_v78)
      = extractStridedSlice S65536 ![0] (Cert.ReferenceIdeal.Read.val_main_v3 (F := Ideal) (m ((c : Thread nD τ).loc main_arg2))) slices_S458752_S65536_0 :=
  (W3_of_ne m ρ c main_call0_v78 (by decide)).trans ((W2_of_ne m ρ c main_call0_v78 (by decide)).trans
    (Cert.KernelIdeal.HostA.v78_eq m ρ c))

theorem dst_rad (c : Dev nD) :
    W3 m ρ c (Proc.devRef .tc main_call0_v79)
      = extractStridedSlice S393216 ![65536] (Cert.ReferenceIdeal.Read.val_main_v3 (F := Ideal) (m ((c : Thread nD τ).loc main_arg2))) slices_S458752_S393216_65536 :=
  (W3_of_ne m ρ c main_call0_v79 (by decide)).trans ((W2_of_ne m ρ c main_call0_v79 (by decide)).trans
    (Cert.KernelIdeal.HostA.v79_eq m ρ c))

theorem feats (c : Dev nD) : W3 m ρ c (Proc.devRef .tc main_arg0) = (m ((c : Thread nD τ).loc main_arg0)) :=
  (W3_of_ne m ρ c main_arg0 (by decide)).trans ((W2_of_ne m ρ c main_arg0 (by decide)).trans
    (Cert.KernelIdeal.HostA.arg0_eq m ρ c))

set_option maxHeartbeats 2000000 in
/-- What the second stretch leaves in the first result's buffer, from the buffers it reads. -/
theorem read (c : Dev nD) :
    W4 m ρ c (Proc.devRef .tc main_v0_0)
      = meanPlus
          (sums (W3 m ρ c (Proc.devRef .tc main_call0_v78)) (W3 m ρ c (Proc.devRef .tc main_call0_v79))
            (W3 m ρ c (Proc.devRef .tc main_call0_v80)) (W3 m ρ c (Proc.devRef .tc main_call0_v81)))
          (counts (W3 m ρ c (Proc.devRef .tc main_call0_v78)) (W3 m ρ c (Proc.devRef .tc main_call0_v79)))
          (W3 m ρ c (Proc.devRef .tc main_arg0)) := by
  show StableHlo.after hostOps2 (W3 m ρ c) (Proc.devRef .tc main_v0_0) = _
  unfold meanPlus sums counts
  after_results_simp
  repeat' first | with_reducible rfl | refine (cast_eq _ _).trans ?_ | with_reducible congr 1

/-! ## The first result -/

/-- Zero is zero plus zero, at the zero word. -/
theorem zero_split : Ideal.ofBits .f32 0x00000000#32 = Ideal.ofBits .f32 0x00000000#32 + Ideal.ofBits .f32 0x00000000#32 := by
  rw [Ideal.ofBits_zero_f32, add_zero]

/-! ### The edge counts -/

/-- The tiled program's count of the edges ending at an atom: bond edges plus radius edges. -/
theorem counts_split (c : Dev nD) (i : S32768.Idx) :
    counts (extractStridedSlice S65536 ![0] (Cert.ReferenceIdeal.Read.val_main_v3 (F := Ideal) (m ((c : Thread nD τ).loc main_arg2))) slices_S458752_S65536_0) (extractStridedSlice S393216 ![65536] (Cert.ReferenceIdeal.Read.val_main_v3 (F := Ideal) (m ((c : Thread nD τ).loc main_arg2))) slices_S458752_S393216_65536) i
      = Ideal.hostScatterAdd scatter_S32768_S65536x1_S65536_n_0_0_1 (broadcastInDim S32768 ![] bcast_S_S32768 (constant (F := Ideal) S_ .f32 0x00000000#32)) (broadcastInDim S65536x1 ![0] bcast_S65536_S65536x1_0 (extractStridedSlice S65536 ![0] (Cert.ReferenceIdeal.Read.val_main_v3 (F := Ideal) (m ((c : Thread nD τ).loc main_arg2))) slices_S458752_S65536_0)) (broadcastInDim S65536 ![] bcast_S_S65536 (constant (F := Ideal) S_ .f32 0x3F800000#32)) i
        + Ideal.hostScatterAdd scatter_S32768_S393216x1_S393216_n_0_0_1 (broadcastInDim S32768 ![] bcast_S_S32768 (constant (F := Ideal) S_ .f32 0x00000000#32)) (broadcastInDim S393216x1 ![0] bcast_S393216_S393216x1_0 (extractStridedSlice S393216 ![65536] (Cert.ReferenceIdeal.Read.val_main_v3 (F := Ideal) (m ((c : Thread nD τ).loc main_arg2))) slices_S458752_S393216_65536)) (broadcastInDim S393216 ![] bcast_S_S393216 (constant (F := Ideal) S_ .f32 0x3F800000#32)) i := by
  unfold counts
  rw [addf_apply]
  simp only [Host.scatterAdd, Ideal.hostScatterAdd_def]

/-- The reference's count, as one scatter-add of ones over all atom edges. -/
theorem counts_ref (c : Dev nD) (i : S32768.Idx) :
    Cert.ReferenceIdeal.Read.val_main_v44 (F := Ideal) (m ((c : Thread nD τ).loc main_arg2)) i
      = Ideal.hostScatterAdd Cert.ReferenceIdeal.scatter_S32768_S458752x1_S458752_n_0_0_1
          (Cert.ReferenceIdeal.Read.val_main_v42 (F := Ideal))
          (broadcastInDim Cert.ReferenceIdeal.S458752x1 ![0] Cert.ReferenceIdeal.Gen.bcast_S458752_S458752x1_0 (Cert.ReferenceIdeal.Read.val_main_v3 (F := Ideal) (m ((c : Thread nD τ).loc main_arg2))))
          (Cert.ReferenceIdeal.Read.val_main_v41 (F := Ideal)) i := by
  unfold Cert.ReferenceIdeal.Read.val_main_v44 Cert.ReferenceIdeal.Read.val_main_v43
  simp only [Host.scatterAdd, Ideal.hostScatterAdd_def]

/-- A count over all atom edges is the count over the first 65536 plus the count over the rest. -/
theorem counts_whole (c : Dev nD) (i : S32768.Idx) :
    Ideal.hostScatterAdd Cert.ReferenceIdeal.scatter_S32768_S458752x1_S458752_n_0_0_1
        (Cert.ReferenceIdeal.Read.val_main_v42 (F := Ideal))
        (broadcastInDim Cert.ReferenceIdeal.S458752x1 ![0] Cert.ReferenceIdeal.Gen.bcast_S458752_S458752x1_0 (Cert.ReferenceIdeal.Read.val_main_v3 (F := Ideal) (m ((c : Thread nD τ).loc main_arg2))))
        (Cert.ReferenceIdeal.Read.val_main_v41 (F := Ideal)) i
      = Ideal.hostScatterAdd scatter_S32768_S65536x1_S65536_n_0_0_1 (broadcastInDim S32768 ![] bcast_S_S32768 (constant (F := Ideal) S_ .f32 0x00000000#32)) (broadcastInDim S65536x1 ![0] bcast_S65536_S65536x1_0 (extractStridedSlice S65536 ![0] (Cert.ReferenceIdeal.Read.val_main_v3 (F := Ideal) (m ((c : Thread nD τ).loc main_arg2))) slices_S458752_S65536_0)) (broadcastInDim S65536 ![] bcast_S_S65536 (constant (F := Ideal) S_ .f32 0x3F800000#32)) i
        + Ideal.hostScatterAdd scatter_S32768_S393216x1_S393216_n_0_0_1 (broadcastInDim S32768 ![] bcast_S_S32768 (constant (F := Ideal) S_ .f32 0x00000000#32)) (broadcastInDim S393216x1 ![0] bcast_S393216_S393216x1_0 (extractStridedSlice S393216 ![65536] (Cert.ReferenceIdeal.Read.val_main_v3 (F := Ideal) (m ((c : Thread nD τ).loc main_arg2))) slices_S458752_S393216_65536)) (broadcastInDim S393216 ![] bcast_S_S393216 (constant (F := Ideal) S_ .f32 0x3F800000#32)) i :=
  Cert.ScatterSplit.split1_of (Cert.ReferenceIdeal.Read.val_main_v3 (F := Ideal) (m ((c : Thread nD τ).loc main_arg2)))
    (Cert.ReferenceIdeal.Read.val_main_v41 (F := Ideal)) (broadcastInDim S65536 ![] bcast_S_S65536 (constant (F := Ideal) S_ .f32 0x3F800000#32))
    (broadcastInDim S393216 ![] bcast_S_S393216 (constant (F := Ideal) S_ .f32 0x3F800000#32)) (fun e => rfl) (fun e => rfl)
    (Cert.ReferenceIdeal.Read.val_main_v42 (F := Ideal)) (broadcastInDim S32768 ![] bcast_S_S32768 (constant (F := Ideal) S_ .f32 0x00000000#32))
    (broadcastInDim S32768 ![] bcast_S_S32768 (constant (F := Ideal) S_ .f32 0x00000000#32)) i
    zero_split

theorem counts_eq (c : Dev nD) :
    counts (extractStridedSlice S65536 ![0] (Cert.ReferenceIdeal.Read.val_main_v3 (F := Ideal) (m ((c : Thread nD τ).loc main_arg2))) slices_S458752_S65536_0) (extractStridedSlice S393216 ![65536] (Cert.ReferenceIdeal.Read.val_main_v3 (F := Ideal) (m ((c : Thread nD τ).loc main_arg2))) slices_S458752_S393216_65536)
      = Cert.ReferenceIdeal.Read.val_main_v44 (F := Ideal) (m ((c : Thread nD τ).loc main_arg2)) := by
  funext i
  rw [counts_split m c i, counts_ref m c i]
  exact (counts_whole m c i).symm

/-! ### The summed messages -/

/-- The tiled program's summed messages at an atom: bond edges plus radius edges. -/
theorem sums_split (c : Dev nD) (uB : FVec Ideal S65536x64 .f32) (uR : FVec Ideal S393216x64 .f32) (i : S32768x64.Idx) :
    sums (extractStridedSlice S65536 ![0] (Cert.ReferenceIdeal.Read.val_main_v3 (F := Ideal) (m ((c : Thread nD τ).loc main_arg2))) slices_S458752_S65536_0) (extractStridedSlice S393216 ![65536] (Cert.ReferenceIdeal.Read.val_main_v3 (F := Ideal) (m ((c : Thread nD τ).loc main_arg2))) slices_S458752_S393216_65536) uB uR i
      = Ideal.hostScatterAdd scatter_S32768x64_S65536x1_S65536x64_1_0_0_1 (broadcastInDim S32768x64 ![] bcast_S_S32768x64 (constant (F := Ideal) S_ .f32 0x00000000#32)) (broadcastInDim S65536x1 ![0] bcast_S65536_S65536x1_0 (extractStridedSlice S65536 ![0] (Cert.ReferenceIdeal.Read.val_main_v3 (F := Ideal) (m ((c : Thread nD τ).loc main_arg2))) slices_S458752_S65536_0)) uB i
        + Ideal.hostScatterAdd scatter_S32768x64_S393216x1_S393216x64_1_0_0_1 (broadcastInDim S32768x64 ![] bcast_S_S32768x64 (constant (F := Ideal) S_ .f32 0x00000000#32)) (broadcastInDim S393216x1 ![0] bcast_S393216_S393216x1_0 (extractStridedSlice S393216 ![65536] (Cert.ReferenceIdeal.Read.val_main_v3 (F := Ideal) (m ((c : Thread nD τ).loc main_arg2))) slices_S458752_S393216_65536)) uR i := by
  unfold sums
  rw [addf_apply]
  simp only [Host.scatterAdd, Ideal.hostScatterAdd_def]

/-- The reference's summed messages, as one scatter-add over all atom edges. -/
theorem sums_ref (c : Dev nD) (i : S32768x64.Idx) :
    Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) i
      = Ideal.hostScatterAdd Cert.ReferenceIdeal.scatter_S32768x64_S458752x1_S458752x64_1_0_0_1
          (Cert.ReferenceIdeal.Read.val_main_v38 (F := Ideal))
          (broadcastInDim Cert.ReferenceIdeal.S458752x1 ![0] Cert.ReferenceIdeal.Gen.bcast_S458752_S458752x1_0 (Cert.ReferenceIdeal.Read.val_main_v3 (F := Ideal) (m ((c : Thread nD τ).loc main_arg2))))
          (Cert.KernelIdeal.AtomStage.refMsg m c) i := by
  unfold Cert.ReferenceIdeal.Read.val_main_v40 Cert.ReferenceIdeal.Read.val_main_v39
  simp only [Host.scatterAdd, Ideal.hostScatterAdd_def]

/-- A sum over all atom edges is the sum over the first 65536 plus the sum over the rest, message by message. -/
theorem sums_whole (c : Dev nD) (i : S32768x64.Idx) :
    Ideal.hostScatterAdd Cert.ReferenceIdeal.scatter_S32768x64_S458752x1_S458752x64_1_0_0_1
        (Cert.ReferenceIdeal.Read.val_main_v38 (F := Ideal))
        (broadcastInDim Cert.ReferenceIdeal.S458752x1 ![0] Cert.ReferenceIdeal.Gen.bcast_S458752_S458752x1_0 (Cert.ReferenceIdeal.Read.val_main_v3 (F := Ideal) (m ((c : Thread nD τ).loc main_arg2))))
        (Cert.KernelIdeal.AtomStage.refMsg m c) i
      = Ideal.hostScatterAdd scatter_S32768x64_S65536x1_S65536x64_1_0_0_1 (broadcastInDim S32768x64 ![] bcast_S_S32768x64 (constant (F := Ideal) S_ .f32 0x00000000#32)) (broadcastInDim S65536x1 ![0] bcast_S65536_S65536x1_0 (extractStridedSlice S65536 ![0] (Cert.ReferenceIdeal.Read.val_main_v3 (F := Ideal) (m ((c : Thread nD τ).loc main_arg2))) slices_S458752_S65536_0)) (Cert.KernelIdeal.BondArr.result (V1 m ρ) c) i
        + Ideal.hostScatterAdd scatter_S32768x64_S393216x1_S393216x64_1_0_0_1 (broadcastInDim S32768x64 ![] bcast_S_S32768x64 (constant (F := Ideal) S_ .f32 0x00000000#32)) (broadcastInDim S393216x1 ![0] bcast_S393216_S393216x1_0 (extractStridedSlice S393216 ![65536] (Cert.ReferenceIdeal.Read.val_main_v3 (F := Ideal) (m ((c : Thread nD τ).loc main_arg2))) slices_S458752_S393216_65536)) (Cert.KernelIdeal.RadArr.result (V2 m ρ) c) i :=
  Cert.ScatterSplit.split2_of (Cert.ReferenceIdeal.Read.val_main_v3 (F := Ideal) (m ((c : Thread nD τ).loc main_arg2)))
    (Cert.KernelIdeal.AtomStage.refMsg m c) (Cert.KernelIdeal.BondArr.result (V1 m ρ) c) (Cert.KernelIdeal.RadArr.result (V2 m ρ) c)
    (fun e o => (Cert.KernelIdeal.AtomStage.bond_msg m ρ c e o).symm)
    (fun e o => (Cert.KernelIdeal.AtomStage.rad_msg m ρ c e o).symm)
    (Cert.ReferenceIdeal.Read.val_main_v38 (F := Ideal)) (broadcastInDim S32768x64 ![] bcast_S_S32768x64 (constant (F := Ideal) S_ .f32 0x00000000#32))
    (broadcastInDim S32768x64 ![] bcast_S_S32768x64 (constant (F := Ideal) S_ .f32 0x00000000#32)) i
    zero_split

theorem sums_eq (c : Dev nD) :
    sums (extractStridedSlice S65536 ![0] (Cert.ReferenceIdeal.Read.val_main_v3 (F := Ideal) (m ((c : Thread nD τ).loc main_arg2))) slices_S458752_S65536_0) (extractStridedSlice S393216 ![65536] (Cert.ReferenceIdeal.Read.val_main_v3 (F := Ideal) (m ((c : Thread nD τ).loc main_arg2))) slices_S458752_S393216_65536) (Cert.KernelIdeal.BondArr.result (V1 m ρ) c) (Cert.KernelIdeal.RadArr.result (V2 m ρ) c)
      = Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  funext i
  rw [sums_split m c _ _ i, sums_ref m c i]
  exact (sums_whole m ρ c i).symm

/-! ### Mean and residual -/

/-- The mean and the residual are the same operations on both sides. -/
theorem mean_eq (c : Dev nD) :
    meanPlus (Cert.ReferenceIdeal.Read.val_main_v40 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)))
      (Cert.ReferenceIdeal.Read.val_main_v44 (F := Ideal) (m ((c : Thread nD τ).loc main_arg2))) (m ((c : Thread nD τ).loc main_arg0))
      = Cert.ReferenceIdeal.Read.val_main_v50 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rfl

/-- After the second stretch the first result's buffer holds the reference's first result of the same arguments. -/
theorem atom_w4 (c : Dev nD) :
    W4 m ρ c (Proc.devRef .tc main_v0_0) = Cert.ReferenceIdeal.Read.val_main_v50 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [read, bond_arr, rad_arr, dst_bond, dst_rad, feats, sums_eq, counts_eq]
  exact mean_eq m c

end Cert.KernelIdeal.AtomOut

end
-- ==== Proof.Carried.lean ====
/-
  The first result's buffer is not touched after the second stretch.  The atom-to-residue region reads it (it is that
  region's first input window, and an input window's array is left as found); the third and the last stretch of host
  operations write other buffers; the residue-edge region does not stage it.  So at the end it holds what the second
  stretch left in it.
-/
import proofs.«130085_j37134287242037_2_alg».proof.Proof.Gen.KernelIdeal.Frame
import Idealize.ShloMosaic.Lib.StableHlo.Run
import Idealize.ShloMosaic.Lib.ValueIdx

set_option maxRecDepth 16384

noncomputable section

namespace Cert.KernelIdeal.Carried

open Cert.KernelIdeal Cert.KernelIdeal.Gen Idealize.ShloMosaic
open Idealize.SL.Sem Idealize.ShloMosaic.TcCoe Idealize.ShloMosaic.StableHlo

variable (m : (ℓ : Loc nD τ sig) → Buf (Elt Ideal) ℓ) (ρ : Dev nD → PrngReg) (c : Dev nD)

theorem W8_main_v0_0 : W8 m ρ c (Proc.devRef .tc main_v0_0) = W4 m ρ c (Proc.devRef .tc main_v0_0) :=
  calc W8 m ρ c (Proc.devRef .tc main_v0_0)
    _ = W7 m ρ c (Proc.devRef .tc main_v0_0) := StableHlo.after_of_forall_not_mem (b := Proc.devRef .tc main_v0_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v0_0) := W7_of_ne m ρ c main_v0_0 (by decide)
    _ = W5 m ρ c (Proc.devRef .tc main_v0_0) := StableHlo.after_of_forall_not_mem (b := Proc.devRef .tc main_v0_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0_0) := (W5_arr m ρ c 0).trans (((dat2 (V4 m ρ) c).arrAt_in 0 rfl _).trans (A_eq2 (V4 m ρ) c 0))

end Cert.KernelIdeal.Carried

end
-- ==== Proof.AggBody.lean ====
/-
  The atom-to-residue aggregation tensor-product body at the ideal values, one entry at a time.

  A tile holds 2048 edges.  For an edge `r`: `feat r` are its 64 edge features, `xs r` the 64 features of its source
  atom, `sh r` its 9 harmonics.  The body computes a hidden layer `hid r g = max (∑ k, feat r k * W1 k g + b1 g) 0`, then
  per-edge weights `w r c = ∑ g, hid r g * W2 g c + b2 c` over 576 columns `c` laid out harmonic by harmonic (column
  `j * 64 + i` is harmonic `j`, feature `i`), and the message over 128 output channels
      `msg r o = ∑ j, ∑ i, ((xs r i * w r (j * 64 + i)) * sh r j) * U (j * 64 + i) o`.
  It does so two harmonics at a time — one 128-column chunk of `w`, the two 64-column terms joined side by side, one
  product with the matching 128 rows of the 576 × 128 projection `U` — accumulating from zero, with the ninth harmonic
  alone.  Changes of float format are the identity here.
-/
import proofs.«130085_j37134287242037_2_alg».proof.Proof.BondBody

noncomputable section

open scoped BigOperators

namespace Cert.KernelIdeal.AggBody

open Cert.KernelIdeal Cert.KernelIdeal.Gen Idealize.ShloMosaic Idealize.ShloMosaic.ValueIdx Cert.Layout2 Cert.KernelIdeal.MatmulAt
open Cert.KernelIdeal.BondBody (hz2 chunk128 chunk128_apply pairTerm pairTerm_left pairTerm_right wcol chunk_slice_apply)

/-! ## The hidden layer -/

/-- The hidden layer at edge `r`, unit `g`: the rectified affine image of the edge's features. -/
theorem hidden_apply (v0 : Vec Ideal S2048x64 .f32) (v2 : Vec Ideal S64x64 .f32) (v5 : Vec Ideal S1x64 .f32)
    (r : Fin 2048) (g : Fin 64) :
    k2_pay2 (F := Ideal) v0 v2 v5 (ix2 r g)
      = max (∑ k : Fin 64, v0 (ix2 r k) * v2 (ix2 k g) + v5 (ix2 (0 : Fin 1) g)) 0 := by
  unfold k2_pay2
  simp only [truncf_apply, maximumf_apply, addf_apply, broadcast_apply]
  rw [at_2048x64x64, shapeCast_self, broadcastTo_1b_ab_apply]
  simp only [truncf_apply, Ideal.ofBits_def, Ideal.ofBits_zero_f32]

/-! ## One pair of harmonics -/

/-- A pair's product with 128 rows of the output projection, split into its two halves of 64. -/
def pairOut (t : FVec Ideal S2048x128 .bf16) (Uc : FVec Ideal S128x128 .bf16) : FVec Ideal S2048x128 .f32 :=
  matmul dot_S2048x128_S128x128_S2048x128_1_0_0_1_n_n none t Uc (constant S2048x128 .f32 0x00000000#32)

theorem pairOut_apply (t : FVec Ideal S2048x128 .bf16) (Uc : FVec Ideal S128x128 .bf16) (r : Fin 2048) (o : Fin 128) :
    pairOut t Uc (ix2 r o)
      = ∑ i : Fin 64, t (ix2 r ⟨i.val, by have := i.isLt; omega⟩) * Uc (ix2 ⟨i.val, by have := i.isLt; omega⟩ o)
        + ∑ i : Fin 64, t (ix2 r ⟨64 + i.val, by have := i.isLt; omega⟩) * Uc (ix2 ⟨64 + i.val, by have := i.isLt; omega⟩ o) := by
  unfold pairOut
  rw [at_2048x128x128]
  exact Cert.LibSplitSum.sum_fin128 _

/-! ## One summand of the message -/

/-- The summand of the message of edge `r`, output `o`, for harmonic `j` and feature `i`, at column `c`. -/
def summand (h : FVec Ideal S2048x64 .bf16) (W2 : FVec Ideal S64x576 .bf16) (b2 : FVec Ideal S1x576 .f32)
    (U : FVec Ideal S576x128 .bf16) (xs : FVec Ideal S2048x64 .f32) (sh : FVec Ideal S2048x9 .f32)
    (r : Fin 2048) (o : Fin 128) (j : Fin 9) (c : Fin 576) (i : Fin 64) : EReal :=
  ((xs (ix2 r i) * wcol h W2 b2 r c) * sh (ix2 r j)) * U (ix2 c o)

/-- A whole pair of harmonics `j0`, `j1 = j0 + 1`, whose columns start at `c0 = j0 * 64`. -/
def pairGroup (h : FVec Ideal S2048x64 .bf16) (W2 : FVec Ideal S64x576 .bf16) (b2 : FVec Ideal S1x576 .f32)
    (U : FVec Ideal S576x128 .bf16) (xs : FVec Ideal S2048x64 .f32) (sh : FVec Ideal S2048x9 .f32) (c0 j0 j1 : ℕ)
    (hW : S64x576.Slices ![0, c0] S64x128) (hb : S1x576.Slices ![0, c0] S1x128) (hU : S576x128.Slices ![c0, 0] S128x128)
    (hs0 : S2048x9.Slices ![0, j0] S2048x1) (hs1 : S2048x9.Slices ![0, j1] S2048x1) : FVec Ideal S2048x128 .f32 :=
  pairOut
    (pairTerm xs (chunk128 h (extractStridedSlice S64x128 ![0, c0] W2 hW) (extractStridedSlice S1x128 ![0, c0] b2 hb))
      (extractStridedSlice S2048x1 ![0, j0] sh hs0) (extractStridedSlice S2048x1 ![0, j1] sh hs1))
    (extractStridedSlice S128x128 ![c0, 0] U hU)

theorem pairGroup_apply (h : FVec Ideal S2048x64 .bf16) (W2 : FVec Ideal S64x576 .bf16) (b2 : FVec Ideal S1x576 .f32)
    (U : FVec Ideal S576x128 .bf16) (xs : FVec Ideal S2048x64 .f32) (sh : FVec Ideal S2048x9 .f32) (c0 j0 j1 : ℕ)
    (hW : S64x576.Slices ![0, c0] S64x128) (hb : S1x576.Slices ![0, c0] S1x128) (hU : S576x128.Slices ![c0, 0] S128x128)
    (hs0 : S2048x9.Slices ![0, j0] S2048x1) (hs1 : S2048x9.Slices ![0, j1] S2048x1)
    (hc : c0 = j0 * 64) (hj : j1 = j0 + 1) (hj1 : j1 < 9) (r : Fin 2048) (o : Fin 128) :
    pairGroup h W2 b2 U xs sh c0 j0 j1 hW hb hU hs0 hs1 (ix2 r o)
      = ∑ i : Fin 64, summand h W2 b2 U xs sh r o ⟨j0, by omega⟩ ⟨j0 * 64 + i.val, by have := i.isLt; omega⟩ i
        + ∑ i : Fin 64, summand h W2 b2 U xs sh r o ⟨j1, hj1⟩ ⟨j1 * 64 + i.val, by have := i.isLt; omega⟩ i := by
  subst hc hj
  unfold pairGroup
  rw [pairOut_apply]
  refine congrArg₂ (· + ·) (Finset.sum_congr rfl fun i _ => ?_) (Finset.sum_congr rfl fun i _ => ?_)
  · have hi := i.isLt
    rw [pairTerm_left, chunk_slice_apply h W2 b2 _ hW hb r ⟨i.val, by omega⟩ (by show j0 * 64 + i.val < 576; omega),
      slice_col_apply j0 sh hs0 r (by omega), slice_rows_apply _ U hU ⟨i.val, by omega⟩ o (by show j0 * 64 + i.val < 576; omega)]
    rfl
  · have hi := i.isLt
    rw [pairTerm_right, chunk_slice_apply h W2 b2 _ hW hb r ⟨64 + i.val, by omega⟩ (by show j0 * 64 + (64 + i.val) < 576; omega),
      slice_col_apply (j0 + 1) sh hs1 r hj1,
      slice_rows_apply _ U hU ⟨64 + i.val, by omega⟩ o (by show j0 * 64 + (64 + i.val) < 576; omega)]
    unfold summand
    have e : (⟨j0 * 64 + (64 + i.val), by omega⟩ : Fin 576) = ⟨(j0 + 1) * 64 + i.val, by omega⟩ :=
      Fin.ext (by show j0 * 64 + (64 + i.val) = (j0 + 1) * 64 + i.val; omega)
    simp only [e]

/-! ## The ninth harmonic, alone -/

/-- The last harmonic has no partner: a 64-column chunk, one term, one product with the last 64 rows of the projection. -/
def lastGroup (h : FVec Ideal S2048x64 .bf16) (W2 : FVec Ideal S64x576 .bf16) (b2 : FVec Ideal S1x576 .f32)
    (U : FVec Ideal S576x128 .bf16) (xs : FVec Ideal S2048x64 .f32) (sh : FVec Ideal S2048x9 .f32) : FVec Ideal S2048x128 .f32 :=
  matmul dot_S2048x64_S64x128_S2048x128_1_0_0_1_n_n none
    (truncf .bf16
      (mulf
        (mulf xs
          (addf
            (matmul dot_S2048x64_S64x64_S2048x64_1_0_0_1_n_n none h
              (extractStridedSlice S64x64 ![0, 512] W2 slices_S64x576_o0_512_S64x64) (constant S2048x64 .f32 0x00000000#32))
            (broadcastTo S2048x64 (extractStridedSlice S1x64 ![0, 512] b2 slices_S1x576_o0_512_S1x64) broadcasts_S1x64_S2048x64)))
        (broadcastTo S2048x64 (extractStridedSlice S2048x1 ![0, 8] sh slices_S2048x9_o0_8_S2048x1) broadcasts_S2048x1_S2048x64))
      bitsLt_bf16_f32)
    (extractStridedSlice S64x128 ![512, 0] U slices_S576x128_o512_0_S64x128) (constant S2048x128 .f32 0x00000000#32)

theorem lastGroup_apply (h : FVec Ideal S2048x64 .bf16) (W2 : FVec Ideal S64x576 .bf16) (b2 : FVec Ideal S1x576 .f32)
    (U : FVec Ideal S576x128 .bf16) (xs : FVec Ideal S2048x64 .f32) (sh : FVec Ideal S2048x9 .f32) (r : Fin 2048) (o : Fin 128) :
    lastGroup h W2 b2 U xs sh (ix2 r o)
      = ∑ i : Fin 64, summand h W2 b2 U xs sh r o ⟨8, by omega⟩ ⟨8 * 64 + i.val, by have := i.isLt; omega⟩ i := by
  unfold lastGroup
  rw [at_2048x64x128]
  refine Finset.sum_congr rfl fun i _ => ?_
  have hi := i.isLt
  have e1 : ∑ g : Fin 64, h (ix2 r g) * extractStridedSlice S64x64 ![0, 512] W2 slices_S64x576_o0_512_S64x64 (ix2 g i)
      = ∑ g : Fin 64, h (ix2 r g) * W2 (ix2 g ⟨512 + i.val, by omega⟩) :=
    Finset.sum_congr rfl fun g _ => by rw [slice_cols_apply 512 W2 _ g i (by omega)]
  rw [truncf_apply, mulf_apply, mulf_apply, addf_apply, at_2048x64x64, e1, broadcastTo_1b_ab_apply, broadcastTo_a1_ab_apply,
    slice_cols_apply 512 b2 _ (0 : Fin 1) i (by omega), slice_col_apply 8 sh _ r (by omega),
    slice_rows_apply 512 U _ i o (by omega)]
  rfl

/-! ## The whole body -/

/-- The body: five groups — four pairs of harmonics and the ninth alone — accumulated from zero. -/
def body (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x128 .f32) : FVec Ideal S2048x128 .f32 :=
  addf (addf (addf (addf (addf (k2_pay7 (F := Ideal))
      (pairGroup (k2_pay2 x2 x3 x4) (k2_pay3 x5) (k2_pay4 x6) (k2_pay5 x7) (k2_pay6 x0) x1 0 0 1
        slices_S64x576_o0_0_S64x128 slices_S1x576_o0_0_S1x128 slices_S576x128_o0_0_S128x128
        slices_S2048x9_o0_0_S2048x1 slices_S2048x9_o0_1_S2048x1))
      (pairGroup (k2_pay2 x2 x3 x4) (k2_pay3 x5) (k2_pay4 x6) (k2_pay5 x7) (k2_pay6 x0) x1 128 2 3
        slices_S64x576_o0_128_S64x128 slices_S1x576_o0_128_S1x128 slices_S576x128_o128_0_S128x128
        slices_S2048x9_o0_2_S2048x1 slices_S2048x9_o0_3_S2048x1))
      (pairGroup (k2_pay2 x2 x3 x4) (k2_pay3 x5) (k2_pay4 x6) (k2_pay5 x7) (k2_pay6 x0) x1 256 4 5
        slices_S64x576_o0_256_S64x128 slices_S1x576_o0_256_S1x128 slices_S576x128_o256_0_S128x128
        slices_S2048x9_o0_4_S2048x1 slices_S2048x9_o0_5_S2048x1))
      (pairGroup (k2_pay2 x2 x3 x4) (k2_pay3 x5) (k2_pay4 x6) (k2_pay5 x7) (k2_pay6 x0) x1 384 6 7
        slices_S64x576_o0_384_S64x128 slices_S1x576_o0_384_S1x128 slices_S576x128_o384_0_S128x128
        slices_S2048x9_o0_6_S2048x1 slices_S2048x9_o0_7_S2048x1))
    (lastGroup (k2_pay2 x2 x3 x4) (k2_pay3 x5) (k2_pay4 x6) (k2_pay5 x7) (k2_pay6 x0) x1)

/-- What the body leaves in the output block is `body` of the input blocks: the one store covers the block, the loads
    read whole blocks, and the stored value is the body's arithmetic, grouped. -/
theorem out_eq_body (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x128 .f32) :
    out2_8 x0 x1 x2 x3 x4 x5 x6 x7 = body x0 x1 x2 x3 x4 x5 x6 x7 := by
  unfold out2_8
  rw [View.canon_unit_zero hz2]
  simp only [View.ld_unit_zero (S := S2048x64) hz2, View.ld_unit_zero (S := S64x64) hz2, View.ld_unit_zero (S := S1x64) hz2,
    View.ld_unit_zero (S := S64x576) hz2, View.ld_unit_zero (S := S1x576) hz2, View.ld_unit_zero (S := S576x128) hz2,
    View.ld_unit_zero (S := S2048x9) hz2]
  rfl

theorem zeros_apply (i : S2048x128.Idx) : k2_pay7 (F := Ideal) i = 0 := by
  unfold k2_pay7
  simp only [broadcast_apply, Scalar.ofBits, Ideal.ofBits_def, Ideal.ofBits_zero_f32]

/-- The message of edge `r` at output `o` as the double sum over harmonics and features, in terms of the body's loaded
    values (each a change of format of an input block). -/
theorem body_apply (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x128 .f32) (r : Fin 2048) (o : Fin 128) :
    body x0 x1 x2 x3 x4 x5 x6 x7 (ix2 r o)
      = ∑ j : Fin 9, ∑ i : Fin 64,
          summand (k2_pay2 x2 x3 x4) (k2_pay3 x5) (k2_pay4 x6) (k2_pay5 x7) (k2_pay6 x0) x1 r o j
            ⟨j.val * 64 + i.val, by have := i.isLt; have := j.isLt; omega⟩ i := by
  unfold body
  rw [addf_apply, addf_apply, addf_apply, addf_apply, addf_apply, zeros_apply,
    pairGroup_apply _ _ _ _ _ _ 0 0 1 _ _ _ _ _ rfl rfl (by omega),
    pairGroup_apply _ _ _ _ _ _ 128 2 3 _ _ _ _ _ rfl rfl (by omega),
    pairGroup_apply _ _ _ _ _ _ 256 4 5 _ _ _ _ _ rfl rfl (by omega),
    pairGroup_apply _ _ _ _ _ _ 384 6 7 _ _ _ _ _ rfl rfl (by omega), lastGroup_apply]
  exact Cert.SumLaws.sum_nine_paired (fun j : Fin 9 => ∑ i : Fin 64,
    summand (k2_pay2 x2 x3 x4) (k2_pay3 x5) (k2_pay4 x6) (k2_pay5 x7) (k2_pay6 x0) x1 r o j
      ⟨j.val * 64 + i.val, by have := i.isLt; have := j.isLt; omega⟩ i)

/-! ## The message in row form -/

theorem pay3_apply (x5 : Vec Ideal S64x576 .f32) (i : S64x576.Idx) : k2_pay3 (F := Ideal) x5 i = x5 i := by
  unfold k2_pay3; rw [truncf_apply, shapeCast_self]
theorem pay4_apply (x6 : Vec Ideal S1x576 .f32) (i : S1x576.Idx) : k2_pay4 (F := Ideal) x6 i = x6 i := by
  unfold k2_pay4; rw [shapeCast_self]
theorem pay5_apply (x7 : Vec Ideal S576x128 .f32) (i : S576x128.Idx) : k2_pay5 (F := Ideal) x7 i = x7 i := by
  unfold k2_pay5; rw [truncf_apply, shapeCast_self]
theorem pay6_apply (x0 : Vec Ideal S2048x64 .f32) (i : S2048x64.Idx) : k2_pay6 (F := Ideal) x0 i = x0 i := by
  unfold k2_pay6; rw [shapeCast_self]

/-- What the body leaves at row `r`, channel `o` of the output block is the message of that row's edge: source features,
    harmonics and edge features are row `r` of the first three blocks, and column `j * 64 + i` of the second layer, of its
    bias and of the projection is (harmonic `j`, feature `i`). -/
theorem out_row (x0 : Vec Ideal S2048x64 .f32) (x1 : Vec Ideal S2048x9 .f32) (x2 : Vec Ideal S2048x64 .f32)
    (x3 : Vec Ideal S64x64 .f32) (x4 : Vec Ideal S1x64 .f32) (x5 : Vec Ideal S64x576 .f32) (x6 : Vec Ideal S1x576 .f32)
    (x7 : Vec Ideal S576x128 .f32) (r : Fin 2048) (o : Fin 128) :
    out2_8 x0 x1 x2 x3 x4 x5 x6 x7 (ix2 r o)
      = Cert.Spec.msgRow (fun i : Fin 64 => x0 (ix2 r i)) (fun j : Fin 9 => x1 (ix2 r j)) (fun k : Fin 64 => x2 (ix2 r k))
          (fun k g : Fin 64 => x3 (ix2 k g)) (fun g : Fin 64 => x4 (ix2 (0 : Fin 1) g))
          (fun (g : Fin 64) (j : Fin 9) (i : Fin 64) => x5 (ix2 g ⟨j.val * 64 + i.val, by have := i.isLt; have := j.isLt; omega⟩))
          (fun (j : Fin 9) (i : Fin 64) => x6 (ix2 (0 : Fin 1) ⟨j.val * 64 + i.val, by have := i.isLt; have := j.isLt; omega⟩))
          (fun (j : Fin 9) (i : Fin 64) => x7 (ix2 ⟨j.val * 64 + i.val, by have := i.isLt; have := j.isLt; omega⟩ o)) := by
  rw [out_eq_body, body_apply]
  unfold Cert.Spec.msgRow Cert.Spec.edgeWeight Cert.Spec.hidden summand wcol
  refine Finset.sum_congr rfl fun j _ => Finset.sum_congr rfl fun i _ => ?_
  rw [pay6_apply, pay4_apply, pay5_apply]
  refine congrArg (fun z => ((x0 (ix2 r i) * (z + _)) * _) * _) (Finset.sum_congr rfl fun g _ => ?_)
  rw [hidden_apply, pay3_apply]

end Cert.KernelIdeal.AggBody

end
-- ==== Proof.AggArr.lean ====
/-
  The atom-to-residue region's output array: one message per atom.
  The region walks the 32768 edges in 16 tiles of 2048: at tile `t` the first three windows hold rows
  `2048 t … 2048 t + 2047` of the source features, the harmonics and the edge features, the five weight windows hold
  their whole arrays, and the body leaves, in row `r` of the output block, the message of edge `2048 t + r`.  The tiles
  cover every row exactly, so after the region the output array holds, at (edge `e`, channel `o`), the message of edge
  `e`: `Cert.Spec.msgRow` of row `e` of the three edge arrays and of the weights as the region finds them.
-/
import proofs.«130085_j37134287242037_2_alg».proof.Proof.AggBody

set_option maxRecDepth 16384

noncomputable section

open scoped BigOperators

namespace Cert.KernelIdeal.AggArr

open Cert.KernelIdeal Cert.KernelIdeal.Gen Idealize.ShloMosaic Idealize.ShloMosaic.ValueIdx
open Idealize.SL.Sem Idealize.ShloMosaic.TcCoe
open Idealize.ShloMosaic.Pipeline (Dat Cfg Window)

variable (V : (c : Dev nD) → (b : Ref sig .tc) → Buf (Elt Ideal) ((c : Thread nD τ).loc b))

/-- The windows' index maps over the grid: the edge windows and the output move one block of rows per tile, the weight
    windows stay on their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-! ## The windows' blocks, read off their arrays -/

theorem blk0 (c : Dev nD) (t : Fin cfg2.N) (r : Fin 2048) (i : Fin 64) (ht : t.val * 2048 + r.val < 32768) :
    iblk2 V c 0 t (ix2 r i) = (V c (Pipeline.arrRef spec2 0) : S32768x64.Idx → EReal) (ix2 ⟨t.val * 2048 + r.val, ht⟩ i) := by
  obtain ⟨e0a, e0b, -, -, -, -, -, -, -, -, -, -, -, -, -, -, -, -⟩ := idx_facts t
  unfold iblk2
  rw [View.read_apply]
  show (V c (Pipeline.arrRef spec2 0) : S32768x64.Idx → EReal) _ = _
  refine congrArg _ (funext fun a => Fin.ext ?_)
  match a with
  | ⟨0, _⟩ => show win2_0.index t (0 : Fin 2) * 2048 + 1 * r.val = t.val * 2048 + r.val; rw [e0a]; omega
  | ⟨1, _⟩ => show win2_0.index t (1 : Fin 2) * 64 + 1 * i.val = i.val; rw [e0b]; omega

theorem blk1 (c : Dev nD) (t : Fin cfg2.N) (r : Fin 2048) (i : Fin 9) (ht : t.val * 2048 + r.val < 32768) :
    iblk2 V c 1 t (ix2 r i) = (V c (Pipeline.arrRef spec2 1) : S32768x9.Idx → EReal) (ix2 ⟨t.val * 2048 + r.val, ht⟩ i) := by
  obtain ⟨-, -, e1a, e1b, -, -, -, -, -, -, -, -, -, -, -, -, -, -⟩ := idx_facts t
  unfold iblk2
  rw [View.read_apply]
  show (V c (Pipeline.arrRef spec2 1) : S32768x9.Idx → EReal) _ = _
  refine congrArg _ (funext fun a => Fin.ext ?_)
  match a with
  | ⟨0, _⟩ => show win2_1.index t (0 : Fin 2) * 2048 + 1 * r.val = t.val * 2048 + r.val; rw [e1a]; omega
  | ⟨1, _⟩ => show win2_1.index t (1 : Fin 2) * 9 + 1 * i.val = i.val; rw [e1b]; omega

theorem blk2 (c : Dev nD) (t : Fin cfg2.N) (r : Fin 2048) (i : Fin 64) (ht : t.val * 2048 + r.val < 32768) :
    iblk2 V c 2 t (ix2 r i) = (V c (Pipeline.arrRef spec2 2) : S32768x64.Idx → EReal) (ix2 ⟨t.val * 2048 + r.val, ht⟩ i) := by
  obtain ⟨-, -, -, -, e2a, e2b, -, -, -, -, -, -, -, -, -, -, -, -⟩ := idx_facts t
  unfold iblk2
  rw [View.read_apply]
  show (V c (Pipeline.arrRef spec2 2) : S32768x64.Idx → EReal) _ = _
  refine congrArg _ (funext fun a => Fin.ext ?_)
  match a with
  | ⟨0, _⟩ => show win2_2.index t (0 : Fin 2) * 2048 + 1 * r.val = t.val * 2048 + r.val; rw [e2a]; omega
  | ⟨1, _⟩ => show win2_2.index t (1 : Fin 2) * 64 + 1 * i.val = i.val; rw [e2b]; omega

theorem blk3 (c : Dev nD) (t : Fin cfg2.N) (p : Fin 64) (q : Fin 64) :
    iblk2 V c 3 t (ix2 p q) = (V c (Pipeline.arrRef spec2 3) : S64x64.Idx → EReal) (ix2 p q) := by
  obtain ⟨-, -, -, -, -, -, e3a, e3b, -, -, -, -, -, -, -, -, -, -⟩ := idx_facts t
  unfold iblk2
  rw [View.read_apply]
  show (V c (Pipeline.arrRef spec2 3) : S64x64.Idx → EReal) _ = _
  refine congrArg _ (funext fun a => Fin.ext ?_)
  match a with
  | ⟨0, _⟩ => show win2_3.index t (0 : Fin 2) * 64 + 1 * p.val = p.val; rw [e3a]; omega
  | ⟨1, _⟩ => show win2_3.index t (1 : Fin 2) * 64 + 1 * q.val = q.val; rw [e3b]; omega

theorem blk4 (c : Dev nD) (t : Fin cfg2.N) (p : Fin 1) (q : Fin 64) :
    iblk2 V c 4 t (ix2 p q) = (V c (Pipeline.arrRef spec2 4) : S1x64.Idx → EReal) (ix2 p q) := by
  obtain ⟨-, -, -, -, -, -, -, -, e4a, e4b, -, -, -, -, -, -, -, -⟩ := idx_facts t
  unfold iblk2
  rw [View.read_apply]
  show (V c (Pipeline.arrRef spec2 4) : S1x64.Idx → EReal) _ = _
  refine congrArg _ (funext fun a => Fin.ext ?_)
  match a with
  | ⟨0, _⟩ => show win2_4.index t (0 : Fin 2) * 1 + 1 * p.val = p.val; rw [e4a]; omega
  | ⟨1, _⟩ => show win2_4.index t (1 : Fin 2) * 64 + 1 * q.val = q.val; rw [e4b]; omega

theorem blk5 (c : Dev nD) (t : Fin cfg2.N) (p : Fin 64) (q : Fin 576) :
    iblk2 V c 5 t (ix2 p q) = (V c (Pipeline.arrRef spec2 5) : S64x576.Idx → EReal) (ix2 p q) := by
  obtain ⟨-, -, -, -, -, -, -, -, -, -, e5a, e5b, -, -, -, -, -, -⟩ := idx_facts t
  unfold iblk2
  rw [View.read_apply]
  show (V c (Pipeline.arrRef spec2 5) : S64x576.Idx → EReal) _ = _
  refine congrArg _ (funext fun a => Fin.ext ?_)
  match a with
  | ⟨0, _⟩ => show win2_5.index t (0 : Fin 2) * 64 + 1 * p.val = p.val; rw [e5a]; omega
  | ⟨1, _⟩ => show win2_5.index t (1 : Fin 2) * 576 + 1 * q.val = q.val; rw [e5b]; omega

theorem blk6 (c : Dev nD) (t : Fin cfg2.N) (p : Fin 1) (q : Fin 576) :
    iblk2 V c 6 t (ix2 p q) = (V c (Pipeline.arrRef spec2 6) : S1x576.Idx → EReal) (ix2 p q) := by
  obtain ⟨-, -, -, -, -, -, -, -, -, -, -, -, e6a, e6b, -, -, -, -⟩ := idx_facts t
  unfold iblk2
  rw [View.read_apply]
  show (V c (Pipeline.arrRef spec2 6) : S1x576.Idx → EReal) _ = _
  refine congrArg _ (funext fun a => Fin.ext ?_)
  match a with
  | ⟨0, _⟩ => show win2_6.index t (0 : Fin 2) * 1 + 1 * p.val = p.val; rw [e6a]; omega
  | ⟨1, _⟩ => show win2_6.index t (1 : Fin 2) * 576 + 1 * q.val = q.val; rw [e6b]; omega

theorem blk7 (c : Dev nD) (t : Fin cfg2.N) (p : Fin 576) (q : Fin 128) :
    iblk2 V c 7 t (ix2 p q) = (V c (Pipeline.arrRef spec2 7) : S576x128.Idx → EReal) (ix2 p q) := by
  obtain ⟨-, -, -, -, -, -, -, -, -, -, -, -, -, -, e7a, e7b, -, -⟩ := idx_facts t
  unfold iblk2
  rw [View.read_apply]
  show (V c (Pipeline.arrRef spec2 7) : S576x128.Idx → EReal) _ = _
  refine congrArg _ (funext fun a => Fin.ext ?_)
  match a with
  | ⟨0, _⟩ => show win2_7.index t (0 : Fin 2) * 576 + 1 * p.val = p.val; rw [e7a]; omega
  | ⟨1, _⟩ => show win2_7.index t (1 : Fin 2) * 128 + 1 * q.val = q.val; rw [e7b]; omega

/-! ## The output array -/

/-- The message of edge `e` at channel `o`, from the arrays as the region finds them. -/
def msgAt (c : Dev nD) (e : Fin 32768) (o : Fin 128) : EReal :=
  Cert.Spec.msgRow (fun i : Fin 64 => (V c (Pipeline.arrRef spec2 0) : S32768x64.Idx → EReal) (ix2 e i)) (fun j : Fin 9 => (V c (Pipeline.arrRef spec2 1) : S32768x9.Idx → EReal) (ix2 e j))
      (fun k : Fin 64 => (V c (Pipeline.arrRef spec2 2) : S32768x64.Idx → EReal) (ix2 e k)) (fun k g : Fin 64 => (V c (Pipeline.arrRef spec2 3) : S64x64.Idx → EReal) (ix2 k g))
      (fun g : Fin 64 => (V c (Pipeline.arrRef spec2 4) : S1x64.Idx → EReal) (ix2 (0 : Fin 1) g))
      (fun (g : Fin 64) (j : Fin 9) (i : Fin 64) => (V c (Pipeline.arrRef spec2 5) : S64x576.Idx → EReal) (ix2 g ⟨j.val * 64 + i.val, by have := i.isLt; have := j.isLt; omega⟩))
      (fun (j : Fin 9) (i : Fin 64) => (V c (Pipeline.arrRef spec2 6) : S1x576.Idx → EReal) (ix2 (0 : Fin 1) ⟨j.val * 64 + i.val, by have := i.isLt; have := j.isLt; omega⟩))
      (fun (j : Fin 9) (i : Fin 64) => (V c (Pipeline.arrRef spec2 7) : S576x128.Idx → EReal) (ix2 ⟨j.val * 64 + i.val, by have := i.isLt; have := j.isLt; omega⟩ o))

/-- The output array the region leaves: the message of every edge at every channel. -/
def result (c : Dev nD) : S32768x128.Idx → EReal :=
  fun idx => msgAt V c ⟨(idx 0).val, idx2_lt0 idx⟩ ⟨(idx 1).val, idx2_lt1 idx⟩

theorem tile_lt (t : Fin cfg2.N) (r : Fin 2048) : t.val * 2048 + r.val < 32768 := by
  have hN : cfg2.N = 16 := N_2
  have := t.isLt; have := r.isLt; omega

/-- What the body leaves at row `r`, channel `o` of tile `t`'s output block is the message of edge `2048 t + r`. -/
theorem body_at (c : Dev nD) (t : Fin cfg2.N) (r : Fin 2048) (o : Fin 128) :
    out2_8 (iblk2 V c 0 t) (iblk2 V c 1 t) (iblk2 V c 2 t) (iblk2 V c 3 t) (iblk2 V c 4 t) (iblk2 V c 5 t)
        (iblk2 V c 6 t) (iblk2 V c 7 t) (ix2 r o)
      = msgAt V c ⟨t.val * 2048 + r.val, tile_lt t r⟩ o := by
  rw [Cert.KernelIdeal.AggBody.out_row (iblk2 V c 0 t) (iblk2 V c 1 t) (iblk2 V c 2 t) (iblk2 V c 3 t) (iblk2 V c 4 t)
    (iblk2 V c 5 t) (iblk2 V c 6 t) (iblk2 V c 7 t) r o]
  unfold msgAt
  exact Cert.Spec.msgRow_congr (fun i => blk0 V c t r i _) (fun j => blk1 V c t r j _) (fun k => blk2 V c t r k _)
    (fun k g => blk3 V c t k g) (fun g => blk4 V c t 0 g) (fun g j i => blk5 V c t g _) (fun j i => blk6 V c t 0 _)
    (fun j i => blk7 V c t _ o)

/-- The same at any index `y` of the block, by its two coordinates. -/
theorem body_at' (c : Dev nD) (t : Fin cfg2.N) (y : S2048x128.Idx) :
    out2_8 (iblk2 V c 0 t) (iblk2 V c 1 t) (iblk2 V c 2 t) (iblk2 V c 3 t) (iblk2 V c 4 t) (iblk2 V c 5 t)
        (iblk2 V c 6 t) (iblk2 V c 7 t) y
      = msgAt V c ⟨t.val * 2048 + (y 0).val, tile_lt t ⟨(y 0).val, idx2_lt0 y⟩⟩ ⟨(y 1).val, idx2_lt1 y⟩ := by
  have hy : y = ix2 (⟨(y 0).val, idx2_lt0 y⟩ : Fin 2048) (⟨(y 1).val, idx2_lt1 y⟩ : Fin 128) := eq_ix2 y
  exact (congrArg (out2_8 (iblk2 V c 0 t) (iblk2 V c 1 t) (iblk2 V c 2 t) (iblk2 V c 3 t) (iblk2 V c 4 t)
    (iblk2 V c 5 t) (iblk2 V c 6 t) (iblk2 V c 7 t)) hy).trans (body_at V c t _ _)

/-- WHAT TILE `t` WRITES BACK is block `t` of `result`. -/
theorem flushed_eq (c : Dev nD) (t : Fin cfg2.N) :
    (dat2 V c).flushed 8 t = ((cfg2.win 8).blk t).view.read (Elt Ideal) (result V c) := by
  show (cfg2.win 8).cut (grid2.coords t) ((dat2 V c).after 8 t) = _
  rw [after2_8]
  funext y
  obtain ⟨-, -, -, -, -, -, -, -, -, -, -, -, -, -, -, -, e8a, e8b⟩ := idx_facts t
  refine (body_at' V c t y).trans ?_
  show _ = msgAt V c ⟨((((cfg2.win 8).blk t).view.emb y) 0).val, _⟩ ⟨((((cfg2.win 8).blk t).view.emb y) 1).val, _⟩
  have hrow : (⟨t.val * 2048 + (y 0).val, tile_lt t ⟨(y 0).val, idx2_lt0 y⟩⟩ : Fin 32768)
      = ⟨((((cfg2.win 8).blk t).view.emb y) 0).val, idx2_lt0 _⟩ :=
    Fin.ext (by show t.val * 2048 + (y 0).val = win2_8.index t (0 : Fin 2) * 2048 + 1 * (y 0).val; rw [e8a]; omega)
  have hcol : (⟨(y 1).val, idx2_lt1 y⟩ : Fin 128) = ⟨((((cfg2.win 8).blk t).view.emb y) 1).val, idx2_lt1 _⟩ :=
    Fin.ext (by show (y 1).val = win2_8.index t (1 : Fin 2) * 128 + 1 * (y 1).val; rw [e8b]; omega)
  rw [hrow, hcol]

/-- Every index of the output array lies in the block of the tile that holds its row. -/
theorem covered (i : S32768x128.Idx) :
    ∃ t : Fin cfg2.N, (cfg2.win 8).flush t = true ∧ i ∈ ((cfg2.win 8).blk t).view.set := by
  have h0 : (i 0).val < 32768 := idx2_lt0 i
  have h1 : (i 1).val < 128 := idx2_lt1 i
  have hN : cfg2.N = 16 := N_2
  obtain ⟨t, ht⟩ : ∃ t : Fin cfg2.N, t.val = (i 0).val / 2048 := ⟨⟨(i 0).val / 2048, by omega⟩, rfl⟩
  obtain ⟨-, -, -, -, -, -, -, -, -, -, -, -, -, -, -, -, e8a, e8b⟩ := idx_facts t
  refine ⟨t, flush2_8 t, ?_⟩
  show i ∈ ((View.whole main_call0_v104).slice (win2_8.rect t)).set
  rw [View.set_slice_whole, Rect.mem_set_unit]
  intro a
  match a with
  | ⟨0, _⟩ =>
    show win2_8.index t (0 : Fin 2) * 2048 ≤ (i 0).val ∧ (i 0).val < win2_8.index t (0 : Fin 2) * 2048 + 2048
    rw [e8a, ht]; omega
  | ⟨1, _⟩ =>
    show win2_8.index t (1 : Fin 2) * 128 ≤ (i 1).val ∧ (i 1).val < win2_8.index t (1 : Fin 2) * 128 + 128
    rw [e8b]; omega

/-- THE ARRAY after the region: the message of every edge. -/
theorem arr (c : Dev nD) : (dat2 V c).arrAt 8 cfg2.N = result V c :=
  (dat2 V c).arrAt_eq_of_cover 8 (result V c) (fun t _ => flushed_eq V c t) (covered)

end Cert.KernelIdeal.AggArr

end
-- ==== Proof.ResBody.lean ====
/-
  The residue-edge tensor-product body at the ideal values, one entry at a time.

  A tile holds 2048 edges.  For an edge `r`: `feat r` are its 128 edge features, `xs r` the 128 features of its source
  residue, `sh r` its 9 harmonics.  The body computes a hidden layer `hid r g = max (∑ k, feat r k * W1 k g + b1 g) 0`, then
  per-edge weights `w r c = ∑ g, hid r g * W2 g c + b2 c` over 1152 columns `c` laid out harmonic by harmonic (column
  `j * 128 + i` is harmonic `j`, feature `i`), and the message over 128 output channels
      `msg r o = ∑ j, ∑ i, ((xs r i * w r (j * 128 + i)) * sh r j) * U (j * 128 + i) o`.
  It does so two harmonics at a time — one 256-column chunk of `w`, the two 128-column terms joined side by side, one
  product with the matching 256 rows of the 1152 × 128 projection `U` — accumulating from zero, with the ninth harmonic
  alone.  Changes of float format are the identity here.
-/
import proofs.«130085_j37134287242037_2_alg».proof.Proof.BondBody

noncomputable section

open scoped BigOperators

namespace Cert.KernelIdeal.ResBody

open Cert.KernelIdeal Cert.KernelIdeal.Gen Idealize.ShloMosaic Idealize.ShloMosaic.ValueIdx Cert.Layout2 Cert.KernelIdeal.MatmulAt
open Cert.KernelIdeal.BondBody (hz2)

/-- A sum over 256 indices is the sum over its first 128 plus the sum over its last 128. -/
theorem sum_fin256 (f : Fin 256 → EReal) :
    ∑ k : Fin 256, f k = ∑ k : Fin 128, f ⟨k.val, by omega⟩ + ∑ k : Fin 128, f ⟨128 + k.val, by omega⟩ :=
  Fin.sum_univ_add (a := 128) (b := 128) f

/-! ## The hidden layer -/

/-- The hidden layer at edge `r`, unit `g`: the rectified affine image of the edge's features. -/
theorem hidden_apply (v0 : Vec Ideal S2048x128 .f32) (v2 : Vec Ideal S128x128 .f32) (v5 : Vec Ideal S1x128 .f32)
    (r : Fin 2048) (g : Fin 128) :
    k3_pay2 (F := Ideal) v0 v2 v5 (ix2 r g)
      = max (∑ k : Fin 128, v0 (ix2 r k) * v2 (ix2 k g) + v5 (ix2 (0 : Fin 1) g)) 0 := by
  unfold k3_pay2
  simp only [truncf_apply, maximumf_apply, addf_apply, broadcast_apply]
  rw [at_2048x128x128, shapeCast_self, broadcastTo_1b_ab_apply]
  simp only [truncf_apply, Ideal.ofBits_def, Ideal.ofBits_zero_f32]

/-! ## One pair of harmonics -/

/-- A 256-column chunk of the per-edge weights: the hidden layer times 256 columns of the second layer, plus their bias. -/
def chunk256 (h : FVec Ideal S2048x128 .bf16) (Wc : FVec Ideal S128x256 .bf16) (bc : FVec Ideal S1x256 .f32) :
    FVec Ideal S2048x256 .f32 :=
  addf (matmul dot_S2048x128_S128x256_S2048x256_1_0_0_1_n_n none h Wc (constant S2048x256 .f32 0x00000000#32))
    (broadcastTo S2048x256 bc broadcasts_S1x256_S2048x256)

theorem chunk256_apply (h : FVec Ideal S2048x128 .bf16) (Wc : FVec Ideal S128x256 .bf16) (bc : FVec Ideal S1x256 .f32)
    (r : Fin 2048) (q : Fin 256) :
    chunk256 h Wc bc (ix2 r q) = ∑ g : Fin 128, h (ix2 r g) * Wc (ix2 g q) + bc (ix2 (0 : Fin 1) q) := by
  unfold chunk256
  rw [addf_apply, at_2048x128x256, broadcastTo_1b_ab_apply]

/-- The two 128-column terms of a pair of harmonics, joined side by side: source features times the chunk's left half
    times the first harmonic, and times its right half times the second. -/
def pairTerm (xs : FVec Ideal S2048x128 .f32) (w : FVec Ideal S2048x256 .f32) (s0 s1 : FVec Ideal S2048x1 .f32) :
    FVec Ideal S2048x256 .bf16 :=
  truncf .bf16 (concatenate S2048x256 1
    [⟨S2048x128, mulf (mulf xs (extractStridedSlice S2048x128 ![0, 0] w slices_S2048x256_o0_0_S2048x128))
        (broadcastTo S2048x128 s0 broadcasts_S2048x1_S2048x128)⟩,
     ⟨S2048x128, mulf (mulf xs (extractStridedSlice S2048x128 ![0, 128] w slices_S2048x256_o0_128_S2048x128))
        (broadcastTo S2048x128 s1 broadcasts_S2048x1_S2048x128)⟩]
    concatenates_S2048x128_S2048x128_S2048x256_d1) bitsLt_bf16_f32

theorem pairTerm_left (xs : FVec Ideal S2048x128 .f32) (w : FVec Ideal S2048x256 .f32) (s0 s1 : FVec Ideal S2048x1 .f32)
    (r : Fin 2048) (i : Fin 128) :
    pairTerm xs w s0 s1 (ix2 r ⟨i.val, by have := i.isLt; omega⟩)
      = (xs (ix2 r i) * w (ix2 r ⟨i.val, by have := i.isLt; omega⟩)) * s0 (ix2 r (0 : Fin 1)) := by
  unfold pairTerm
  rw [truncf_apply, concat_cols_left (m := 2048) (n1 := 128) (n2 := 128) (n := 256) _ _ _ r ⟨i.val, by have := i.isLt; omega⟩ i.isLt,
    mulf_apply, mulf_apply,
    slice_cols_apply 0 w _ r ⟨i.val, i.isLt⟩ (by have := i.isLt; show 0 + i.val < 256; omega), broadcastTo_a1_ab_apply]
  simp only [Nat.zero_add, Fin.eta]

theorem pairTerm_right (xs : FVec Ideal S2048x128 .f32) (w : FVec Ideal S2048x256 .f32) (s0 s1 : FVec Ideal S2048x1 .f32)
    (r : Fin 2048) (i : Fin 128) :
    pairTerm xs w s0 s1 (ix2 r ⟨128 + i.val, by have := i.isLt; omega⟩)
      = (xs (ix2 r i) * w (ix2 r ⟨128 + i.val, by have := i.isLt; omega⟩)) * s1 (ix2 r (0 : Fin 1)) := by
  unfold pairTerm
  rw [truncf_apply, concat_cols_right (m := 2048) (n1 := 128) (n2 := 128) (n := 256) _ _ _ r ⟨128 + i.val, by have := i.isLt; omega⟩ i
      (Nat.add_comm _ _), mulf_apply, mulf_apply, slice_cols_apply 128 w _ r i (by have := i.isLt; show 128 + i.val < 256; omega), broadcastTo_a1_ab_apply]

/-- A pair's product with 256 rows of the output projection, split into its two halves of 128. -/
def pairOut (t : FVec Ideal S2048x256 .bf16) (Uc : FVec Ideal S256x128 .bf16) : FVec Ideal S2048x128 .f32 :=
  matmul dot_S2048x256_S256x128_S2048x128_1_0_0_1_n_n none t Uc (constant S2048x128 .f32 0x00000000#32)

theorem pairOut_apply (t : FVec Ideal S2048x256 .bf16) (Uc : FVec Ideal S256x128 .bf16) (r : Fin 2048) (o : Fin 128) :
    pairOut t Uc (ix2 r o)
      = ∑ i : Fin 128, t (ix2 r ⟨i.val, by have := i.isLt; omega⟩) * Uc (ix2 ⟨i.val, by have := i.isLt; omega⟩ o)
        + ∑ i : Fin 128, t (ix2 r ⟨128 + i.val, by have := i.isLt; omega⟩) * Uc (ix2 ⟨128 + i.val, by have := i.isLt; omega⟩ o) := by
  unfold pairOut
  rw [at_2048x256x128]
  exact sum_fin256 _

/-! ## The per-edge weights and one summand of the message -/

/-- The per-edge weight of edge `r` at column `c` of the (harmonic-major) second layer. -/
def wcol (h : FVec Ideal S2048x128 .bf16) (W2 : FVec Ideal S128x1152 .bf16) (b2 : FVec Ideal S1x1152 .f32)
    (r : Fin 2048) (c : Fin 1152) : EReal :=
  ∑ g : Fin 128, h (ix2 r g) * W2 (ix2 g c) + b2 (ix2 (0 : Fin 1) c)

/-- The summand of the message of edge `r`, output `o`, for harmonic `j` and feature `i`, at column `c`. -/
def summand (h : FVec Ideal S2048x128 .bf16) (W2 : FVec Ideal S128x1152 .bf16) (b2 : FVec Ideal S1x1152 .f32)
    (U : FVec Ideal S1152x128 .bf16) (xs : FVec Ideal S2048x128 .f32) (sh : FVec Ideal S2048x9 .f32)
    (r : Fin 2048) (o : Fin 128) (j : Fin 9) (c : Fin 1152) (i : Fin 128) : EReal :=
  ((xs (ix2 r i) * wcol h W2 b2 r c) * sh (ix2 r j)) * U (ix2 c o)

theorem chunk_slice_apply (h : FVec Ideal S2048x128 .bf16) (W2 : FVec Ideal S128x1152 .bf16) (b2 : FVec Ideal S1x1152 .f32)
    (c0 : ℕ) (hW : S128x1152.Slices ![0, c0] S128x256) (hb : S1x1152.Slices ![0, c0] S1x256) (r : Fin 2048) (q : Fin 256)
    (hq : c0 + q.val < 1152) :
    chunk256 h (extractStridedSlice S128x256 ![0, c0] W2 hW) (extractStridedSlice S1x256 ![0, c0] b2 hb) (ix2 r q)
      = wcol h W2 b2 r ⟨c0 + q.val, hq⟩ := by
  unfold wcol
  rw [chunk256_apply, slice_cols_apply c0 b2 hb (0 : Fin 1) q hq]
  refine congrArg (· + _) (Finset.sum_congr rfl fun g _ => ?_)
  rw [slice_cols_apply c0 W2 hW g q hq]

/-- A whole pair of harmonics `j0`, `j1 = j0 + 1`, whose columns start at `c0 = j0 * 128`. -/
def pairGroup (h : FVec Ideal S2048x128 .bf16) (W2 : FVec Ideal S128x1152 .bf16) (b2 : FVec Ideal S1x1152 .f32)
    (U : FVec Ideal S1152x128 .bf16) (xs : FVec Ideal S2048x128 .f32) (sh : FVec Ideal S2048x9 .f32) (c0 j0 j1 : ℕ)
    (hW : S128x1152.Slices ![0, c0] S128x256) (hb : S1x1152.Slices ![0, c0] S1x256) (hU : S1152x128.Slices ![c0, 0] S256x128)
    (hs0 : S2048x9.Slices ![0, j0] S2048x1) (hs1 : S2048x9.Slices ![0, j1] S2048x1) : FVec Ideal S2048x128 .f32 :=
  pairOut
    (pairTerm xs (chunk256 h (extractStridedSlice S128x256 ![0, c0] W2 hW) (extractStridedSlice S1x256 ![0, c0] b2 hb))
      (extractStridedSlice S2048x1 ![0, j0] sh hs0) (extractStridedSlice S2048x1 ![0, j1] sh hs1))
    (extractStridedSlice S256x128 ![c0, 0] U hU)

theorem pairGroup_apply (h : FVec Ideal S2048x128 .bf16) (W2 : FVec Ideal S128x1152 .bf16) (b2 : FVec Ideal S1x1152 .f32)
    (U : FVec Ideal S1152x128 .bf16) (xs : FVec Ideal S2048x128 .f32) (sh : FVec Ideal S2048x9 .f32) (c0 j0 j1 : ℕ)
    (hW : S128x1152.Slices ![0, c0] S128x256) (hb : S1x1152.Slices ![0, c0] S1x256) (hU : S1152x128.Slices ![c0, 0] S256x128)
    (hs0 : S2048x9.Slices ![0, j0] S2048x1) (hs1 : S2048x9.Slices ![0, j1] S2048x1)
    (hc : c0 = j0 * 128) (hj : j1 = j0 + 1) (hj1 : j1 < 9) (r : Fin 2048) (o : Fin 128) :
    pairGroup h W2 b2 U xs sh c0 j0 j1 hW hb hU hs0 hs1 (ix2 r o)
      = ∑ i : Fin 128, summand h W2 b2 U xs sh r o ⟨j0, by omega⟩ ⟨j0 * 128 + i.val, by have := i.isLt; omega⟩ i
        + ∑ i : Fin 128, summand h W2 b2 U xs sh r o ⟨j1, hj1⟩ ⟨j1 * 128 + i.val, by have := i.isLt; omega⟩ i := by
  subst hc hj
  unfold pairGroup
  rw [pairOut_apply]
  refine congrArg₂ (· + ·) (Finset.sum_congr rfl fun i _ => ?_) (Finset.sum_congr rfl fun i _ => ?_)
  · have hi := i.isLt
    rw [pairTerm_left, chunk_slice_apply h W2 b2 _ hW hb r ⟨i.val, by omega⟩ (by show j0 * 128 + i.val < 1152; omega),
      slice_col_apply j0 sh hs0 r (by omega), slice_rows_apply _ U hU ⟨i.val, by omega⟩ o (by show j0 * 128 + i.val < 1152; omega)]
    rfl
  · have hi := i.isLt
    rw [pairTerm_right, chunk_slice_apply h W2 b2 _ hW hb r ⟨128 + i.val, by omega⟩ (by show j0 * 128 + (128 + i.val) < 1152; omega),
      slice_col_apply (j0 + 1) sh hs1 r hj1,
      slice_rows_apply _ U hU ⟨128 + i.val, by omega⟩ o (by show j0 * 128 + (128 + i.val) < 1152; omega)]
    unfold summand
    have e : (⟨j0 * 128 + (128 + i.val), by omega⟩ : Fin 1152) = ⟨(j0 + 1) * 128 + i.val, by omega⟩ :=
      Fin.ext (by show j0 * 128 + (128 + i.val) = (j0 + 1) * 128 + i.val; omega)
    simp only [e]

/-! ## The ninth harmonic, alone -/

/-- The last harmonic has no partner: a 128-column chunk, one term, one product with the last 128 rows of the projection. -/
def lastGroup (h : FVec Ideal S2048x128 .bf16) (W2 : FVec Ideal S128x1152 .bf16) (b2 : FVec Ideal S1x1152 .f32)
    (U : FVec Ideal S1152x128 .bf16) (xs : FVec Ideal S2048x128 .f32) (sh : FVec Ideal S2048x9 .f32) : FVec Ideal S2048x128 .f32 :=
  matmul dot_S2048x128_S128x128_S2048x128_1_0_0_1_n_n none
    (truncf .bf16
      (mulf
        (mulf xs
          (addf
            (matmul dot_S2048x128_S128x128_S2048x128_1_0_0_1_n_n none h
              (extractStridedSlice S128x128 ![0, 1024] W2 slices_S128x1152_o0_1024_S128x128) (constant S2048x128 .f32 0x00000000#32))
            (broadcastTo S2048x128 (extractStridedSlice S1x128 ![0, 1024] b2 slices_S1x1152_o0_1024_S1x128) broadcasts_S1x128_S2048x128)))
        (broadcastTo S2048x128 (extractStridedSlice S2048x1 ![0, 8] sh slices_S2048x9_o0_8_S2048x1) broadcasts_S2048x1_S2048x128))
      bitsLt_bf16_f32)
    (extractStridedSlice S128x128 ![1024, 0] U slices_S1152x128_o1024_0_S128x128) (constant S2048x128 .f32 0x00000000#32)

theorem lastGroup_apply (h : FVec Ideal S2048x128 .bf16) (W2 : FVec Ideal S128x1152 .bf16) (b2 : FVec Ideal S1x1152 .f32)
    (U : FVec Ideal S1152x128 .bf16) (xs : FVec Ideal S2048x128 .f32) (sh : FVec Ideal S2048x9 .f32) (r : Fin 2048) (o : Fin 128) :
    lastGroup h W2 b2 U xs sh (ix2 r o)
      = ∑ i : Fin 128, summand h W2 b2 U xs sh r o ⟨8, by omega⟩ ⟨8 * 128 + i.val, by have := i.isLt; omega⟩ i := by
  unfold lastGroup
  rw [at_2048x128x128]
  refine Finset.sum_congr rfl fun i _ => ?_
  have hi := i.isLt
  have e1 : ∑ g : Fin 128, h (ix2 r g) * extractStridedSlice S128x128 ![0, 1024] W2 slices_S128x1152_o0_1024_S128x128 (ix2 g i)
      = ∑ g : Fin 128, h (ix2 r g) * W2 (ix2 g ⟨1024 + i.val, by omega⟩) :=
    Finset.sum_congr rfl fun g _ => by rw [slice_cols_apply 1024 W2 _ g i (by omega)]
  rw [truncf_apply, mulf_apply, mulf_apply, addf_apply, at_2048x128x128, e1, broadcastTo_1b_ab_apply, broadcastTo_a1_ab_apply,
    slice_cols_apply 1024 b2 _ (0 : Fin 1) i (by omega), slice_col_apply 8 sh _ r (by omega),
    slice_rows_apply 1024 U _ i o (by omega)]
  rfl

/-! ## The whole body -/

/-- The body: five groups — four pairs of harmonics and the ninth alone — accumulated from zero. -/
def body (x0 : Vec Ideal S2048x128 .f32) (x1 : Vec Ideal S2048x9 .f32) (x2 : Vec Ideal S2048x128 .f32)
    (x3 : Vec Ideal S128x128 .f32) (x4 : Vec Ideal S1x128 .f32) (x5 : Vec Ideal S128x1152 .f32) (x6 : Vec Ideal S1x1152 .f32)
    (x7 : Vec Ideal S1152x128 .f32) : FVec Ideal S2048x128 .f32 :=
  addf (addf (addf (addf (addf (k3_pay7 (F := Ideal))
      (pairGroup (k3_pay2 x2 x3 x4) (k3_pay3 x5) (k3_pay4 x6) (k3_pay5 x7) (k3_pay6 x0) x1 0 0 1
        slices_S128x1152_o0_0_S128x256 slices_S1x1152_o0_0_S1x256 slices_S1152x128_o0_0_S256x128
        slices_S2048x9_o0_0_S2048x1 slices_S2048x9_o0_1_S2048x1))
      (pairGroup (k3_pay2 x2 x3 x4) (k3_pay3 x5) (k3_pay4 x6) (k3_pay5 x7) (k3_pay6 x0) x1 256 2 3
        slices_S128x1152_o0_256_S128x256 slices_S1x1152_o0_256_S1x256 slices_S1152x128_o256_0_S256x128
        slices_S2048x9_o0_2_S2048x1 slices_S2048x9_o0_3_S2048x1))
      (pairGroup (k3_pay2 x2 x3 x4) (k3_pay3 x5) (k3_pay4 x6) (k3_pay5 x7) (k3_pay6 x0) x1 512 4 5
        slices_S128x1152_o0_512_S128x256 slices_S1x1152_o0_512_S1x256 slices_S1152x128_o512_0_S256x128
        slices_S2048x9_o0_4_S2048x1 slices_S2048x9_o0_5_S2048x1))
      (pairGroup (k3_pay2 x2 x3 x4) (k3_pay3 x5) (k3_pay4 x6) (k3_pay5 x7) (k3_pay6 x0) x1 768 6 7
        slices_S128x1152_o0_768_S128x256 slices_S1x1152_o0_768_S1x256 slices_S1152x128_o768_0_S256x128
        slices_S2048x9_o0_6_S2048x1 slices_S2048x9_o0_7_S2048x1))
    (lastGroup (k3_pay2 x2 x3 x4) (k3_pay3 x5) (k3_pay4 x6) (k3_pay5 x7) (k3_pay6 x0) x1)

/-- What the body leaves in the output block is `body` of the input blocks: the one store covers the block, the loads
    read whole blocks, and the stored value is the body's arithmetic, grouped. -/
theorem out_eq_body (x0 : Vec Ideal S2048x128 .f32) (x1 : Vec Ideal S2048x9 .f32) (x2 : Vec Ideal S2048x128 .f32)
    (x3 : Vec Ideal S128x128 .f32) (x4 : Vec Ideal S1x128 .f32) (x5 : Vec Ideal S128x1152 .f32) (x6 : Vec Ideal S1x1152 .f32)
    (x7 : Vec Ideal S1152x128 .f32) :
    out3_8 x0 x1 x2 x3 x4 x5 x6 x7 = body x0 x1 x2 x3 x4 x5 x6 x7 := by
  unfold out3_8
  rw [View.canon_unit_zero hz2]
  simp only [View.ld_unit_zero (S := S2048x128) hz2, View.ld_unit_zero (S := S128x128) hz2, View.ld_unit_zero (S := S1x128) hz2,
    View.ld_unit_zero (S := S128x1152) hz2, View.ld_unit_zero (S := S1x1152) hz2, View.ld_unit_zero (S := S1152x128) hz2,
    View.ld_unit_zero (S := S2048x9) hz2]
  rfl

theorem zeros_apply (i : S2048x128.Idx) : k3_pay7 (F := Ideal) i = 0 := by
  unfold k3_pay7
  simp only [broadcast_apply, Scalar.ofBits, Ideal.ofBits_def, Ideal.ofBits_zero_f32]

/-- The message of edge `r` at output `o` as the double sum over harmonics and features, in terms of the body's loaded
    values (each a change of format of an input block). -/
theorem body_apply (x0 : Vec Ideal S2048x128 .f32) (x1 : Vec Ideal S2048x9 .f32) (x2 : Vec Ideal S2048x128 .f32)
    (x3 : Vec Ideal S128x128 .f32) (x4 : Vec Ideal S1x128 .f32) (x5 : Vec Ideal S128x1152 .f32) (x6 : Vec Ideal S1x1152 .f32)
    (x7 : Vec Ideal S1152x128 .f32) (r : Fin 2048) (o : Fin 128) :
    body x0 x1 x2 x3 x4 x5 x6 x7 (ix2 r o)
      = ∑ j : Fin 9, ∑ i : Fin 128,
          summand (k3_pay2 x2 x3 x4) (k3_pay3 x5) (k3_pay4 x6) (k3_pay5 x7) (k3_pay6 x0) x1 r o j
            ⟨j.val * 128 + i.val, by have := i.isLt; have := j.isLt; omega⟩ i := by
  unfold body
  rw [addf_apply, addf_apply, addf_apply, addf_apply, addf_apply, zeros_apply,
    pairGroup_apply _ _ _ _ _ _ 0 0 1 _ _ _ _ _ rfl rfl (by omega),
    pairGroup_apply _ _ _ _ _ _ 256 2 3 _ _ _ _ _ rfl rfl (by omega),
    pairGroup_apply _ _ _ _ _ _ 512 4 5 _ _ _ _ _ rfl rfl (by omega),
    pairGroup_apply _ _ _ _ _ _ 768 6 7 _ _ _ _ _ rfl rfl (by omega), lastGroup_apply]
  exact Cert.SumLaws.sum_nine_paired (fun j : Fin 9 => ∑ i : Fin 128,
    summand (k3_pay2 x2 x3 x4) (k3_pay3 x5) (k3_pay4 x6) (k3_pay5 x7) (k3_pay6 x0) x1 r o j
      ⟨j.val * 128 + i.val, by have := i.isLt; have := j.isLt; omega⟩ i)

/-! ## The message in row form -/

theorem pay3_apply (x5 : Vec Ideal S128x1152 .f32) (i : S128x1152.Idx) : k3_pay3 (F := Ideal) x5 i = x5 i := by
  unfold k3_pay3; rw [truncf_apply, shapeCast_self]
theorem pay4_apply (x6 : Vec Ideal S1x1152 .f32) (i : S1x1152.Idx) : k3_pay4 (F := Ideal) x6 i = x6 i := by
  unfold k3_pay4; rw [shapeCast_self]
theorem pay5_apply (x7 : Vec Ideal S1152x128 .f32) (i : S1152x128.Idx) : k3_pay5 (F := Ideal) x7 i = x7 i := by
  unfold k3_pay5; rw [truncf_apply, shapeCast_self]
theorem pay6_apply (x0 : Vec Ideal S2048x128 .f32) (i : S2048x128.Idx) : k3_pay6 (F := Ideal) x0 i = x0 i := by
  unfold k3_pay6; rw [shapeCast_self]

/-- What the body leaves at row `r`, channel `o` of the output block is the message of that row's edge: source features,
    harmonics and edge features are row `r` of the first three blocks, and column `j * 128 + i` of the second layer, of its
    bias and of the projection is (harmonic `j`, feature `i`). -/
theorem out_row (x0 : Vec Ideal S2048x128 .f32) (x1 : Vec Ideal S2048x9 .f32) (x2 : Vec Ideal S2048x128 .f32)
    (x3 : Vec Ideal S128x128 .f32) (x4 : Vec Ideal S1x128 .f32) (x5 : Vec Ideal S128x1152 .f32) (x6 : Vec Ideal S1x1152 .f32)
    (x7 : Vec Ideal S1152x128 .f32) (r : Fin 2048) (o : Fin 128) :
    out3_8 x0 x1 x2 x3 x4 x5 x6 x7 (ix2 r o)
      = Cert.Spec.msgRow (fun i : Fin 128 => x0 (ix2 r i)) (fun j : Fin 9 => x1 (ix2 r j)) (fun k : Fin 128 => x2 (ix2 r k))
          (fun k g : Fin 128 => x3 (ix2 k g)) (fun g : Fin 128 => x4 (ix2 (0 : Fin 1) g))
          (fun (g : Fin 128) (j : Fin 9) (i : Fin 128) => x5 (ix2 g ⟨j.val * 128 + i.val, by have := i.isLt; have := j.isLt; omega⟩))
          (fun (j : Fin 9) (i : Fin 128) => x6 (ix2 (0 : Fin 1) ⟨j.val * 128 + i.val, by have := i.isLt; have := j.isLt; omega⟩))
          (fun (j : Fin 9) (i : Fin 128) => x7 (ix2 ⟨j.val * 128 + i.val, by have := i.isLt; have := j.isLt; omega⟩ o)) := by
  rw [out_eq_body, body_apply]
  unfold Cert.Spec.msgRow Cert.Spec.edgeWeight Cert.Spec.hidden summand wcol
  refine Finset.sum_congr rfl fun j _ => Finset.sum_congr rfl fun i _ => ?_
  rw [pay6_apply, pay4_apply, pay5_apply]
  refine congrArg (fun z => ((x0 (ix2 r i) * (z + _)) * _) * _) (Finset.sum_congr rfl fun g _ => ?_)
  rw [hidden_apply, pay3_apply]

end Cert.KernelIdeal.ResBody

end
-- ==== Proof.ResArr.lean ====
/-
  The residue-edge region's output array: one message per residue edge.
  The region walks the 131072 edges in 64 tiles of 2048: at tile `t` the first three windows hold rows
  `2048 t … 2048 t + 2047` of the source features, the harmonics and the edge features, the five weight windows hold
  their whole arrays, and the body leaves, in row `r` of the output block, the message of edge `2048 t + r`.  The tiles
  cover every row exactly, so after the region the output array holds, at (edge `e`, channel `o`), the message of edge
  `e`: `Cert.Spec.msgRow` of row `e` of the three edge arrays and of the weights as the region finds them.
-/
import proofs.«130085_j37134287242037_2_alg».proof.Proof.ResBody

set_option maxRecDepth 16384

noncomputable section

open scoped BigOperators

namespace Cert.KernelIdeal.ResArr

open Cert.KernelIdeal Cert.KernelIdeal.Gen Idealize.ShloMosaic Idealize.ShloMosaic.ValueIdx
open Idealize.SL.Sem Idealize.ShloMosaic.TcCoe
open Idealize.ShloMosaic.Pipeline (Dat Cfg Window)

variable (V : (c : Dev nD) → (b : Ref sig .tc) → Buf (Elt Ideal) ((c : Thread nD τ).loc b))

/-- The windows' index maps over the grid: the edge windows and the output move one block of rows per tile, the weight
    windows stay on their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-! ## The windows' blocks, read off their arrays -/

theorem blk0 (c : Dev nD) (t : Fin cfg3.N) (r : Fin 2048) (i : Fin 128) (ht : t.val * 2048 + r.val < 131072) :
    iblk3 V c 0 t (ix2 r i) = (V c (Pipeline.arrRef spec3 0) : S131072x128.Idx → EReal) (ix2 ⟨t.val * 2048 + r.val, ht⟩ i) := by
  obtain ⟨e0a, e0b, -, -, -, -, -, -, -, -, -, -, -, -, -, -, -, -⟩ := idx_facts t
  unfold iblk3
  rw [View.read_apply]
  show (V c (Pipeline.arrRef spec3 0) : S131072x128.Idx → EReal) _ = _
  refine congrArg _ (funext fun a => Fin.ext ?_)
  match a with
  | ⟨0, _⟩ => show win3_0.index t (0 : Fin 2) * 2048 + 1 * r.val = t.val * 2048 + r.val; rw [e0a]; omega
  | ⟨1, _⟩ => show win3_0.index t (1 : Fin 2) * 128 + 1 * i.val = i.val; rw [e0b]; omega

theorem blk1 (c : Dev nD) (t : Fin cfg3.N) (r : Fin 2048) (i : Fin 9) (ht : t.val * 2048 + r.val < 131072) :
    iblk3 V c 1 t (ix2 r i) = (V c (Pipeline.arrRef spec3 1) : S131072x9.Idx → EReal) (ix2 ⟨t.val * 2048 + r.val, ht⟩ i) := by
  obtain ⟨-, -, e1a, e1b, -, -, -, -, -, -, -, -, -, -, -, -, -, -⟩ := idx_facts t
  unfold iblk3
  rw [View.read_apply]
  show (V c (Pipeline.arrRef spec3 1) : S131072x9.Idx → EReal) _ = _
  refine congrArg _ (funext fun a => Fin.ext ?_)
  match a with
  | ⟨0, _⟩ => show win3_1.index t (0 : Fin 2) * 2048 + 1 * r.val = t.val * 2048 + r.val; rw [e1a]; omega
  | ⟨1, _⟩ => show win3_1.index t (1 : Fin 2) * 9 + 1 * i.val = i.val; rw [e1b]; omega

theorem blk2 (c : Dev nD) (t : Fin cfg3.N) (r : Fin 2048) (i : Fin 128) (ht : t.val * 2048 + r.val < 131072) :
    iblk3 V c 2 t (ix2 r i) = (V c (Pipeline.arrRef spec3 2) : S131072x128.Idx → EReal) (ix2 ⟨t.val * 2048 + r.val, ht⟩ i) := by
  obtain ⟨-, -, -, -, e2a, e2b, -, -, -, -, -, -, -, -, -, -, -, -⟩ := idx_facts t
  unfold iblk3
  rw [View.read_apply]
  show (V c (Pipeline.arrRef spec3 2) : S131072x128.Idx → EReal) _ = _
  refine congrArg _ (funext fun a => Fin.ext ?_)
  match a with
  | ⟨0, _⟩ => show win3_2.index t (0 : Fin 2) * 2048 + 1 * r.val = t.val * 2048 + r.val; rw [e2a]; omega
  | ⟨1, _⟩ => show win3_2.index t (1 : Fin 2) * 128 + 1 * i.val = i.val; rw [e2b]; omega

theorem blk3 (c : Dev nD) (t : Fin cfg3.N) (p : Fin 128) (q : Fin 128) :
    iblk3 V c 3 t (ix2 p q) = (V c (Pipeline.arrRef spec3 3) : S128x128.Idx → EReal) (ix2 p q) := by
  obtain ⟨-, -, -, -, -, -, e3a, e3b, -, -, -, -, -, -, -, -, -, -⟩ := idx_facts t
  unfold iblk3
  rw [View.read_apply]
  show (V c (Pipeline.arrRef spec3 3) : S128x128.Idx → EReal) _ = _
  refine congrArg _ (funext fun a => Fin.ext ?_)
  match a with
  | ⟨0, _⟩ => show win3_3.index t (0 : Fin 2) * 128 + 1 * p.val = p.val; rw [e3a]; omega
  | ⟨1, _⟩ => show win3_3.index t (1 : Fin 2) * 128 + 1 * q.val = q.val; rw [e3b]; omega

theorem blk4 (c : Dev nD) (t : Fin cfg3.N) (p : Fin 1) (q : Fin 128) :
    iblk3 V c 4 t (ix2 p q) = (V c (Pipeline.arrRef spec3 4) : S1x128.Idx → EReal) (ix2 p q) := by
  obtain ⟨-, -, -, -, -, -, -, -, e4a, e4b, -, -, -, -, -, -, -, -⟩ := idx_facts t
  unfold iblk3
  rw [View.read_apply]
  show (V c (Pipeline.arrRef spec3 4) : S1x128.Idx → EReal) _ = _
  refine congrArg _ (funext fun a => Fin.ext ?_)
  match a with
  | ⟨0, _⟩ => show win3_4.index t (0 : Fin 2) * 1 + 1 * p.val = p.val; rw [e4a]; omega
  | ⟨1, _⟩ => show win3_4.index t (1 : Fin 2) * 128 + 1 * q.val = q.val; rw [e4b]; omega

theorem blk5 (c : Dev nD) (t : Fin cfg3.N) (p : Fin 128) (q : Fin 1152) :
    iblk3 V c 5 t (ix2 p q) = (V c (Pipeline.arrRef spec3 5) : S128x1152.Idx → EReal) (ix2 p q) := by
  obtain ⟨-, -, -, -, -, -, -, -, -, -, e5a, e5b, -, -, -, -, -, -⟩ := idx_facts t
  unfold iblk3
  rw [View.read_apply]
  show (V c (Pipeline.arrRef spec3 5) : S128x1152.Idx → EReal) _ = _
  refine congrArg _ (funext fun a => Fin.ext ?_)
  match a with
  | ⟨0, _⟩ => show win3_5.index t (0 : Fin 2) * 128 + 1 * p.val = p.val; rw [e5a]; omega
  | ⟨1, _⟩ => show win3_5.index t (1 : Fin 2) * 1152 + 1 * q.val = q.val; rw [e5b]; omega

theorem blk6 (c : Dev nD) (t : Fin cfg3.N) (p : Fin 1) (q : Fin 1152) :
    iblk3 V c 6 t (ix2 p q) = (V c (Pipeline.arrRef spec3 6) : S1x1152.Idx → EReal) (ix2 p q) := by
  obtain ⟨-, -, -, -, -, -, -, -, -, -, -, -, e6a, e6b, -, -, -, -⟩ := idx_facts t
  unfold iblk3
  rw [View.read_apply]
  show (V c (Pipeline.arrRef spec3 6) : S1x1152.Idx → EReal) _ = _
  refine congrArg _ (funext fun a => Fin.ext ?_)
  match a with
  | ⟨0, _⟩ => show win3_6.index t (0 : Fin 2) * 1 + 1 * p.val = p.val; rw [e6a]; omega
  | ⟨1, _⟩ => show win3_6.index t (1 : Fin 2) * 1152 + 1 * q.val = q.val; rw [e6b]; omega

theorem blk7 (c : Dev nD) (t : Fin cfg3.N) (p : Fin 1152) (q : Fin 128) :
    iblk3 V c 7 t (ix2 p q) = (V c (Pipeline.arrRef spec3 7) : S1152x128.Idx → EReal) (ix2 p q) := by
  obtain ⟨-, -, -, -, -, -, -, -, -, -, -, -, -, -, e7a, e7b, -, -⟩ := idx_facts t
  unfold iblk3
  rw [View.read_apply]
  show (V c (Pipeline.arrRef spec3 7) : S1152x128.Idx → EReal) _ = _
  refine congrArg _ (funext fun a => Fin.ext ?_)
  match a with
  | ⟨0, _⟩ => show win3_7.index t (0 : Fin 2) * 1152 + 1 * p.val = p.val; rw [e7a]; omega
  | ⟨1, _⟩ => show win3_7.index t (1 : Fin 2) * 128 + 1 * q.val = q.val; rw [e7b]; omega

/-! ## The output array -/

/-- The message of edge `e` at channel `o`, from the arrays as the region finds them. -/
def msgAt (c : Dev nD) (e : Fin 131072) (o : Fin 128) : EReal :=
  Cert.Spec.msgRow (fun i : Fin 128 => (V c (Pipeline.arrRef spec3 0) : S131072x128.Idx → EReal) (ix2 e i)) (fun j : Fin 9 => (V c (Pipeline.arrRef spec3 1) : S131072x9.Idx → EReal) (ix2 e j))
      (fun k : Fin 128 => (V c (Pipeline.arrRef spec3 2) : S131072x128.Idx → EReal) (ix2 e k)) (fun k g : Fin 128 => (V c (Pipeline.arrRef spec3 3) : S128x128.Idx → EReal) (ix2 k g))
      (fun g : Fin 128 => (V c (Pipeline.arrRef spec3 4) : S1x128.Idx → EReal) (ix2 (0 : Fin 1) g))
      (fun (g : Fin 128) (j : Fin 9) (i : Fin 128) => (V c (Pipeline.arrRef spec3 5) : S128x1152.Idx → EReal) (ix2 g ⟨j.val * 128 + i.val, by have := i.isLt; have := j.isLt; omega⟩))
      (fun (j : Fin 9) (i : Fin 128) => (V c (Pipeline.arrRef spec3 6) : S1x1152.Idx → EReal) (ix2 (0 : Fin 1) ⟨j.val * 128 + i.val, by have := i.isLt; have := j.isLt; omega⟩))
      (fun (j : Fin 9) (i : Fin 128) => (V c (Pipeline.arrRef spec3 7) : S1152x128.Idx → EReal) (ix2 ⟨j.val * 128 + i.val, by have := i.isLt; have := j.isLt; omega⟩ o))

/-- The output array the region leaves: the message of every edge at every channel. -/
def result (c : Dev nD) : S131072x128.Idx → EReal :=
  fun idx => msgAt V c ⟨(idx 0).val, idx2_lt0 idx⟩ ⟨(idx 1).val, idx2_lt1 idx⟩

theorem tile_lt (t : Fin cfg3.N) (r : Fin 2048) : t.val * 2048 + r.val < 131072 := by
  have hN : cfg3.N = 64 := N_3
  have := t.isLt; have := r.isLt; omega

/-- What the body leaves at row `r`, channel `o` of tile `t`'s output block is the message of edge `2048 t + r`. -/
theorem body_at (c : Dev nD) (t : Fin cfg3.N) (r : Fin 2048) (o : Fin 128) :
    out3_8 (iblk3 V c 0 t) (iblk3 V c 1 t) (iblk3 V c 2 t) (iblk3 V c 3 t) (iblk3 V c 4 t) (iblk3 V c 5 t)
        (iblk3 V c 6 t) (iblk3 V c 7 t) (ix2 r o)
      = msgAt V c ⟨t.val * 2048 + r.val, tile_lt t r⟩ o := by
  rw [Cert.KernelIdeal.ResBody.out_row (iblk3 V c 0 t) (iblk3 V c 1 t) (iblk3 V c 2 t) (iblk3 V c 3 t) (iblk3 V c 4 t)
    (iblk3 V c 5 t) (iblk3 V c 6 t) (iblk3 V c 7 t) r o]
  unfold msgAt
  exact Cert.Spec.msgRow_congr (fun i => blk0 V c t r i _) (fun j => blk1 V c t r j _) (fun k => blk2 V c t r k _)
    (fun k g => blk3 V c t k g) (fun g => blk4 V c t 0 g) (fun g j i => blk5 V c t g _) (fun j i => blk6 V c t 0 _)
    (fun j i => blk7 V c t _ o)

/-- The same at any index `y` of the block, by its two coordinates. -/
theorem body_at' (c : Dev nD) (t : Fin cfg3.N) (y : S2048x128.Idx) :
    out3_8 (iblk3 V c 0 t) (iblk3 V c 1 t) (iblk3 V c 2 t) (iblk3 V c 3 t) (iblk3 V c 4 t) (iblk3 V c 5 t)
        (iblk3 V c 6 t) (iblk3 V c 7 t) y
      = msgAt V c ⟨t.val * 2048 + (y 0).val, tile_lt t ⟨(y 0).val, idx2_lt0 y⟩⟩ ⟨(y 1).val, idx2_lt1 y⟩ := by
  have hy : y = ix2 (⟨(y 0).val, idx2_lt0 y⟩ : Fin 2048) (⟨(y 1).val, idx2_lt1 y⟩ : Fin 128) := eq_ix2 y
  exact (congrArg (out3_8 (iblk3 V c 0 t) (iblk3 V c 1 t) (iblk3 V c 2 t) (iblk3 V c 3 t) (iblk3 V c 4 t)
    (iblk3 V c 5 t) (iblk3 V c 6 t) (iblk3 V c 7 t)) hy).trans (body_at V c t _ _)

/-- WHAT TILE `t` WRITES BACK is block `t` of `result`. -/
theorem flushed_eq (c : Dev nD) (t : Fin cfg3.N) :
    (dat3 V c).flushed 8 t = ((cfg3.win 8).blk t).view.read (Elt Ideal) (result V c) := by
  show (cfg3.win 8).cut (grid3.coords t) ((dat3 V c).after 8 t) = _
  rw [after3_8]
  funext y
  obtain ⟨-, -, -, -, -, -, -, -, -, -, -, -, -, -, -, -, e8a, e8b⟩ := idx_facts t
  refine (body_at' V c t y).trans ?_
  show _ = msgAt V c ⟨((((cfg3.win 8).blk t).view.emb y) 0).val, _⟩ ⟨((((cfg3.win 8).blk t).view.emb y) 1).val, _⟩
  have hrow : (⟨t.val * 2048 + (y 0).val, tile_lt t ⟨(y 0).val, idx2_lt0 y⟩⟩ : Fin 131072)
      = ⟨((((cfg3.win 8).blk t).view.emb y) 0).val, idx2_lt0 _⟩ :=
    Fin.ext (by show t.val * 2048 + (y 0).val = win3_8.index t (0 : Fin 2) * 2048 + 1 * (y 0).val; rw [e8a]; omega)
  have hcol : (⟨(y 1).val, idx2_lt1 y⟩ : Fin 128) = ⟨((((cfg3.win 8).blk t).view.emb y) 1).val, idx2_lt1 _⟩ :=
    Fin.ext (by show (y 1).val = win3_8.index t (1 : Fin 2) * 128 + 1 * (y 1).val; rw [e8b]; omega)
  rw [hrow, hcol]

/-- Every index of the output array lies in the block of the tile that holds its row. -/
theorem covered (i : S131072x128.Idx) :
    ∃ t : Fin cfg3.N, (cfg3.win 8).flush t = true ∧ i ∈ ((cfg3.win 8).blk t).view.set := by
  have h0 : (i 0).val < 131072 := idx2_lt0 i
  have h1 : (i 1).val < 128 := idx2_lt1 i
  have hN : cfg3.N = 64 := N_3
  obtain ⟨t, ht⟩ : ∃ t : Fin cfg3.N, t.val = (i 0).val / 2048 := ⟨⟨(i 0).val / 2048, by omega⟩, rfl⟩
  obtain ⟨-, -, -, -, -, -, -, -, -, -, -, -, -, -, -, -, e8a, e8b⟩ := idx_facts t
  refine ⟨t, flush3_8 t, ?_⟩
  show i ∈ ((View.whole main_call0_v129).slice (win3_8.rect t)).set
  rw [View.set_slice_whole, Rect.mem_set_unit]
  intro a
  match a with
  | ⟨0, _⟩ =>
    show win3_8.index t (0 : Fin 2) * 2048 ≤ (i 0).val ∧ (i 0).val < win3_8.index t (0 : Fin 2) * 2048 + 2048
    rw [e8a, ht]; omega
  | ⟨1, _⟩ =>
    show win3_8.index t (1 : Fin 2) * 128 ≤ (i 1).val ∧ (i 1).val < win3_8.index t (1 : Fin 2) * 128 + 128
    rw [e8b]; omega

/-- THE ARRAY after the region: the message of every edge. -/
theorem arr (c : Dev nD) : (dat3 V c).arrAt 8 cfg3.N = result V c :=
  (dat3 V c).arrAt_eq_of_cover 8 (result V c) (fun t _ => flushed_eq V c t) (covered)

end Cert.KernelIdeal.ResArr

end
-- ==== Proof.RefAgg.lean ====
/-
  The reference's atom-to-residue aggregation messages, read one edge at a time.  Every atom carries one edge to its
  residue.  The reference turns the edge's features into `64 * 9` per-edge weights with a two-layer perceptron, takes
  the outer product of the atom's `64` features with the edge's `9` harmonics, flattens it feature-major (position
  `i * 9 + j` is feature `i`, harmonic `j`), multiplies it entrywise by the weights and projects the `576` products
  onto `128` output channels.  At one edge and one output channel that is the tensor-product message `Cert.Spec.msgRow`
  of the edge's rows: the sum over the `576` flat positions is the double sum over harmonics and features, and
  `(x * s) * w = (x * w) * s` on the extended reals.
-/
import proofs.«130085_j37134287242037_2_alg».proof.Proof.Gen.ReferenceIdeal.Read
import proofs.«130085_j37134287242037_2_alg».proof.Proof.Spec
import proofs.«130085_j37134287242037_2_alg».proof.Proof.SumLaws

noncomputable section

open scoped BigOperators

namespace Cert.ReferenceIdeal.RefAgg

open Cert.ReferenceIdeal Cert.ReferenceIdeal.Gen Cert.ReferenceIdeal.Read Idealize.ShloMosaic Idealize.ShloMosaic.ValueIdx

variable (x0 : (⟨S32768x64, .f32⟩ : BufTy).Contents (Elt Ideal)) (x2 : (⟨S2x458752, .i32⟩ : BufTy).Contents (Elt Ideal)) (x3 : (⟨S65536x64, .f32⟩ : BufTy).Contents (Elt Ideal))
  (x4 : (⟨S393216x64, .f32⟩ : BufTy).Contents (Elt Ideal)) (x5 : (⟨S458752x9, .f32⟩ : BufTy).Contents (Elt Ideal)) (x7 : (⟨S32768x64, .f32⟩ : BufTy).Contents (Elt Ideal)) (x8 : (⟨S32768x9, .f32⟩ : BufTy).Contents (Elt Ideal))
  (x12 : (⟨S64x64, .f32⟩ : BufTy).Contents (Elt Ideal)) (x13 : (⟨S64, .f32⟩ : BufTy).Contents (Elt Ideal)) (x14 : (⟨S64x576, .f32⟩ : BufTy).Contents (Elt Ideal)) (x15 : (⟨S576, .f32⟩ : BufTy).Contents (Elt Ideal))
  (x16 : (⟨S64x64, .f32⟩ : BufTy).Contents (Elt Ideal)) (x17 : (⟨S64, .f32⟩ : BufTy).Contents (Elt Ideal)) (x18 : (⟨S64x576, .f32⟩ : BufTy).Contents (Elt Ideal)) (x19 : (⟨S576, .f32⟩ : BufTy).Contents (Elt Ideal)) (x20 : (⟨S576x64, .f32⟩ : BufTy).Contents (Elt Ideal))
  (x21 : (⟨S64x64, .f32⟩ : BufTy).Contents (Elt Ideal)) (x22 : (⟨S64, .f32⟩ : BufTy).Contents (Elt Ideal)) (x23 : (⟨S64x576, .f32⟩ : BufTy).Contents (Elt Ideal)) (x24 : (⟨S576, .f32⟩ : BufTy).Contents (Elt Ideal)) (x25 : (⟨S576x128, .f32⟩ : BufTy).Contents (Elt Ideal))

/-- The hidden layer of the edge perceptron at edge `e`, unit `g`. -/
theorem hidden_at (e : Fin 32768) (g : Fin 64) :
    val_main_v55 (F := Ideal) x7 x21 x22 (ix2 e g)
      = Cert.Spec.hidden (fun k : Fin 64 => x7 (ix2 e k)) (fun k g : Fin 64 => x21 (ix2 k g)) (fun g : Fin 64 => x22 (ix1 g)) g := by
  rw [val_main_v55_apply, val_main_v54_apply, val_main_v51_apply, val_main_v53_apply, val_main_v52_apply,
    val_main_call2_v0_apply, val_main_call2_cst_apply]
  have hl : ∀ k : Fin 64, lidx_main_v51 (ix2 e g) k = ix2 e k := fun k => funext fun a =>
    match a with | ⟨0, _⟩ => rfl | ⟨1, _⟩ => rfl
  have hr : ∀ k : Fin 64, ridx_main_v51 (ix2 e g) k = ix2 k g := fun k => funext fun a =>
    match a with | ⟨0, _⟩ => rfl | ⟨1, _⟩ => rfl
  have hb : idx_main_v52 (idx_main_v53 (ix2 e g)) = ix1 g := funext fun a =>
    match a with | ⟨0, _⟩ => rfl
  simp only [hl, hr, hb]
  show max (_ + _) (Ideal.ofBits .f32 0x00000000#32) = _
  rw [Ideal.ofBits_zero_f32]
  rfl

/-- The per-edge weight at edge `e`, column `c` of the second layer. -/
theorem weight_at (e : Fin 32768) (c : Fin 576) :
    val_main_v59 (F := Ideal) x7 x21 x22 x23 x24 (ix2 e c)
      = ∑ g : Fin 64, Cert.Spec.hidden (fun k : Fin 64 => x7 (ix2 e k)) (fun k g : Fin 64 => x21 (ix2 k g))
            (fun g : Fin 64 => x22 (ix1 g)) g * x23 (ix2 g c) + x24 (ix1 c) := by
  rw [val_main_v59_apply, val_main_v56_apply, val_main_v58_apply, val_main_v57_apply]
  have hl : ∀ k : Fin 64, lidx_main_v56 (ix2 e c) k = ix2 e k := fun k => funext fun a =>
    match a with | ⟨0, _⟩ => rfl | ⟨1, _⟩ => rfl
  have hr : ∀ k : Fin 64, ridx_main_v56 (ix2 e c) k = ix2 k c := fun k => funext fun a =>
    match a with | ⟨0, _⟩ => rfl | ⟨1, _⟩ => rfl
  have hb : idx_main_v57 (idx_main_v58 (ix2 e c)) = ix1 c := funext fun a =>
    match a with | ⟨0, _⟩ => rfl
  simp only [hl, hr, hb, hidden_at]
  rfl

/-- The outer product of the source features with the harmonics, flattened feature-major: column `i * 9 + j`. -/
theorem outer_at (e : Fin 32768) (i : Fin 64) (j : Fin 9) (h : i.val * 9 + j.val < 576) :
    val_main_v65 (F := Ideal) x0 x2 x3 x4 x5 x8 x12 x13 x14 x15 x16 x17 x18 x19 x20 (ix2 e ⟨i.val * 9 + j.val, h⟩)
      = val_main_v50 (F := Ideal) x0 x2 x3 x4 x5 x12 x13 x14 x15 x16 x17 x18 x19 x20 (ix2 e i) * x8 (ix2 e j) := by
  rw [val_main_v65_apply, val_main_v64_apply, val_main_v62_apply, val_main_v60_apply, val_main_v63_apply, val_main_v61_apply]
  have h3 : idx_main_v65 (ix2 e ⟨i.val * 9 + j.val, h⟩) = ix3 e i j := funext fun a => Fin.ext (by
    have he := e.isLt; have hi := i.isLt; have hj := j.isLt
    match a with
    | ⟨0, _⟩ => show (e.val * 576 + (i.val * 9 + j.val)) / 576 = e.val; omega
    | ⟨1, _⟩ => show (e.val * 576 + (i.val * 9 + j.val)) / 9 % 64 = i.val; omega
    | ⟨2, _⟩ => show (e.val * 576 + (i.val * 9 + j.val)) % 9 = j.val; omega)
  rw [h3]
  have ha : idx_main_v60 (idx_main_v62 (ix3 e i j)) = ix2 e i := funext fun a =>
    match a with | ⟨0, _⟩ => rfl | ⟨1, _⟩ => rfl
  have hs : idx_main_v61 (idx_main_v63 (ix3 e i j)) = ix2 e j := funext fun a =>
    match a with | ⟨0, _⟩ => rfl | ⟨1, _⟩ => rfl
  rw [ha, hs]
  rfl

/-- **The aggregation message of one edge.**  At edge `e` and output channel `o` the reference's message is the
    tensor-product message of the edge's rows: the reference stores the `64 * 9` columns of the second layer, of its
    bias and of the projection feature-major, column `i * 9 + j` being feature `i`, harmonic `j`. -/
theorem msg_row (e : Fin 32768) (o : Fin 128) :
    val_main_v67 (F := Ideal) x0 x2 x3 x4 x5 x7 x8 x12 x13 x14 x15 x16 x17 x18 x19 x20 x21 x22 x23 x24 x25 (ix2 e o)
      = Cert.Spec.msgRow
          (fun i : Fin 64 => val_main_v50 (F := Ideal) x0 x2 x3 x4 x5 x12 x13 x14 x15 x16 x17 x18 x19 x20 (ix2 e i))
          (fun j : Fin 9 => x8 (ix2 e j)) (fun k : Fin 64 => x7 (ix2 e k)) (fun k g : Fin 64 => x21 (ix2 k g))
          (fun g : Fin 64 => x22 (ix1 g))
          (fun (g : Fin 64) (j : Fin 9) (i : Fin 64) =>
            x23 (ix2 g ⟨i.val * 9 + j.val, by have := i.isLt; have := j.isLt; omega⟩))
          (fun (j : Fin 9) (i : Fin 64) => x24 (ix1 ⟨i.val * 9 + j.val, by have := i.isLt; have := j.isLt; omega⟩))
          (fun (j : Fin 9) (i : Fin 64) =>
            x25 (ix2 ⟨i.val * 9 + j.val, by have := i.isLt; have := j.isLt; omega⟩ o)) := by
  rw [val_main_v67_apply, Cert.SumLaws.sum_feature_major (A := 64) (N := 576) rfl]
  unfold Cert.Spec.msgRow
  refine Finset.sum_congr rfl fun j _ => Finset.sum_congr rfl fun i _ => ?_
  have hij : i.val * 9 + j.val < 576 := by have := i.isLt; have := j.isLt; omega
  have hl : lidx_main_v67 (ix2 e o) ⟨i.val * 9 + j.val, hij⟩ = ix2 e ⟨i.val * 9 + j.val, hij⟩ := funext fun a =>
    match a with | ⟨0, _⟩ => rfl | ⟨1, _⟩ => rfl
  have hr : ridx_main_v67 (ix2 e o) ⟨i.val * 9 + j.val, hij⟩ = ix2 ⟨i.val * 9 + j.val, hij⟩ o := funext fun a =>
    match a with | ⟨0, _⟩ => rfl | ⟨1, _⟩ => rfl
  rw [hl, hr, val_main_v66_apply, outer_at, weight_at]
  show ((_ * _) * _) * _ = _
  rw [mul_right_comm (val_main_v50 (F := Ideal) x0 x2 x3 x4 x5 x12 x13 x14 x15 x16 x17 x18 x19 x20 (ix2 e i))]
  rfl

end Cert.ReferenceIdeal.RefAgg

end
-- ==== Proof.RefRes.lean ====
/-
  The reference's residue-graph messages, read one edge at a time.  An edge between residues carries `128` edge
  features and `9` harmonics.  The reference turns the edge's features into `128 * 9` per-edge weights with a two-layer
  perceptron, takes the outer product of the source residue's `128` features with the harmonics, flattens it
  feature-major (position `i * 9 + j` is feature `i`, harmonic `j`), multiplies it entrywise by the weights and
  projects the `1152` products onto `128` output channels.  At one edge and one output channel that is the
  tensor-product message `Cert.Spec.msgRow` of the edge's rows: the sum over the `1152` flat positions is the double
  sum over harmonics and features, and `(x * s) * w = (x * w) * s` on the extended reals.  The source residue's
  features are the rows the reference gathers along the edges' sources; they stay a named stage here.
-/
import proofs.«130085_j37134287242037_2_alg».proof.Proof.Gen.ReferenceIdeal.Read
import proofs.«130085_j37134287242037_2_alg».proof.Proof.Spec
import proofs.«130085_j37134287242037_2_alg».proof.Proof.SumLaws

noncomputable section

open scoped BigOperators

namespace Cert.ReferenceIdeal.RefRes

open Cert.ReferenceIdeal Cert.ReferenceIdeal.Gen Cert.ReferenceIdeal.Read Idealize.ShloMosaic Idealize.ShloMosaic.ValueIdx

variable (x0 : (⟨S32768x64, .f32⟩ : BufTy).Contents (Elt Ideal)) (x1 : (⟨S4096x128, .f32⟩ : BufTy).Contents (Elt Ideal)) (x2 : (⟨S2x458752, .i32⟩ : BufTy).Contents (Elt Ideal)) (x3 : (⟨S65536x64, .f32⟩ : BufTy).Contents (Elt Ideal))
  (x4 : (⟨S393216x64, .f32⟩ : BufTy).Contents (Elt Ideal)) (x5 : (⟨S458752x9, .f32⟩ : BufTy).Contents (Elt Ideal)) (x6 : (⟨S32768, .i32⟩ : BufTy).Contents (Elt Ideal)) (x7 : (⟨S32768x64, .f32⟩ : BufTy).Contents (Elt Ideal)) (x8 : (⟨S32768x9, .f32⟩ : BufTy).Contents (Elt Ideal))
  (x9 : (⟨S2x131072, .i32⟩ : BufTy).Contents (Elt Ideal)) (x10 : (⟨S131072x128, .f32⟩ : BufTy).Contents (Elt Ideal)) (x11 : (⟨S131072x9, .f32⟩ : BufTy).Contents (Elt Ideal))
  (x12 : (⟨S64x64, .f32⟩ : BufTy).Contents (Elt Ideal)) (x13 : (⟨S64, .f32⟩ : BufTy).Contents (Elt Ideal)) (x14 : (⟨S64x576, .f32⟩ : BufTy).Contents (Elt Ideal)) (x15 : (⟨S576, .f32⟩ : BufTy).Contents (Elt Ideal))
  (x16 : (⟨S64x64, .f32⟩ : BufTy).Contents (Elt Ideal)) (x17 : (⟨S64, .f32⟩ : BufTy).Contents (Elt Ideal)) (x18 : (⟨S64x576, .f32⟩ : BufTy).Contents (Elt Ideal)) (x19 : (⟨S576, .f32⟩ : BufTy).Contents (Elt Ideal)) (x20 : (⟨S576x64, .f32⟩ : BufTy).Contents (Elt Ideal))
  (x21 : (⟨S64x64, .f32⟩ : BufTy).Contents (Elt Ideal)) (x22 : (⟨S64, .f32⟩ : BufTy).Contents (Elt Ideal)) (x23 : (⟨S64x576, .f32⟩ : BufTy).Contents (Elt Ideal)) (x24 : (⟨S576, .f32⟩ : BufTy).Contents (Elt Ideal)) (x25 : (⟨S576x128, .f32⟩ : BufTy).Contents (Elt Ideal))
  (x26 : (⟨S128x128, .f32⟩ : BufTy).Contents (Elt Ideal)) (x27 : (⟨S128, .f32⟩ : BufTy).Contents (Elt Ideal)) (x28 : (⟨S128x1152, .f32⟩ : BufTy).Contents (Elt Ideal)) (x29 : (⟨S1152, .f32⟩ : BufTy).Contents (Elt Ideal)) (x30 : (⟨S1152x128, .f32⟩ : BufTy).Contents (Elt Ideal))

/-- The hidden layer of the edge perceptron at edge `e`, unit `g`. -/
theorem hidden_at (e : Fin 131072) (g : Fin 128) :
    val_main_v89 (F := Ideal) x10 x26 x27 (ix2 e g)
      = Cert.Spec.hidden (fun k : Fin 128 => x10 (ix2 e k)) (fun k g : Fin 128 => x26 (ix2 k g)) (fun g : Fin 128 => x27 (ix1 g)) g := by
  rw [val_main_v89_apply, val_main_v88_apply, val_main_v85_apply, val_main_v87_apply, val_main_v86_apply,
    val_main_call3_v0_apply, val_main_call3_cst_apply]
  have hl : ∀ k : Fin 128, lidx_main_v85 (ix2 e g) k = ix2 e k := fun k => funext fun a =>
    match a with | ⟨0, _⟩ => rfl | ⟨1, _⟩ => rfl
  have hr : ∀ k : Fin 128, ridx_main_v85 (ix2 e g) k = ix2 k g := fun k => funext fun a =>
    match a with | ⟨0, _⟩ => rfl | ⟨1, _⟩ => rfl
  have hb : idx_main_v86 (idx_main_v87 (ix2 e g)) = ix1 g := funext fun a =>
    match a with | ⟨0, _⟩ => rfl
  simp only [hl, hr, hb]
  show max (_ + _) (Ideal.ofBits .f32 0x00000000#32) = _
  rw [Ideal.ofBits_zero_f32]
  rfl

/-- The per-edge weight at edge `e`, column `c` of the second layer. -/
theorem weight_at (e : Fin 131072) (c : Fin 1152) :
    val_main_v93 (F := Ideal) x10 x26 x27 x28 x29 (ix2 e c)
      = ∑ g : Fin 128, Cert.Spec.hidden (fun k : Fin 128 => x10 (ix2 e k)) (fun k g : Fin 128 => x26 (ix2 k g))
            (fun g : Fin 128 => x27 (ix1 g)) g * x28 (ix2 g c) + x29 (ix1 c) := by
  rw [val_main_v93_apply, val_main_v90_apply, val_main_v92_apply, val_main_v91_apply]
  have hl : ∀ k : Fin 128, lidx_main_v90 (ix2 e c) k = ix2 e k := fun k => funext fun a =>
    match a with | ⟨0, _⟩ => rfl | ⟨1, _⟩ => rfl
  have hr : ∀ k : Fin 128, ridx_main_v90 (ix2 e c) k = ix2 k c := fun k => funext fun a =>
    match a with | ⟨0, _⟩ => rfl | ⟨1, _⟩ => rfl
  have hb : idx_main_v91 (idx_main_v92 (ix2 e c)) = ix1 c := funext fun a =>
    match a with | ⟨0, _⟩ => rfl
  simp only [hl, hr, hb, hidden_at]
  rfl

/-- The outer product of the source features with the harmonics, flattened feature-major: column `i * 9 + j`. -/
theorem outer_at (e : Fin 131072) (i : Fin 128) (j : Fin 9) (h : i.val * 9 + j.val < 1152) :
    val_main_v106 (F := Ideal) x0 x1 x2 x3 x4 x5 x6 x7 x8 x9 x11 x12 x13 x14 x15 x16 x17 x18 x19 x20 x21 x22 x23 x24 x25 (ix2 e ⟨i.val * 9 + j.val, h⟩)
      = val_main_v100 (F := Ideal) x0 x1 x2 x3 x4 x5 x6 x7 x8 x9 x12 x13 x14 x15 x16 x17 x18 x19 x20 x21 x22 x23 x24 x25 (ix2 e i) * x11 (ix2 e j) := by
  rw [val_main_v106_apply, val_main_v105_apply, val_main_v103_apply, val_main_v101_apply, val_main_v104_apply, val_main_v102_apply]
  have h3 : idx_main_v106 (ix2 e ⟨i.val * 9 + j.val, h⟩) = ix3 e i j := funext fun a => Fin.ext (by
    have he := e.isLt; have hi := i.isLt; have hj := j.isLt
    match a with
    | ⟨0, _⟩ => show (e.val * 1152 + (i.val * 9 + j.val)) / 1152 = e.val; omega
    | ⟨1, _⟩ => show (e.val * 1152 + (i.val * 9 + j.val)) / 9 % 128 = i.val; omega
    | ⟨2, _⟩ => show (e.val * 1152 + (i.val * 9 + j.val)) % 9 = j.val; omega)
  rw [h3]
  have ha : idx_main_v101 (idx_main_v103 (ix3 e i j)) = ix2 e i := funext fun a =>
    match a with | ⟨0, _⟩ => rfl | ⟨1, _⟩ => rfl
  have hs : idx_main_v102 (idx_main_v104 (ix3 e i j)) = ix2 e j := funext fun a =>
    match a with | ⟨0, _⟩ => rfl | ⟨1, _⟩ => rfl
  rw [ha, hs]
  rfl

/-- **The residue-graph message of one edge.**  At edge `e` and output channel `o` the reference's message is the
    tensor-product message of the edge's rows: the reference stores the `128 * 9` columns of the second layer, of its
    bias and of the projection feature-major, column `i * 9 + j` being feature `i`, harmonic `j`. -/
theorem msg_row (e : Fin 131072) (o : Fin 128) :
    val_main_v108 (F := Ideal) x0 x1 x2 x3 x4 x5 x6 x7 x8 x9 x10 x11 x12 x13 x14 x15 x16 x17 x18 x19 x20 x21 x22 x23 x24 x25 x26 x27 x28 x29 x30 (ix2 e o)
      = Cert.Spec.msgRow
          (fun i : Fin 128 => val_main_v100 (F := Ideal) x0 x1 x2 x3 x4 x5 x6 x7 x8 x9 x12 x13 x14 x15 x16 x17 x18 x19 x20 x21 x22 x23 x24 x25 (ix2 e i))
          (fun j : Fin 9 => x11 (ix2 e j)) (fun k : Fin 128 => x10 (ix2 e k)) (fun k g : Fin 128 => x26 (ix2 k g))
          (fun g : Fin 128 => x27 (ix1 g))
          (fun (g : Fin 128) (j : Fin 9) (i : Fin 128) =>
            x28 (ix2 g ⟨i.val * 9 + j.val, by have := i.isLt; have := j.isLt; omega⟩))
          (fun (j : Fin 9) (i : Fin 128) => x29 (ix1 ⟨i.val * 9 + j.val, by have := i.isLt; have := j.isLt; omega⟩))
          (fun (j : Fin 9) (i : Fin 128) =>
            x30 (ix2 ⟨i.val * 9 + j.val, by have := i.isLt; have := j.isLt; omega⟩ o)) := by
  rw [val_main_v108_apply, Cert.SumLaws.sum_feature_major (A := 128) (N := 1152) rfl]
  unfold Cert.Spec.msgRow
  refine Finset.sum_congr rfl fun j _ => Finset.sum_congr rfl fun i _ => ?_
  have hij : i.val * 9 + j.val < 1152 := by have := i.isLt; have := j.isLt; omega
  have hl : lidx_main_v108 (ix2 e o) ⟨i.val * 9 + j.val, hij⟩ = ix2 e ⟨i.val * 9 + j.val, hij⟩ := funext fun a =>
    match a with | ⟨0, _⟩ => rfl | ⟨1, _⟩ => rfl
  have hr : ridx_main_v108 (ix2 e o) ⟨i.val * 9 + j.val, hij⟩ = ix2 ⟨i.val * 9 + j.val, hij⟩ o := funext fun a =>
    match a with | ⟨0, _⟩ => rfl | ⟨1, _⟩ => rfl
  rw [hl, hr, val_main_v107_apply, outer_at, weight_at]
  show ((_ * _) * _) * _ = _
  rw [mul_right_comm (val_main_v100 (F := Ideal) x0 x1 x2 x3 x4 x5 x6 x7 x8 x9 x12 x13 x14 x15 x16 x17 x18 x19 x20 x21 x22 x23 x24 x25 (ix2 e i))]
  rfl

end Cert.ReferenceIdeal.RefRes

end
-- ==== Proof.ResStage.lean ====
/-
  The second result: the residues' final features.

  After the atoms' features, the tiled program runs the atom-to-residue aggregation region, a stretch of host operations,
  the residue region and a last stretch.  The aggregation region leaves, for every atom, the tensor-product message of
  its edge to its residue; the stretch takes the mean of the messages over each residue's atoms (a scatter-add of the
  rows, divided by a scatter-add of ones raised to at least one), adds the residues' own features, and gathers the
  result along the residue graph's source indices; the residue region leaves the message of every residue edge; the
  last stretch takes the mean of those over each residue's incoming edges and adds the residues' features again.  The
  reference does the same steps, on arrays whose `9 * A` columns are feature-major where the tiled program's are
  harmonic-major.  Both regions' messages are the same function `Cert.Spec.msgRow` of equal rows and weights (the
  permuting gathers read the reference's column `i * 9 + j` at position `j * A + i`), and the stretches are the same
  composites of operations on equal operands.
-/
import proofs.«130085_j37134287242037_2_alg».proof.Proof.AggArr
import proofs.«130085_j37134287242037_2_alg».proof.Proof.ResArr
import proofs.«130085_j37134287242037_2_alg».proof.Proof.RefAgg
import proofs.«130085_j37134287242037_2_alg».proof.Proof.RefRes
import proofs.«130085_j37134287242037_2_alg».proof.Proof.PermGather
import proofs.«130085_j37134287242037_2_alg».proof.Proof.HostA
import proofs.«130085_j37134287242037_2_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.KernelIdeal.ResStage

open Cert.KernelIdeal Cert.KernelIdeal.Gen Idealize.ShloMosaic Idealize.ShloMosaic.ValueIdx
open Idealize.SL.Sem Idealize.ShloMosaic.TcCoe Idealize.ShloMosaic.StableHlo
open Cert.KernelIdeal.PermGather (permIdx576 permIdx1152)

variable (m : (ℓ : Loc nD τ sig) → Buf (Elt Ideal) ℓ) (ρ : Dev nD → PrngReg)

/-- The launch memory's array at reference `b` on device `c`. -/
abbrev arg (c : Dev nD) (b : Ref sig .tc) : Buf (Elt Ideal) ((c : Thread nD τ).loc b) := m ((c : Thread nD τ).loc b)

/-- The atoms' output features as the reference computes them, from the launch memory's arrays. -/
abbrev atomOut (c : Dev nD) :=
  Cert.ReferenceIdeal.Read.val_main_v50 (F := Ideal) (arg m c main_arg0) (arg m c main_arg2) (arg m c main_arg3) (arg m c main_arg4)
    (arg m c main_arg5) (arg m c main_arg12) (arg m c main_arg13) (arg m c main_arg14) (arg m c main_arg15) (arg m c main_arg16)
    (arg m c main_arg17) (arg m c main_arg18) (arg m c main_arg19) (arg m c main_arg20)

/-- The aggregation messages as the reference computes them. -/
abbrev aggMsg (c : Dev nD) :=
  Cert.ReferenceIdeal.Read.val_main_v67 (F := Ideal) (arg m c main_arg0) (arg m c main_arg2) (arg m c main_arg3) (arg m c main_arg4)
    (arg m c main_arg5) (arg m c main_arg7) (arg m c main_arg8) (arg m c main_arg12) (arg m c main_arg13) (arg m c main_arg14)
    (arg m c main_arg15) (arg m c main_arg16) (arg m c main_arg17) (arg m c main_arg18) (arg m c main_arg19) (arg m c main_arg20)
    (arg m c main_arg21) (arg m c main_arg22) (arg m c main_arg23) (arg m c main_arg24) (arg m c main_arg25)

/-- What the aggregation region finds in its seven input arrays other than the atoms' features: the atoms' harmonics and
    edge features and the first layer as launched, the first bias as one row, and the second layer, its bias and the
    projection permuted to harmonic-major order. -/
structure AggInputs (c : Dev nD) : Prop where
  sh : W4 m ρ c (Proc.devRef .tc main_arg8) = arg m c main_arg8
  feat : W4 m ρ c (Proc.devRef .tc main_arg7) = arg m c main_arg7
  w1 : W4 m ρ c (Proc.devRef .tc main_arg21) = arg m c main_arg21
  b1 : W4 m ρ c (Proc.devRef .tc main_call0_v61) = shapeCast S1x64 (arg m c main_arg22) shapeCasts_S64_S1x64
  w2 : W4 m ρ c (Proc.devRef .tc main_call0_v26)
    = Host.gather gather_S64x576_S576x1_S64x576_0_1_n_n_1_1_641 (arg m c main_arg23) permIdx576
  b2 : W4 m ρ c (Proc.devRef .tc main_call0_v32)
    = shapeCast S1x576 (Host.gather gather_S576_S576x1_S576_n_0_n_n_0_1_1 (arg m c main_arg24) permIdx576) shapeCasts_S576_S1x576
  u : W4 m ρ c (Proc.devRef .tc main_call0_v53)
    = Host.gather gather_S576x128_S576x1_S576x128_1_0_n_n_0_1_1128 (arg m c main_arg25) permIdx576

/-- The aggregation region's message of atom `e` at channel `o` is the reference's. -/
theorem agg_msg (c : Dev nD) (hatom : W4 m ρ c (Proc.devRef .tc main_v0_0) = atomOut m c) (H : AggInputs m ρ c)
    (e : Fin 32768) (o : Fin 128) :
    AggArr.result (V4 m ρ) c (ix2 e o) = aggMsg m c (ix2 e o) := by
  refine Eq.trans ?_ (Cert.ReferenceIdeal.RefAgg.msg_row _ _ _ _ _ _ _ _ _ _ _ _ _ _ _ _ _ _ _ _ _ e o).symm
  show AggArr.msgAt (V4 m ρ) c e o = _
  unfold AggArr.msgAt
  refine Cert.Spec.msgRow_congr (fun i => ?_) (fun j => ?_) (fun k => ?_) (fun k g => ?_) (fun g => ?_) (fun g j i => ?_)
    (fun j i => ?_) (fun j i => ?_)
  · exact congrFun hatom (ix2 e i)
  · exact congrFun H.sh (ix2 e j)
  · exact congrFun H.feat (ix2 e k)
  · exact congrFun H.w1 (ix2 k g)
  · exact (congrFun H.b1 (ix2 (0 : Fin 1) g)).trans (shapeCast_a_1a_apply _ _ 0 g)
  · exact (congrFun H.w2 (ix2 g _)).trans (PermGather.cols576 _ g j i)
  · exact (congrFun H.b2 (ix2 (0 : Fin 1) _)).trans ((shapeCast_a_1a_apply _ _ 0 _).trans (PermGather.vec576 _ j i))
  · exact (congrFun H.u (ix2 _ o)).trans (PermGather.rows576x128 _ j i o)

/-! ## Buffers carried unchanged from the first stretch of host operations -/

/-- No operation of the named stretch writes the buffer: its list of operations is walked, each operation's one written
    reference being another one. -/
local macro "not_written " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer that the stretch before the aggregation region does not write, and that is no array of the first two
    regions, holds at the aggregation region's entry what the first stretch left in it. -/
theorem w4_of_w1 (c : Dev nD) (b : Ref sig .tc)
    (h2 : ∀ op ∈ (hostOps2 : List (HloOp τ sig (Elt Ideal))), Proc.devRef .tc b ∉ op.writes)
    (h1 : ∀ w, Pipeline.arrRef spec1 w ≠ b) (h0 : ∀ w, Pipeline.arrRef spec0 w ≠ b) :
    W4 m ρ c (Proc.devRef .tc b) = W1 m ρ c (Proc.devRef .tc b) :=
  (StableHlo.after_of_forall_not_mem (b := Proc.devRef .tc b) _ _ h2).trans
    ((W3_of_ne m ρ c b h1).trans (W2_of_ne m ρ c b h0))

/-- The same up to the aggregation region's exit, for a buffer that is no array of that region either. -/
theorem w5_of_w1 (c : Dev nD) (b : Ref sig .tc)
    (h2 : ∀ op ∈ (hostOps2 : List (HloOp τ sig (Elt Ideal))), Proc.devRef .tc b ∉ op.writes)
    (ha : ∀ w, Pipeline.arrRef spec2 w ≠ b) (h1 : ∀ w, Pipeline.arrRef spec1 w ≠ b) (h0 : ∀ w, Pipeline.arrRef spec0 w ≠ b) :
    W5 m ρ c (Proc.devRef .tc b) = W1 m ρ c (Proc.devRef .tc b) :=
  (W5_of_ne m ρ c b ha).trans (w4_of_w1 m ρ c b h2 h1 h0)

/-- The same up to the residue region's entry, for a buffer the stretch between the two regions does not write. -/
theorem w6_of_w1 (c : Dev nD) (b : Ref sig .tc)
    (h3 : ∀ op ∈ (hostOps3 : List (HloOp τ sig (Elt Ideal))), Proc.devRef .tc b ∉ op.writes)
    (h2 : ∀ op ∈ (hostOps2 : List (HloOp τ sig (Elt Ideal))), Proc.devRef .tc b ∉ op.writes)
    (ha : ∀ w, Pipeline.arrRef spec2 w ≠ b) (h1 : ∀ w, Pipeline.arrRef spec1 w ≠ b) (h0 : ∀ w, Pipeline.arrRef spec0 w ≠ b) :
    W6 m ρ c (Proc.devRef .tc b) = W1 m ρ c (Proc.devRef .tc b) :=
  (StableHlo.after_of_forall_not_mem (b := Proc.devRef .tc b) _ _ h3).trans (w5_of_w1 m ρ c b h2 ha h1 h0)

/-- The aggregation region's seven other input arrays hold what the first stretch left in them. -/
theorem aggInputs (c : Dev nD) : AggInputs m ρ c where
  sh := (w4_of_w1 m ρ c main_arg8 (by not_written hostOps2) (by decide) (by decide)).trans (HostA.arg8_eq m ρ c)
  feat := (w4_of_w1 m ρ c main_arg7 (by not_written hostOps2) (by decide) (by decide)).trans (HostA.arg7_eq m ρ c)
  w1 := (w4_of_w1 m ρ c main_arg21 (by not_written hostOps2) (by decide) (by decide)).trans (HostA.arg21_eq m ρ c)
  b1 := (w4_of_w1 m ρ c main_call0_v61 (by not_written hostOps2) (by decide) (by decide)).trans (HostA.v61_eq m ρ c)
  w2 := (w4_of_w1 m ρ c main_call0_v26 (by not_written hostOps2) (by decide) (by decide)).trans (HostA.v26_eq m ρ c)
  b2 := (w4_of_w1 m ρ c main_call0_v32 (by not_written hostOps2) (by decide) (by decide)).trans (HostA.v32_eq m ρ c)
  u := (w4_of_w1 m ρ c main_call0_v53 (by not_written hostOps2) (by decide) (by decide)).trans (HostA.v53_eq m ρ c)

/-! ## Between the two regions: the residues' features, the edges' residues, the gathered source features -/

/-- The mean over each residue's atoms of the rows of `msg`, plus `base`: rows added up by residue, divided by the
    residue's number of atoms (at least one), plus the residue's own row. -/
abbrev midOf (batch : IVec S32768 32) (msg : FVec Ideal S32768x128 .f32) (base : FVec Ideal S4096x128 .f32) :
    FVec Ideal S4096x128 .f32 :=
  addf
    (Host.divf
      (Host.scatterAdd scatter_S4096x128_S32768x1_S32768x128_1_0_0_1
        (broadcastInDim S4096x128 ![] bcast_S_S4096x128 (constant S_ .f32 0x00000000#32))
        (broadcastInDim S32768x1 ![0] bcast_S32768_S32768x1_0 batch)
        msg)
      (broadcastInDim S4096x128 ![0, 1] bcast_S4096x1_S4096x128_0_1
        (broadcastInDim S4096x1 ![0] bcast_S4096_S4096x1_0
          (maximumf
            (Host.scatterAdd scatter_S4096_S32768x1_S32768_n_0_0_1
              (broadcastInDim S4096 ![] bcast_S_S4096 (constant S_ .f32 0x00000000#32))
              (broadcastInDim S32768x1 ![0] bcast_S32768_S32768x1_0 batch)
              (broadcastInDim S32768 ![] bcast_S_S32768 (constant S_ .f32 0x3F800000#32)))
            (broadcastInDim S4096 ![] bcast_S_S4096 (constant S_ .f32 0x3F800000#32))))))
    base

/-- Row `r` of the residue graph's edge index array, as a vector. -/
abbrev edgeRow0 (eidx : IVec S2x131072 32) : IVec S131072 32 :=
  shapeCast S131072 (extractStridedSlice S1x131072 ![0, 0] eidx slices_S2x131072_S1x131072_0_0) shapeCasts_S1x131072_S131072
abbrev edgeRow1 (eidx : IVec S2x131072 32) : IVec S131072 32 :=
  shapeCast S131072 (extractStridedSlice S1x131072 ![1, 0] eidx slices_S2x131072_S1x131072_1_0) shapeCasts_S1x131072_S131072

/-- The source residues as start indices: a negative index counted from the end, as one column. -/
abbrev srcIdxOf (eidx : IVec S2x131072 32) : IVec S131072x1 32 :=
  broadcastInDim S131072x1 ![0] bcast_S131072_S131072x1_0
    (select (cmpi .slt (edgeRow0 eidx) (broadcastInDim S131072 ![] bcast_S_S131072 (constantI S_ 32 0#32)))
      (addi (edgeRow0 eidx) (broadcastInDim S131072 ![] bcast_S_S131072 (constantI S_ 32 4096#32)))
      (edgeRow0 eidx))

/-- Running a stretch of host operations in two parts. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The stretch between the regions, cut after the residues' features: its first seventeen operations and the rest. -/
abbrev head3 : List (HloOp τ sig (Elt Ideal)) := (hostOps3 : List (HloOp τ sig (Elt Ideal))).take 17
abbrev tail3 : List (HloOp τ sig (Elt Ideal)) := (hostOps3 : List (HloOp τ sig (Elt Ideal))).drop 17

theorem w6_split (c : Dev nD) : W6 m ρ c = StableHlo.after tail3 (StableHlo.after head3 (W5 m ρ c)) := by
  show StableHlo.after hostOps3 (W5 m ρ c) = _
  rw [← after_append, List.take_append_drop]

set_option maxHeartbeats 1000000 in
theorem tail3_v121 (V : Valuation τ sig (Elt Ideal)) :
    StableHlo.after tail3 V (Proc.devRef .tc main_call0_v121) = edgeRow1 (V (Proc.devRef .tc main_arg9)) := by
  simp only [tail3, hostOps3, List.drop]
  after_results_simp <;> rfl

set_option maxHeartbeats 1000000 in
theorem tail3_v117 (V : Valuation τ sig (Elt Ideal)) :
    StableHlo.after tail3 V (Proc.devRef .tc main_call0_v117) = V (Proc.devRef .tc main_call0_v117) := by
  simp only [tail3, hostOps3, List.drop]
  after_results_simp <;> rfl

set_option maxHeartbeats 1000000 in
theorem tail3_v128 (V : Valuation τ sig (Elt Ideal)) :
    StableHlo.after tail3 V (Proc.devRef .tc main_call0_v128)
      = (Host.gather gather_S4096x128_S131072x1_S131072x128_1_0_n_n_0_1_1128
          (V (Proc.devRef .tc main_call0_v117) : FVec Ideal S4096x128 .f32)
          (srcIdxOf (V (Proc.devRef .tc main_arg9))) : FVec Ideal S131072x128 .f32) := by
  simp only [tail3, hostOps3, List.drop]
  after_results_simp <;> rfl

set_option maxHeartbeats 1000000 in
theorem head3_arg9 (V : Valuation τ sig (Elt Ideal)) :
    StableHlo.after head3 V (Proc.devRef .tc main_arg9) = V (Proc.devRef .tc main_arg9) := by
  simp only [head3, hostOps3, List.take]
  after_results_simp <;> rfl

set_option maxHeartbeats 2000000 in
theorem head3_v117 (V : Valuation τ sig (Elt Ideal)) :
    StableHlo.after head3 V (Proc.devRef .tc main_call0_v117)
      = (addf
          (Host.divf
            (Host.scatterAdd scatter_S4096x128_S32768x1_S32768x128_1_0_0_1
              (broadcastInDim S4096x128 ![] bcast_S_S4096x128 (constant S_ .f32 0x00000000#32))
              (broadcastInDim S32768x1 ![0] bcast_S32768_S32768x1_0 (V (Proc.devRef .tc main_arg6)))
              (V (Proc.devRef .tc main_call0_v104)))
            (broadcastInDim S4096x128 ![0, 1] bcast_S4096x1_S4096x128_0_1
              (broadcastInDim S4096x1 ![0] bcast_S4096_S4096x1_0
                (maximumf
                  (Host.scatterAdd scatter_S4096_S32768x1_S32768_n_0_0_1
                    (broadcastInDim S4096 ![] bcast_S_S4096 (constant S_ .f32 0x00000000#32))
                    (broadcastInDim S32768x1 ![0] bcast_S32768_S32768x1_0 (V (Proc.devRef .tc main_arg6)))
                    (broadcastInDim S32768 ![] bcast_S_S32768 (constant S_ .f32 0x3F800000#32)))
                  (broadcastInDim S4096 ![] bcast_S_S4096 (constant S_ .f32 0x3F800000#32))))))
          (V (Proc.devRef .tc main_arg1)) : FVec Ideal S4096x128 .f32) := by
  simp only [head3, hostOps3, List.take]
  after_results_simp
  repeat' first | with_reducible rfl | refine (cast_eq _ _).trans ?_ | with_reducible congr 1

/-! ### The three buffers the residue region and the last stretch read from this stretch -/

theorem v117_read (c : Dev nD) :
    W6 m ρ c (Proc.devRef .tc main_call0_v117)
      = midOf (W5 m ρ c (Proc.devRef .tc main_arg6)) (W5 m ρ c (Proc.devRef .tc main_call0_v104))
          (W5 m ρ c (Proc.devRef .tc main_arg1)) :=
  (congrFun (w6_split m ρ c) (Proc.devRef .tc main_call0_v117)).trans
    ((tail3_v117 _).trans (head3_v117 (W5 m ρ c)))

theorem v121_read (c : Dev nD) :
    W6 m ρ c (Proc.devRef .tc main_call0_v121) = edgeRow1 (W5 m ρ c (Proc.devRef .tc main_arg9)) :=
  (congrFun (w6_split m ρ c) (Proc.devRef .tc main_call0_v121)).trans
    ((tail3_v121 _).trans (congrArg edgeRow1 (head3_arg9 (W5 m ρ c))))

theorem gather_congr {x x' : FVec Ideal S4096x128 .f32} {i i' : IVec S131072x1 32} (hx : x = x') (hi : i = i') :
    Host.gather gather_S4096x128_S131072x1_S131072x128_1_0_n_n_0_1_1128 x i
      = Host.gather gather_S4096x128_S131072x1_S131072x128_1_0_n_n_0_1_1128 x' i' := by
  subst hx hi; rfl

theorem v128_read (c : Dev nD) :
    W6 m ρ c (Proc.devRef .tc main_call0_v128)
      = Host.gather gather_S4096x128_S131072x1_S131072x128_1_0_n_n_0_1_1128
          (midOf (W5 m ρ c (Proc.devRef .tc main_arg6)) (W5 m ρ c (Proc.devRef .tc main_call0_v104))
            (W5 m ρ c (Proc.devRef .tc main_arg1)))
          (srcIdxOf (W5 m ρ c (Proc.devRef .tc main_arg9))) :=
  (congrFun (w6_split m ρ c) (Proc.devRef .tc main_call0_v128)).trans
    ((tail3_v128 _).trans (gather_congr (head3_v117 (W5 m ρ c)) (congrArg srcIdxOf (head3_arg9 (W5 m ρ c)))))

theorem mid_congr {b b' : IVec S32768 32} {msg msg' : FVec Ideal S32768x128 .f32} {base base' : FVec Ideal S4096x128 .f32}
    (hb : b = b') (hm : msg = msg') (hr : base = base') : midOf b msg base = midOf b' msg' base' := by
  subst hb hm hr; rfl

/-- The residues' features after the aggregation, as the reference computes them. -/
abbrev resMid (c : Dev nD) :=
  Cert.ReferenceIdeal.Read.val_main_v80 (F := Ideal) (arg m c main_arg0) (arg m c main_arg1) (arg m c main_arg2) (arg m c main_arg3) (arg m c main_arg4) (arg m c main_arg5) (arg m c main_arg6) (arg m c main_arg7) (arg m c main_arg8) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)

/-- The residue edges' gathered source features, as the reference computes them. -/
abbrev resSrc (c : Dev nD) :=
  Cert.ReferenceIdeal.Read.val_main_v100 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)

/-- The residue messages as the reference computes them. -/
abbrev resMsg (c : Dev nD) :=
  Cert.ReferenceIdeal.Read.val_main_v108 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30)

/-- The three launch arrays the stretch between the regions reads (the atoms' residues, the residues' features, the
    residue graph's edge indices) are, at the aggregation region's exit, as launched. -/
structure MidInputs (c : Dev nD) : Prop where
  batch : W5 m ρ c (Proc.devRef .tc main_arg6) = arg m c main_arg6
  resf : W5 m ρ c (Proc.devRef .tc main_arg1) = arg m c main_arg1
  eidx : W5 m ρ c (Proc.devRef .tc main_arg9) = arg m c main_arg9

/-- The aggregation region leaves the reference's messages in its output array. -/
theorem agg_arr (c : Dev nD) (hatom : W4 m ρ c (Proc.devRef .tc main_v0_0) = atomOut m c) (H : AggInputs m ρ c) :
    W5 m ρ c (Proc.devRef .tc main_call0_v104) = aggMsg m c := by
  refine (W5_arr m ρ c 8).trans ((AggArr.arr (V4 m ρ) c).trans ?_)
  funext idx
  obtain ⟨e, o, rfl⟩ : ∃ (e : Fin 32768) (o : Fin 128), idx = ix2 e o := ⟨idx 0, idx 1, eq_ix2 idx⟩
  exact agg_msg m ρ c hatom H e o

/-! ## The residue region -/

/-- What the residue region finds in its seven input arrays other than the gathered source features: the edges'
    harmonics and features and the first layer as launched, the first bias as one row, and the second layer, its bias
    and the projection permuted to harmonic-major order. -/
structure ResInputs (c : Dev nD) : Prop where
  sh : W6 m ρ c (Proc.devRef .tc main_arg11) = arg m c main_arg11
  feat : W6 m ρ c (Proc.devRef .tc main_arg10) = arg m c main_arg10
  w1 : W6 m ρ c (Proc.devRef .tc main_arg26) = arg m c main_arg26
  b1 : W6 m ρ c (Proc.devRef .tc main_call0_v62) = shapeCast S1x128 (arg m c main_arg27) shapeCasts_S128_S1x128
  w2 : W6 m ρ c (Proc.devRef .tc main_call0_v37)
    = Host.gather gather_S128x1152_S1152x1_S128x1152_0_1_n_n_1_1_1281 (arg m c main_arg28) permIdx1152
  b2 : W6 m ρ c (Proc.devRef .tc main_call0_v43)
    = shapeCast S1x1152 (Host.gather gather_S1152_S1152x1_S1152_n_0_n_n_0_1_1 (arg m c main_arg29) permIdx1152) shapeCasts_S1152_S1x1152
  u : W6 m ρ c (Proc.devRef .tc main_call0_v58)
    = Host.gather gather_S1152x128_S1152x1_S1152x128_1_0_n_n_0_1_1128 (arg m c main_arg30) permIdx1152

/-- The residue region's message of edge `e` at channel `o` is the reference's. -/
theorem res_msg (c : Dev nD) (hsrc : W6 m ρ c (Proc.devRef .tc main_call0_v128) = resSrc m c) (H : ResInputs m ρ c)
    (e : Fin 131072) (o : Fin 128) :
    ResArr.result (V6 m ρ) c (ix2 e o) = resMsg m c (ix2 e o) := by
  refine Eq.trans ?_ (Cert.ReferenceIdeal.RefRes.msg_row _ _ _ _ _ _ _ _ _ _ _ _ _ _ _ _ _ _ _ _ _ _ _ _ _ _ _ _ _ _ _ e o).symm
  show ResArr.msgAt (V6 m ρ) c e o = _
  unfold ResArr.msgAt
  refine Cert.Spec.msgRow_congr (fun i => ?_) (fun j => ?_) (fun k => ?_) (fun k g => ?_) (fun g => ?_) (fun g j i => ?_)
    (fun j i => ?_) (fun j i => ?_)
  · exact congrFun hsrc (ix2 e i)
  · exact congrFun H.sh (ix2 e j)
  · exact congrFun H.feat (ix2 e k)
  · exact congrFun H.w1 (ix2 k g)
  · exact (congrFun H.b1 (ix2 (0 : Fin 1) g)).trans (shapeCast_a_1a_apply _ _ 0 g)
  · exact (congrFun H.w2 (ix2 g _)).trans (PermGather.cols1152 _ g j i)
  · exact (congrFun H.b2 (ix2 (0 : Fin 1) _)).trans ((shapeCast_a_1a_apply _ _ 0 _).trans (PermGather.vec1152 _ j i))
  · exact (congrFun H.u (ix2 _ o)).trans (PermGather.rows1152x128 _ j i o)

/-- The residue region leaves the reference's messages in its output array. -/
theorem res_arr (c : Dev nD) (hsrc : W6 m ρ c (Proc.devRef .tc main_call0_v128) = resSrc m c) (H : ResInputs m ρ c) :
    W7 m ρ c (Proc.devRef .tc main_call0_v129) = resMsg m c := by
  refine (W7_arr m ρ c 8).trans ((ResArr.arr (V6 m ρ) c).trans ?_)
  funext idx
  obtain ⟨e, o, rfl⟩ : ∃ (e : Fin 131072) (o : Fin 128), idx = ix2 e o := ⟨idx 0, idx 1, eq_ix2 idx⟩
  exact res_msg m ρ c hsrc H e o

/-- The residue region's seven other input arrays hold what the first stretch left in them. -/
theorem resInputs (c : Dev nD) : ResInputs m ρ c where
  sh := (w6_of_w1 m ρ c main_arg11 (by not_written hostOps3) (by not_written hostOps2) (by decide) (by decide) (by decide)).trans (HostA.arg11_eq m ρ c)
  feat := (w6_of_w1 m ρ c main_arg10 (by not_written hostOps3) (by not_written hostOps2) (by decide) (by decide) (by decide)).trans (HostA.arg10_eq m ρ c)
  w1 := (w6_of_w1 m ρ c main_arg26 (by not_written hostOps3) (by not_written hostOps2) (by decide) (by decide) (by decide)).trans (HostA.arg26_eq m ρ c)
  b1 := (w6_of_w1 m ρ c main_call0_v62 (by not_written hostOps3) (by not_written hostOps2) (by decide) (by decide) (by decide)).trans (HostA.v62_eq m ρ c)
  w2 := (w6_of_w1 m ρ c main_call0_v37 (by not_written hostOps3) (by not_written hostOps2) (by decide) (by decide) (by decide)).trans (HostA.v37_eq m ρ c)
  b2 := (w6_of_w1 m ρ c main_call0_v43 (by not_written hostOps3) (by not_written hostOps2) (by decide) (by decide) (by decide)).trans (HostA.v43_eq m ρ c)
  u := (w6_of_w1 m ρ c main_call0_v58 (by not_written hostOps3) (by not_written hostOps2) (by decide) (by decide) (by decide)).trans (HostA.v58_eq m ρ c)

/-- The three launch arrays the stretch between the regions reads are, at the aggregation region's exit, as launched. -/
theorem midInputs (c : Dev nD) : MidInputs m ρ c where
  batch := (w5_of_w1 m ρ c main_arg6 (by not_written hostOps2) (by decide) (by decide) (by decide)).trans (HostA.arg6_eq m ρ c)
  resf := (w5_of_w1 m ρ c main_arg1 (by not_written hostOps2) (by decide) (by decide) (by decide)).trans (HostA.arg1_eq m ρ c)
  eidx := (w5_of_w1 m ρ c main_arg9 (by not_written hostOps2) (by decide) (by decide) (by decide)).trans (HostA.arg9_eq m ρ c)

/-- The mean over each residue's incoming edges of the rows of `msg`, plus `base`: rows added up by destination
    residue, divided by the residue's number of incoming edges (at least one), plus the residue's row of `base`. -/
abbrev outOf (dst : IVec S131072 32) (msg : FVec Ideal S131072x128 .f32) (base : FVec Ideal S4096x128 .f32) :
    FVec Ideal S4096x128 .f32 :=
  (addf
          (Host.divf
            (Host.scatterAdd scatter_S4096x128_S131072x1_S131072x128_1_0_0_1
              (broadcastInDim S4096x128 ![] bcast_S_S4096x128 (constant S_ .f32 0x00000000#32))
              (broadcastInDim S131072x1 ![0] bcast_S131072_S131072x1_0 dst)
              msg)
            (broadcastInDim S4096x128 ![0, 1] bcast_S4096x1_S4096x128_0_1
              (broadcastInDim S4096x1 ![0] bcast_S4096_S4096x1_0
                (maximumf
                  (Host.scatterAdd scatter_S4096_S131072x1_S131072_n_0_0_1
                    (broadcastInDim S4096 ![] bcast_S_S4096 (constant S_ .f32 0x00000000#32))
                    (broadcastInDim S131072x1 ![0] bcast_S131072_S131072x1_0 dst)
                    (broadcastInDim S131072 ![] bcast_S_S131072 (constant S_ .f32 0x3F800000#32)))
                  (broadcastInDim S4096 ![] bcast_S_S4096 (constant S_ .f32 0x3F800000#32))))))
          base)

set_option maxHeartbeats 2000000 in
theorem out_read (c : Dev nD) :
    W8 m ρ c (Proc.devRef .tc main_v0_1)
      = (addf
          (Host.divf
            (Host.scatterAdd scatter_S4096x128_S131072x1_S131072x128_1_0_0_1
              (broadcastInDim S4096x128 ![] bcast_S_S4096x128 (constant S_ .f32 0x00000000#32))
              (broadcastInDim S131072x1 ![0] bcast_S131072_S131072x1_0 (W7 m ρ c (Proc.devRef .tc main_call0_v121)))
              (W7 m ρ c (Proc.devRef .tc main_call0_v129)))
            (broadcastInDim S4096x128 ![0, 1] bcast_S4096x1_S4096x128_0_1
              (broadcastInDim S4096x1 ![0] bcast_S4096_S4096x1_0
                (maximumf
                  (Host.scatterAdd scatter_S4096_S131072x1_S131072_n_0_0_1
                    (broadcastInDim S4096 ![] bcast_S_S4096 (constant S_ .f32 0x00000000#32))
                    (broadcastInDim S131072x1 ![0] bcast_S131072_S131072x1_0 (W7 m ρ c (Proc.devRef .tc main_call0_v121)))
                    (broadcastInDim S131072 ![] bcast_S_S131072 (constant S_ .f32 0x3F800000#32)))
                  (broadcastInDim S4096 ![] bcast_S_S4096 (constant S_ .f32 0x3F800000#32))))))
          (W7 m ρ c (Proc.devRef .tc main_call0_v117)) : FVec Ideal S4096x128 .f32) := by
  show StableHlo.after hostOps4 (W7 m ρ c) (Proc.devRef .tc main_v0_1) = _
  after_results_simp
  repeat' first | with_reducible rfl | refine (cast_eq _ _).trans ?_ | with_reducible congr 1

/-! ## The reference's stages are the same composites of host operations -/

/-- The residues' final features as the reference computes them. -/
abbrev resOut (c : Dev nD) :=
  Cert.ReferenceIdeal.Read.val_main_v121 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28) (arg m c main_arg29) (arg m c main_arg30)

theorem mid_ref (c : Dev nD) : midOf (arg m c main_arg6) (aggMsg m c) (arg m c main_arg1) = resMid m c := rfl

theorem dst_ref (c : Dev nD) :
    edgeRow1 (arg m c main_arg9) = Cert.ReferenceIdeal.Read.val_main_v84 (F := Ideal) (arg m c main_arg9) := rfl

theorem src_ref (c : Dev nD) :
    Host.gather gather_S4096x128_S131072x1_S131072x128_1_0_n_n_0_1_1128 (resMid m c) (srcIdxOf (arg m c main_arg9))
      = resSrc m c := rfl

theorem out_ref (c : Dev nD) :
    outOf (Cert.ReferenceIdeal.Read.val_main_v84 (F := Ideal) (arg m c main_arg9)) (resMsg m c) (resMid m c) = resOut m c := rfl

theorem out_congr {d d' : IVec S131072 32} {msg msg' : FVec Ideal S131072x128 .f32} {base base' : FVec Ideal S4096x128 .f32}
    (hd : d = d') (hm : msg = msg') (hr : base = base') : outOf d msg base = outOf d' msg' base' := by
  subst hd hm hr; rfl

/-! ## The second result -/

/-- The residues' features after the aggregation are the reference's. -/
theorem res_mid (c : Dev nD) (hatom : W4 m ρ c (Proc.devRef .tc main_v0_0) = atomOut m c) :
    W6 m ρ c (Proc.devRef .tc main_call0_v117) = resMid m c :=
  (v117_read m ρ c).trans
    ((mid_congr (midInputs m ρ c).batch (agg_arr m ρ c hatom (aggInputs m ρ c)) (midInputs m ρ c).resf).trans (mid_ref m c))

/-- The residue edges' destination residues are the reference's. -/
theorem res_dst (c : Dev nD) :
    W6 m ρ c (Proc.devRef .tc main_call0_v121)
      = Cert.ReferenceIdeal.Read.val_main_v84 (F := Ideal) (arg m c main_arg9) :=
  (v121_read m ρ c).trans ((congrArg edgeRow1 (midInputs m ρ c).eidx).trans (dst_ref m c))

/-- The residue edges' gathered source features are the reference's. -/
theorem res_src (c : Dev nD) (hatom : W4 m ρ c (Proc.devRef .tc main_v0_0) = atomOut m c) :
    W6 m ρ c (Proc.devRef .tc main_call0_v128) = resSrc m c :=
  (v128_read m ρ c).trans
    ((gather_congr
        ((mid_congr (midInputs m ρ c).batch (agg_arr m ρ c hatom (aggInputs m ρ c)) (midInputs m ρ c).resf).trans (mid_ref m c))
        (congrArg srcIdxOf (midInputs m ρ c).eidx)).trans (src_ref m c))

/-- The residues' final features are the reference's, given that the atoms' are. -/
theorem res_out' (c : Dev nD) (hatom : W4 m ρ c (Proc.devRef .tc main_v0_0) = atomOut m c) :
    W8 m ρ c (Proc.devRef .tc main_v0_1) = resOut m c :=
  (out_read m ρ c).trans
    ((out_congr ((W7_of_ne m ρ c main_call0_v121 (by decide)).trans (res_dst m ρ c))
        (res_arr m ρ c (res_src m ρ c hatom) (resInputs m ρ c))
        ((W7_of_ne m ρ c main_call0_v117 (by decide)).trans (res_mid m ρ c hatom))).trans (out_ref m c))

/-- THE SECOND RESULT: the residues' final features the tiled program leaves are the reference's, given that the atoms'
    features it computed on the way are the reference's. -/
theorem res_out (c : Dev nD)
    (hatom : W4 m ρ c (Proc.devRef .tc main_v0_0)
      = Cert.ReferenceIdeal.Read.val_main_v50 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) :
    W8 m ρ c (Proc.devRef .tc main_v0_1)
      = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) :=
  res_out' m ρ c hatom

end Cert.KernelIdeal.ResStage

end
-- ==== Proof.Algebraic.lean ====
/-
  The two programs compute the same two results.

  From memories that agree on the thirty-one arguments, the idealized tiled program ends with its two result buffers at
  the contents its last segment boundary gives them, and the idealized reference ends with its two results at the terms
  its operations compose.  The first result is every atom's mean incoming message plus its features; the second is every
  residue's mean incoming message plus the aggregated residue features.  Both are equal, as extended reals and entry by
  entry, because the tiled program's regions compute the reference's messages edge by edge (the column permutation of the
  weights is undone where the regions read them), a sum over all atom edges is the sum over the bond edges plus the sum
  over the radius edges, and the remaining host operations are the same on both sides.  No finiteness of the inputs is used.
-/
import proofs.«130085_j37134287242037_2_alg».proof.Defs
import proofs.«130085_j37134287242037_2_alg».proof.Proof.KernelRun
import proofs.«130085_j37134287242037_2_alg».proof.Proof.AtomOut
import proofs.«130085_j37134287242037_2_alg».proof.Proof.Carried
import proofs.«130085_j37134287242037_2_alg».proof.Proof.ResStage
import proofs.«130085_j37134287242037_2_alg».proof.Proof.Gen.ReferenceIdeal.Run
import proofs.«130085_j37134287242037_2_alg».proof.Proof.Gen.ReferenceIdeal.Read
import proofs.«130085_j37134287242037_2_alg».proof.Proof.Gen.Pre_finite_inputs

set_option maxRecDepth 16384

noncomputable section

namespace Cert.Proof.Algebraic

open Idealize.ShloMosaic Idealize.SL.Sem Idealize.ShloMosaic.TcCoe
open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg)

/-- The tiled program's first result is the reference's first result of the same arguments. -/
theorem atom_out (c : Dev Cert.KernelIdeal.nD) :
    W8 m ρ c (Proc.devRef .tc main_v0_0)
      = Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) :=
  (Cert.KernelIdeal.Carried.W8_main_v0_0 m ρ c).trans (Cert.KernelIdeal.AtomOut.atom_w4 m ρ c)

/-- The tiled program's second result is the reference's second result of the same arguments. -/
theorem res_out (c : Dev Cert.KernelIdeal.nD) :
    W8 m ρ c (Proc.devRef .tc main_v0_1)
      = Cert.ReferenceIdeal.Read.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) :=
  Cert.KernelIdeal.ResStage.res_out m ρ c (Cert.KernelIdeal.AtomOut.atom_w4 m ρ c)

theorem algebraic : Cert.algebraic_KernelIdeal_ReferenceIdeal := by
  intro m ρ m' ρ' _ hagree
  refine ⟨fun c => W8 m ρ c (Proc.devRef .tc main_v0_0), fun c => W8 m ρ c (Proc.devRef .tc main_v0_1), ?_, ?_⟩
  · exact (θ_run Cert.KernelIdeal.defs _ _).mono (fun r h c =>
      ⟨h c _ (mem_uc main_v0_0 (by decide)), h c _ (mem_uc main_v0_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c),
       (h c _ (mem_uc main_arg27 (by decide))).trans (W8_main_arg27 m ρ c),
       (h c _ (mem_uc main_arg28 (by decide))).trans (W8_main_arg28 m ρ c),
       (h c _ (mem_uc main_arg29 (by decide))).trans (W8_main_arg29 m ρ c),
       (h c _ (mem_uc main_arg30 (by decide))).trans (W8_main_arg30 m ρ c)⟩)
      (Cert.KernelIdeal.Whole.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19, e20, e21, e22, e23, e24, e25, e26, e27, e28, e29, e30⟩ := hagree c
      rw [e0, e2, e3, e4, e5, e12, e13, e14, e15, e16, e17, e18, e19, e20]
      exact (atom_out m ρ c).symm
    · obtain ⟨e0, e1, e2, e3, e4, e5, e6, e7, e8, e9, e10, e11, e12, e13, e14, e15, e16, e17, e18, e19, e20, e21, e22, e23, e24, e25, e26, e27, e28, e29, e30⟩ := hagree c
      rw [Cert.ReferenceIdeal.Read.val_main_v121_eq, e0, e1, e2, e3, e4, e5, e6, e7, e8, e9, e10, e11, e12, e13, e14, e15, e16, e17, e18, e19, e20, e21, e22, e23, e24, e25, e26, e27, e28, e29, e30]
      exact (res_out m ρ c).symm

end Cert.Proof.Algebraic

end
-- ==== Proof.lean ====
/-
  The proof of `Cert.Claim`: a tensor-product graph convolution in three stages (atom edges, atoms to residues, residue
  edges), computed tile by tile with the per-edge weights kept harmonic-major, against the same convolution written as
  whole-array operations with the weights feature-major.

  The three programs run — terminate, fault nowhere and leave their arguments as launched (`Proof/Frames.lean`); the
  idealization rewrote no operation, so nothing is to be preserved; and at the ideal values the tiled program and the
  reference end with equal results (`Proof/Algebraic.lean`): each region's output array holds the reference's message of
  every edge (`Proof/*Body.lean`, `Proof/*Arr.lean`, `Proof/Ref*.lean` over the one row-level function of
  `Proof/Spec.lean`), and the scatter-means and residuals around the regions agree (`Proof/AtomOut.lean`,
  `Proof/ResStage.lean`).
-/
import proofs.«130085_j37134287242037_2_alg».proof.Defs
import proofs.«130085_j37134287242037_2_alg».proof.Proof.Gen.Kernel
import proofs.«130085_j37134287242037_2_alg».proof.Proof.Gen.KernelIdeal
import proofs.«130085_j37134287242037_2_alg».proof.Proof.Gen.ReferenceIdeal
import proofs.«130085_j37134287242037_2_alg».proof.Proof.Gen.Pre_finite_inputs
import proofs.«130085_j37134287242037_2_alg».proof.Proof.Frames
import proofs.«130085_j37134287242037_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, Cert.Proof.Frames.preserves,
    Cert.Proof.Algebraic.algebraic⟩

end Cert.Proof

end
